-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S10x1x5x5 : S_.BroadcastsInDim S10x1x5x5 (![] : Fin 0 → Fin S10x1x5x5.rank)
  reducesTo_S10x1x5x5_S_d0_1_2_3 : S10x1x5x5.ReducesTo [0, 1, 2, 3] S_
  bcast_S_S10 : S_.BroadcastsInDim S10 (![] : Fin 0 → Fin S10.rank)
  reducesTo_S10_S_d0 : S10.ReducesTo [0] S_
  bcast_S_S20x10x5x5 : S_.BroadcastsInDim S20x10x5x5 (![] : Fin 0 → Fin S20x10x5x5.rank)
  reducesTo_S20x10x5x5_S_d0_1_2_3 : S20x10x5x5.ReducesTo [0, 1, 2, 3] S_
  bcast_S_S20 : S_.BroadcastsInDim S20 (![] : Fin 0 → Fin S20.rank)
  reducesTo_S20_S_d0 : S20.ReducesTo [0] S_
  bcast_S_S50x320 : S_.BroadcastsInDim S50x320 (![] : Fin 0 → Fin S50x320.rank)
  reducesTo_S50x320_S_d0_1 : S50x320.ReducesTo [0, 1] S_
  bcast_S_S50 : S_.BroadcastsInDim S50 (![] : Fin 0 → Fin S50.rank)
  reducesTo_S50_S_d0 : S50.ReducesTo [0] S_
  bcast_S_S10x50 : S_.BroadcastsInDim S10x50 (![] : Fin 0 → Fin S10x50.rank)
  reducesTo_S10x50_S_d0_1 : S10x50.ReducesTo [0, 1] S_

variable [Facts]

def fn_part2 {F : FTy → Type} [FloatOps F] (main_arg7 : FVec F S10x50 .f32) (main_arg8 : FVec F S10 .f32) (main_v33 : IVec S_ 1) : IVec S_ 1 :=
  let main_v34 : FVec F S10x50 .f32 := Host.absf main_arg7
  let main_cst_12 : FVec F S_ .f32 := constant S_ .f32 0x7F800000#32
  let main_v35 : FVec F S10x50 .f32 := broadcastInDim S10x50 ![] bcast_S_S10x50 main_cst_12
  let main_v36 : IVec S10x50 1 := cmpf .olt main_v34 main_v35
  let main_c_13 : IVec S_ 1 := constantI S_ 1 1#1
  let main_v37 : IVec S_ 1 := (fun x v => Host.reduce IntOp.andi x v reducesTo_S10x50_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S20 .f32) (main_arg5 : FVec F S50x320 .f32) (main_arg6 : FVec F S50 .f32) (main_arg7 : FVec F S10x50 .f32) (main_arg8 : FVec F S10 .f32) (main_v13 : IVec S_ 1) (main_v16 : IVec S20x10x5x5 1) : IVec S_ 1 :=
  let main_c_5 : IVec S_ 1 := constantI S_ 1 1#1
  let main_v17 : IVec S_ 1 := (fun x v => Host.reduce IntOp.andi x v reducesTo_S20x10x5x5_S_d0_1_2_3 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S50x320 .f32 := Host.absf main_arg5
  let main_cst_8 : FVec F S_ .f32 := constant S_ .f32 0x7F800000#32
  let main_v25 : FVec F S50x320 .f32 := broadcastInDim S50x320 ![] bcast_S_S50x320 main_cst_8
  let main_v26 : IVec S50x320 1 := cmpf .olt main_v24 main_v25
  let main_c_9 : IVec S_ 1 := constantI S_ 1 1#1
  let main_v27 : IVec S_ 1 := (fun x v => Host.reduce IntOp.andi x v reducesTo_S50x320_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_v33

def fn {F : FTy → Type} [FloatOps F] (main_arg0 : FVec F S16384x1x28x28 .f32) (main_arg1 : FVec F S10x1x5x5 .f32) (main_arg2 : FVec F S10 .f32) (main_arg3 : FVec F S20x10x5x5 .f32) (main_arg4 : FVec F S20 .f32) (main_arg5 : FVec F S50x320 .f32) (main_arg6 : FVec F S50 .f32) (main_arg7 : FVec F S10x50 .f32) (main_arg8 : FVec F S10 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S10x1x5x5 .f32 := Host.absf main_arg1
  let main_cst_0 : FVec F S_ .f32 := constant S_ .f32 0x7F800000#32
  let main_v5 : FVec F S10x1x5x5 .f32 := broadcastInDim S10x1x5x5 ![] bcast_S_S10x1x5x5 main_cst_0
  let main_v6 : IVec S10x1x5x5 1 := cmpf .olt main_v4 main_v5
  let main_c_1 : IVec S_ 1 := constantI S_ 1 1#1
  let main_v7 : IVec S_ 1 := (fun x v => Host.reduce IntOp.andi x v reducesTo_S10x1x5x5_S_d0_1_2_3 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S20x10x5x5 .f32 := Host.absf main_arg3
  let main_cst_4 : FVec F S_ .f32 := constant S_ .f32 0x7F800000#32
  let main_v15 : FVec F S20x10x5x5 .f32 := broadcastInDim S20x10x5x5 ![] bcast_S_S20x10x5x5 main_cst_4
  let main_v16 : IVec S20x10x5x5 1 := cmpf .olt main_v14 main_v15
  fn_part1 (F := F) main_arg4 main_arg5 main_arg6 main_arg7 main_arg8 main_v13 main_v16
-- ==== Kernel.lean ====
abbrev S16384x1x28x28 : Shape := ⟨4, ![16384, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S28x28x1x16384 : Shape := ⟨4, ![28, 28, 1, 16384]⟩
abbrev S28x28x16384 : Shape := ⟨3, ![28, 28, 16384]⟩
abbrev S_ : Shape := ⟨0, ![]⟩
abbrev S28x32x16384 : Shape := ⟨3, ![28, 32, 16384]⟩
abbrev S896x16384 : Shape := ⟨2, ![896, 16384]⟩
abbrev S28 : Shape := ⟨1, ![28]⟩
abbrev S28x1 : Shape := ⟨2, ![28, 1]⟩
abbrev S12 : Shape := ⟨1, ![12]⟩
abbrev S1x12 : Shape := ⟨2, ![1, 12]⟩
abbrev S28x12 : Shape := ⟨2, ![28, 12]⟩
abbrev S5x5x1x10 : Shape := ⟨4, ![5, 5, 1, 10]⟩
abbrev S28x12x1 : Shape := ⟨3, ![28, 12, 1]⟩
abbrev S1 : Shape := ⟨1, ![1]⟩
abbrev S1x1x1 : Shape := ⟨3, ![1, 1, 1]⟩
abbrev S5x28x12x1x10 : Shape := ⟨5, ![5, 28, 12, 1, 10]⟩
abbrev S1x28x12x1x1 : Shape := ⟨5, ![1, 28, 12, 1, 1]⟩
abbrev S5x28x120 : Shape := ⟨3, ![5, 28, 120]⟩
abbrev S120x5x28 : Shape := ⟨3, ![120, 5, 28]⟩
abbrev S120x5x32 : Shape := ⟨3, ![120, 5, 32]⟩
abbrev S120x8x32 : Shape := ⟨3, ![120, 8, 32]⟩
abbrev S1x120x8x32 : Shape := ⟨4, ![1, 120, 8, 32]⟩
abbrev S4x120x8x32 : Shape := ⟨4, ![4, 120, 8, 32]⟩
abbrev S8x120x8x32 : Shape := ⟨4, ![8, 120, 8, 32]⟩
abbrev S960x256 : Shape := ⟨2, ![960, 256]⟩
abbrev S12x1 : Shape := ⟨2, ![12, 1]⟩
abbrev S4 : Shape := ⟨1, ![4]⟩
abbrev S1x4 : Shape := ⟨2, ![1, 4]⟩
abbrev S12x4 : Shape := ⟨2, ![12, 4]⟩
abbrev S5x5x10x20 : Shape := ⟨4, ![5, 5, 10, 20]⟩
abbrev S12x4x1 : Shape := ⟨3, ![12, 4, 1]⟩
abbrev S5x12x4x10x20 : Shape := ⟨5, ![5, 12, 4, 10, 20]⟩
abbrev S1x12x4x1x1 : Shape := ⟨5, ![1, 12, 4, 1, 1]⟩
abbrev S4x20x5x12x10 : Shape := ⟨5, ![4, 20, 5, 12, 10]⟩
abbrev S80x600 : Shape := ⟨2, ![80, 600]⟩
abbrev S160x600 : Shape := ⟨2, ![160, 600]⟩
abbrev S50x20x4x4 : Shape := ⟨4, ![50, 20, 4, 4]⟩
abbrev S50x4x4x20 : Shape := ⟨4, ![50, 4, 4, 20]⟩
abbrev S1x10 : Shape := ⟨2, ![1, 10]⟩
abbrev S12x10 : Shape := ⟨2, ![12, 10]⟩
abbrev S120 : Shape := ⟨1, ![120]⟩
abbrev S120x1 : Shape := ⟨2, ![120, 1]⟩
abbrev S1x20 : Shape := ⟨2, ![1, 20]⟩
abbrev S4x20 : Shape := ⟨2, ![4, 20]⟩
abbrev S80 : Shape := ⟨1, ![80]⟩
abbrev S80x1 : Shape := ⟨2, ![80, 1]⟩
abbrev S50x1 : Shape := ⟨2, ![50, 1]⟩
abbrev S10x1 : Shape := ⟨2, ![10, 1]⟩
abbrev S10x16384 : Shape := ⟨2, ![10, 16384]⟩
abbrev S896x2048 : Shape := ⟨2, ![896, 2048]⟩
abbrev S10x2048 : Shape := ⟨2, ![10, 2048]⟩
abbrev S256x2048 : Shape := ⟨2, ![256, 2048]⟩
abbrev S960x2048 : Shape := ⟨2, ![960, 2048]⟩
abbrev S480x2048 : Shape := ⟨2, ![480, 2048]⟩
abbrev S120x2048 : Shape := ⟨2, ![120, 2048]⟩
abbrev S1440x2048 : Shape := ⟨2, ![1440, 2048]⟩
abbrev S600x2048 : Shape := ⟨2, ![600, 2048]⟩
abbrev S160x2048 : Shape := ⟨2, ![160, 2048]⟩
abbrev S80x2048 : Shape := ⟨2, ![80, 2048]⟩
abbrev S320x2048 : Shape := ⟨2, ![320, 2048]⟩
abbrev S50x2048 : Shape := ⟨2, ![50, 2048]⟩
abbrev S2048 : Shape := ⟨1, ![2048]⟩
abbrev S1x2048 : Shape := ⟨2, ![1, 2048]⟩
abbrev S16384x10 : Shape := ⟨2, ![16384, 10]⟩

abbrev nBuf : Space → Nat
  | .hbm => 318
  | .vmem => 12
  | .smem => 0
  | _ => 0

abbrev hbmTy0_0 (i : Nat) : BufTy := match i % 128 with
  | 0 => ⟨S16384x1x28x28, .f32⟩
  | 1 => ⟨S10x1x5x5, .f32⟩
  | 2 => ⟨S10, .f32⟩
  | 3 => ⟨S20x10x5x5, .f32⟩
  | 4 => ⟨S20, .f32⟩
  | 5 => ⟨S50x320, .f32⟩
  | 6 => ⟨S50, .f32⟩
  | 7 => ⟨S10x50, .f32⟩
  | 8 => ⟨S10, .f32⟩
  | 9 => ⟨S28x28x1x16384, .f32⟩
  | 10 => ⟨S28x28x16384, .f32⟩
  | 11 => ⟨S28x28x16384, .bf16⟩
  | 12 => ⟨S_, .i32⟩
  | 13 => ⟨S_, .bf16⟩
  | 14 => ⟨S28x32x16384, .bf16⟩
  | 15 => ⟨S896x16384, .bf16⟩
  | 16 => ⟨S28, .i32⟩
  | 17 => ⟨S28x1, .i32⟩
  | 18 => ⟨S12, .i32⟩
  | 19 => ⟨S1x12, .i32⟩
  | 20 => ⟨S_, .i32⟩
  | 21 => ⟨S1x12, .i32⟩
  | 22 => ⟨S1x12, .i32⟩
  | 23 => ⟨S_, .i32⟩
  | 24 => ⟨S1x12, .i32⟩
  | 25 => ⟨S1x12, .i32⟩
  | 26 => ⟨S28x12, .i32⟩
  | 27 => ⟨S28x12, .i32⟩
  | 28 => ⟨S28x12, .i32⟩
  | 29 => ⟨S5x5x1x10, .f32⟩
  | 30 => ⟨S_, .i32⟩
  | 31 => ⟨S_, .i32⟩
  | 32 => ⟨S_, .i32⟩
  | 33 => ⟨S28x12, .i32⟩
  | 34 => ⟨S28x12, .i32⟩
  | 35 => ⟨S_, .i32⟩
  | 36 => ⟨S28x12, .i32⟩
  | 37 => ⟨S28x12, .i32⟩
  | 38 => ⟨S_, .i32⟩
  | 39 => ⟨S28x12, .i32⟩
  | 40 => ⟨S28x12, .i1⟩
  | 41 => ⟨S_, .i32⟩
  | 42 => ⟨S28x12, .i32⟩
  | 43 => ⟨S28x12, .i32⟩
  | 44 => ⟨S28x12, .i32⟩
  | 45 => ⟨S28x12x1, .i32⟩
  | 46 => ⟨S1, .i32⟩
  | 47 => ⟨S_, .i32⟩
  | 48 => ⟨S28x12x1, .i32⟩
  | 49 => ⟨S28x12x1, .i1⟩
  | 50 => ⟨S1x1x1, .i32⟩
  | 51 => ⟨S28x12x1, .i32⟩
  | 52 => ⟨S28x12x1, .i1⟩
  | 53 => ⟨S28x12x1, .i1⟩
  | 54 => ⟨S_, .i1⟩
  | 55 => ⟨S28x12, .i1⟩
  | 56 => ⟨S5x28x12x1x10, .f32⟩
  | 57 => ⟨S5x28x12x1x10, .i1⟩
  | 58 => ⟨S_, .f32⟩
  | 59 => ⟨S5x28x12x1x10, .f32⟩
  | 60 => ⟨S5x28x12x1x10, .f32⟩
  | 61 => ⟨S_, .i32⟩
  | 62 => ⟨S28x12, .i32⟩
  | 63 => ⟨S28x12, .i1⟩
  | 64 => ⟨S_, .i32⟩
  | 65 => ⟨S28x12, .i32⟩
  | 66 => ⟨S28x12, .i1⟩
  | 67 => ⟨S28x12, .i1⟩
  | 68 => ⟨S1x28x12x1x1, .i1⟩
  | 69 => ⟨S_, .f32⟩
  | 70 => ⟨S_, .f32⟩
  | 71 => ⟨S5x28x12x1x10, .i1⟩
  | 72 => ⟨S5x28x12x1x10, .f32⟩
  | 73 => ⟨S5x28x12x1x10, .f32⟩
  | 74 => ⟨S5x28x120, .f32⟩
  | 75 => ⟨S120x5x28, .f32⟩
  | 76 => ⟨S_, .i32⟩
  | 77 => ⟨S_, .f32⟩
  | 78 => ⟨S120x5x32, .f32⟩
  | 79 => ⟨S_, .i32⟩
  | 80 => ⟨S_, .f32⟩
  | 81 => ⟨S120x8x32, .f32⟩
  | 82 => ⟨S_, .i32⟩
  | 83 => ⟨S_, .f32⟩
  | 84 => ⟨S120x8x32, .f32⟩
  | 85 => ⟨S_, .i32⟩
  | 86 => ⟨S_, .f32⟩
  | 87 => ⟨S120x8x32, .f32⟩
  | 88 => ⟨S_, .i32⟩
  | 89 => ⟨S_, .f32⟩
  | 90 => ⟨S120x8x32, .f32⟩
  | 91 => ⟨S1x120x8x32, .f32⟩
  | 92 => ⟨S1x120x8x32, .f32⟩
  | 93 => ⟨S1x120x8x32, .f32⟩
  | 94 => ⟨S1x120x8x32, .f32⟩
  | 95 => ⟨S4x120x8x32, .f32⟩
  | 96 => ⟨S28, .i32⟩
  | 97 => ⟨S28x1, .i32⟩
  | 98 => ⟨S12, .i32⟩
  | 99 => ⟨S1x12, .i32⟩
  | 100 => ⟨S_, .i32⟩
  | 101 => ⟨S1x12, .i32⟩
  | 102 => ⟨S1x12, .i32⟩
  | 103 => ⟨S_, .i32⟩
  | 104 => ⟨S1x12, .i32⟩
  | 105 => ⟨S1x12, .i32⟩
  | 106 => ⟨S28x12, .i32⟩
  | 107 => ⟨S28x12, .i32⟩
  | 108 => ⟨S28x12, .i32⟩
  | 109 => ⟨S5x5x1x10, .f32⟩
  | 110 => ⟨S_, .i32⟩
  | 111 => ⟨S_, .i32⟩
  | 112 => ⟨S_, .i32⟩
  | 113 => ⟨S28x12, .i32⟩
  | 114 => ⟨S28x12, .i32⟩
  | 115 => ⟨S_, .i32⟩
  | 116 => ⟨S28x12, .i32⟩
  | 117 => ⟨S28x12, .i32⟩
  | 118 => ⟨S_, .i32⟩
  | 119 => ⟨S28x12, .i32⟩
  | 120 => ⟨S28x12, .i1⟩
  | 121 => ⟨S_, .i32⟩
  | 122 => ⟨S28x12, .i32⟩
  | 123 => ⟨S28x12, .i32⟩
  | 124 => ⟨S28x12, .i32⟩
  | 125 => ⟨S28x12x1, .i32⟩
  | 126 => ⟨S1, .i32⟩
  | 127 => ⟨S_, .i32⟩
  | _ => ⟨S16384x1x28x28, .f32⟩

abbrev hbmTy0_1 (i : Nat) : BufTy := match i % 128 with
  | 0 => ⟨S28x12x1, .i32⟩
  | 1 => ⟨S28x12x1, .i1⟩
  | 2 => ⟨S1x1x1, .i32⟩
  | 3 => ⟨S28x12x1, .i32⟩
  | 4 => ⟨S28x12x1, .i1⟩
  | 5 => ⟨S28x12x1, .i1⟩
  | 6 => ⟨S_, .i1⟩
  | 7 => ⟨S28x12, .i1⟩
  | 8 => ⟨S5x28x12x1x10, .f32⟩
  | 9 => ⟨S5x28x12x1x10, .i1⟩
  | 10 => ⟨S_, .f32⟩
  | 11 => ⟨S5x28x12x1x10, .f32⟩
  | 12 => ⟨S5x28x12x1x10, .f32⟩
  | 13 => ⟨S_, .i32⟩
  | 14 => ⟨S28x12, .i32⟩
  | 15 => ⟨S28x12, .i1⟩
  | 16 => ⟨S_, .i32⟩
  | 17 => ⟨S28x12, .i32⟩
  | 18 => ⟨S28x12, .i1⟩
  | 19 => ⟨S28x12, .i1⟩
  | 20 => ⟨S1x28x12x1x1, .i1⟩
  | 21 => ⟨S_, .f32⟩
  | 22 => ⟨S_, .f32⟩
  | 23 => ⟨S5x28x12x1x10, .i1⟩
  | 24 => ⟨S5x28x12x1x10, .f32⟩
  | 25 => ⟨S5x28x12x1x10, .f32⟩
  | 26 => ⟨S5x28x120, .f32⟩
  | 27 => ⟨S120x5x28, .f32⟩
  | 28 => ⟨S_, .i32⟩
  | 29 => ⟨S_, .f32⟩
  | 30 => ⟨S120x5x32, .f32⟩
  | 31 => ⟨S_, .i32⟩
  | 32 => ⟨S_, .f32⟩
  | 33 => ⟨S120x8x32, .f32⟩
  | 34 => ⟨S_, .i32⟩
  | 35 => ⟨S_, .f32⟩
  | 36 => ⟨S120x8x32, .f32⟩
  | 37 => ⟨S_, .i32⟩
  | 38 => ⟨S_, .f32⟩
  | 39 => ⟨S120x8x32, .f32⟩
  | 40 => ⟨S_, .i32⟩
  | 41 => ⟨S_, .f32⟩
  | 42 => ⟨S120x8x32, .f32⟩
  | 43 => ⟨S1x120x8x32, .f32⟩
  | 44 => ⟨S1x120x8x32, .f32⟩
  | 45 => ⟨S1x120x8x32, .f32⟩
  | 46 => ⟨S1x120x8x32, .f32⟩
  | 47 => ⟨S4x120x8x32, .f32⟩
  | 48 => ⟨S8x120x8x32, .f32⟩
  | 49 => ⟨S960x256, .f32⟩
  | 50 => ⟨S960x256, .bf16⟩
  | 51 => ⟨S12, .i32⟩
  | 52 => ⟨S12x1, .i32⟩
  | 53 => ⟨S4, .i32⟩
  | 54 => ⟨S1x4, .i32⟩
  | 55 => ⟨S_, .i32⟩
  | 56 => ⟨S1x4, .i32⟩
  | 57 => ⟨S1x4, .i32⟩
  | 58 => ⟨S_, .i32⟩
  | 59 => ⟨S1x4, .i32⟩
  | 60 => ⟨S1x4, .i32⟩
  | 61 => ⟨S12x4, .i32⟩
  | 62 => ⟨S12x4, .i32⟩
  | 63 => ⟨S12x4, .i32⟩
  | 64 => ⟨S5x5x10x20, .f32⟩
  | 65 => ⟨S_, .i32⟩
  | 66 => ⟨S_, .i32⟩
  | 67 => ⟨S_, .i32⟩
  | 68 => ⟨S12x4, .i32⟩
  | 69 => ⟨S12x4, .i32⟩
  | 70 => ⟨S_, .i32⟩
  | 71 => ⟨S12x4, .i32⟩
  | 72 => ⟨S12x4, .i32⟩
  | 73 => ⟨S_, .i32⟩
  | 74 => ⟨S12x4, .i32⟩
  | 75 => ⟨S12x4, .i1⟩
  | 76 => ⟨S_, .i32⟩
  | 77 => ⟨S12x4, .i32⟩
  | 78 => ⟨S12x4, .i32⟩
  | 79 => ⟨S12x4, .i32⟩
  | 80 => ⟨S12x4x1, .i32⟩
  | 81 => ⟨S1, .i32⟩
  | 82 => ⟨S_, .i32⟩
  | 83 => ⟨S12x4x1, .i32⟩
  | 84 => ⟨S12x4x1, .i1⟩
  | 85 => ⟨S1x1x1, .i32⟩
  | 86 => ⟨S12x4x1, .i32⟩
  | 87 => ⟨S12x4x1, .i1⟩
  | 88 => ⟨S12x4x1, .i1⟩
  | 89 => ⟨S_, .i1⟩
  | 90 => ⟨S12x4, .i1⟩
  | 91 => ⟨S5x12x4x10x20, .f32⟩
  | 92 => ⟨S5x12x4x10x20, .i1⟩
  | 93 => ⟨S_, .f32⟩
  | 94 => ⟨S5x12x4x10x20, .f32⟩
  | 95 => ⟨S5x12x4x10x20, .f32⟩
  | 96 => ⟨S_, .i32⟩
  | 97 => ⟨S12x4, .i32⟩
  | 98 => ⟨S12x4, .i1⟩
  | 99 => ⟨S_, .i32⟩
  | 100 => ⟨S12x4, .i32⟩
  | 101 => ⟨S12x4, .i1⟩
  | 102 => ⟨S12x4, .i1⟩
  | 103 => ⟨S1x12x4x1x1, .i1⟩
  | 104 => ⟨S_, .f32⟩
  | 105 => ⟨S_, .f32⟩
  | 106 => ⟨S5x12x4x10x20, .i1⟩
  | 107 => ⟨S5x12x4x10x20, .f32⟩
  | 108 => ⟨S5x12x4x10x20, .f32⟩
  | 109 => ⟨S4x20x5x12x10, .f32⟩
  | 110 => ⟨S80x600, .f32⟩
  | 111 => ⟨S12, .i32⟩
  | 112 => ⟨S12x1, .i32⟩
  | 113 => ⟨S4, .i32⟩
  | 114 => ⟨S1x4, .i32⟩
  | 115 => ⟨S_, .i32⟩
  | 116 => ⟨S1x4, .i32⟩
  | 117 => ⟨S1x4, .i32⟩
  | 118 => ⟨S_, .i32⟩
  | 119 => ⟨S1x4, .i32⟩
  | 120 => ⟨S1x4, .i32⟩
  | 121 => ⟨S12x4, .i32⟩
  | 122 => ⟨S12x4, .i32⟩
  | 123 => ⟨S12x4, .i32⟩
  | 124 => ⟨S5x5x10x20, .f32⟩
  | 125 => ⟨S_, .i32⟩
  | 126 => ⟨S_, .i32⟩
  | 127 => ⟨S_, .i32⟩
  | _ => ⟨S16384x1x28x28, .f32⟩

abbrev hbmTy0_2 (i : Nat) : BufTy := match i % 128 with
  | 0 => ⟨S12x4, .i32⟩
  | 1 => ⟨S12x4, .i32⟩
  | 2 => ⟨S_, .i32⟩
  | 3 => ⟨S12x4, .i32⟩
  | 4 => ⟨S12x4, .i32⟩
  | 5 => ⟨S_, .i32⟩
  | 6 => ⟨S12x4, .i32⟩
  | 7 => ⟨S12x4, .i1⟩
  | 8 => ⟨S_, .i32⟩
  | 9 => ⟨S12x4, .i32⟩
  | 10 => ⟨S12x4, .i32⟩
  | 11 => ⟨S12x4, .i32⟩
  | 12 => ⟨S12x4x1, .i32⟩
  | 13 => ⟨S1, .i32⟩
  | 14 => ⟨S_, .i32⟩
  | 15 => ⟨S12x4x1, .i32⟩
  | 16 => ⟨S12x4x1, .i1⟩
  | 17 => ⟨S1x1x1, .i32⟩
  | 18 => ⟨S12x4x1, .i32⟩
  | 19 => ⟨S12x4x1, .i1⟩
  | 20 => ⟨S12x4x1, .i1⟩
  | 21 => ⟨S_, .i1⟩
  | 22 => ⟨S12x4, .i1⟩
  | 23 => ⟨S5x12x4x10x20, .f32⟩
  | 24 => ⟨S5x12x4x10x20, .i1⟩
  | 25 => ⟨S_, .f32⟩
  | 26 => ⟨S5x12x4x10x20, .f32⟩
  | 27 => ⟨S5x12x4x10x20, .f32⟩
  | 28 => ⟨S_, .i32⟩
  | 29 => ⟨S12x4, .i32⟩
  | 30 => ⟨S12x4, .i1⟩
  | 31 => ⟨S_, .i32⟩
  | 32 => ⟨S12x4, .i32⟩
  | 33 => ⟨S12x4, .i1⟩
  | 34 => ⟨S12x4, .i1⟩
  | 35 => ⟨S1x12x4x1x1, .i1⟩
  | 36 => ⟨S_, .f32⟩
  | 37 => ⟨S_, .f32⟩
  | 38 => ⟨S5x12x4x10x20, .i1⟩
  | 39 => ⟨S5x12x4x10x20, .f32⟩
  | 40 => ⟨S5x12x4x10x20, .f32⟩
  | 41 => ⟨S4x20x5x12x10, .f32⟩
  | 42 => ⟨S80x600, .f32⟩
  | 43 => ⟨S160x600, .f32⟩
  | 44 => ⟨S160x600, .bf16⟩
  | 45 => ⟨S50x20x4x4, .f32⟩
  | 46 => ⟨S50x4x4x20, .f32⟩
  | 47 => ⟨S50x320, .f32⟩
  | 48 => ⟨S50x320, .bf16⟩
  | 49 => ⟨S10x50, .bf16⟩
  | 50 => ⟨S1x10, .f32⟩
  | 51 => ⟨S12x10, .f32⟩
  | 52 => ⟨S120, .f32⟩
  | 53 => ⟨S120x1, .f32⟩
  | 54 => ⟨S1x20, .f32⟩
  | 55 => ⟨S4x20, .f32⟩
  | 56 => ⟨S80, .f32⟩
  | 57 => ⟨S80x1, .f32⟩
  | 58 => ⟨S50x1, .f32⟩
  | 59 => ⟨S10x1, .f32⟩
  | 60 => ⟨S10x16384, .f32⟩
  | 61 => ⟨S16384x10, .f32⟩
  | _ => ⟨S16384x1x28x28, .f32⟩

abbrev hbmTy (i : Nat) : BufTy := match i / 128 with
  | 0 => hbmTy0_0 i
  | 1 => hbmTy0_1 i
  | 2 => hbmTy0_2 i
  | _ => ⟨S16384x1x28x28, .f32⟩

abbrev bufTy : (tb : Table) → Fin (tcTables nBuf tb) → BufTy
  | .hbm, ⟨i, _⟩ => hbmTy i
  | .local _ .vmem, ⟨0, _⟩ => ⟨S896x2048, .bf16⟩
  | .local _ .vmem, ⟨1, _⟩ => ⟨S896x2048, .bf16⟩
  | .local _ .vmem, ⟨2, _⟩ => ⟨S960x256, .bf16⟩
  | .local _ .vmem, ⟨3, _⟩ => ⟨S160x600, .bf16⟩
  | .local _ .vmem, ⟨4, _⟩ => ⟨S50x320, .bf16⟩
  | .local _ .vmem, ⟨5, _⟩ => ⟨S10x50, .bf16⟩
  | .local _ .vmem, ⟨6, _⟩ => ⟨S120x1, .f32⟩
  | .local _ .vmem, ⟨7, _⟩ => ⟨S80x1, .f32⟩
  | .local _ .vmem, ⟨8, _⟩ => ⟨S50x1, .f32⟩
  | .local _ .vmem, ⟨9, _⟩ => ⟨S10x1, .f32⟩
  | .local _ .vmem, ⟨10, _⟩ => ⟨S10x2048, .f32⟩
  | .local _ .vmem, ⟨11, _⟩ => ⟨S10x2048, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_cst : Ref sig .tc := ⟨.hbm, 58, rfl⟩
abbrev main_call2_v15 : Ref sig .tc := ⟨.hbm, 59, rfl⟩
abbrev main_v18 : Ref sig .tc := ⟨.hbm, 60, rfl⟩
abbrev main_c_4 : Ref sig .tc := ⟨.hbm, 61, rfl⟩
abbrev main_v19 : Ref sig .tc := ⟨.hbm, 62, rfl⟩
abbrev main_v20 : Ref sig .tc := ⟨.hbm, 63, rfl⟩
abbrev main_c_5 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_c_6 : Ref sig .tc := ⟨.hbm, 76, rfl⟩
abbrev main_call4_v0 : Ref sig .tc := ⟨.hbm, 77, rfl⟩
abbrev main_v28 : Ref sig .tc := ⟨.hbm, 78, rfl⟩
abbrev main_c_7 : Ref sig .tc := ⟨.hbm, 79, rfl⟩
abbrev main_call5_v0 : Ref sig .tc := ⟨.hbm, 80, rfl⟩
abbrev main_v29 : Ref sig .tc := ⟨.hbm, 81, rfl⟩
abbrev main_c_8 : Ref sig .tc := ⟨.hbm, 82, rfl⟩
abbrev main_call6_v0 : Ref sig .tc := ⟨.hbm, 83, rfl⟩
abbrev main_v30 : Ref sig .tc := ⟨.hbm, 84, rfl⟩
abbrev main_c_9 : Ref sig .tc := ⟨.hbm, 85, rfl⟩
abbrev main_call7_v0 : Ref sig .tc := ⟨.hbm, 86, rfl⟩
abbrev main_v31 : Ref sig .tc := ⟨.hbm, 87, rfl⟩
abbrev main_c_10 : Ref sig .tc := ⟨.hbm, 88, rfl⟩
abbrev main_call8_v0 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_c_11 : Ref sig .tc := ⟨.hbm, 100, rfl⟩
abbrev main_v42 : Ref sig .tc := ⟨.hbm, 101, rfl⟩
abbrev main_v43 : Ref sig .tc := ⟨.hbm, 102, rfl⟩
abbrev main_c_12 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_c_13 : Ref sig .tc := ⟨.hbm, 110, rfl⟩
abbrev main_c_14 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_call9_v3 : Ref sig .tc := ⟨.hbm, 115, rfl⟩
abbrev main_call9_v4 : Ref sig .tc := ⟨.hbm, 116, rfl⟩
abbrev main_v50 : Ref sig .tc := ⟨.hbm, 117, rfl⟩
abbrev main_call10_c : Ref sig .tc := ⟨.hbm, 118, rfl⟩
abbrev main_call10_v0 : Ref sig .tc := ⟨.hbm, 119, rfl⟩
abbrev main_call10_v1 : Ref sig .tc := ⟨.hbm, 120, rfl⟩
abbrev main_call10_c_0 : Ref sig .tc := ⟨.hbm, 121, rfl⟩
abbrev main_call10_v2 : Ref sig .tc := ⟨.hbm, 122, rfl⟩
abbrev main_call10_v3 : Ref sig .tc := ⟨.hbm, 123, rfl⟩
abbrev main_call10_v4 : Ref sig .tc := ⟨.hbm, 124, rfl⟩
abbrev main_call10_v5 : Ref sig .tc := ⟨.hbm, 125, rfl⟩
abbrev main_call10_c_1 : Ref sig .tc := ⟨.hbm, 126, rfl⟩
abbrev main_call10_c_2 : Ref sig .tc := ⟨.hbm, 127, rfl⟩
abbrev main_call10_v6 : Ref sig .tc := ⟨.hbm, 128, rfl⟩
abbrev main_call10_v7 : Ref sig .tc := ⟨.hbm, 129, rfl⟩
abbrev main_call10_v8 : Ref sig .tc := ⟨.hbm, 130, rfl⟩
abbrev main_call10_v9 : Ref sig .tc := ⟨.hbm, 131, rfl⟩
abbrev main_call10_v10 : Ref sig .tc := ⟨.hbm, 132, rfl⟩
abbrev main_call10_v11 : Ref sig .tc := ⟨.hbm, 133, rfl⟩
abbrev main_call10_c_3 : Ref sig .tc := ⟨.hbm, 134, rfl⟩
abbrev main_call10_v12 : Ref sig .tc := ⟨.hbm, 135, rfl⟩
abbrev main_call10_v13 : Ref sig .tc := ⟨.hbm, 136, rfl⟩
abbrev main_call10_v14 : Ref sig .tc := ⟨.hbm, 137, rfl⟩
abbrev main_call10_cst : Ref sig .tc := ⟨.hbm, 138, rfl⟩
abbrev main_call10_v15 : Ref sig .tc := ⟨.hbm, 139, rfl⟩
abbrev main_v51 : Ref sig .tc := ⟨.hbm, 140, rfl⟩
abbrev main_c_15 : Ref sig .tc := ⟨.hbm, 141, rfl⟩
abbrev main_v52 : Ref sig .tc := ⟨.hbm, 142, rfl⟩
abbrev main_v53 : Ref sig .tc := ⟨.hbm, 143, rfl⟩
abbrev main_c_16 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_cst_17 : Ref sig .tc := ⟨.hbm, 149, rfl⟩
abbrev main_call11_v0 : Ref sig .tc := ⟨.hbm, 150, rfl⟩
abbrev main_call11_v1 : Ref sig .tc := ⟨.hbm, 151, rfl⟩
abbrev main_call11_v2 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_c_18 : Ref sig .tc := ⟨.hbm, 156, rfl⟩
abbrev main_call12_v0 : Ref sig .tc := ⟨.hbm, 157, rfl⟩
abbrev main_v61 : Ref sig .tc := ⟨.hbm, 158, rfl⟩
abbrev main_c_19 : Ref sig .tc := ⟨.hbm, 159, rfl⟩
abbrev main_call13_v0 : Ref sig .tc := ⟨.hbm, 160, rfl⟩
abbrev main_v62 : Ref sig .tc := ⟨.hbm, 161, rfl⟩
abbrev main_c_20 : Ref sig .tc := ⟨.hbm, 162, rfl⟩
abbrev main_call14_v0 : Ref sig .tc := ⟨.hbm, 163, rfl⟩
abbrev main_v63 : Ref sig .tc := ⟨.hbm, 164, rfl⟩
abbrev main_c_21 : Ref sig .tc := ⟨.hbm, 165, rfl⟩
abbrev main_call15_v0 : Ref sig .tc := ⟨.hbm, 166, rfl⟩
abbrev main_v64 : Ref sig .tc := ⟨.hbm, 167, rfl⟩
abbrev main_c_22 : Ref sig .tc := ⟨.hbm, 168, rfl⟩
abbrev main_call16_v0 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_c_23 : Ref sig .tc := ⟨.hbm, 183, rfl⟩
abbrev main_v78 : Ref sig .tc := ⟨.hbm, 184, rfl⟩
abbrev main_v79 : Ref sig .tc := ⟨.hbm, 185, rfl⟩
abbrev main_c_24 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_c_25 : Ref sig .tc := ⟨.hbm, 193, rfl⟩
abbrev main_c_26 : Ref sig .tc := ⟨.hbm, 194, rfl⟩
abbrev main_call17_v0 : Ref sig .tc := ⟨.hbm, 195, rfl⟩
abbrev main_call17_v1 : Ref sig .tc := ⟨.hbm, 196, rfl⟩
abbrev main_call17_v2 : Ref sig .tc := ⟨.hbm, 197, rfl⟩
abbrev main_call17_v3 : Ref sig .tc := ⟨.hbm, 198, rfl⟩
abbrev main_call17_v4 : Ref sig .tc := ⟨.hbm, 199, rfl⟩
abbrev main_v86 : Ref sig .tc := ⟨.hbm, 200, rfl⟩
abbrev main_call18_c : Ref sig .tc := ⟨.hbm, 201, rfl⟩
abbrev main_call18_v0 : Ref sig .tc := ⟨.hbm, 202, rfl⟩
abbrev main_call18_v1 : Ref sig .tc := ⟨.hbm, 203, rfl⟩
abbrev main_call18_c_0 : Ref sig .tc := ⟨.hbm, 204, rfl⟩
abbrev main_call18_v2 : Ref sig .tc := ⟨.hbm, 205, rfl⟩
abbrev main_call18_v3 : Ref sig .tc := ⟨.hbm, 206, rfl⟩
abbrev main_call18_v4 : Ref sig .tc := ⟨.hbm, 207, rfl⟩
abbrev main_call18_v5 : Ref sig .tc := ⟨.hbm, 208, rfl⟩
abbrev main_call18_c_1 : Ref sig .tc := ⟨.hbm, 209, rfl⟩
abbrev main_call18_c_2 : Ref sig .tc := ⟨.hbm, 210, rfl⟩
abbrev main_call18_v6 : Ref sig .tc := ⟨.hbm, 211, rfl⟩
abbrev main_call18_v7 : Ref sig .tc := ⟨.hbm, 212, rfl⟩
abbrev main_call18_v8 : Ref sig .tc := ⟨.hbm, 213, rfl⟩
abbrev main_call18_v9 : Ref sig .tc := ⟨.hbm, 214, rfl⟩
abbrev main_call18_v10 : Ref sig .tc := ⟨.hbm, 215, rfl⟩
abbrev main_call18_v11 : Ref sig .tc := ⟨.hbm, 216, rfl⟩
abbrev main_call18_c_3 : Ref sig .tc := ⟨.hbm, 217, rfl⟩
abbrev main_call18_v12 : Ref sig .tc := ⟨.hbm, 218, rfl⟩
abbrev main_call18_v13 : Ref sig .tc := ⟨.hbm, 219, rfl⟩
abbrev main_call18_v14 : Ref sig .tc := ⟨.hbm, 220, rfl⟩
abbrev main_call18_cst : Ref sig .tc := ⟨.hbm, 221, rfl⟩
abbrev main_call18_v15 : Ref sig .tc := ⟨.hbm, 222, rfl⟩
abbrev main_v87 : Ref sig .tc := ⟨.hbm, 223, rfl⟩
abbrev main_c_27 : Ref sig .tc := ⟨.hbm, 224, rfl⟩
abbrev main_v88 : Ref sig .tc := ⟨.hbm, 225, rfl⟩
abbrev main_v89 : Ref sig .tc := ⟨.hbm, 226, rfl⟩
abbrev main_c_28 : Ref sig .tc := ⟨.hbm, 227, rfl⟩
abbrev main_v90 : Ref sig .tc := ⟨.hbm, 228, rfl⟩
abbrev main_v91 : Ref sig .tc := ⟨.hbm, 229, rfl⟩
abbrev main_v92 : Ref sig .tc := ⟨.hbm, 230, rfl⟩
abbrev main_v93 : Ref sig .tc := ⟨.hbm, 231, rfl⟩
abbrev main_cst_29 : Ref sig .tc := ⟨.hbm, 232, rfl⟩
abbrev main_call19_v0 : Ref sig .tc := ⟨.hbm, 233, rfl⟩
abbrev main_call19_v1 : Ref sig .tc := ⟨.hbm, 234, rfl⟩
abbrev main_call19_v2 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_c_30 : Ref sig .tc := ⟨.hbm, 243, rfl⟩
abbrev main_v101 : Ref sig .tc := ⟨.hbm, 244, rfl⟩
abbrev main_v102 : Ref sig .tc := ⟨.hbm, 245, rfl⟩
abbrev main_c_31 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_c_32 : Ref sig .tc := ⟨.hbm, 253, rfl⟩
abbrev main_c_33 : Ref sig .tc := ⟨.hbm, 254, rfl⟩
abbrev main_call20_v0 : Ref sig .tc := ⟨.hbm, 255, rfl⟩
abbrev main_call20_v1 : Ref sig .tc := ⟨.hbm, 256, rfl⟩
abbrev main_call20_v2 : Ref sig .tc := ⟨.hbm, 257, rfl⟩
abbrev main_call20_v3 : Ref sig .tc := ⟨.hbm, 258, rfl⟩
abbrev main_call20_v4 : Ref sig .tc := ⟨.hbm, 259, rfl⟩
abbrev main_v109 : Ref sig .tc := ⟨.hbm, 260, rfl⟩
abbrev main_call21_c : Ref sig .tc := ⟨.hbm, 261, rfl⟩
abbrev main_call21_v0 : Ref sig .tc := ⟨.hbm, 262, rfl⟩
abbrev main_call21_v1 : Ref sig .tc := ⟨.hbm, 263, rfl⟩
abbrev main_call21_c_0 : Ref sig .tc := ⟨.hbm, 264, rfl⟩
abbrev main_call21_v2 : Ref sig .tc := ⟨.hbm, 265, rfl⟩
abbrev main_call21_v3 : Ref sig .tc := ⟨.hbm, 266, rfl⟩
abbrev main_call21_v4 : Ref sig .tc := ⟨.hbm, 267, rfl⟩
abbrev main_call21_v5 : Ref sig .tc := ⟨.hbm, 268, rfl⟩
abbrev main_call21_c_1 : Ref sig .tc := ⟨.hbm, 269, rfl⟩
abbrev main_call21_c_2 : Ref sig .tc := ⟨.hbm, 270, rfl⟩
abbrev main_call21_v6 : Ref sig .tc := ⟨.hbm, 271, rfl⟩
abbrev main_call21_v7 : Ref sig .tc := ⟨.hbm, 272, rfl⟩
abbrev main_call21_v8 : Ref sig .tc := ⟨.hbm, 273, rfl⟩
abbrev main_call21_v9 : Ref sig .tc := ⟨.hbm, 274, rfl⟩
abbrev main_call21_v10 : Ref sig .tc := ⟨.hbm, 275, rfl⟩
abbrev main_call21_v11 : Ref sig .tc := ⟨.hbm, 276, rfl⟩
abbrev main_call21_c_3 : Ref sig .tc := ⟨.hbm, 277, rfl⟩
abbrev main_call21_v12 : Ref sig .tc := ⟨.hbm, 278, rfl⟩
abbrev main_call21_v13 : Ref sig .tc := ⟨.hbm, 279, rfl⟩
abbrev main_call21_v14 : Ref sig .tc := ⟨.hbm, 280, rfl⟩
abbrev main_call21_cst : Ref sig .tc := ⟨.hbm, 281, rfl⟩
abbrev main_call21_v15 : Ref sig .tc := ⟨.hbm, 282, rfl⟩
abbrev main_v110 : Ref sig .tc := ⟨.hbm, 283, rfl⟩
abbrev main_c_34 : Ref sig .tc := ⟨.hbm, 284, rfl⟩
abbrev main_v111 : Ref sig .tc := ⟨.hbm, 285, rfl⟩
abbrev main_v112 : Ref sig .tc := ⟨.hbm, 286, rfl⟩
abbrev main_c_35 : Ref sig .tc := ⟨.hbm, 287, rfl⟩
abbrev main_v113 : Ref sig .tc := ⟨.hbm, 288, rfl⟩
abbrev main_v114 : Ref sig .tc := ⟨.hbm, 289, rfl⟩
abbrev main_v115 : Ref sig .tc := ⟨.hbm, 290, rfl⟩
abbrev main_v116 : Ref sig .tc := ⟨.hbm, 291, rfl⟩
abbrev main_cst_36 : Ref sig .tc := ⟨.hbm, 292, rfl⟩
abbrev main_call22_v0 : Ref sig .tc := ⟨.hbm, 293, rfl⟩
abbrev main_call22_v1 : Ref sig .tc := ⟨.hbm, 294, rfl⟩
abbrev main_call22_v2 : Ref sig .tc := ⟨.hbm, 295, rfl⟩
abbrev main_v117 : Ref sig .tc := ⟨.hbm, 296, rfl⟩
abbrev main_v118 : Ref sig .tc := ⟨.hbm, 297, rfl⟩
abbrev main_v119 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_v123 : Ref sig .tc := ⟨.hbm, 302, rfl⟩
abbrev main_v124 : Ref sig .tc := ⟨.hbm, 303, rfl⟩
abbrev main_v125 : Ref sig .tc := ⟨.hbm, 304, rfl⟩
abbrev main_v126 : Ref sig .tc := ⟨.hbm, 305, rfl⟩
abbrev main_v127 : Ref sig .tc := ⟨.hbm, 306, rfl⟩
abbrev main_v128 : Ref sig .tc := ⟨.hbm, 307, rfl⟩
abbrev main_v129 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩
abbrev main_v133 : Ref sig .tc := ⟨.hbm, 312, rfl⟩
abbrev main_v134 : Ref sig .tc := ⟨.hbm, 313, rfl⟩
abbrev main_v135 : Ref sig .tc := ⟨.hbm, 314, rfl⟩
abbrev main_v136 : Ref sig .tc := ⟨.hbm, 315, rfl⟩
abbrev main_v137 : Ref sig .tc := ⟨.hbm, 316, rfl⟩
abbrev main_v138 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S896x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S960x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x50 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16384x1x28x28_S28x28x1x16384_2_3_1_0 : S16384x1x28x28.Transposes [2, 3, 1, 0] S28x28x1x16384
  shapeCasts_S28x28x1x16384_S28x28x16384 : S28x28x1x16384.ShapeCasts S28x28x16384
  bitsLt_bf16_f32 : FTy.bits .bf16 < FTy.bits .f32
  pads_S28x28x16384_S28x32x16384_000_040_000 : S28x28x16384.Pads (![0, 0, 0] : Fin 3 → Nat) ![0, 4, 0] ![0, 0, 0] S28x32x16384
  h_S_ : 0 < S_.numel
  shapeCasts_S28x32x16384_S896x16384 : S28x32x16384.ShapeCasts S896x16384
  bcast_S28_S28x1_0 : S28.BroadcastsInDim S28x1 (![0] : Fin 1 → Fin S28x1.rank)
  bcast_S12_S1x12_1 : S12.BroadcastsInDim S1x12 (![1] : Fin 1 → Fin S1x12.rank)
  bcast_S_S1x12 : S_.BroadcastsInDim S1x12 (![] : Fin 0 → Fin S1x12.rank)
  bcast_S28x1_S28x12_0_1 : S28x1.BroadcastsInDim S28x12 (![0, 1] : Fin 2 → Fin S28x12.rank)
  bcast_S1x12_S28x12_0_1 : S1x12.BroadcastsInDim S28x12 (![0, 1] : Fin 2 → Fin S28x12.rank)
  transposes_S10x1x5x5_S5x5x1x10_2_3_1_0 : S10x1x5x5.Transposes [2, 3, 1, 0] S5x5x1x10
  bcast_S_S28x12 : S_.BroadcastsInDim S28x12 (![] : Fin 0 → Fin S28x12.rank)
  bcast_S28x12_S28x12x1_0_1 : S28x12.BroadcastsInDim S28x12x1 (![0, 1] : Fin 2 → Fin S28x12x1.rank)
  bcast_S_S28x12x1 : S_.BroadcastsInDim S28x12x1 (![] : Fin 0 → Fin S28x12x1.rank)
  bcast_S1_S1x1x1_2 : S1.BroadcastsInDim S1x1x1 (![2] : Fin 1 → Fin S1x1x1.rank)
  bcast_S1x1x1_S28x12x1_0_1_2 : S1x1x1.BroadcastsInDim S28x12x1 (![0, 1, 2] : Fin 3 → Fin S28x12x1.rank)
  reducesTo_S28x12x1_S28x12_d2 : S28x12x1.ReducesTo [2] S28x12
  bcast_S28x12_S5x28x12x1x10_1_2 : S28x12.BroadcastsInDim S5x28x12x1x10 (![1, 2] : Fin 2 → Fin S5x28x12x1x10.rank)
  bcast_S_S5x28x12x1x10 : S_.BroadcastsInDim S5x28x12x1x10 (![] : Fin 0 → Fin S5x28x12x1x10.rank)
  bcast_S28x12_S1x28x12x1x1_1_2 : S28x12.BroadcastsInDim S1x28x12x1x1 (![1, 2] : Fin 2 → Fin S1x28x12x1x1.rank)
  bcast_S1x28x12x1x1_S5x28x12x1x10_0_1_2_3_4 : S1x28x12x1x1.BroadcastsInDim S5x28x12x1x10 (![0, 1, 2, 3, 4] : Fin 5 → Fin S5x28x12x1x10.rank)
  shapeCasts_S5x28x12x1x10_S5x28x120 : S5x28x12x1x10.ShapeCasts S5x28x120
  transposes_S5x28x120_S120x5x28_2_0_1 : S5x28x120.Transposes [2, 0, 1] S120x5x28
  pads_S120x5x28_S120x5x32_000_000_040 : S120x5x28.Pads (![0, 0, 0] : Fin 3 → Nat) ![0, 0, 4] ![0, 0, 0] S120x5x32
  pads_S120x5x32_S120x8x32_000_030_000 : S120x5x32.Pads (![0, 0, 0] : Fin 3 → Nat) ![0, 3, 0] ![0, 0, 0] S120x8x32
  pads_S120x5x32_S120x8x32_000_120_000 : S120x5x32.Pads (![0, 1, 0] : Fin 3 → Nat) ![0, 2, 0] ![0, 0, 0] S120x8x32
  pads_S120x5x32_S120x8x32_000_210_000 : S120x5x32.Pads (![0, 2, 0] : Fin 3 → Nat) ![0, 1, 0] ![0, 0, 0] S120x8x32
  pads_S120x5x32_S120x8x32_000_300_000 : S120x5x32.Pads (![0, 3, 0] : Fin 3 → Nat) ![0, 0, 0] ![0, 0, 0] S120x8x32
  bcast_S120x8x32_S1x120x8x32_1_2_3 : S120x8x32.BroadcastsInDim S1x120x8x32 (![1, 2, 3] : Fin 3 → Fin S1x120x8x32.rank)
  concatenates_S1x120x8x32_S1x120x8x32_S1x120x8x32_S1x120x8x32_S4x120x8x32_d0 : Shape.Concatenates [S1x120x8x32, S1x120x8x32, S1x120x8x32, S1x120x8x32] S4x120x8x32 0
  concatenates_S4x120x8x32_S4x120x8x32_S8x120x8x32_d0 : Shape.Concatenates [S4x120x8x32, S4x120x8x32] S8x120x8x32 0
  shapeCasts_S8x120x8x32_S960x256 : S8x120x8x32.ShapeCasts S960x256
  bcast_S12_S12x1_0 : S12.BroadcastsInDim S12x1 (![0] : Fin 1 → Fin S12x1.rank)
  bcast_S4_S1x4_1 : S4.BroadcastsInDim S1x4 (![1] : Fin 1 → Fin S1x4.rank)
  bcast_S_S1x4 : S_.BroadcastsInDim S1x4 (![] : Fin 0 → Fin S1x4.rank)
  bcast_S12x1_S12x4_0_1 : S12x1.BroadcastsInDim S12x4 (![0, 1] : Fin 2 → Fin S12x4.rank)
  bcast_S1x4_S12x4_0_1 : S1x4.BroadcastsInDim S12x4 (![0, 1] : Fin 2 → Fin S12x4.rank)
  transposes_S20x10x5x5_S5x5x10x20_2_3_1_0 : S20x10x5x5.Transposes [2, 3, 1, 0] S5x5x10x20
  bcast_S_S12x4 : S_.BroadcastsInDim S12x4 (![] : Fin 0 → Fin S12x4.rank)
  bcast_S12x4_S12x4x1_0_1 : S12x4.BroadcastsInDim S12x4x1 (![0, 1] : Fin 2 → Fin S12x4x1.rank)
  bcast_S_S12x4x1 : S_.BroadcastsInDim S12x4x1 (![] : Fin 0 → Fin S12x4x1.rank)
  bcast_S1x1x1_S12x4x1_0_1_2 : S1x1x1.BroadcastsInDim S12x4x1 (![0, 1, 2] : Fin 3 → Fin S12x4x1.rank)
  reducesTo_S12x4x1_S12x4_d2 : S12x4x1.ReducesTo [2] S12x4
  bcast_S12x4_S5x12x4x10x20_1_2 : S12x4.BroadcastsInDim S5x12x4x10x20 (![1, 2] : Fin 2 → Fin S5x12x4x10x20.rank)
  bcast_S_S5x12x4x10x20 : S_.BroadcastsInDim S5x12x4x10x20 (![] : Fin 0 → Fin S5x12x4x10x20.rank)
  bcast_S12x4_S1x12x4x1x1_1_2 : S12x4.BroadcastsInDim S1x12x4x1x1 (![1, 2] : Fin 2 → Fin S1x12x4x1x1.rank)
  bcast_S1x12x4x1x1_S5x12x4x10x20_0_1_2_3_4 : S1x12x4x1x1.BroadcastsInDim S5x12x4x10x20 (![0, 1, 2, 3, 4] : Fin 5 → Fin S5x12x4x10x20.rank)
  transposes_S5x12x4x10x20_S4x20x5x12x10_2_4_0_1_3 : S5x12x4x10x20.Transposes [2, 4, 0, 1, 3] S4x20x5x12x10
  shapeCasts_S4x20x5x12x10_S80x600 : S4x20x5x12x10.ShapeCasts S80x600
  concatenates_S80x600_S80x600_S160x600_d0 : Shape.Concatenates [S80x600, S80x600] S160x600 0
  shapeCasts_S50x320_S50x20x4x4 : S50x320.ShapeCasts S50x20x4x4
  transposes_S50x20x4x4_S50x4x4x20_0_2_3_1 : S50x20x4x4.Transposes [0, 2, 3, 1] S50x4x4x20
  shapeCasts_S50x4x4x20_S50x320 : S50x4x4x20.ShapeCasts S50x320
  shapeCasts_S10_S1x10 : S10.ShapeCasts S1x10
  bcast_S1x10_S12x10_0_1 : S1x10.BroadcastsInDim S12x10 (![0, 1] : Fin 2 → Fin S12x10.rank)
  shapeCasts_S12x10_S120 : S12x10.ShapeCasts S120
  shapeCasts_S120_S120x1 : S120.ShapeCasts S120x1
  shapeCasts_S20_S1x20 : S20.ShapeCasts S1x20
  bcast_S1x20_S4x20_0_1 : S1x20.BroadcastsInDim S4x20 (![0, 1] : Fin 2 → Fin S4x20.rank)
  shapeCasts_S4x20_S80 : S4x20.ShapeCasts S80
  shapeCasts_S80_S80x1 : S80.ShapeCasts S80x1
  shapeCasts_S50_S50x1 : S50.ShapeCasts S50x1
  shapeCasts_S10_S10x1 : S10.ShapeCasts S10x1
  inb_S896x2048_S896x2048_0_0 : ∀ a, (![0, 0] : Fin 2 → Nat) a + S896x2048.size a ≤ S896x2048.size a
  h_S896x2048 : 0 < S896x2048.numel
  shapeCasts_S896x2048_S896x2048 : S896x2048.ShapeCasts S896x2048
  inb_S960x256_S960x256_0_0 : ∀ a, (![0, 0] : Fin 2 → Nat) a + S960x256.size a ≤ S960x256.size a
  h_S960x256 : 0 < S960x256.numel
  shapeCasts_S960x256_S960x256 : S960x256.ShapeCasts S960x256
  slices_S896x2048_o0_0_S256x2048 : S896x2048.Slices ![0, 0] S256x2048
  slices_S960x2048_o0_0_S480x2048 : S960x2048.Slices ![0, 0] S480x2048
  slices_S960x2048_o480_0_S480x2048 : S960x2048.Slices ![480, 0] S480x2048
  slices_S480x2048_o0_0_S120x2048 : S480x2048.Slices ![0, 0] S120x2048
  slices_S480x2048_o120_0_S120x2048 : S480x2048.Slices ![120, 0] S120x2048
  slices_S480x2048_o240_0_S120x2048 : S480x2048.Slices ![240, 0] S120x2048
  slices_S480x2048_o360_0_S120x2048 : S480x2048.Slices ![360, 0] S120x2048
  inb_S120x1_S120x1_0_0 : ∀ a, (![0, 0] : Fin 2 → Nat) a + S120x1.size a ≤ S120x1.size a
  h_S120x1 : 0 < S120x1.numel
  shapeCasts_S120x1_S120x1 : S120x1.ShapeCasts S120x1
  broadcasts_S120x1_S120x2048 : S120x1.Broadcasts S120x2048
  slices_S896x2048_o128_0_S256x2048 : S896x2048.Slices ![128, 0] S256x2048
  slices_S896x2048_o256_0_S256x2048 : S896x2048.Slices ![256, 0] S256x2048
  slices_S896x2048_o384_0_S256x2048 : S896x2048.Slices ![384, 0] S256x2048
  slices_S896x2048_o512_0_S256x2048 : S896x2048.Slices ![512, 0] S256x2048
  slices_S896x2048_o640_0_S256x2048 : S896x2048.Slices ![640, 0] S256x2048
  concatenates_S120x2048_S120x2048_S120x2048_S120x2048_S120x2048_S120x2048_S120x2048_S120x2048_S120x2048_S120x2048_S120x2048_S120x2048_S1440x2048_d0 : Shape.Concatenates [S120x2048, S120x2048, S120x2048, S120x2048, S120x2048, S120x2048, S120x2048, S120x2048, S120x2048, S120x2048, S120x2048, S120x2048] S1440x2048 0
  inb_S160x600_S160x600_0_0 : ∀ a, (![0, 0] : Fin 2 → Nat) a + S160x600.size a ≤ S160x600.size a
  h_S160x600 : 0 < S160x600.numel
  shapeCasts_S160x600_S160x600 : S160x600.ShapeCasts S160x600
  slices_S1440x2048_o0_0_S600x2048 : S1440x2048.Slices ![0, 0] S600x2048
  slices_S160x2048_o0_0_S80x2048 : S160x2048.Slices ![0, 0] S80x2048
  slices_S160x2048_o80_0_S80x2048 : S160x2048.Slices ![80, 0] S80x2048
  slices_S1440x2048_o120_0_S600x2048 : S1440x2048.Slices ![120, 0] S600x2048
  slices_S1440x2048_o240_0_S600x2048 : S1440x2048.Slices ![240, 0] S600x2048
  slices_S1440x2048_o360_0_S600x2048 : S1440x2048.Slices ![360, 0] S600x2048
  slices_S1440x2048_o480_0_S600x2048 : S1440x2048.Slices ![480, 0] S600x2048
  slices_S1440x2048_o600_0_S600x2048 : S1440x2048.Slices ![600, 0] S600x2048
  slices_S1440x2048_o720_0_S600x2048 : S1440x2048.Slices ![720, 0] S600x2048
  slices_S1440x2048_o840_0_S600x2048 : S1440x2048.Slices ![840, 0] S600x2048
  inb_S80x1_S80x1_0_0 : ∀ a, (![0, 0] : Fin 2 → Nat) a + S80x1.size a ≤ S80x1.size a
  h_S80x1 : 0 < S80x1.numel
  shapeCasts_S80x1_S80x1 : S80x1.ShapeCasts S80x1
  broadcasts_S80x1_S80x2048 : S80x1.Broadcasts S80x2048
  inb_S50x320_S50x320_0_0 : ∀ a, (![0, 0] : Fin 2 → Nat) a + S50x320.size a ≤ S50x320.size a
  h_S50x320 : 0 < S50x320.numel
  shapeCasts_S50x320_S50x320 : S50x320.ShapeCasts S50x320
  concatenates_S80x2048_S80x2048_S80x2048_S80x2048_S320x2048_d0 : Shape.Concatenates [S80x2048, S80x2048, S80x2048, S80x2048] S320x2048 0
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x2048 : S50x1.Broadcasts S50x2048
  inb_S10x50_S10x50_0_0 : ∀ a, (![0, 0] : Fin 2 → Nat) a + S10x50.size a ≤ S10x50.size a
  h_S10x50 : 0 < S10x50.numel
  shapeCasts_S10x50_S10x50 : S10x50.ShapeCasts S10x50
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x2048 : S10x1.Broadcasts S10x2048
  reduces_S10x2048_S2048 : S10x2048.Reduces [0] S2048
  shapeCasts_S2048_S1x2048 : S2048.ShapeCasts S1x2048
  broadcasts_S1x2048_S10x2048 : S1x2048.Broadcasts S10x2048
  inb_S10x2048_S10x2048_0_0 : ∀ a, (![0, 0] : Fin 2 → Nat) a + S10x2048.size a ≤ S10x2048.size a
  h_S10x2048 : 0 < S10x2048.numel
  transposes_S10x16384_S16384x10_1_0 : S10x16384.Transposes [1, 0] S16384x10
  gather_S5x5x1x10_S28x12x1_S5x28x12x1x10_034_1_n_n_1_2_51110_wf : GatherDims.WF S5x5x1x10 S28x12x1 S5x28x12x1x10 [0, 3, 4] [1] [] [1] [] 2 ![5, 1, 1, 10]
  gather_S5x5x10x20_S12x4x1_S5x12x4x10x20_034_1_n_n_1_2_511020_wf : GatherDims.WF S5x5x10x20 S12x4x1 S5x12x4x10x20 [0, 3, 4] [1] [] [1] [] 2 ![5, 1, 10, 20]
  dot_S960x256_S256x2048_S960x2048_1_0_0_1_n_n_wf : DotDims.WF S960x256 S256x2048 S960x2048 [1] [0] [0] [1] [] []
  dot_S160x600_S600x2048_S160x2048_1_0_0_1_n_n_wf : DotDims.WF S160x600 S600x2048 S160x2048 [1] [0] [0] [1] [] []
  dot_S50x320_S320x2048_S50x2048_1_0_0_1_n_n_wf : DotDims.WF S50x320 S320x2048 S50x2048 [1] [0] [0] [1] [] []
  dot_S10x50_S50x2048_S10x2048_1_0_0_1_n_n_wf : DotDims.WF S10x50 S50x2048 S10x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S896x2048.size a ≤ S896x16384.size a
  hwx0_0 : ∀ i : grid0.Coords, EltTy.bits .bf16 = 32 ∨ (Rect.block (s := S896x16384) S896x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S960x256.size a ≤ S960x256.size a
  hwx0_1 : ∀ i : grid0.Coords, EltTy.bits .bf16 = 32 ∨ (Rect.block (s := S960x256) S960x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x600.size a ≤ S160x600.size a
  hwx0_2 : ∀ i : grid0.Coords, EltTy.bits .bf16 = 32 ∨ (Rect.block (s := S160x600) S160x600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x320.size a ≤ S50x320.size a
  hwx0_3 : ∀ i : grid0.Coords, EltTy.bits .bf16 = 32 ∨ (Rect.block (s := S50x320) S50x320.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x50.size a ≤ S10x50.size a
  hwx0_4 : ∀ i : grid0.Coords, EltTy.bits .bf16 = 32 ∨ (Rect.block (s := S10x50) S10x50.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S120x1.size a ≤ S120x1.size a
  hwx0_5 : ∀ i : grid0.Coords, EltTy.bits .f32 = 32 ∨ (Rect.block (s := S120x1) S120x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x1.size a ≤ S80x1.size a
  hwx0_6 : ∀ i : grid0.Coords, EltTy.bits .f32 = 32 ∨ (Rect.block (s := S80x1) S80x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x1.size a ≤ S50x1.size a
  hwx0_7 : ∀ i : grid0.Coords, EltTy.bits .f32 = 32 ∨ (Rect.block (s := S50x1) S50x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x1.size a ≤ S10x1.size a
  hwx0_8 : ∀ i : grid0.Coords, EltTy.bits .f32 = 32 ∨ (Rect.block (s := S10x1) S10x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10x2048.size a ≤ S10x16384.size a
  hwx0_9 : ∀ i : grid0.Coords, EltTy.bits .f32 = 32 ∨ (Rect.block (s := S10x16384) S10x2048.size (cc0_transform_9 i) (hinb0_9 i)).WholeWords (EltTy.packing .f32)

variable [Facts₀]

def gather_S5x5x1x10_S28x12x1_S5x28x12x1x10_034_1_n_n_1_2_51110 : GatherDims S5x5x1x10 S28x12x1 S5x28x12x1x10 where
  offsetDims := [0, 3, 4]
  collapsedSliceDims := [1]
  operandBatchingDims := []
  startIndicesBatchingDims := []
  startIndexMap := [1]
  indexVectorDim := 2
  sliceSizes := ![5, 1, 1, 10]
  wf := gather_S5x5x1x10_S28x12x1_S5x28x12x1x10_034_1_n_n_1_2_51110_wf
def gather_S5x5x10x20_S12x4x1_S5x12x4x10x20_034_1_n_n_1_2_511020 : GatherDims S5x5x10x20 S12x4x1 S5x12x4x10x20 where
  offsetDims := [0, 3, 4]
  collapsedSliceDims := [1]
  operandBatchingDims := []
  startIndicesBatchingDims := []
  startIndexMap := [1]
  indexVectorDim := 2
  sliceSizes := ![5, 1, 10, 20]
  wf := gather_S5x5x10x20_S12x4x1_S5x12x4x10x20_034_1_n_n_1_2_511020_wf
def dot_S960x256_S256x2048_S960x2048_1_0_0_1_n_n : DotDims S960x256 S256x2048 S960x2048 where
  lhsContracting := [1]
  rhsContracting := [0]
  lhsNonContracting := [0]
  rhsNonContracting := [1]
  lhsBatch := []
  rhsBatch := []
  wf := dot_S960x256_S256x2048_S960x2048_1_0_0_1_n_n_wf
def dot_S160x600_S600x2048_S160x2048_1_0_0_1_n_n : DotDims S160x600 S600x2048 S160x2048 where
  lhsContracting := [1]
  rhsContracting := [0]
  lhsNonContracting := [0]
  rhsNonContracting := [1]
  lhsBatch := []
  rhsBatch := []
  wf := dot_S160x600_S600x2048_S160x2048_1_0_0_1_n_n_wf
def dot_S50x320_S320x2048_S50x2048_1_0_0_1_n_n : DotDims S50x320 S320x2048 S50x2048 where
  lhsContracting := [1]
  rhsContracting := [0]
  lhsNonContracting := [0]
  rhsNonContracting := [1]
  lhsBatch := []
  rhsBatch := []
  wf := dot_S50x320_S320x2048_S50x2048_1_0_0_1_n_n_wf
def dot_S10x50_S50x2048_S10x2048_1_0_0_1_n_n : DotDims S10x50 S50x2048 S10x2048 where
  lhsContracting := [1]
  rhsContracting := [0]
  lhsNonContracting := [0]
  rhsNonContracting := [1]
  lhsBatch := []
  rhsBatch := []
  wf := dot_S10x50_S50x2048_S10x2048_1_0_0_1_n_n_wf

abbrev win0_0 : Pipeline.Window sig grid0 :=
  Pipeline.Window.ofSpec (Memref.whole main_v4) S896x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S960x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v121) S160x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v125) S50x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v126) S10x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v130) S120x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v134) S80x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v135) S50x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v136) S10x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v137) S10x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S16384x28x28 : Shape := ⟨3, ![16384, 28, 28]⟩
abbrev S28x16384x28 : Shape := ⟨3, ![28, 16384, 28]⟩
abbrev S5x5x1x10 : Shape := ⟨4, ![5, 5, 1, 10]⟩
abbrev S28 : Shape := ⟨1, ![28]⟩
abbrev S12 : Shape := ⟨1, ![12]⟩
abbrev S_ : Shape := ⟨0, ![]⟩
abbrev S28x1 : Shape := ⟨2, ![28, 1]⟩
abbrev S1x12 : Shape := ⟨2, ![1, 12]⟩
abbrev S28x12 : Shape := ⟨2, ![28, 12]⟩
abbrev S28x12x1 : Shape := ⟨3, ![28, 12, 1]⟩
abbrev S5x28x12x1x10 : Shape := ⟨5, ![5, 28, 12, 1, 10]⟩
abbrev S1x28x12x1x1 : Shape := ⟨5, ![1, 28, 12, 1, 1]⟩
abbrev S5x28x1x12x10 : Shape := ⟨5, ![5, 28, 1, 12, 10]⟩
abbrev S5x28x120 : Shape := ⟨3, ![5, 28, 120]⟩
abbrev S1x10 : Shape := ⟨2, ![1, 10]⟩
abbrev S12x10 : Shape := ⟨2, ![12, 10]⟩
abbrev S120 : Shape := ⟨1, ![120]⟩
abbrev S1x120 : Shape := ⟨2, ![1, 120]⟩
abbrev S12x16384x120 : Shape := ⟨3, ![12, 16384, 120]⟩
abbrev S28x128x28 : Shape := ⟨3, ![28, 128, 28]⟩
abbrev S12x128x120 : Shape := ⟨3, ![12, 128, 120]⟩
abbrev S3072x120 : Shape := ⟨2, ![3072, 120]⟩
abbrev S24x128x28 : Shape := ⟨3, ![24, 128, 28]⟩
abbrev S3072x28 : Shape := ⟨2, ![3072, 28]⟩
abbrev S1x28x120 : Shape := ⟨3, ![1, 28, 120]⟩
abbrev S28x120 : Shape := ⟨2, ![28, 120]⟩
abbrev S12x2x128x120 : Shape := ⟨4, ![12, 2, 128, 120]⟩
abbrev S12x1x128x120 : Shape := ⟨4, ![12, 1, 128, 120]⟩
abbrev S1x1x120 : Shape := ⟨3, ![1, 1, 120]⟩
abbrev S5x5x10x20 : Shape := ⟨4, ![5, 5, 10, 20]⟩
abbrev S4 : Shape := ⟨1, ![4]⟩
abbrev S12x1 : Shape := ⟨2, ![12, 1]⟩
abbrev S1x4 : Shape := ⟨2, ![1, 4]⟩
abbrev S12x4 : Shape := ⟨2, ![12, 4]⟩
abbrev S12x4x1 : Shape := ⟨3, ![12, 4, 1]⟩
abbrev S5x12x4x10x20 : Shape := ⟨5, ![5, 12, 4, 10, 20]⟩
abbrev S1x12x4x1x1 : Shape := ⟨5, ![1, 12, 4, 1, 1]⟩
abbrev S5x12x10x4x20 : Shape := ⟨5, ![5, 12, 10, 4, 20]⟩
abbrev S5x120x80 : Shape := ⟨3, ![5, 120, 80]⟩
abbrev S1x20 : Shape := ⟨2, ![1, 20]⟩
abbrev S4x20 : Shape := ⟨2, ![4, 20]⟩
abbrev S80 : Shape := ⟨1, ![80]⟩
abbrev S1x80 : Shape := ⟨2, ![1, 80]⟩
abbrev S50x20x4x4 : Shape := ⟨4, ![50, 20, 4, 4]⟩
abbrev S4x4x20x50 : Shape := ⟨4, ![4, 4, 20, 50]⟩
abbrev S4x80x50 : Shape := ⟨3, ![4, 80, 50]⟩
abbrev S1x50 : Shape := ⟨2, ![1, 50]⟩
abbrev S50x10 : Shape := ⟨2, ![50, 10]⟩
abbrev S16384x10 : Shape := ⟨2, ![16384, 10]⟩
abbrev S128x10 : Shape := ⟨2, ![128, 10]⟩
abbrev S1024x80 : Shape := ⟨2, ![1024, 80]⟩
abbrev S8x128x120 : Shape := ⟨3, ![8, 128, 120]⟩
abbrev S1024x120 : Shape := ⟨2, ![1024, 120]⟩
abbrev S1x120x80 : Shape := ⟨3, ![1, 120, 80]⟩
abbrev S120x80 : Shape := ⟨2, ![120, 80]⟩
abbrev S4x2x128x80 : Shape := ⟨4, ![4, 2, 128, 80]⟩
abbrev S4x1x128x80 : Shape := ⟨4, ![4, 1, 128, 80]⟩
abbrev S4x128x80 : Shape := ⟨3, ![4, 128, 80]⟩
abbrev S1x1x80 : Shape := ⟨3, ![1, 1, 80]⟩
abbrev S128x50 : Shape := ⟨2, ![128, 50]⟩
abbrev S1x128x80 : Shape := ⟨3, ![1, 128, 80]⟩
abbrev S128x80 : Shape := ⟨2, ![128, 80]⟩
abbrev S1x80x50 : Shape := ⟨3, ![1, 80, 50]⟩
abbrev S80x50 : Shape := ⟨2, ![80, 50]⟩
abbrev S128 : Shape := ⟨1, ![128]⟩
abbrev S128x1 : Shape := ⟨2, ![128, 1]⟩

abbrev nBuf : Space → Nat
  | .hbm => 211
  | .vmem => 18
  | .smem => 0
  | _ => 0

abbrev hbmTy0_0 (i : Nat) : BufTy := match i % 128 with
  | 0 => ⟨S16384x1x28x28, .f32⟩
  | 1 => ⟨S10x1x5x5, .f32⟩
  | 2 => ⟨S10, .f32⟩
  | 3 => ⟨S20x10x5x5, .f32⟩
  | 4 => ⟨S20, .f32⟩
  | 5 => ⟨S50x320, .f32⟩
  | 6 => ⟨S50, .f32⟩
  | 7 => ⟨S10x50, .f32⟩
  | 8 => ⟨S10, .f32⟩
  | 9 => ⟨S16384x28x28, .f32⟩
  | 10 => ⟨S28x16384x28, .f32⟩
  | 11 => ⟨S5x5x1x10, .f32⟩
  | 12 => ⟨S28, .i32⟩
  | 13 => ⟨S12, .i32⟩
  | 14 => ⟨S_, .i32⟩
  | 15 => ⟨S12, .i32⟩
  | 16 => ⟨S12, .i32⟩
  | 17 => ⟨S_, .i32⟩
  | 18 => ⟨S12, .i32⟩
  | 19 => ⟨S12, .i32⟩
  | 20 => ⟨S28x1, .i32⟩
  | 21 => ⟨S1x12, .i32⟩
  | 22 => ⟨S28x12, .i32⟩
  | 23 => ⟨S28x12, .i32⟩
  | 24 => ⟨S28x12, .i32⟩
  | 25 => ⟨S_, .i32⟩
  | 26 => ⟨S28x12, .i32⟩
  | 27 => ⟨S28x12, .i1⟩
  | 28 => ⟨S_, .i32⟩
  | 29 => ⟨S28x12, .i32⟩
  | 30 => ⟨S28x12, .i1⟩
  | 31 => ⟨S28x12, .i1⟩
  | 32 => ⟨S_, .i32⟩
  | 33 => ⟨S_, .i32⟩
  | 34 => ⟨S_, .i32⟩
  | 35 => ⟨S28x12, .i32⟩
  | 36 => ⟨S28x12, .i32⟩
  | 37 => ⟨S_, .i32⟩
  | 38 => ⟨S28x12, .i32⟩
  | 39 => ⟨S28x12, .i32⟩
  | 40 => ⟨S_, .i32⟩
  | 41 => ⟨S28x12, .i32⟩
  | 42 => ⟨S28x12, .i1⟩
  | 43 => ⟨S_, .i32⟩
  | 44 => ⟨S28x12, .i32⟩
  | 45 => ⟨S28x12, .i32⟩
  | 46 => ⟨S28x12, .i32⟩
  | 47 => ⟨S28x12x1, .i32⟩
  | 48 => ⟨S5x28x12x1x10, .f32⟩
  | 49 => ⟨S1x28x12x1x1, .i1⟩
  | 50 => ⟨S_, .f32⟩
  | 51 => ⟨S_, .f32⟩
  | 52 => ⟨S5x28x12x1x10, .i1⟩
  | 53 => ⟨S5x28x12x1x10, .f32⟩
  | 54 => ⟨S5x28x12x1x10, .f32⟩
  | 55 => ⟨S5x28x1x12x10, .f32⟩
  | 56 => ⟨S5x28x120, .f32⟩
  | 57 => ⟨S5x5x1x10, .f32⟩
  | 58 => ⟨S28, .i32⟩
  | 59 => ⟨S12, .i32⟩
  | 60 => ⟨S_, .i32⟩
  | 61 => ⟨S12, .i32⟩
  | 62 => ⟨S12, .i32⟩
  | 63 => ⟨S_, .i32⟩
  | 64 => ⟨S12, .i32⟩
  | 65 => ⟨S12, .i32⟩
  | 66 => ⟨S28x1, .i32⟩
  | 67 => ⟨S1x12, .i32⟩
  | 68 => ⟨S28x12, .i32⟩
  | 69 => ⟨S28x12, .i32⟩
  | 70 => ⟨S28x12, .i32⟩
  | 71 => ⟨S_, .i32⟩
  | 72 => ⟨S28x12, .i32⟩
  | 73 => ⟨S28x12, .i1⟩
  | 74 => ⟨S_, .i32⟩
  | 75 => ⟨S28x12, .i32⟩
  | 76 => ⟨S28x12, .i1⟩
  | 77 => ⟨S28x12, .i1⟩
  | 78 => ⟨S_, .i32⟩
  | 79 => ⟨S_, .i32⟩
  | 80 => ⟨S_, .i32⟩
  | 81 => ⟨S28x12, .i32⟩
  | 82 => ⟨S28x12, .i32⟩
  | 83 => ⟨S_, .i32⟩
  | 84 => ⟨S28x12, .i32⟩
  | 85 => ⟨S28x12, .i32⟩
  | 86 => ⟨S_, .i32⟩
  | 87 => ⟨S28x12, .i32⟩
  | 88 => ⟨S28x12, .i1⟩
  | 89 => ⟨S_, .i32⟩
  | 90 => ⟨S28x12, .i32⟩
  | 91 => ⟨S28x12, .i32⟩
  | 92 => ⟨S28x12, .i32⟩
  | 93 => ⟨S28x12x1, .i32⟩
  | 94 => ⟨S5x28x12x1x10, .f32⟩
  | 95 => ⟨S1x28x12x1x1, .i1⟩
  | 96 => ⟨S_, .f32⟩
  | 97 => ⟨S_, .f32⟩
  | 98 => ⟨S5x28x12x1x10, .i1⟩
  | 99 => ⟨S5x28x12x1x10, .f32⟩
  | 100 => ⟨S5x28x12x1x10, .f32⟩
  | 101 => ⟨S5x28x1x12x10, .f32⟩
  | 102 => ⟨S5x28x120, .f32⟩
  | 103 => ⟨S1x10, .f32⟩
  | 104 => ⟨S12x10, .f32⟩
  | 105 => ⟨S120, .f32⟩
  | 106 => ⟨S1x120, .f32⟩
  | 107 => ⟨S12x16384x120, .f32⟩
  | 108 => ⟨S5x5x10x20, .f32⟩
  | 109 => ⟨S12, .i32⟩
  | 110 => ⟨S4, .i32⟩
  | 111 => ⟨S_, .i32⟩
  | 112 => ⟨S4, .i32⟩
  | 113 => ⟨S4, .i32⟩
  | 114 => ⟨S_, .i32⟩
  | 115 => ⟨S4, .i32⟩
  | 116 => ⟨S4, .i32⟩
  | 117 => ⟨S12x1, .i32⟩
  | 118 => ⟨S1x4, .i32⟩
  | 119 => ⟨S12x4, .i32⟩
  | 120 => ⟨S12x4, .i32⟩
  | 121 => ⟨S12x4, .i32⟩
  | 122 => ⟨S_, .i32⟩
  | 123 => ⟨S12x4, .i32⟩
  | 124 => ⟨S12x4, .i1⟩
  | 125 => ⟨S_, .i32⟩
  | 126 => ⟨S12x4, .i32⟩
  | 127 => ⟨S12x4, .i1⟩
  | _ => ⟨S16384x1x28x28, .f32⟩

abbrev hbmTy0_1 (i : Nat) : BufTy := match i % 128 with
  | 0 => ⟨S12x4, .i1⟩
  | 1 => ⟨S_, .i32⟩
  | 2 => ⟨S_, .i32⟩
  | 3 => ⟨S_, .i32⟩
  | 4 => ⟨S12x4, .i32⟩
  | 5 => ⟨S12x4, .i32⟩
  | 6 => ⟨S_, .i32⟩
  | 7 => ⟨S12x4, .i32⟩
  | 8 => ⟨S12x4, .i32⟩
  | 9 => ⟨S_, .i32⟩
  | 10 => ⟨S12x4, .i32⟩
  | 11 => ⟨S12x4, .i1⟩
  | 12 => ⟨S_, .i32⟩
  | 13 => ⟨S12x4, .i32⟩
  | 14 => ⟨S12x4, .i32⟩
  | 15 => ⟨S12x4, .i32⟩
  | 16 => ⟨S12x4x1, .i32⟩
  | 17 => ⟨S5x12x4x10x20, .f32⟩
  | 18 => ⟨S1x12x4x1x1, .i1⟩
  | 19 => ⟨S_, .f32⟩
  | 20 => ⟨S_, .f32⟩
  | 21 => ⟨S5x12x4x10x20, .i1⟩
  | 22 => ⟨S5x12x4x10x20, .f32⟩
  | 23 => ⟨S5x12x4x10x20, .f32⟩
  | 24 => ⟨S5x12x10x4x20, .f32⟩
  | 25 => ⟨S5x120x80, .f32⟩
  | 26 => ⟨S5x5x10x20, .f32⟩
  | 27 => ⟨S12, .i32⟩
  | 28 => ⟨S4, .i32⟩
  | 29 => ⟨S_, .i32⟩
  | 30 => ⟨S4, .i32⟩
  | 31 => ⟨S4, .i32⟩
  | 32 => ⟨S_, .i32⟩
  | 33 => ⟨S4, .i32⟩
  | 34 => ⟨S4, .i32⟩
  | 35 => ⟨S12x1, .i32⟩
  | 36 => ⟨S1x4, .i32⟩
  | 37 => ⟨S12x4, .i32⟩
  | 38 => ⟨S12x4, .i32⟩
  | 39 => ⟨S12x4, .i32⟩
  | 40 => ⟨S_, .i32⟩
  | 41 => ⟨S12x4, .i32⟩
  | 42 => ⟨S12x4, .i1⟩
  | 43 => ⟨S_, .i32⟩
  | 44 => ⟨S12x4, .i32⟩
  | 45 => ⟨S12x4, .i1⟩
  | 46 => ⟨S12x4, .i1⟩
  | 47 => ⟨S_, .i32⟩
  | 48 => ⟨S_, .i32⟩
  | 49 => ⟨S_, .i32⟩
  | 50 => ⟨S12x4, .i32⟩
  | 51 => ⟨S12x4, .i32⟩
  | 52 => ⟨S_, .i32⟩
  | 53 => ⟨S12x4, .i32⟩
  | 54 => ⟨S12x4, .i32⟩
  | 55 => ⟨S_, .i32⟩
  | 56 => ⟨S12x4, .i32⟩
  | 57 => ⟨S12x4, .i1⟩
  | 58 => ⟨S_, .i32⟩
  | 59 => ⟨S12x4, .i32⟩
  | 60 => ⟨S12x4, .i32⟩
  | 61 => ⟨S12x4, .i32⟩
  | 62 => ⟨S12x4x1, .i32⟩
  | 63 => ⟨S5x12x4x10x20, .f32⟩
  | 64 => ⟨S1x12x4x1x1, .i1⟩
  | 65 => ⟨S_, .f32⟩
  | 66 => ⟨S_, .f32⟩
  | 67 => ⟨S5x12x4x10x20, .i1⟩
  | 68 => ⟨S5x12x4x10x20, .f32⟩
  | 69 => ⟨S5x12x4x10x20, .f32⟩
  | 70 => ⟨S5x12x10x4x20, .f32⟩
  | 71 => ⟨S5x120x80, .f32⟩
  | 72 => ⟨S1x20, .f32⟩
  | 73 => ⟨S4x20, .f32⟩
  | 74 => ⟨S80, .f32⟩
  | 75 => ⟨S1x80, .f32⟩
  | 76 => ⟨S50x20x4x4, .f32⟩
  | 77 => ⟨S4x4x20x50, .f32⟩
  | 78 => ⟨S4x80x50, .f32⟩
  | 79 => ⟨S1x50, .f32⟩
  | 80 => ⟨S50x10, .f32⟩
  | 81 => ⟨S1x10, .f32⟩
  | 82 => ⟨S16384x10, .f32⟩
  | _ => ⟨S16384x1x28x28, .f32⟩

abbrev hbmTy (i : Nat) : BufTy := match i / 128 with
  | 0 => hbmTy0_0 i
  | 1 => hbmTy0_1 i
  | _ => ⟨S16384x1x28x28, .f32⟩

abbrev bufTy : (tb : Table) → Fin (tcTables nBuf tb) → BufTy
  | .hbm, ⟨i, _⟩ => hbmTy i
  | .local _ .vmem, ⟨0, _⟩ => ⟨S28x128x28, .f32⟩
  | .local _ .vmem, ⟨1, _⟩ => ⟨S28x128x28, .f32⟩
  | .local _ .vmem, ⟨2, _⟩ => ⟨S5x28x120, .f32⟩
  | .local _ .vmem, ⟨3, _⟩ => ⟨S5x28x120, .f32⟩
  | .local _ .vmem, ⟨4, _⟩ => ⟨S1x120, .f32⟩
  | .local _ .vmem, ⟨5, _⟩ => ⟨S12x128x120, .f32⟩
  | .local _ .vmem, ⟨6, _⟩ => ⟨S12x128x120, .f32⟩
  | .local _ .vmem, ⟨7, _⟩ => ⟨S12x128x120, .f32⟩
  | .local _ .vmem, ⟨8, _⟩ => ⟨S12x128x120, .f32⟩
  | .local _ .vmem, ⟨9, _⟩ => ⟨S5x120x80, .f32⟩
  | .local _ .vmem, ⟨10, _⟩ => ⟨S5x120x80, .f32⟩
  | .local _ .vmem, ⟨11, _⟩ => ⟨S1x80, .f32⟩
  | .local _ .vmem, ⟨12, _⟩ => ⟨S4x80x50, .f32⟩
  | .local _ .vmem, ⟨13, _⟩ => ⟨S1x50, .f32⟩
  | .local _ .vmem, ⟨14, _⟩ => ⟨S50x10, .f32⟩
  | .local _ .vmem, ⟨15, _⟩ => ⟨S1x10, .f32⟩
  | .local _ .vmem, ⟨16, _⟩ => ⟨S128x10, .f32⟩
  | .local _ .vmem, ⟨17, _⟩ => ⟨S128x10, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_c_12 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v48 : Ref sig .tc := ⟨.hbm, 85, rfl⟩
abbrev main_c_13 : Ref sig .tc := ⟨.hbm, 86, rfl⟩
abbrev main_v49 : Ref sig .tc := ⟨.hbm, 87, rfl⟩
abbrev main_v50 : Ref sig .tc := ⟨.hbm, 88, rfl⟩
abbrev main_c_14 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_15 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_16 : Ref sig .tc := ⟨.hbm, 111, rfl⟩
abbrev main_v68 : Ref sig .tc := ⟨.hbm, 112, rfl⟩
abbrev main_v69 : Ref sig .tc := ⟨.hbm, 113, rfl⟩
abbrev main_c_17 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_c_19 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_20 : Ref sig .tc := ⟨.hbm, 129, rfl⟩
abbrev main_c_21 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_v82 : Ref sig .tc := ⟨.hbm, 136, rfl⟩
abbrev main_c_22 : Ref sig .tc := ⟨.hbm, 137, rfl⟩
abbrev main_v83 : Ref sig .tc := ⟨.hbm, 138, rfl⟩
abbrev main_v84 : Ref sig .tc := ⟨.hbm, 139, rfl⟩
abbrev main_c_23 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_24 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_25 : Ref sig .tc := ⟨.hbm, 157, rfl⟩
abbrev main_v97 : Ref sig .tc := ⟨.hbm, 158, rfl⟩
abbrev main_v98 : Ref sig .tc := ⟨.hbm, 159, rfl⟩
abbrev main_c_26 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_c_27 : Ref sig .tc := ⟨.hbm, 168, rfl⟩
abbrev main_v106 : Ref sig .tc := ⟨.hbm, 169, rfl⟩
abbrev main_v107 : Ref sig .tc := ⟨.hbm, 170, rfl⟩
abbrev main_c_28 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_c_29 : Ref sig .tc := ⟨.hbm, 175, rfl⟩
abbrev main_c_30 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_v111 : Ref sig .tc := ⟨.hbm, 182, rfl⟩
abbrev main_c_31 : Ref sig .tc := ⟨.hbm, 183, rfl⟩
abbrev main_v112 : Ref sig .tc := ⟨.hbm, 184, rfl⟩
abbrev main_v113 : Ref sig .tc := ⟨.hbm, 185, rfl⟩
abbrev main_c_32 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_33 : Ref sig .tc := ⟨.hbm, 193, rfl⟩
abbrev main_call7_v0 : Ref sig .tc := ⟨.hbm, 194, rfl⟩
abbrev main_call7_v1 : Ref sig .tc := ⟨.hbm, 195, rfl⟩
abbrev main_call7_v2 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S28x128x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x28x120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x28x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12x128x120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12x128x120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x120x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5x120x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x80x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S50x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S16384x1x28x28_S16384x28x28 : S16384x1x28x28.ShapeCasts S16384x28x28
  transposes_S16384x28x28_S28x16384x28_1_0_2 : S16384x28x28.Transposes [1, 0, 2] S28x16384x28
  transposes_S10x1x5x5_S5x5x1x10_2_3_1_0 : S10x1x5x5.Transposes [2, 3, 1, 0] S5x5x1x10
  bcast_S_S12 : S_.BroadcastsInDim S12 (![] : Fin 0 → Fin S12.rank)
  bcast_S28_S28x1_0 : S28.BroadcastsInDim S28x1 (![0] : Fin 1 → Fin S28x1.rank)
  bcast_S12_S1x12_1 : S12.BroadcastsInDim S1x12 (![1] : Fin 1 → Fin S1x12.rank)
  bcast_S28x1_S28x12_0_1 : S28x1.BroadcastsInDim S28x12 (![0, 1] : Fin 2 → Fin S28x12.rank)
  bcast_S1x12_S28x12_0_1 : S1x12.BroadcastsInDim S28x12 (![0, 1] : Fin 2 → Fin S28x12.rank)
  bcast_S_S28x12 : S_.BroadcastsInDim S28x12 (![] : Fin 0 → Fin S28x12.rank)
  bcast_S28x12_S28x12x1_0_1 : S28x12.BroadcastsInDim S28x12x1 (![0, 1] : Fin 2 → Fin S28x12x1.rank)
  bcast_S28x12_S1x28x12x1x1_1_2 : S28x12.BroadcastsInDim S1x28x12x1x1 (![1, 2] : Fin 2 → Fin S1x28x12x1x1.rank)
  bcast_S1x28x12x1x1_S5x28x12x1x10_0_1_2_3_4 : S1x28x12x1x1.BroadcastsInDim S5x28x12x1x10 (![0, 1, 2, 3, 4] : Fin 5 → Fin S5x28x12x1x10.rank)
  bcast_S_S5x28x12x1x10 : S_.BroadcastsInDim S5x28x12x1x10 (![] : Fin 0 → Fin S5x28x12x1x10.rank)
  transposes_S5x28x12x1x10_S5x28x1x12x10_0_1_3_2_4 : S5x28x12x1x10.Transposes [0, 1, 3, 2, 4] S5x28x1x12x10
  shapeCasts_S5x28x1x12x10_S5x28x120 : S5x28x1x12x10.ShapeCasts S5x28x120
  shapeCasts_S10_S1x10 : S10.ShapeCasts S1x10
  bcast_S1x10_S12x10_0_1 : S1x10.BroadcastsInDim S12x10 (![0, 1] : Fin 2 → Fin S12x10.rank)
  shapeCasts_S12x10_S120 : S12x10.ShapeCasts S120
  shapeCasts_S120_S1x120 : S120.ShapeCasts S1x120
  inb_S28x128x28_S24x128x28_0_0_0 : ∀ a, (![0, 0, 0] : Fin 3 → Nat) a + S24x128x28.size a ≤ S28x128x28.size a
  h_S24x128x28 : 0 < S24x128x28.numel
  shapeCasts_S24x128x28_S24x128x28 : S24x128x28.ShapeCasts S24x128x28
  shapeCasts_S24x128x28_S3072x28 : S24x128x28.ShapeCasts S3072x28
  inb_S5x28x120_S1x28x120_0_0_0 : ∀ a, (![0, 0, 0] : Fin 3 → Nat) a + S1x28x120.size a ≤ S5x28x120.size a
  h_S1x28x120 : 0 < S1x28x120.numel
  shapeCasts_S1x28x120_S28x120 : S1x28x120.ShapeCasts S28x120
  inb_S28x128x28_S24x128x28_1_0_0 : ∀ a, (![1, 0, 0] : Fin 3 → Nat) a + S24x128x28.size a ≤ S28x128x28.size a
  inb_S5x28x120_S1x28x120_1_0_0 : ∀ a, (![1, 0, 0] : Fin 3 → Nat) a + S1x28x120.size a ≤ S5x28x120.size a
  inb_S28x128x28_S24x128x28_2_0_0 : ∀ a, (![2, 0, 0] : Fin 3 → Nat) a + S24x128x28.size a ≤ S28x128x28.size a
  inb_S5x28x120_S1x28x120_2_0_0 : ∀ a, (![2, 0, 0] : Fin 3 → Nat) a + S1x28x120.size a ≤ S5x28x120.size a
  inb_S28x128x28_S24x128x28_3_0_0 : ∀ a, (![3, 0, 0] : Fin 3 → Nat) a + S24x128x28.size a ≤ S28x128x28.size a
  inb_S5x28x120_S1x28x120_3_0_0 : ∀ a, (![3, 0, 0] : Fin 3 → Nat) a + S1x28x120.size a ≤ S5x28x120.size a
  inb_S28x128x28_S24x128x28_4_0_0 : ∀ a, (![4, 0, 0] : Fin 3 → Nat) a + S24x128x28.size a ≤ S28x128x28.size a
  inb_S5x28x120_S1x28x120_4_0_0 : ∀ a, (![4, 0, 0] : Fin 3 → Nat) a + S1x28x120.size a ≤ S5x28x120.size a
  shapeCasts_S3072x120_S12x2x128x120 : S3072x120.ShapeCasts S12x2x128x120
  slices_S12x2x128x120_o0_0_0_0_S12x1x128x120 : S12x2x128x120.Slices ![0, 0, 0, 0] S12x1x128x120
  shapeCasts_S12x1x128x120_S12x128x120 : S12x1x128x120.ShapeCasts S12x128x120
  slices_S12x2x128x120_o0_1_0_0_S12x1x128x120 : S12x2x128x120.Slices ![0, 1, 0, 0] S12x1x128x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  shapeCasts_S1x120_S1x1x120 : S1x120.ShapeCasts S1x1x120
  broadcasts_S1x1x120_S12x128x120 : S1x1x120.Broadcasts S12x128x120
  inb_S12x128x120_S12x128x120_0_0_0 : ∀ a, (![0, 0, 0] : Fin 3 → Nat) a + S12x128x120.size a ≤ S12x128x120.size a
  h_S12x128x120 : 0 < S12x128x120.numel
  transposes_S20x10x5x5_S5x5x10x20_2_3_1_0 : S20x10x5x5.Transposes [2, 3, 1, 0] S5x5x10x20
  bcast_S_S4 : S_.BroadcastsInDim S4 (![] : Fin 0 → Fin S4.rank)
  bcast_S12_S12x1_0 : S12.BroadcastsInDim S12x1 (![0] : Fin 1 → Fin S12x1.rank)
  bcast_S4_S1x4_1 : S4.BroadcastsInDim S1x4 (![1] : Fin 1 → Fin S1x4.rank)
  bcast_S12x1_S12x4_0_1 : S12x1.BroadcastsInDim S12x4 (![0, 1] : Fin 2 → Fin S12x4.rank)
  bcast_S1x4_S12x4_0_1 : S1x4.BroadcastsInDim S12x4 (![0, 1] : Fin 2 → Fin S12x4.rank)
  bcast_S_S12x4 : S_.BroadcastsInDim S12x4 (![] : Fin 0 → Fin S12x4.rank)
  bcast_S12x4_S12x4x1_0_1 : S12x4.BroadcastsInDim S12x4x1 (![0, 1] : Fin 2 → Fin S12x4x1.rank)
  bcast_S12x4_S1x12x4x1x1_1_2 : S12x4.BroadcastsInDim S1x12x4x1x1 (![1, 2] : Fin 2 → Fin S1x12x4x1x1.rank)
  bcast_S1x12x4x1x1_S5x12x4x10x20_0_1_2_3_4 : S1x12x4x1x1.BroadcastsInDim S5x12x4x10x20 (![0, 1, 2, 3, 4] : Fin 5 → Fin S5x12x4x10x20.rank)
  bcast_S_S5x12x4x10x20 : S_.BroadcastsInDim S5x12x4x10x20 (![] : Fin 0 → Fin S5x12x4x10x20.rank)
  transposes_S5x12x4x10x20_S5x12x10x4x20_0_1_3_2_4 : S5x12x4x10x20.Transposes [0, 1, 3, 2, 4] S5x12x10x4x20
  shapeCasts_S5x12x10x4x20_S5x120x80 : S5x12x10x4x20.ShapeCasts S5x120x80
  shapeCasts_S20_S1x20 : S20.ShapeCasts S1x20
  bcast_S1x20_S4x20_0_1 : S1x20.BroadcastsInDim S4x20 (![0, 1] : Fin 2 → Fin S4x20.rank)
  shapeCasts_S4x20_S80 : S4x20.ShapeCasts S80
  shapeCasts_S80_S1x80 : S80.ShapeCasts S1x80
  shapeCasts_S50x320_S50x20x4x4 : S50x320.ShapeCasts S50x20x4x4
  transposes_S50x20x4x4_S4x4x20x50_2_3_1_0 : S50x20x4x4.Transposes [2, 3, 1, 0] S4x4x20x50
  shapeCasts_S4x4x20x50_S4x80x50 : S4x4x20x50.ShapeCasts S4x80x50
  shapeCasts_S50_S1x50 : S50.ShapeCasts S1x50
  transposes_S10x50_S50x10_1_0 : S10x50.Transposes [1, 0] S50x10
  inb_S12x128x120_S8x128x120_0_0_0 : ∀ a, (![0, 0, 0] : Fin 3 → Nat) a + S8x128x120.size a ≤ S12x128x120.size a
  h_S8x128x120 : 0 < S8x128x120.numel
  shapeCasts_S8x128x120_S8x128x120 : S8x128x120.ShapeCasts S8x128x120
  shapeCasts_S8x128x120_S1024x120 : S8x128x120.ShapeCasts S1024x120
  inb_S5x120x80_S1x120x80_0_0_0 : ∀ a, (![0, 0, 0] : Fin 3 → Nat) a + S1x120x80.size a ≤ S5x120x80.size a
  h_S1x120x80 : 0 < S1x120x80.numel
  shapeCasts_S1x120x80_S120x80 : S1x120x80.ShapeCasts S120x80
  inb_S12x128x120_S8x128x120_1_0_0 : ∀ a, (![1, 0, 0] : Fin 3 → Nat) a + S8x128x120.size a ≤ S12x128x120.size a
  inb_S5x120x80_S1x120x80_1_0_0 : ∀ a, (![1, 0, 0] : Fin 3 → Nat) a + S1x120x80.size a ≤ S5x120x80.size a
  inb_S12x128x120_S8x128x120_2_0_0 : ∀ a, (![2, 0, 0] : Fin 3 → Nat) a + S8x128x120.size a ≤ S12x128x120.size a
  inb_S5x120x80_S1x120x80_2_0_0 : ∀ a, (![2, 0, 0] : Fin 3 → Nat) a + S1x120x80.size a ≤ S5x120x80.size a
  inb_S12x128x120_S8x128x120_3_0_0 : ∀ a, (![3, 0, 0] : Fin 3 → Nat) a + S8x128x120.size a ≤ S12x128x120.size a
  inb_S5x120x80_S1x120x80_3_0_0 : ∀ a, (![3, 0, 0] : Fin 3 → Nat) a + S1x120x80.size a ≤ S5x120x80.size a
  inb_S12x128x120_S8x128x120_4_0_0 : ∀ a, (![4, 0, 0] : Fin 3 → Nat) a + S8x128x120.size a ≤ S12x128x120.size a
  inb_S5x120x80_S1x120x80_4_0_0 : ∀ a, (![4, 0, 0] : Fin 3 → Nat) a + S1x120x80.size a ≤ S5x120x80.size a
  shapeCasts_S1024x80_S4x2x128x80 : S1024x80.ShapeCasts S4x2x128x80
  slices_S4x2x128x80_o0_0_0_0_S4x1x128x80 : S4x2x128x80.Slices ![0, 0, 0, 0] S4x1x128x80
  shapeCasts_S4x1x128x80_S4x128x80 : S4x1x128x80.ShapeCasts S4x128x80
  slices_S4x2x128x80_o0_1_0_0_S4x1x128x80 : S4x2x128x80.Slices ![0, 1, 0, 0] S4x1x128x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  shapeCasts_S1x80_S1x1x80 : S1x80.ShapeCasts S1x1x80
  broadcasts_S1x1x80_S4x128x80 : S1x1x80.Broadcasts S4x128x80
  slices_S4x128x80_o0_0_0_S1x128x80 : S4x128x80.Slices ![0, 0, 0] S1x128x80
  shapeCasts_S1x128x80_S128x80 : S1x128x80.ShapeCasts S128x80
  inb_S4x80x50_S1x80x50_0_0_0 : ∀ a, (![0, 0, 0] : Fin 3 → Nat) a + S1x80x50.size a ≤ S4x80x50.size a
  h_S1x80x50 : 0 < S1x80x50.numel
  shapeCasts_S1x80x50_S80x50 : S1x80x50.ShapeCasts S80x50
  slices_S4x128x80_o1_0_0_S1x128x80 : S4x128x80.Slices ![1, 0, 0] S1x128x80
  inb_S4x80x50_S1x80x50_1_0_0 : ∀ a, (![1, 0, 0] : Fin 3 → Nat) a + S1x80x50.size a ≤ S4x80x50.size a
  slices_S4x128x80_o2_0_0_S1x128x80 : S4x128x80.Slices ![2, 0, 0] S1x128x80
  inb_S4x80x50_S1x80x50_2_0_0 : ∀ a, (![2, 0, 0] : Fin 3 → Nat) a + S1x80x50.size a ≤ S4x80x50.size a
  slices_S4x128x80_o3_0_0_S1x128x80 : S4x128x80.Slices ![3, 0, 0] S1x128x80
  inb_S4x80x50_S1x80x50_3_0_0 : ∀ a, (![3, 0, 0] : Fin 3 → Nat) a + S1x80x50.size a ≤ S4x80x50.size a
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S128x50 : S1x50.Broadcasts S128x50
  inb_S50x10_S50x10_0_0 : ∀ a, (![0, 0] : Fin 2 → Nat) a + S50x10.size a ≤ S50x10.size a
  h_S50x10 : 0 < S50x10.numel
  shapeCasts_S50x10_S50x10 : S50x10.ShapeCasts S50x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  gather_S5x5x1x10_S28x12x1_S5x28x12x1x10_034_1_n_n_1_2_51110_wf : GatherDims.WF S5x5x1x10 S28x12x1 S5x28x12x1x10 [0, 3, 4] [1] [] [1] [] 2 ![5, 1, 1, 10]
  dot_S3072x28_S28x120_S3072x120_1_0_0_1_n_n_wf : DotDims.WF S3072x28 S28x120 S3072x120 [1] [0] [0] [1] [] []
  gather_S5x5x10x20_S12x4x1_S5x12x4x10x20_034_1_n_n_1_2_511020_wf : GatherDims.WF S5x5x10x20 S12x4x1 S5x12x4x10x20 [0, 3, 4] [1] [] [1] [] 2 ![5, 1, 10, 20]
  dot_S1024x120_S120x80_S1024x80_1_0_0_1_n_n_wf : DotDims.WF S1024x120 S120x80 S1024x80 [1] [0] [0] [1] [] []
  dot_S128x80_S80x50_S128x50_1_0_0_1_n_n_wf : DotDims.WF S128x80 S80x50 S128x50 [1] [0] [0] [1] [] []
  dot_S128x50_S50x10_S128x10_1_0_0_1_n_n_wf : DotDims.WF S128x50 S50x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x128x28.size a ≤ S28x16384x28.size a
  hwx0_0 : ∀ i : grid0.Coords, EltTy.bits .f32 = 32 ∨ (Rect.block (s := S28x16384x28) S28x128x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x28x120.size a ≤ S5x28x120.size a
  hwx0_1 : ∀ i : grid0.Coords, EltTy.bits .f32 = 32 ∨ (Rect.block (s := S5x28x120) S5x28x120.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x28x120.size a ≤ S5x28x120.size a
  hwx0_2 : ∀ i : grid0.Coords, EltTy.bits .f32 = 32 ∨ (Rect.block (s := S5x28x120) S5x28x120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x120.size a ≤ S1x120.size a
  hwx0_3 : ∀ i : grid0.Coords, EltTy.bits .f32 = 32 ∨ (Rect.block (s := S1x120) S1x120.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12x128x120.size a ≤ S12x16384x120.size a
  hwx0_4 : ∀ i : grid0.Coords, EltTy.bits .f32 = 32 ∨ (Rect.block (s := S12x16384x120) S12x128x120.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12x128x120.size a ≤ S12x16384x120.size a
  hwx1_0 : ∀ i : grid1.Coords, EltTy.bits .f32 = 32 ∨ (Rect.block (s := S12x16384x120) S12x128x120.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x120x80.size a ≤ S5x120x80.size a
  hwx1_1 : ∀ i : grid1.Coords, EltTy.bits .f32 = 32 ∨ (Rect.block (s := S5x120x80) S5x120x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x120x80.size a ≤ S5x120x80.size a
  hwx1_2 : ∀ i : grid1.Coords, EltTy.bits .f32 = 32 ∨ (Rect.block (s := S5x120x80) S5x120x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x80x50.size a ≤ S4x80x50.size a
  hwx1_4 : ∀ i : grid1.Coords, EltTy.bits .f32 = 32 ∨ (Rect.block (s := S4x80x50) S4x80x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x50.size a ≤ S1x50.size a
  hwx1_5 : ∀ i : grid1.Coords, EltTy.bits .f32 = 32 ∨ (Rect.block (s := S1x50) S1x50.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S50x10.size a ≤ S50x10.size a
  hwx1_6 : ∀ i : grid1.Coords, EltTy.bits .f32 = 32 ∨ (Rect.block (s := S50x10) S50x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x10.size a ≤ S16384x10.size a
  hwx1_8 : ∀ i : grid1.Coords, EltTy.bits .f32 = 32 ∨ (Rect.block (s := S16384x10) S128x10.size (cc1_transform_8 i) (hinb1_8 i)).WholeWords (EltTy.packing .f32)

variable [Facts₀]

def gather_S5x5x1x10_S28x12x1_S5x28x12x1x10_034_1_n_n_1_2_51110 : GatherDims S5x5x1x10 S28x12x1 S5x28x12x1x10 where
  offsetDims := [0, 3, 4]
  collapsedSliceDims := [1]
  operandBatchingDims := []
  startIndicesBatchingDims := []
  startIndexMap := [1]
  indexVectorDim := 2
  sliceSizes := ![5, 1, 1, 10]
  wf := gather_S5x5x1x10_S28x12x1_S5x28x12x1x10_034_1_n_n_1_2_51110_wf
def dot_S3072x28_S28x120_S3072x120_1_0_0_1_n_n : DotDims S3072x28 S28x120 S3072x120 where
  lhsContracting := [1]
  rhsContracting := [0]
  lhsNonContracting := [0]
  rhsNonContracting := [1]
  lhsBatch := []
  rhsBatch := []
  wf := dot_S3072x28_S28x120_S3072x120_1_0_0_1_n_n_wf
def gather_S5x5x10x20_S12x4x1_S5x12x4x10x20_034_1_n_n_1_2_511020 : GatherDims S5x5x10x20 S12x4x1 S5x12x4x10x20 where
  offsetDims := [0, 3, 4]
  collapsedSliceDims := [1]
  operandBatchingDims := []
  startIndicesBatchingDims := []
  startIndexMap := [1]
  indexVectorDim := 2
  sliceSizes := ![5, 1, 10, 20]
  wf := gather_S5x5x10x20_S12x4x1_S5x12x4x10x20_034_1_n_n_1_2_511020_wf
def dot_S1024x120_S120x80_S1024x80_1_0_0_1_n_n : DotDims S1024x120 S120x80 S1024x80 where
  lhsContracting := [1]
  rhsContracting := [0]
  lhsNonContracting := [0]
  rhsNonContracting := [1]
  lhsBatch := []
  rhsBatch := []
  wf := dot_S1024x120_S120x80_S1024x80_1_0_0_1_n_n_wf
def dot_S128x80_S80x50_S128x50_1_0_0_1_n_n : DotDims S128x80 S80x50 S128x50 where
  lhsContracting := [1]
  rhsContracting := [0]
  lhsNonContracting := [0]
  rhsNonContracting := [1]
  lhsBatch := []
  rhsBatch := []
  wf := dot_S128x80_S80x50_S128x50_1_0_0_1_n_n_wf
def dot_S128x50_S50x10_S128x10_1_0_0_1_n_n : DotDims S128x50 S50x10 S128x10 where
  lhsContracting := [1]
  rhsContracting := [0]
  lhsNonContracting := [0]
  rhsNonContracting := [1]
  lhsBatch := []
  rhsBatch := []
  wf := dot_S128x50_S50x10_S128x10_1_0_0_1_n_n_wf

abbrev win0_0 : Pipeline.Window sig grid0 :=
  Pipeline.Window.ofSpec (Memref.whole main_v1) S28x128x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5x28x120.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S5x28x120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S12x128x120.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v64) S12x128x120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S5x120x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v122) S5x120x80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v126) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v129) S4x80x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v130) S1x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v131) S50x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v132) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v133) S128x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== Proof.KernelHost.lean ====
/-
  The small convolutional network's single-launch program, host side. The program's entry function is a long straight
  line of host operations (the input image batch transposed to rows-by-batch, cast, padded and flattened to 896 rows;
  the two banded weight matrices, the permuted dense weights and the bias columns built from the parameters), then ONE
  launch over 8 batch blocks of 2048 columns, then one transpose of the 10 x 16384 result.
  Here: the lines before the launch as one list; the entry function reduced to "lines, launch, line"; no line writes an
  argument array, before or after the launch; an operand's block at a grid point; and the statement that a run ending
  in the launch theorem's post leaves all nine argument arrays as they were. Everything is stated for any float
  instance.
-/
import proofs.«138577_g2000503492652488_pallasbulk_942_42_alg».proof.Proof.Gen.Kernel.Launch
import proofs.«138577_g2000503492652488_pallasbulk_942_42_alg».proof.Proof.Gen.Kernel.Skeleton
import proofs.«138577_g2000503492652488_pallasbulk_942_42_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The host lines before the launch, stretch by stretch, in program order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]

/-- What a core's buffers hold when the launch is reached: the lines before it applied to the initial memory. -/
abbrev V0 (c : Dev nD) : Valuation τ sig (Elt F) := StableHlo.after (pre (F := F)).flatten (fun b => m (c, b))
/-- The same, read at a TensorCore reference. -/
abbrev V (c : Dev nD) (b : Ref sig .tc) : Buf (Elt F) ((c : Thread nD τ).loc b) := V0 m c (Proc.devRef .tc b)

/-- Every line before the launch touches TensorCore references only. -/
theorem pre_sub : (pre (F := F)).Forall fun ops => ops.Forall fun op => op.bufs ⊆ StableHlo.tcRefs τ sig := by
  simp only [pre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub⟩

/-- No line before the launch allocates. -/
theorem pre_fresh : (pre (F := F)).Forall fun ops => ops.Forall fun op => op.fresh = ∅ := by
  simp only [pre, List.Forall]; repeat' constructor

theorem post_fresh : (hostOps1 : List (HloOp τ sig (Elt F))).Forall fun op => op.fresh = ∅ := by
  simp only [List.Forall]; repeat' constructor

/-- The entry function is the lines before the launch, the launch, and the one line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The line after the launch touches the launch's operand arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp post_fresh) op hop
/-- And it writes its own result only, which is no operand array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are written by no line -/

/-- No line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 0 ends as it started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 1 ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 2 ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 3 ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 4 ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 5 ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 6 ends as it started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 7 ends as it started. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 8 ends as it started. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## An operand's block at a grid point -/

/-- Operand `w`'s block at grid point `t`, read off the operand's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0's staging buffer holds its block at every grid point, whether the block was fetched at that point
    or is still there from an earlier one (its block index does not move), for any proof data over these arrays whose
    body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1's staging buffer holds its block at every grid point, whether the block was fetched at that point
    or is still there from an earlier one (its block index does not move), for any proof data over these arrays whose
    body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2's staging buffer holds its block at every grid point, whether the block was fetched at that point
    or is still there from an earlier one (its block index does not move), for any proof data over these arrays whose
    body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3's staging buffer holds its block at every grid point, whether the block was fetched at that point
    or is still there from an earlier one (its block index does not move), for any proof data over these arrays whose
    body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4's staging buffer holds its block at every grid point, whether the block was fetched at that point
    or is still there from an earlier one (its block index does not move), for any proof data over these arrays whose
    body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5's staging buffer holds its block at every grid point, whether the block was fetched at that point
    or is still there from an earlier one (its block index does not move), for any proof data over these arrays whose
    body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input operand 6's staging buffer holds its block at every grid point, whether the block was fetched at that point
    or is still there from an earlier one (its block index does not move), for any proof data over these arrays whose
    body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input operand 7's staging buffer holds its block at every grid point, whether the block was fetched at that point
    or is still there from an earlier one (its block index does not move), for any proof data over these arrays whose
    body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input operand 8's staging buffer holds its block at every grid point, whether the block was fetched at that point
    or is still there from an earlier one (its block index does not move), for any proof data over these arrays whose
    body leaves the block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends in the launch theorem's post (every operand array at what the write-backs left, every other
    unscoped buffer as the line after the launch leaves it): all nine argument arrays are as at the start. None of
    them is an operand array of the launch — each operand is computed by the host lines — so each is read through the
    second clause of that post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.Kernel.Net

end
-- ==== Proof.KernelBody.lean ====
/-
  The small convolutional network's single-launch program: the launched function and the run.
  At one grid point the launched function reads its nine operand blocks whole (the 896 x 2048 block of image rows by
  batch columns, the two banded weight matrices, the two dense weight matrices, the four bias columns) and stores one
  10 x 2048 block: six 4-row groups of the first convolution (a product with the first banded matrix, maxima over
  column parity and over row pairs, bias, clamp at zero), eight rows of the second convolution (a product with the
  second banded matrix over five stacked rows of the first layer's result, the same maxima, bias, clamp), the two
  dense layers, and the log of the normalised exponentials down each column.
  Here: that value as ONE term of the nine blocks (`netBlock`), the function's triple found by running it, the proof
  data naming what each staging buffer holds after each point, the per-point obligation, the whole run with the
  launch theorem's post, and the frame statement. Everything is stated for any float instance.
-/
import proofs.«138577_g2000503492652488_pallasbulk_942_42_alg».proof.Proof.KernelHost

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launched function's accesses: every operand block is read whole, the result block is stored whole -/

abbrev rIn0 : Rect S896x2048 := Rect.unit (s := S896x2048) ![0, 0] S896x2048.size inb_S896x2048_S896x2048_0_0
abbrev rIn1 : Rect S960x256 := Rect.unit (s := S960x256) ![0, 0] S960x256.size inb_S960x256_S960x256_0_0
abbrev rIn2 : Rect S160x600 := Rect.unit (s := S160x600) ![0, 0] S160x600.size inb_S160x600_S160x600_0_0
abbrev rIn3 : Rect S50x320 := Rect.unit (s := S50x320) ![0, 0] S50x320.size inb_S50x320_S50x320_0_0
abbrev rIn4 : Rect S10x50 := Rect.unit (s := S10x50) ![0, 0] S10x50.size inb_S10x50_S10x50_0_0
abbrev rIn5 : Rect S120x1 := Rect.unit (s := S120x1) ![0, 0] S120x1.size inb_S120x1_S120x1_0_0
abbrev rIn6 : Rect S80x1 := Rect.unit (s := S80x1) ![0, 0] S80x1.size inb_S80x1_S80x1_0_0
abbrev rIn7 : Rect S50x1 := Rect.unit (s := S50x1) ![0, 0] S50x1.size inb_S50x1_S50x1_0_0
abbrev rIn8 : Rect S10x1 := Rect.unit (s := S10x1) ![0, 0] S10x1.size inb_S10x1_S10x1_0_0
abbrev rOut : Rect S10x2048 := Rect.unit (s := S10x2048) ![0, 0] S10x2048.size inb_S10x2048_S10x2048_0_0

/-! ## The stored block as one term of the operand blocks -/

/-- The 10 x 2048 block the function stores, from its nine operand blocks: x0 the image rows (896 x 2048), x1 and x2 the
    banded matrices of the two convolutions, x3 and x4 the dense weights, x5 … x8 the bias columns. The steps are the
    function's own intermediate values in program order; the first-layer bias column is read afresh for each of the
    twelve pooled rows and the second-layer one for each of the four, always the same column. -/
def netBlock (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) : FVec F S10x2048 .f32 :=
  let a0 := View.ld x0 rIn0; let a1 := View.ld x1 rIn1; let a2 := View.ld x2 rIn2; let a3 := View.ld x3 rIn3
  let a4 := View.ld x4 rIn4; let a5 := View.ld x5 rIn5; let a6 := View.ld x6 rIn6; let a7 := View.ld x7 rIn7
  let a8 := View.ld x8 rIn8
  let v1 := k0_pay2 a0; let v3 := k0_pay3 a1
  let v23 := k0_pay5 a0 a1 a5; let v31 := k0_pay6 a0 a1 a5; let v40 := k0_pay8 a0 a1; let v43 := k0_pay9 a0 a1
  let v51 := k0_pay10 v40 a5; let v59 := k0_pay11 v43 a5; let v79 := k0_pay13 v1 v3 a5; let v87 := k0_pay14 v1 v3 a5
  let v91 := k0_pay16 v1 v3; let v92 := k0_pay17 v1 v3
  let v107 := k0_pay19 v91 v92 a5; let v115 := k0_pay20 v91 v92 a5; let v135 := k0_pay22 v1 v3 a5; let v140 := k0_pay23 v1 v3 a5
  let v172 := k0_pay24 v1 v3 v23 v31 v51 v59 v79 v87 v107 v115 v135 v140 a5 a5
  let v174 := k0_pay25 a2
  let v180 := k0_pay26 v1 v3 v23 v31 v51 v59 v79 v87 v107 v115 v135 v140 a5 a5 a2
  let v186 := k0_pay27 v1 v3 v23 v31 v51 v59 v79 v87 v107 v115 v135 v140 a5 a5 a2
  let v187 := k0_pay28 v1 v3 v23 v31 v51 v59 v79 v87 v107 v115 v135 v140 a5 a5
  let z160 : FVec F S160x2048 .f32 := constant S160x2048 .f32 0x00000000#32
  let v204 := k0_pay29 v172 v174; let v210 := k0_pay30 v172 v174; let v216 := k0_pay31 v172 v174; let v222 := k0_pay32 v172 v174
  let v231 := k0_pay33 v180 v186 a6; let v237 := k0_pay34 v172 v174 v187 z160 a6
  let v276 := k0_pay35 v204 v210 v216 v222 v231 v237 a6 a6 a3 a7 a4 a8
  let v278 := k0_pay36 v204 v210 v216 v222 v231 v237 a6 a6 a3 a7 a4 a8
  k0_pay1 v276 v278

/-- The result operand's staging buffer after the function: its one whole-block store. -/
def outBlock (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) : Vec F S10x2048 .f32 :=
  View.canon [⟨rOut, netBlock x0 x1 x2 x3 x4 x5 x6 x7 x8⟩]

/-- The one store covers the buffer. -/
theorem cover_out (p0 : Vec F S10x2048 .f32) (y : S10x2048.Idx) :
    ∃ pc ∈ ([⟨rOut, p0⟩] : List (View.Piece (Elt F) S10x2048 .f32)), y ∈ pc.1.set :=
  View.cover_of_tiled [⟨rOut, p0⟩] S10x2048.size (by rfl) y

/-! ## The function's triple -/

set_option maxHeartbeats 2000000 in
/-- On whole staging memrefs, the nine inputs' at contents `xK` and the result's at anything, the launched function runs
    to its continuation holding the inputs' as they were and the result's at `outBlock` of the inputs. -/
theorem sound_kernel (c : Dev nD) (E : Set ℕ) (i : grid0.Coords) (arg1 : Memref sig .tc .vmem S896x2048 .bf16) (harg1 : arg1.IsWhole) (arg2 : Memref sig .tc .vmem S960x256 .bf16) (harg2 : arg2.IsWhole) (arg3 : Memref sig .tc .vmem S160x600 .bf16) (harg3 : arg3.IsWhole) (arg4 : Memref sig .tc .vmem S50x320 .bf16) (harg4 : arg4.IsWhole) (arg5 : Memref sig .tc .vmem S10x50 .bf16) (harg5 : arg5.IsWhole) (arg6 : Memref sig .tc .vmem S120x1 .f32) (harg6 : arg6.IsWhole) (arg7 : Memref sig .tc .vmem S80x1 .f32) (harg7 : arg7.IsWhole) (arg8 : Memref sig .tc .vmem S50x1 .f32) (harg8 : arg8.IsWhole) (arg9 : Memref sig .tc .vmem S10x1 .f32) (harg9 : arg9.IsWhole) (arg10 : Memref sig .tc .vmem S10x2048 .f32) (harg10 : arg10.IsWhole)
    (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__lenet_body i arg1 harg1 arg2 harg2 arg3 harg3 arg4 harg4 arg5 harg5 arg6 harg6 arg7 harg7 arg8 harg8 arg9 harg9 arg10 harg10) K := by
  simp only [cc0__lenet_body_eq_skeleton]; unfold cc0__lenet_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data -/

/-- On core `c`: the operand arrays as the launch finds them; after the function at point `t` each input's staging buffer
    still at its block and the result's at `outBlock` of the nine blocks; the invariant is the untouched rest; nothing
    is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The obligation at a grid point -/

/-- What the function is called with at point `t`, operand by operand, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' staging buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function terminates without a fault,
    every operand array of the launch at what the write-backs of the proof data leave, every other unscoped buffer as
    the line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its nine argument arrays as they were, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Net

end
-- ==== Proof.KernelIdealHost.lean ====
/-
  The small convolutional network's single-launch program, host side. The program's entry function is a long straight
  line of host operations (the input image batch transposed to rows-by-batch, cast, padded and flattened to 896 rows;
  the two banded weight matrices, the permuted dense weights and the bias columns built from the parameters), then ONE
  launch over 8 batch blocks of 2048 columns, then one transpose of the 10 x 16384 result.
  Here: the lines before the launch as one list; the entry function reduced to "lines, launch, line"; no line writes an
  argument array, before or after the launch; an operand's block at a grid point; and the statement that a run ending
  in the launch theorem's post leaves all nine argument arrays as they were. Everything is stated for any float
  instance.
-/
import proofs.«138577_g2000503492652488_pallasbulk_942_42_alg».proof.Proof.Gen.KernelIdeal.Launch
import proofs.«138577_g2000503492652488_pallasbulk_942_42_alg».proof.Proof.Gen.KernelIdeal.Skeleton
import proofs.«138577_g2000503492652488_pallasbulk_942_42_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The host lines before the launch, stretch by stretch, in program order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]

/-- What a core's buffers hold when the launch is reached: the lines before it applied to the initial memory. -/
abbrev V0 (c : Dev nD) : Valuation τ sig (Elt F) := StableHlo.after (pre (F := F)).flatten (fun b => m (c, b))
/-- The same, read at a TensorCore reference. -/
abbrev V (c : Dev nD) (b : Ref sig .tc) : Buf (Elt F) ((c : Thread nD τ).loc b) := V0 m c (Proc.devRef .tc b)

/-- Every line before the launch touches TensorCore references only. -/
theorem pre_sub : (pre (F := F)).Forall fun ops => ops.Forall fun op => op.bufs ⊆ StableHlo.tcRefs τ sig := by
  simp only [pre, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub⟩

/-- No line before the launch allocates. -/
theorem pre_fresh : (pre (F := F)).Forall fun ops => ops.Forall fun op => op.fresh = ∅ := by
  simp only [pre, List.Forall]; repeat' constructor

theorem post_fresh : (hostOps1 : List (HloOp τ sig (Elt F))).Forall fun op => op.fresh = ∅ := by
  simp only [List.Forall]; repeat' constructor

/-- The entry function is the lines before the launch, the launch, and the one line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The line after the launch touches the launch's operand arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp post_fresh) op hop
/-- And it writes its own result only, which is no operand array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are written by no line -/

/-- No line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 0 ends as it started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 1 ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 2 ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 3 ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 4 ends as it started. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 5 ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 6 ends as it started. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 7 ends as it started. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the line after it: argument 8 ends as it started. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## An operand's block at a grid point -/

/-- Operand `w`'s block at grid point `t`, read off the operand's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0's staging buffer holds its block at every grid point, whether the block was fetched at that point
    or is still there from an earlier one (its block index does not move), for any proof data over these arrays whose
    body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1's staging buffer holds its block at every grid point, whether the block was fetched at that point
    or is still there from an earlier one (its block index does not move), for any proof data over these arrays whose
    body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2's staging buffer holds its block at every grid point, whether the block was fetched at that point
    or is still there from an earlier one (its block index does not move), for any proof data over these arrays whose
    body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3's staging buffer holds its block at every grid point, whether the block was fetched at that point
    or is still there from an earlier one (its block index does not move), for any proof data over these arrays whose
    body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4's staging buffer holds its block at every grid point, whether the block was fetched at that point
    or is still there from an earlier one (its block index does not move), for any proof data over these arrays whose
    body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5's staging buffer holds its block at every grid point, whether the block was fetched at that point
    or is still there from an earlier one (its block index does not move), for any proof data over these arrays whose
    body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input operand 6's staging buffer holds its block at every grid point, whether the block was fetched at that point
    or is still there from an earlier one (its block index does not move), for any proof data over these arrays whose
    body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input operand 7's staging buffer holds its block at every grid point, whether the block was fetched at that point
    or is still there from an earlier one (its block index does not move), for any proof data over these arrays whose
    body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input operand 8's staging buffer holds its block at every grid point, whether the block was fetched at that point
    or is still there from an earlier one (its block index does not move), for any proof data over these arrays whose
    body leaves the block in place. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends in the launch theorem's post (every operand array at what the write-backs left, every other
    unscoped buffer as the line after the launch leaves it): all nine argument arrays are as at the start. None of
    them is an operand array of the launch — each operand is computed by the host lines — so each is read through the
    second clause of that post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.KernelIdeal.Net

end
-- ==== Proof.KernelIdealBody.lean ====
/-
  The small convolutional network's single-launch program: the launched function and the run.
  At one grid point the launched function reads its nine operand blocks whole (the 896 x 2048 block of image rows by
  batch columns, the two banded weight matrices, the two dense weight matrices, the four bias columns) and stores one
  10 x 2048 block: six 4-row groups of the first convolution (a product with the first banded matrix, maxima over
  column parity and over row pairs, bias, clamp at zero), eight rows of the second convolution (a product with the
  second banded matrix over five stacked rows of the first layer's result, the same maxima, bias, clamp), the two
  dense layers, and the log of the normalised exponentials down each column.
  Here: that value as ONE term of the nine blocks (`netBlock`), the function's triple found by running it, the proof
  data naming what each staging buffer holds after each point, the per-point obligation, the whole run with the
  launch theorem's post, and the frame statement. Everything is stated for any float instance.
-/
import proofs.«138577_g2000503492652488_pallasbulk_942_42_alg».proof.Proof.KernelIdealHost

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launched function's accesses: every operand block is read whole, the result block is stored whole -/

abbrev rIn0 : Rect S896x2048 := Rect.unit (s := S896x2048) ![0, 0] S896x2048.size inb_S896x2048_S896x2048_0_0
abbrev rIn1 : Rect S960x256 := Rect.unit (s := S960x256) ![0, 0] S960x256.size inb_S960x256_S960x256_0_0
abbrev rIn2 : Rect S160x600 := Rect.unit (s := S160x600) ![0, 0] S160x600.size inb_S160x600_S160x600_0_0
abbrev rIn3 : Rect S50x320 := Rect.unit (s := S50x320) ![0, 0] S50x320.size inb_S50x320_S50x320_0_0
abbrev rIn4 : Rect S10x50 := Rect.unit (s := S10x50) ![0, 0] S10x50.size inb_S10x50_S10x50_0_0
abbrev rIn5 : Rect S120x1 := Rect.unit (s := S120x1) ![0, 0] S120x1.size inb_S120x1_S120x1_0_0
abbrev rIn6 : Rect S80x1 := Rect.unit (s := S80x1) ![0, 0] S80x1.size inb_S80x1_S80x1_0_0
abbrev rIn7 : Rect S50x1 := Rect.unit (s := S50x1) ![0, 0] S50x1.size inb_S50x1_S50x1_0_0
abbrev rIn8 : Rect S10x1 := Rect.unit (s := S10x1) ![0, 0] S10x1.size inb_S10x1_S10x1_0_0
abbrev rOut : Rect S10x2048 := Rect.unit (s := S10x2048) ![0, 0] S10x2048.size inb_S10x2048_S10x2048_0_0

/-! ## The stored block as one term of the operand blocks -/

/-- The 10 x 2048 block the function stores, from its nine operand blocks: x0 the image rows (896 x 2048), x1 and x2 the
    banded matrices of the two convolutions, x3 and x4 the dense weights, x5 … x8 the bias columns. The steps are the
    function's own intermediate values in program order; the first-layer bias column is read afresh for each of the
    twelve pooled rows and the second-layer one for each of the four, always the same column. -/
def netBlock (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) : FVec F S10x2048 .f32 :=
  let a0 := View.ld x0 rIn0; let a1 := View.ld x1 rIn1; let a2 := View.ld x2 rIn2; let a3 := View.ld x3 rIn3
  let a4 := View.ld x4 rIn4; let a5 := View.ld x5 rIn5; let a6 := View.ld x6 rIn6; let a7 := View.ld x7 rIn7
  let a8 := View.ld x8 rIn8
  let v1 := k0_pay2 a0; let v3 := k0_pay3 a1
  let v23 := k0_pay5 a0 a1 a5; let v31 := k0_pay6 a0 a1 a5; let v40 := k0_pay8 a0 a1; let v43 := k0_pay9 a0 a1
  let v51 := k0_pay10 v40 a5; let v59 := k0_pay11 v43 a5; let v79 := k0_pay13 v1 v3 a5; let v87 := k0_pay14 v1 v3 a5
  let v91 := k0_pay16 v1 v3; let v92 := k0_pay17 v1 v3
  let v107 := k0_pay19 v91 v92 a5; let v115 := k0_pay20 v91 v92 a5; let v135 := k0_pay22 v1 v3 a5; let v140 := k0_pay23 v1 v3 a5
  let v172 := k0_pay24 v1 v3 v23 v31 v51 v59 v79 v87 v107 v115 v135 v140 a5 a5
  let v174 := k0_pay25 a2
  let v180 := k0_pay26 v1 v3 v23 v31 v51 v59 v79 v87 v107 v115 v135 v140 a5 a5 a2
  let v186 := k0_pay27 v1 v3 v23 v31 v51 v59 v79 v87 v107 v115 v135 v140 a5 a5 a2
  let v187 := k0_pay28 v1 v3 v23 v31 v51 v59 v79 v87 v107 v115 v135 v140 a5 a5
  let z160 : FVec F S160x2048 .f32 := constant S160x2048 .f32 0x00000000#32
  let v204 := k0_pay29 v172 v174; let v210 := k0_pay30 v172 v174; let v216 := k0_pay31 v172 v174; let v222 := k0_pay32 v172 v174
  let v231 := k0_pay33 v180 v186 a6; let v237 := k0_pay34 v172 v174 v187 z160 a6
  let v276 := k0_pay35 v204 v210 v216 v222 v231 v237 a6 a6 a3 a7 a4 a8
  let v278 := k0_pay36 v204 v210 v216 v222 v231 v237 a6 a6 a3 a7 a4 a8
  k0_pay1 v276 v278

/-- The result operand's staging buffer after the function: its one whole-block store. -/
def outBlock (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) : Vec F S10x2048 .f32 :=
  View.canon [⟨rOut, netBlock x0 x1 x2 x3 x4 x5 x6 x7 x8⟩]

/-- The one store covers the buffer. -/
theorem cover_out (p0 : Vec F S10x2048 .f32) (y : S10x2048.Idx) :
    ∃ pc ∈ ([⟨rOut, p0⟩] : List (View.Piece (Elt F) S10x2048 .f32)), y ∈ pc.1.set :=
  View.cover_of_tiled [⟨rOut, p0⟩] S10x2048.size (by rfl) y

/-! ## The function's triple -/

set_option maxHeartbeats 2000000 in
/-- On whole staging memrefs, the nine inputs' at contents `xK` and the result's at anything, the launched function runs
    to its continuation holding the inputs' as they were and the result's at `outBlock` of the inputs. -/
theorem sound_kernel (c : Dev nD) (E : Set ℕ) (i : grid0.Coords) (arg1 : Memref sig .tc .vmem S896x2048 .bf16) (harg1 : arg1.IsWhole) (arg2 : Memref sig .tc .vmem S960x256 .bf16) (harg2 : arg2.IsWhole) (arg3 : Memref sig .tc .vmem S160x600 .bf16) (harg3 : arg3.IsWhole) (arg4 : Memref sig .tc .vmem S50x320 .bf16) (harg4 : arg4.IsWhole) (arg5 : Memref sig .tc .vmem S10x50 .bf16) (harg5 : arg5.IsWhole) (arg6 : Memref sig .tc .vmem S120x1 .f32) (harg6 : arg6.IsWhole) (arg7 : Memref sig .tc .vmem S80x1 .f32) (harg7 : arg7.IsWhole) (arg8 : Memref sig .tc .vmem S50x1 .f32) (harg8 : arg8.IsWhole) (arg9 : Memref sig .tc .vmem S10x1 .f32) (harg9 : arg9.IsWhole) (arg10 : Memref sig .tc .vmem S10x2048 .f32) (harg10 : arg10.IsWhole)
    (x0 : Vec F S896x2048 .bf16) (x1 : Vec F S960x256 .bf16) (x2 : Vec F S160x600 .bf16) (x3 : Vec F S50x320 .bf16) (x4 : Vec F S10x50 .bf16) (x5 : Vec F S120x1 .f32) (x6 : Vec F S80x1 .f32) (x7 : Vec F S50x1 .f32) (x8 : Vec F S10x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__lenet_body i arg1 harg1 arg2 harg2 arg3 harg3 arg4 harg4 arg5 harg5 arg6 harg6 arg7 harg7 arg8 harg8 arg9 harg9 arg10 harg10) K := by
  simp only [cc0__lenet_body_eq_skeleton]; unfold cc0__lenet_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_out _)

/-! ## The proof data -/

/-- On core `c`: the operand arrays as the launch finds them; after the function at point `t` each input's staging buffer
    still at its block and the result's at `outBlock` of the nine blocks; the invariant is the untouched rest; nothing
    is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-! ## The obligation at a grid point -/

/-- What the function is called with at point `t`, operand by operand, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- At any point the inputs' staging buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function terminates without a fault,
    every operand array of the launch at what the write-backs of the proof data leave, every other unscoped buffer as
    the line after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its nine argument arrays as they were, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Net

end
-- ==== Proof.ReferenceRun.lean ====
/-
  The two-launch program's run with its result NAMED. The generated frame of this program shows only that the
  arguments end unchanged; the same launch over the same segments also fixes every unscoped buffer at the last
  boundary's contents, and the result array is the second launch's output operand there: what that launch's
  write-backs leave in it.
-/
import proofs.«138577_g2000503492652488_pallasbulk_942_42_alg».proof.Proof.Gen.ReferenceIdeal.Frame

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and
    the nine arguments as they started. -/
theorem run_boundary : θ_run defs (onTc (τ := τ) (main (F := F))) ⟨m, fun _ => 0, ρ⟩ (fun r => ∀ c : Dev nD,
      r.2.mem ((c.tc : Thread nD τ).loc main_v133) = W20 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v133 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c)⟩)

/-- The result array at the last boundary is what the second launch's write-backs leave in its output operand. -/
theorem result_boundary (c : Dev nD) :
    W20 m ρ c (Proc.devRef .tc main_v133) = (dat1 (V19 m ρ) c).arrAt 8 cfg1.N :=
  W20_arr m ρ c 8

end Cert.ReferenceIdeal.Net

end
-- ==== Proof.KernelArray.lean ====
/-
  The single-launch program's 10 x 16384 result operand after its eight write-backs, as one array: column n is computed
  at grid point n / 2048, as column n % 2048 of that point's stored block; and the program's result is its transpose.
-/
import proofs.«138577_g2000503492652488_pallasbulk_942_42_alg».proof.Proof.KernelIdealBody
import Idealize.ShloMosaic.Lib.Pipeline.Value
import Idealize.ShloMosaic.Lib.ValueIdx
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hz2 : (![0, 0] : Fin 2 → Nat) = fun _ => 0 := funext fun a => by fin_cases a <;> rfl

/-- The block stored at grid point `t`, from the nine operand blocks there. -/
def pointBlock (c : Dev nD) (t : Fin cfg0.N) : Vec F S10x2048 .f32 :=
  netBlock (iblk m c 0 t) (iblk m c 1 t) (iblk m c 2 t) (iblk m c 3 t) (iblk m c 4 t) (iblk m c 5 t) (iblk m c 6 t) (iblk m c 7 t) (iblk m c 8 t)

/-- The grid point that computes column `n`. -/
def pointOf (i : S10x16384.Idx) : Fin cfg0.N := ⟨(i 1).val / 2048, by
  have h : (i 1).val < 16384 := (i 1).isLt
  have : cfg0.N = 8 := N_0
  omega⟩

/-- The whole 10 x 16384 array: entry (j, n) is entry (j, n % 2048) of the block stored at point n / 2048. -/
def netArray (c : Dev nD) : S10x16384.Idx → Elt F .f32 := fun i =>
  pointBlock m c (pointOf i) (ix2 (⟨(i 0).val, (i 0).isLt⟩ : Fin 10) (⟨(i 1).val % 2048, Nat.mod_lt _ (by norm_num)⟩ : Fin 2048))

/-- The result operand's block index at point `t` is (0, t). -/
theorem idx_out : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

/-- What point `t` writes back is block `t` of `netArray`. -/
theorem flushed_eq (c : Dev nD) (t : Fin cfg0.N) :
    (dats m 0 c).flushed 9 t = ((cfg0.win 9).blk t).view.read (Elt F) (netArray m c) := by
  show (cfg0.win 9).cut (grid0.coords t) ((dats m 0 c).after 9 t) = _
  rw [after_9]
  unfold outBlock
  rw [View.canon_unit_zero hz2]
  funext j
  show pointBlock m c t j = netArray m c (((cfg0.win 9).blk t).view.emb j)
  obtain ⟨e0, e1⟩ := idx_out t
  have hj0 : (j 0).val < 10 := (j 0).isLt
  have hj1 : (j 1).val < 2048 := (j 1).isLt
  have h0 : ((((cfg0.win 9).blk t).view.emb j) 0).val = (j 0).val := by
    show win0_9.index t (0 : Fin 2) * 10 + 1 * (j 0).val = _
    omega
  have h1 : ((((cfg0.win 9).blk t).view.emb j) 1).val = t.val * 2048 + (j 1).val := by
    show win0_9.index t (1 : Fin 2) * 2048 + 1 * (j 1).val = _
    omega
  have hp : pointOf (((cfg0.win 9).blk t).view.emb j) = t := by
    apply Fin.ext
    show ((((cfg0.win 9).blk t).view.emb j) 1).val / 2048 = t.val
    rw [h1]; omega
  unfold netArray
  rw [hp]
  refine congrArg (pointBlock m c t) ?_
  funext a
  apply Fin.ext
  match a with
  | ⟨0, _⟩ => show (j 0).val = ((((cfg0.win 9).blk t).view.emb j) 0).val; omega
  | ⟨1, _⟩ => show (j 1).val = ((((cfg0.win 9).blk t).view.emb j) 1).val % 2048; rw [h1]; omega

/-- An index lies in point `t`'s block iff each coordinate is in the block's range on its axis. -/
theorem mem_blk (t : Fin cfg0.N) (i : S10x16384.Idx) :
    i ∈ ((cfg0.win 9).blk t).view.set ↔ ∀ a : Fin 2, win0_9.index t a * S10x2048.size a ≤ (i a).val ∧ (i a).val < win0_9.index t a * S10x2048.size a + S10x2048.size a := by
  show i ∈ ((View.whole main_v137).slice (win0_9.rect t)).set ↔ _
  rw [View.set_slice_whole, Rect.mem_set_unit]
  exact Iff.rfl

/-- The eight blocks cover the array: column n lies in the block of point n / 2048. -/
theorem cover (i : S10x16384.Idx) : ∃ t : Fin cfg0.N, (cfg0.win 9).flush t = true ∧ i ∈ ((cfg0.win 9).blk t).view.set := by
  refine ⟨pointOf i, flush0_9 _, ?_⟩
  rw [mem_blk]
  obtain ⟨e0, e1⟩ := idx_out (pointOf i)
  have hp : (pointOf i).val = (i 1).val / 2048 := rfl
  have hi0 : (i 0).val < 10 := (i 0).isLt
  intro a
  match a with
  | ⟨0, _⟩ => show win0_9.index (pointOf i) (0 : Fin 2) * 10 ≤ (i 0).val ∧ (i 0).val < win0_9.index (pointOf i) (0 : Fin 2) * 10 + 10; omega
  | ⟨1, _⟩ => show win0_9.index (pointOf i) (1 : Fin 2) * 2048 ≤ (i 1).val ∧ (i 1).val < win0_9.index (pointOf i) (1 : Fin 2) * 2048 + 2048; omega

/-- The result operand after the run is `netArray`. -/
theorem final (c : Dev nD) : (dats m 0 c).arrAt 9 cfg0.N = netArray m c :=
  (dats m 0 c).arrAt_eq_of_cover 9 (netArray m c) (fun t _ => flushed_eq m c t) cover

/-- The program's result array is the transpose of `netArray`. -/
theorem result_read (c : Dev nD) :
    Pipeline.afterTail₀ cfgs (dats m) 0 (V0 m) [hostOps1] c main_v138
      = transpose S16384x10 [1, 0] (netArray m c) transposes_S10x16384_S16384x10_1_0 := by
  unfold Pipeline.afterTail₀
  show StableHlo.after hostOps1 _ (Proc.devRef .tc main_v138) = _
  after_results
  exact congrArg (fun x => transpose S16384x10 [1, 0] x transposes_S10x16384_S16384x10_1_0)
    ((Pipeline.withArrays_arr spec0 launch0.win.arr_inj c _ _ 9).trans (final m c))

end Cert.KernelIdeal.Net

end
-- ==== Proof.ReferenceArray.lean ====
/-
  The two-launch program's output operands as whole arrays. First launch: a 12 x 16384 x 120 array whose rows
  128 t … 128 t + 127 (middle axis) are the block stored at grid point t. Second launch: the 16384 x 10 result whose rows
  128 t … 128 t + 127 are the block stored at grid point t. Each is stated over the buffer contents the launch is entered
  with.
-/
import proofs.«138577_g2000503492652488_pallasbulk_942_42_alg».proof.Proof.ReferenceRun
import Idealize.ShloMosaic.Lib.Pipeline.Value
import Idealize.ShloMosaic.Lib.ValueIdx

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Entered
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first launch: 12 x 16384 x 120 -/

/-- The block the first launch stores at grid point `t`. -/
def firstBlock (c : Dev nD) (t : Fin cfg0.N) : Vec F S12x128x120 .f32 :=
  out0_4 (iblk0 V c 0 t) (iblk0 V c 1 t) (iblk0 V c 2 t) (iblk0 V c 3 t)

/-- The grid point that computes image `n` (middle coordinate). -/
def firstPoint (i : S12x16384x120.Idx) : Fin cfg0.N := ⟨(i 1).val / 128, by
  have h : (i 1).val < 16384 := (i 1).isLt
  have : cfg0.N = 128 := N_0
  omega⟩

/-- The index inside that point's block. -/
def firstLocal (i : S12x16384x120.Idx) : S12x128x120.Idx :=
  ix3 (⟨(i 0).val, (i 0).isLt⟩ : Fin 12) (⟨(i 1).val % 128, Nat.mod_lt _ (by norm_num)⟩ : Fin 128) (⟨(i 2).val, (i 2).isLt⟩ : Fin 120)

/-- The first launch's whole output: entry (r, n, k) is entry (r, n % 128, k) of the block stored at point n / 128. -/
def firstArray (c : Dev nD) : S12x16384x120.Idx → Elt F .f32 := fun i =>
  firstBlock V c (firstPoint i) (firstLocal i)

theorem idx_first : ∀ t : Fin cfg0.N, win0_4.index t (0 : Fin 3) = 0 ∧ win0_4.index t (1 : Fin 3) = t.val ∧ win0_4.index t (2 : Fin 3) = 0 :=
  (by decide +kernel : ∀ t : Fin grid0.N, win0_4.index t (0 : Fin 3) = 0 ∧ win0_4.index t (1 : Fin 3) = t.val ∧ win0_4.index t (2 : Fin 3) = 0)

theorem emb_first (t : Fin cfg0.N) (j : S12x128x120.Idx) :
    ((((cfg0.win 4).blk t).view.emb j) 0).val = (j 0).val ∧ ((((cfg0.win 4).blk t).view.emb j) 1).val = t.val * 128 + (j 1).val
      ∧ ((((cfg0.win 4).blk t).view.emb j) 2).val = (j 2).val := by
  obtain ⟨e0, e1, e2⟩ := idx_first t
  refine ⟨?_, ?_, ?_⟩
  · show win0_4.index t (0 : Fin 3) * 12 + 1 * (j 0).val = _
    omega
  · show win0_4.index t (1 : Fin 3) * 128 + 1 * (j 1).val = _
    omega
  · show win0_4.index t (2 : Fin 3) * 120 + 1 * (j 2).val = _
    omega

theorem point_first (t : Fin cfg0.N) (j : S12x128x120.Idx) : firstPoint (((cfg0.win 4).blk t).view.emb j) = t := by
  obtain ⟨h0, h1, h2⟩ := emb_first t j
  have hj1 : (j 1).val < 128 := (j 1).isLt
  apply Fin.ext
  show ((((cfg0.win 4).blk t).view.emb j) 1).val / 128 = t.val
  rw [h1]; omega

theorem local_first (t : Fin cfg0.N) (j : S12x128x120.Idx) : firstLocal (((cfg0.win 4).blk t).view.emb j) = j := by
  obtain ⟨h0, h1, h2⟩ := emb_first t j
  have hj1 : (j 1).val < 128 := (j 1).isLt
  funext a
  apply Fin.ext
  match a with
  | ⟨0, _⟩ => show ((((cfg0.win 4).blk t).view.emb j) 0).val = (j 0).val; omega
  | ⟨1, _⟩ => show ((((cfg0.win 4).blk t).view.emb j) 1).val % 128 = (j 1).val; rw [h1]; omega
  | ⟨2, _⟩ => show ((((cfg0.win 4).blk t).view.emb j) 2).val = (j 2).val; omega

theorem flushed_first (c : Dev nD) (t : Fin cfg0.N) :
    (dat0 V c).flushed 4 t = ((cfg0.win 4).blk t).view.read (Elt F) (firstArray V c) := by
  show (cfg0.win 4).cut (grid0.coords t) ((dat0 V c).after 4 t) = _
  rw [after0_4]
  unfold out0_4
  rw [View.canon_unit_zero hz3]
  funext j
  rw [View.read_apply]
  unfold firstArray
  rw [point_first, local_first]
  unfold firstBlock out0_4
  rw [View.canon_unit_zero hz3]
  rfl

theorem mem_first (t : Fin cfg0.N) (i : S12x16384x120.Idx) :
    i ∈ ((cfg0.win 4).blk t).view.set ↔ ∀ a : Fin 3, win0_4.index t a * S12x128x120.size a ≤ (i a).val ∧ (i a).val < win0_4.index t a * S12x128x120.size a + S12x128x120.size a := by
  show i ∈ ((View.whole main_v64).slice (win0_4.rect t)).set ↔ _
  rw [View.set_slice_whole, Rect.mem_set_unit]
  exact Iff.rfl

theorem cover_first (i : S12x16384x120.Idx) : ∃ t : Fin cfg0.N, (cfg0.win 4).flush t = true ∧ i ∈ ((cfg0.win 4).blk t).view.set := by
  refine ⟨firstPoint i, flush0_4 _, ?_⟩
  rw [mem_first]
  obtain ⟨e0, e1, e2⟩ := idx_first (firstPoint i)
  have hp : (firstPoint i).val = (i 1).val / 128 := rfl
  have hi0 : (i 0).val < 12 := (i 0).isLt
  have hi2 : (i 2).val < 120 := (i 2).isLt
  intro a
  match a with
  | ⟨0, _⟩ => show win0_4.index (firstPoint i) (0 : Fin 3) * 12 ≤ (i 0).val ∧ (i 0).val < win0_4.index (firstPoint i) (0 : Fin 3) * 12 + 12; omega
  | ⟨1, _⟩ => show win0_4.index (firstPoint i) (1 : Fin 3) * 128 ≤ (i 1).val ∧ (i 1).val < win0_4.index (firstPoint i) (1 : Fin 3) * 128 + 128; omega
  | ⟨2, _⟩ => show win0_4.index (firstPoint i) (2 : Fin 3) * 120 ≤ (i 2).val ∧ (i 2).val < win0_4.index (firstPoint i) (2 : Fin 3) * 120 + 120; omega

/-- The first launch's output operand after its write-backs is `firstArray`. -/
theorem final_first (c : Dev nD) : (dat0 V c).arrAt 4 cfg0.N = firstArray V c :=
  (dat0 V c).arrAt_eq_of_cover 4 (firstArray V c) (fun t _ => flushed_first V c t) cover_first

/-! ## The second launch: 16384 x 10 -/

/-- The block the second launch stores at grid point `t`. -/
def secondBlock (c : Dev nD) (t : Fin cfg1.N) : Vec F S128x10 .f32 :=
  out1_8 (iblk1 V c 0 t) (iblk1 V c 1 t) (iblk1 V c 2 t) (iblk1 V c 3 t) (iblk1 V c 4 t) (iblk1 V c 5 t) (iblk1 V c 6 t) (iblk1 V c 7 t)

/-- The grid point that computes image `n`. -/
def secondPoint (i : S16384x10.Idx) : Fin cfg1.N := ⟨(i 0).val / 128, by
  have h : (i 0).val < 16384 := (i 0).isLt
  have : cfg1.N = 128 := N_1
  omega⟩

/-- The index inside that point's block. -/
def secondLocal (i : S16384x10.Idx) : S128x10.Idx :=
  ix2 (⟨(i 0).val % 128, Nat.mod_lt _ (by norm_num)⟩ : Fin 128) (⟨(i 1).val, (i 1).isLt⟩ : Fin 10)

/-- The second launch's whole output: entry (n, j) is entry (n % 128, j) of the block stored at point n / 128. -/
def secondArray (c : Dev nD) : S16384x10.Idx → Elt F .f32 := fun i =>
  secondBlock V c (secondPoint i) (secondLocal i)

theorem idx_second : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)

theorem emb_second (t : Fin cfg1.N) (j : S128x10.Idx) :
    ((((cfg1.win 8).blk t).view.emb j) 0).val = t.val * 128 + (j 0).val ∧ ((((cfg1.win 8).blk t).view.emb j) 1).val = (j 1).val := by
  obtain ⟨e0, e1⟩ := idx_second t
  refine ⟨?_, ?_⟩
  · show win1_8.index t (0 : Fin 2) * 128 + 1 * (j 0).val = _
    omega
  · show win1_8.index t (1 : Fin 2) * 10 + 1 * (j 1).val = _
    omega

theorem point_second (t : Fin cfg1.N) (j : S128x10.Idx) : secondPoint (((cfg1.win 8).blk t).view.emb j) = t := by
  obtain ⟨h0, h1⟩ := emb_second t j
  have hj0 : (j 0).val < 128 := (j 0).isLt
  apply Fin.ext
  show ((((cfg1.win 8).blk t).view.emb j) 0).val / 128 = t.val
  rw [h0]; omega

theorem local_second (t : Fin cfg1.N) (j : S128x10.Idx) : secondLocal (((cfg1.win 8).blk t).view.emb j) = j := by
  obtain ⟨h0, h1⟩ := emb_second t j
  have hj0 : (j 0).val < 128 := (j 0).isLt
  funext a
  apply Fin.ext
  match a with
  | ⟨0, _⟩ => show ((((cfg1.win 8).blk t).view.emb j) 0).val % 128 = (j 0).val; rw [h0]; omega
  | ⟨1, _⟩ => show ((((cfg1.win 8).blk t).view.emb j) 1).val = (j 1).val; omega

theorem flushed_second (c : Dev nD) (t : Fin cfg1.N) :
    (dat1 V c).flushed 8 t = ((cfg1.win 8).blk t).view.read (Elt F) (secondArray V c) := by
  show (cfg1.win 8).cut (grid1.coords t) ((dat1 V c).after 8 t) = _
  rw [after1_8]
  unfold out1_8
  rw [View.canon_unit_zero hz2]
  funext j
  rw [View.read_apply]
  unfold secondArray
  rw [point_second, local_second]
  unfold secondBlock out1_8
  rw [View.canon_unit_zero hz2]
  rfl

theorem mem_second (t : Fin cfg1.N) (i : S16384x10.Idx) :
    i ∈ ((cfg1.win 8).blk t).view.set ↔ ∀ a : Fin 2, win1_8.index t a * S128x10.size a ≤ (i a).val ∧ (i a).val < win1_8.index t a * S128x10.size a + S128x10.size a := by
  show i ∈ ((View.whole main_v133).slice (win1_8.rect t)).set ↔ _
  rw [View.set_slice_whole, Rect.mem_set_unit]
  exact Iff.rfl

theorem cover_second (i : S16384x10.Idx) : ∃ t : Fin cfg1.N, (cfg1.win 8).flush t = true ∧ i ∈ ((cfg1.win 8).blk t).view.set := by
  refine ⟨secondPoint i, flush1_8 _, ?_⟩
  rw [mem_second]
  obtain ⟨e0, e1⟩ := idx_second (secondPoint i)
  have hp : (secondPoint i).val = (i 0).val / 128 := rfl
  have hi1 : (i 1).val < 10 := (i 1).isLt
  intro a
  match a with
  | ⟨0, _⟩ => show win1_8.index (secondPoint i) (0 : Fin 2) * 128 ≤ (i 0).val ∧ (i 0).val < win1_8.index (secondPoint i) (0 : Fin 2) * 128 + 128; omega
  | ⟨1, _⟩ => show win1_8.index (secondPoint i) (1 : Fin 2) * 10 ≤ (i 1).val ∧ (i 1).val < win1_8.index (secondPoint i) (1 : Fin 2) * 10 + 10; omega

/-- The second launch's output operand after its write-backs is `secondArray`. -/
theorem final_second (c : Dev nD) : (dat1 V c).arrAt 8 cfg1.N = secondArray V c :=
  (dat1 V c).arrAt_eq_of_cover 8 (secondArray V c) (fun t _ => flushed_second V c t) cover_second

end Entered

end Cert.ReferenceIdeal.Net

end
-- ==== Proof.Spec.lean ====
/-
  The network's last step on ten scores: subtract their maximum, then subtract the logarithm of the sum of the
  exponentials. Both programs compute it with the same operations (a maximum folded from minus infinity, a sum folded
  from zero), one down the columns of a 10 x 2048 block, the other along the rows of a 128 x 10 block.
-/
import Idealize.ShloMosaic.PureOps.Ideal
import Idealize.ShloMosaic.PureOps.Ideal.Laws

noncomputable section

namespace Cert.Net

open Idealize.ShloMosaic
open scoped BigOperators

/-- The maximum of ten scores, folded from the word of minus infinity. -/
def top10 (z : Fin 10 → Ideal .f32) : Ideal .f32 :=
  (Finset.univ : Finset (Fin 10)).fold max (Ideal.ofBits .f32 0xFF800000#32) z

/-- The log of the normalised exponentials of ten scores, at class `j`. -/
def logSoftmax10 (z : Fin 10 → Ideal .f32) (j : Fin 10) : Ideal .f32 :=
  (z j - top10 z) - FloatOps.log (∑ k : Fin 10, FloatOps.exp (z k - top10 z))

end Cert.Net

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.LibColMax.lean ====
/-
  A column's maximum read at an index.

  A `vector.multi_reduction <maximumf>` of a `[K, R]` array over its FIRST axis, read on the extended reals at column
  `p`, is the fold of `max` from the accumulator's value over the `K` entries `src (k, p)` of that column: the reduced
  index `(p)` with the coordinate `k` put back on the reduced axis is `(k, p)`. The companion of the column's sum.
-/
import Idealize.ShloMosaic.PureOps.Ideal.Laws
import Idealize.ShloMosaic.Lib.ValueIdx
import proofs.«138577_g2000503492652488_pallasbulk_942_42_alg».proof.Proof.LibColSum

noncomputable section

namespace Cert.Lib

open Idealize.ShloMosaic Idealize.ShloMosaic.ValueIdx

variable {K R : ℕ}

/-- A float maximum over the first axis of a `[K, R]` array, at column `p`: the fold of `max` over that column. -/
theorem multiReduction_maximumf_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.maximumf.neutral φ hφ) (p : Fin R) :
    multiReduction .maximumf [0] (⟨1, ![R]⟩ : Shape) src acc h hφ hacc (ix1 p)
      = (Finset.univ : Finset (Fin K)).fold max (Ideal.ofBits φ acc) (fun k => src (ix2 k p)) := by
  refine (Ideal.multiReduction_maximumf_single src acc h hφ hacc (ix1 p)).trans ?_
  have hf : (src ∘ h.lift (ix1 p)) = fun k : Fin K => src (ix2 k p) :=
    funext fun k => congrArg src (lift_firstAxis2 h p k)
  exact congrArg (fun f => Finset.fold max (Ideal.ofBits φ acc) f (Finset.univ : Finset (Fin K))) hf

end Cert.Lib

end
-- ==== Proof.KernelHead.lean ====
/-
  The single-launch program's last step, read at an entry: down column `l` of the 10 x 2048 block of scores, the stored
  value at row `j` is the log of the normalised exponentials of that column's ten scores.
-/
import proofs.«138577_g2000503492652488_pallasbulk_942_42_alg».proof.Proof.Gen.KernelIdeal.Skeleton
import proofs.«138577_g2000503492652488_pallasbulk_942_42_alg».proof.Proof.Spec
import proofs.«138577_g2000503492652488_pallasbulk_942_42_alg».proof.Proof.LibColSum
import proofs.«138577_g2000503492652488_pallasbulk_942_42_alg».proof.Proof.LibColMax
import Idealize.ShloMosaic.Lib.ValueIdx
import Idealize.ShloMosaic.Lib.ValueLayout

noncomputable section

namespace Cert.KernelIdeal.Net

open Cert.KernelIdeal Cert.KernelIdeal.Gen
open Idealize.ShloMosaic Idealize.ShloMosaic.ValueIdx
open scoped BigOperators

/-- The column maxima laid as a [1, 2048] row, at column `l`: the maximum of that column's ten scores. -/
theorem colTop_apply (z : FVec Ideal S10x2048 .f32) (l : Fin 2048) :
    shapeCast S1x2048 (multiReduction .maximumf [0] S2048 z 0xFF800000#32 reduces_S10x2048_S2048 (.inl rfl) rfl) shapeCasts_S2048_S1x2048 (ix2 (0 : Fin 1) l)
      = Cert.Net.top10 (fun j => z (ix2 j l)) := by
  rw [shapeCast_a_1a_apply]
  exact Cert.Lib.multiReduction_maximumf_cols z _ _ _ _ l

/-- The stored value at (j, l), for any row of column offsets `mx`. -/
theorem pay1_apply (z : FVec Ideal S10x2048 .f32) (mx : FVec Ideal S1x2048 .f32) (j : Fin 10) (l : Fin 2048) :
    k0_pay1 z mx (ix2 j l)
      = (z (ix2 j l) - mx (ix2 (0 : Fin 1) l)) - FloatOps.log (∑ k : Fin 10, FloatOps.exp (z (ix2 k l) - mx (ix2 (0 : Fin 1) l))) := by
  unfold k0_pay1
  show (z (ix2 j l) - broadcastTo S10x2048 mx broadcasts_S1x2048_S10x2048 (ix2 j l))
      - broadcastTo S10x2048 (log (shapeCast S1x2048 (multiReduction .add [0] S2048 (exp (subf z (broadcastTo S10x2048 mx broadcasts_S1x2048_S10x2048))) 0x00000000#32 reduces_S10x2048_S2048 (.inl rfl) rfl) shapeCasts_S2048_S1x2048)) broadcasts_S1x2048_S10x2048 (ix2 j l) = _
  rw [broadcastTo_1b_ab_apply, broadcastTo_1b_ab_apply]
  show _ - FloatOps.log (shapeCast S1x2048 (multiReduction .add [0] S2048 (exp (subf z (broadcastTo S10x2048 mx broadcasts_S1x2048_S10x2048))) 0x00000000#32 reduces_S10x2048_S2048 (.inl rfl) rfl) shapeCasts_S2048_S1x2048 (ix2 (0 : Fin 1) l)) = _
  rw [shapeCast_a_1a_apply]
  refine congrArg (fun s => (z (ix2 j l) - mx (ix2 (0 : Fin 1) l)) - FloatOps.log s) ?_
  refine (Cert.Lib.multiReduction_add_cols (exp (subf z (broadcastTo S10x2048 mx broadcasts_S1x2048_S10x2048))) _ _ _ _ l).trans ?_
  refine Finset.sum_congr rfl fun k _ => ?_
  show FloatOps.exp (z (ix2 k l) - broadcastTo S10x2048 mx broadcasts_S1x2048_S10x2048 (ix2 k l)) = _
  rw [broadcastTo_1b_ab_apply]

/-- With the column maxima as offsets: the log of the normalised exponentials of column `l`'s scores, at class `j`. -/
theorem head_apply (z : FVec Ideal S10x2048 .f32) (j : Fin 10) (l : Fin 2048) :
    k0_pay1 z (shapeCast S1x2048 (multiReduction .maximumf [0] S2048 z 0xFF800000#32 reduces_S10x2048_S2048 (.inl rfl) rfl) shapeCasts_S2048_S1x2048) (ix2 j l)
      = Cert.Net.logSoftmax10 (fun k => z (ix2 k l)) j := by
  rw [pay1_apply, colTop_apply]
  rfl

end Cert.KernelIdeal.Net

end
-- ==== Proof.KernelStages.lean ====
/-
  The single-launch program's stored block through its scores: the 10 x 2048 block of scores (the second dense layer's
  output) as a term of the nine operand blocks, and the stored block as the last step applied down each column of it.
-/
import proofs.«138577_g2000503492652488_pallasbulk_942_42_alg».proof.Proof.KernelIdealBody
import proofs.«138577_g2000503492652488_pallasbulk_942_42_alg».proof.Proof.KernelHead

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The 10 x 2048 block of scores, from the nine operand blocks (the steps of `netBlock` up to the second dense layer). -/
def kScores (x0 : Vec Ideal S896x2048 .bf16) (x1 : Vec Ideal S960x256 .bf16) (x2 : Vec Ideal S160x600 .bf16) (x3 : Vec Ideal S50x320 .bf16) (x4 : Vec Ideal S10x50 .bf16) (x5 : Vec Ideal S120x1 .f32) (x6 : Vec Ideal S80x1 .f32) (x7 : Vec Ideal S50x1 .f32) (x8 : Vec Ideal S10x1 .f32) : FVec Ideal S10x2048 .f32 :=
  let a0 := View.ld x0 rIn0; let a1 := View.ld x1 rIn1; let a2 := View.ld x2 rIn2; let a3 := View.ld x3 rIn3
  let a4 := View.ld x4 rIn4; let a5 := View.ld x5 rIn5; let a6 := View.ld x6 rIn6; let a7 := View.ld x7 rIn7
  let a8 := View.ld x8 rIn8
  let v1 := k0_pay2 a0; let v3 := k0_pay3 a1
  let v23 := k0_pay5 a0 a1 a5; let v31 := k0_pay6 a0 a1 a5; let v40 := k0_pay8 a0 a1; let v43 := k0_pay9 a0 a1
  let v51 := k0_pay10 v40 a5; let v59 := k0_pay11 v43 a5; let v79 := k0_pay13 v1 v3 a5; let v87 := k0_pay14 v1 v3 a5
  let v91 := k0_pay16 v1 v3; let v92 := k0_pay17 v1 v3
  let v107 := k0_pay19 v91 v92 a5; let v115 := k0_pay20 v91 v92 a5; let v135 := k0_pay22 v1 v3 a5; let v140 := k0_pay23 v1 v3 a5
  let v172 := k0_pay24 v1 v3 v23 v31 v51 v59 v79 v87 v107 v115 v135 v140 a5 a5
  let v174 := k0_pay25 a2
  let v180 := k0_pay26 v1 v3 v23 v31 v51 v59 v79 v87 v107 v115 v135 v140 a5 a5 a2
  let v186 := k0_pay27 v1 v3 v23 v31 v51 v59 v79 v87 v107 v115 v135 v140 a5 a5 a2
  let v187 := k0_pay28 v1 v3 v23 v31 v51 v59 v79 v87 v107 v115 v135 v140 a5 a5
  let z160 : FVec Ideal S160x2048 .f32 := constant S160x2048 .f32 0x00000000#32
  let v204 := k0_pay29 v172 v174; let v210 := k0_pay30 v172 v174; let v216 := k0_pay31 v172 v174; let v222 := k0_pay32 v172 v174
  let v231 := k0_pay33 v180 v186 a6; let v237 := k0_pay34 v172 v174 v187 z160 a6
  k0_pay35 v204 v210 v216 v222 v231 v237 a6 a6 a3 a7 a4 a8

/-- The stored block is the last step over the scores, with the scores' column maxima as the offsets. -/
theorem netBlock_eq (x0 : Vec Ideal S896x2048 .bf16) (x1 : Vec Ideal S960x256 .bf16) (x2 : Vec Ideal S160x600 .bf16) (x3 : Vec Ideal S50x320 .bf16) (x4 : Vec Ideal S10x50 .bf16) (x5 : Vec Ideal S120x1 .f32) (x6 : Vec Ideal S80x1 .f32) (x7 : Vec Ideal S50x1 .f32) (x8 : Vec Ideal S10x1 .f32) :
    netBlock x0 x1 x2 x3 x4 x5 x6 x7 x8
      = k0_pay1 (kScores x0 x1 x2 x3 x4 x5 x6 x7 x8)
          (shapeCast S1x2048 (multiReduction .maximumf [0] S2048 (kScores x0 x1 x2 x3 x4 x5 x6 x7 x8) 0xFF800000#32 reduces_S10x2048_S2048 (.inl rfl) rfl) shapeCasts_S2048_S1x2048) := rfl

/-- The stored block at (j, l): the log of the normalised exponentials of column l's ten scores, at class j. -/
theorem netBlock_apply (x0 : Vec Ideal S896x2048 .bf16) (x1 : Vec Ideal S960x256 .bf16) (x2 : Vec Ideal S160x600 .bf16) (x3 : Vec Ideal S50x320 .bf16) (x4 : Vec Ideal S10x50 .bf16) (x5 : Vec Ideal S120x1 .f32) (x6 : Vec Ideal S80x1 .f32) (x7 : Vec Ideal S50x1 .f32) (x8 : Vec Ideal S10x1 .f32) (j : Fin 10) (l : Fin 2048) :
    netBlock x0 x1 x2 x3 x4 x5 x6 x7 x8 (ix2 j l)
      = Cert.Net.logSoftmax10 (fun k => kScores x0 x1 x2 x3 x4 x5 x6 x7 x8 (ix2 k l)) j := by
  rw [netBlock_eq]
  exact head_apply _ j l

end Cert.KernelIdeal.Net

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«138577_g2000503492652488_pallasbulk_942_42_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.ReferenceHead.lean ====
/-
  The two-launch program's last step, read at an entry: the second launch's stored 128 x 10 block is the log of the
  normalised exponentials along each row of ten scores; the scores are the clamped 50 hidden values times the 50 x 10
  weights plus the bias row.
-/
import proofs.«138577_g2000503492652488_pallasbulk_942_42_alg».proof.Proof.Gen.ReferenceIdeal.Skeleton
import proofs.«138577_g2000503492652488_pallasbulk_942_42_alg».proof.Proof.Spec
import proofs.«138577_g2000503492652488_pallasbulk_942_42_alg».proof.Proof.LibRowSum
import proofs.«138577_g2000503492652488_pallasbulk_942_42_alg».proof.Proof.LibRowMax
import proofs.«138577_g2000503492652488_pallasbulk_942_42_alg».proof.Proof.LibColumn
import proofs.«138577_g2000503492652488_pallasbulk_942_42_alg».proof.Proof.LibMatDot
import Idealize.ShloMosaic.Lib.ValueIdx
import Idealize.ShloMosaic.Lib.ValueLayout

noncomputable section

namespace Cert.ReferenceIdeal.Net

open Cert.ReferenceIdeal Cert.ReferenceIdeal.Gen
open Idealize.ShloMosaic Idealize.ShloMosaic.ValueIdx
open scoped BigOperators

/-- The ten scores of each of the 128 rows: the clamped hidden values times the weights, plus the bias row. -/
def refScores (h : FVec Ideal S128x50 .f32) (w : Vec Ideal S50x10 .f32) (b : Vec Ideal S1x10 .f32) : FVec Ideal S128x10 .f32 :=
  have hc : FVec Ideal S128x50 .f32 := maximumf h (broadcast S128x50 (Scalar.ofBits .f32 0x00000000#32))
  have w' : FVec Ideal S50x10 .f32 := shapeCast S50x10 w shapeCasts_S50x10_S50x10
  have z0 : FVec Ideal S128x10 .f32 := constant S128x10 .f32 0x00000000#32
  have p : FVec Ideal S128x10 .f32 := matmul dot_S128x50_S50x10_S128x10_1_0_0_1_n_n none hc w' z0
  have b' : FVec Ideal S1x10 .f32 := shapeCast S1x10 b shapeCasts_S1x10_S1x10
  have bb : FVec Ideal S128x10 .f32 := broadcastTo S128x10 b' broadcasts_S1x10_S128x10
  addf p bb

/-- Along each row: subtract the row's maximum, then the logarithm of the sum of the exponentials. -/
def rowTopCol (z : FVec Ideal S128x10 .f32) : FVec Ideal S128x10 .f32 :=
  have v109 : FVec Ideal S128 .f32 := multiReduction .maximumf [1] S128 z 0xFF800000#32 reduces_S128x10_S128 (.inl rfl) rfl
  have v110 : FVec Ideal S128x1 .f32 := shapeCast S128x1 v109 shapeCasts_S128_S128x1
  broadcastTo S128x10 v110 broadcasts_S128x1_S128x10

def rowLsm (z : FVec Ideal S128x10 .f32) : FVec Ideal S128x10 .f32 :=
  have v112 : FVec Ideal S128x10 .f32 := subf z (rowTopCol z)
  have v113 : FVec Ideal S128x10 .f32 := exp v112
  have v114 : FVec Ideal S128 .f32 := multiReduction .add [1] S128 v113 0x00000000#32 reduces_S128x10_S128 (.inl rfl) rfl
  have v115 : FVec Ideal S128x1 .f32 := shapeCast S128x1 v114 shapeCasts_S128_S128x1
  have v116 : FVec Ideal S128x1 .f32 := log v115
  have v117 : FVec Ideal S128x10 .f32 := broadcastTo S128x10 v116 broadcasts_S128x1_S128x10
  subf v112 v117

/-- The stored block is that step applied to the scores. -/
theorem pay1_eq (h : FVec Ideal S128x50 .f32) (w : Vec Ideal S50x10 .f32) (b : Vec Ideal S1x10 .f32) :
    k1_pay1 h w b = rowLsm (refScores h w b) := rfl

/-- The row maxima laid as a [128, 1] column and spread over ten columns, at (r, j): row r's maximum. -/
theorem rowTop_apply (z : FVec Ideal S128x10 .f32) (r : Fin 128) (j : Fin 10) :
    rowTopCol z (ix2 r j) = Cert.Net.top10 (fun k => z (ix2 r k)) := by
  unfold rowTopCol
  rw [Cert.Lib.broadcastTo_a1_ab_apply, Cert.Lib.shapeCast_a_a1_apply]
  exact Cert.Lib.multiReduction_maximumf_rows z _ _ _ _ r

/-- At (r, j): the log of the normalised exponentials of row r's ten scores, at class j. -/
theorem rowLsm_apply (z : FVec Ideal S128x10 .f32) (r : Fin 128) (j : Fin 10) :
    rowLsm z (ix2 r j) = Cert.Net.logSoftmax10 (fun k => z (ix2 r k)) j := by
  unfold rowLsm
  show (z (ix2 r j) - rowTopCol z (ix2 r j))
      - broadcastTo S128x10 (log (shapeCast S128x1 (multiReduction .add [1] S128 (exp (subf z (rowTopCol z))) 0x00000000#32 reduces_S128x10_S128 (.inl rfl) rfl) shapeCasts_S128_S128x1)) broadcasts_S128x1_S128x10 (ix2 r j) = _
  rw [rowTop_apply, Cert.Lib.broadcastTo_a1_ab_apply]
  show _ - FloatOps.log (shapeCast S128x1 (multiReduction .add [1] S128 (exp (subf z (rowTopCol z))) 0x00000000#32 reduces_S128x10_S128 (.inl rfl) rfl) shapeCasts_S128_S128x1 (ix2 r (0 : Fin 1))) = _
  rw [Cert.Lib.shapeCast_a_a1_apply]
  unfold Cert.Net.logSoftmax10
  refine congrArg (fun s => (z (ix2 r j) - Cert.Net.top10 (fun k => z (ix2 r k))) - FloatOps.log s) ?_
  refine (Cert.Lib.multiReduction_add_rows (exp (subf z (rowTopCol z))) _ _ _ _ r).trans ?_
  refine Finset.sum_congr rfl fun k _ => ?_
  show FloatOps.exp (z (ix2 r k) - rowTopCol z (ix2 r k)) = _
  rw [rowTop_apply]

/-- The plain product's dimension record of this launch is the rows-by-columns one. -/
theorem dot_scores : dot_S128x50_S50x10_S128x10_1_0_0_1_n_n = Cert.Lib.matDot dot_S128x50_S50x10_S128x10_1_0_0_1_n_n_wf := rfl

/-- A score at (r, j): the clamped hidden row r against column j of the weights, plus the bias entry j. -/
theorem refScores_apply (h : FVec Ideal S128x50 .f32) (w : Vec Ideal S50x10 .f32) (b : Vec Ideal S1x10 .f32) (r : Fin 128) (j : Fin 10) :
    refScores h w b (ix2 r j) = (∑ a : Fin 50, max (h (ix2 r a)) (Ideal.ofBits .f32 0x00000000#32) * w (ix2 a j)) + b (ix2 (0 : Fin 1) j) := by
  unfold refScores
  rw [addf_apply, dot_scores, shapeCast_self, shapeCast_self, broadcastTo_1b_ab_apply]
  refine congrArg (· + b (ix2 (0 : Fin 1) j)) ?_
  exact Cert.Lib.matmul_plain_zero_apply _ none _ _ r j

end Cert.ReferenceIdeal.Net

end
-- ==== Proof.ReferenceStages.lean ====
/-
  The two-launch program's second stored block through its hidden values: the 128 x 50 hidden block (before the clamp) as
  a term of the launch's operand blocks, and the stored block as the last step applied along each row of the scores.
-/
import proofs.«138577_g2000503492652488_pallasbulk_942_42_alg».proof.Proof.ReferenceArray
import proofs.«138577_g2000503492652488_pallasbulk_942_42_alg».proof.Proof.ReferenceHead

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz2' : (![0, 0] : Fin 2 → Nat) = fun _ => 0 := funext fun a => by fin_cases a <;> rfl

/-- The 128 x 50 hidden block of the second launch (before the clamp at zero), from its first six operand blocks. -/
def rHidden (x0 : Vec Ideal S12x128x120 .f32) (x1 : Vec Ideal S5x120x80 .f32) (x2 : Vec Ideal S5x120x80 .f32) (x3 : Vec Ideal S1x80 .f32) (x4 : Vec Ideal S4x80x50 .f32) (x5 : Vec Ideal S1x50 .f32) : FVec Ideal S128x50 .f32 :=
  k1_pay11 (k1_pay9 (k1_pay4 (View.ld x0 r1_0) (View.ld x1 r1_1) (View.ld x0 r1_2) (View.ld x1 r1_3)) (k1_pay5 (View.ld x0 r1_0) (View.ld x2 r1_1) (View.ld x0 r1_2) (View.ld x2 r1_3)) (k1_pay6 (View.ld x0 r1_4)) (k1_pay7 (View.ld x1 r1_5)) (View.ld x2 r1_5) (View.ld x0 r1_6) (View.ld x1 r1_7) (View.ld x2 r1_7) (View.ld x0 r1_8) (View.ld x1 r1_9) (View.ld x2 r1_9)) (k1_pay10 (k1_pay4 (View.ld x0 r1_0) (View.ld x1 r1_1) (View.ld x0 r1_2) (View.ld x1 r1_3)) (k1_pay5 (View.ld x0 r1_0) (View.ld x2 r1_1) (View.ld x0 r1_2) (View.ld x2 r1_3)) (k1_pay6 (View.ld x0 r1_4)) (k1_pay7 (View.ld x1 r1_5)) (View.ld x2 r1_5) (View.ld x0 r1_6) (View.ld x1 r1_7) (View.ld x2 r1_7) (View.ld x0 r1_8) (View.ld x1 r1_9) (View.ld x2 r1_9)) (View.ld x3 r1_10) (View.ld x4 r1_11) (View.ld x4 r1_12) (View.ld x4 r1_13) (View.ld x4 r1_14) (View.ld x5 r1_15)

/-- The second launch's stored block at (r, j): the log of the normalised exponentials of row r's ten scores. -/
theorem out_apply (x0 : Vec Ideal S12x128x120 .f32) (x1 : Vec Ideal S5x120x80 .f32) (x2 : Vec Ideal S5x120x80 .f32) (x3 : Vec Ideal S1x80 .f32) (x4 : Vec Ideal S4x80x50 .f32) (x5 : Vec Ideal S1x50 .f32) (x6 : Vec Ideal S50x10 .f32) (x7 : Vec Ideal S1x10 .f32) (r : Fin 128) (j : Fin 10) :
    out1_8 x0 x1 x2 x3 x4 x5 x6 x7 (ix2 r j)
      = Cert.Net.logSoftmax10 (fun k => refScores (rHidden x0 x1 x2 x3 x4 x5) (View.ld x6 r1_16) (View.ld x7 r1_17) (ix2 r k)) j := by
  unfold out1_8
  rw [View.canon_unit_zero hz2']
  show k1_pay1 (rHidden x0 x1 x2 x3 x4 x5) (View.ld x6 r1_16) (View.ld x7 r1_17) (ix2 r j) = _
  rw [pay1_eq]
  exact rowLsm_apply _ r j

end Cert.ReferenceIdeal.Net

end
-- ==== Proof.Entry.lean ====
/-
  The two networks entry by entry. For image `n` and class `j`, the two-launch program's entry comes from the block
  stored at grid point n / 128 of its second launch, row n % 128; the single-launch program's from the block stored at its
  grid point n / 2048, column n % 2048. Both are the log of the normalised exponentials of ten scores, so the entries
  agree once the ten scores do.
-/
import proofs.«138577_g2000503492652488_pallasbulk_942_42_alg».proof.Proof.KernelArray
import proofs.«138577_g2000503492652488_pallasbulk_942_42_alg».proof.Proof.KernelStages
import proofs.«138577_g2000503492652488_pallasbulk_942_42_alg».proof.Proof.ReferenceArray
import proofs.«138577_g2000503492652488_pallasbulk_942_42_alg».proof.Proof.ReferenceStages
import Idealize.ShloMosaic.Lib.ValueLayout

noncomputable section

namespace Cert.Net

open Idealize.ShloMosaic Idealize.ShloMosaic.TcCoe Idealize.SL.Sem
open Idealize.ShloMosaic.ValueIdx

/-- The second launch's grid point that computes image `n`, and the image's row inside that point's block. -/
def rPt (n : Fin 16384) : Fin Cert.ReferenceIdeal.cfg1.N := Cert.ReferenceIdeal.Net.secondPoint (ix2 n (0 : Fin 10))
def rRow (n : Fin 16384) : Fin 128 := ⟨n.val % 128, Nat.mod_lt _ (by norm_num)⟩
/-- The single launch's grid point that computes image `n`, and the image's column inside that point's block. -/
def kPt (n : Fin 16384) : Fin Cert.KernelIdeal.cfg0.N := Cert.KernelIdeal.Net.pointOf (ix2 (0 : Fin 10) n)
def kCol (n : Fin 16384) : Fin 2048 := ⟨n.val % 2048, Nat.mod_lt _ (by norm_num)⟩

/-- Entry by entry: both entries are the log of the normalised exponentials of the image's ten scores, so they agree once
    the ten scores do (`hS`: for class `k`, row n % 128 of the 128 x 10 block of scores at the second launch's grid point
    n / 128 against column n % 2048 of the 10 x 2048 block of scores at the single launch's grid point n / 2048). -/
theorem entry_eq_of [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (j : Fin 10)
    (hS : ∀ k : Fin 10,
      Cert.ReferenceIdeal.Net.refScores (Cert.ReferenceIdeal.Net.rHidden (Cert.ReferenceIdeal.Gen.iblk1 (Cert.ReferenceIdeal.Gen.V19 m' ρ') c 0 (rPt n)) (Cert.ReferenceIdeal.Gen.iblk1 (Cert.ReferenceIdeal.Gen.V19 m' ρ') c 1 (rPt n)) (Cert.ReferenceIdeal.Gen.iblk1 (Cert.ReferenceIdeal.Gen.V19 m' ρ') c 2 (rPt n)) (Cert.ReferenceIdeal.Gen.iblk1 (Cert.ReferenceIdeal.Gen.V19 m' ρ') c 3 (rPt n)) (Cert.ReferenceIdeal.Gen.iblk1 (Cert.ReferenceIdeal.Gen.V19 m' ρ') c 4 (rPt n)) (Cert.ReferenceIdeal.Gen.iblk1 (Cert.ReferenceIdeal.Gen.V19 m' ρ') c 5 (rPt n)))
          (View.ld (Cert.ReferenceIdeal.Gen.iblk1 (Cert.ReferenceIdeal.Gen.V19 m' ρ') c 6 (rPt n)) Cert.ReferenceIdeal.Gen.r1_16) (View.ld (Cert.ReferenceIdeal.Gen.iblk1 (Cert.ReferenceIdeal.Gen.V19 m' ρ') c 7 (rPt n)) Cert.ReferenceIdeal.Gen.r1_17) (ix2 (rRow n) k)
        = Cert.KernelIdeal.Net.kScores (Cert.KernelIdeal.Net.iblk m c 0 (kPt n)) (Cert.KernelIdeal.Net.iblk m c 1 (kPt n)) (Cert.KernelIdeal.Net.iblk m c 2 (kPt n)) (Cert.KernelIdeal.Net.iblk m c 3 (kPt n)) (Cert.KernelIdeal.Net.iblk m c 4 (kPt n)) (Cert.KernelIdeal.Net.iblk m c 5 (kPt n)) (Cert.KernelIdeal.Net.iblk m c 6 (kPt n)) (Cert.KernelIdeal.Net.iblk m c 7 (kPt n)) (Cert.KernelIdeal.Net.iblk m c 8 (kPt n)) (ix2 k (kCol n))) :
    Cert.ReferenceIdeal.Net.secondArray (Cert.ReferenceIdeal.Gen.V19 m' ρ') c (ix2 n j) = Cert.KernelIdeal.Net.netArray m c (ix2 j n) := by
  unfold Cert.ReferenceIdeal.Net.secondArray Cert.ReferenceIdeal.Net.secondLocal Cert.ReferenceIdeal.Net.secondBlock Cert.KernelIdeal.Net.netArray Cert.KernelIdeal.Net.pointBlock
  rw [Cert.ReferenceIdeal.Net.out_apply, Cert.KernelIdeal.Net.netBlock_apply]
  exact congrArg (fun z => Cert.Net.logSoftmax10 z j) (funext fun k => hS k)

end Cert.Net

end
-- ==== Proof.KernelPatterns.lean ====
/-
  The single-launch program's convolution patterns, each read at an entry.
  First convolution, one group of four output rows: the 960 x 256 banded matrix times 256 consecutive rows of the image
  block (960 x 2048), then the maximum of the upper and lower halves (the two column parities): `pool1`. A pooled row is the
  maximum of two 120-row slices of that (`rowMax`), plus the bias column, clamped at zero (`biasRelu`; `biasOnly` and
  `reluOnly` are its two halves). Second convolution, one output row: the 160 x 600 banded matrix times 600 consecutive
  rows of the 1440 x 2048 stack of pooled rows, then the maximum of the two halves: `pool2`.
-/
import proofs.«138577_g2000503492652488_pallasbulk_942_42_alg».proof.Proof.Gen.KernelIdeal.Skeleton
import proofs.«138577_g2000503492652488_pallasbulk_942_42_alg».proof.Proof.LibMatDot
import proofs.«138577_g2000503492652488_pallasbulk_942_42_alg».proof.Proof.LibColumn
import Idealize.ShloMosaic.Lib.ValueIdx
import Idealize.ShloMosaic.Lib.ValueLayout

noncomputable section

namespace Cert.KernelIdeal.Net

open Cert.KernelIdeal Cert.KernelIdeal.Gen
open Idealize.ShloMosaic Idealize.ShloMosaic.ValueIdx
open scoped BigOperators

theorem dot_c1 : dot_S960x256_S256x2048_S960x2048_1_0_0_1_n_n = Cert.Lib.matDot dot_S960x256_S256x2048_S960x2048_1_0_0_1_n_n_wf := rfl
theorem dot_c2 : dot_S160x600_S600x2048_S160x2048_1_0_0_1_n_n = Cert.Lib.matDot dot_S160x600_S600x2048_S160x2048_1_0_0_1_n_n_wf := rfl

/-! ## First convolution -/

/-- The banded matrix times rows [o, o + 256) of the image block, maximum of the two halves. -/
def pool1 (T : FVec Ideal S960x256 .bf16) (X : FVec Ideal S896x2048 .bf16) (o : ℕ) (h : S896x2048.Slices ![o, 0] S256x2048) : FVec Ideal S480x2048 .bf16 :=
  have v4 : FVec Ideal S256x2048 .bf16 := extractStridedSlice S256x2048 ![o, 0] X h
  have cst : FVec Ideal S960x2048 .f32 := constant S960x2048 .f32 0x00000000#32
  have v5 : FVec Ideal S960x2048 .f32 := matmul dot_S960x256_S256x2048_S960x2048_1_0_0_1_n_n none T v4 cst
  have v6 : FVec Ideal S960x2048 .bf16 := truncf .bf16 v5 bitsLt_bf16_f32
  have v7 : FVec Ideal S480x2048 .bf16 := extractStridedSlice S480x2048 ![0, 0] v6 slices_S960x2048_o0_0_S480x2048
  have v8 : FVec Ideal S480x2048 .bf16 := extractStridedSlice S480x2048 ![480, 0] v6 slices_S960x2048_o480_0_S480x2048
  maximumf v7 v8

/-- Row `ρ` of the banded matrix against column `l` of rows [o, o + 256) of the image block. -/
def band1 (T : FVec Ideal S960x256 .bf16) (X : FVec Ideal S896x2048 .bf16) (o : ℕ) (h : S896x2048.Slices ![o, 0] S256x2048)
    (ρ : Fin 960) (l : Fin 2048) : Ideal .f32 :=
  ∑ c : Fin 256, T (ix2 ρ c) * X (ix2 (⟨o + c.val, Nat.lt_of_lt_of_le (Nat.add_lt_add_left c.isLt o) (h.2 0)⟩ : Fin 896) l)

theorem pool1_apply (T : FVec Ideal S960x256 .bf16) (X : FVec Ideal S896x2048 .bf16) (o : ℕ) (h : S896x2048.Slices ![o, 0] S256x2048)
    (ρ : Fin 480) (l : Fin 2048) :
    pool1 T X o h (ix2 ρ l)
      = max (band1 T X o h ⟨ρ.val, by have := ρ.isLt; omega⟩ l) (band1 T X o h ⟨480 + ρ.val, by have := ρ.isLt; omega⟩ l) := by
  unfold pool1
  rw [maximumf_apply,
    slice2_axis0_apply 0 _ slices_S960x2048_o0_0_S480x2048 ρ l (⟨ρ.val, by have := ρ.isLt; omega⟩ : Fin 960) (Nat.zero_add _).symm,
    slice2_axis0_apply 480 _ slices_S960x2048_o480_0_S480x2048 ρ l (⟨480 + ρ.val, by have := ρ.isLt; omega⟩ : Fin 960) rfl,
    truncf_apply, truncf_apply, dot_c1]
  unfold band1
  refine congrArg₂ max ?_ ?_
  · refine (Cert.Lib.matmul_plain_zero_apply _ none _ _ _ l).trans (Finset.sum_congr rfl fun c _ => ?_)
    rw [slice2_axis0_eq]
  · refine (Cert.Lib.matmul_plain_zero_apply _ none _ _ _ l).trans (Finset.sum_congr rfl fun c _ => ?_)
    rw [slice2_axis0_eq]

/-- The maximum of two 120-row slices of a 480-row block. -/
def rowMax (P : FVec Ideal S480x2048 .bf16) (o1 o2 : ℕ) (h1 : S480x2048.Slices ![o1, 0] S120x2048) (h2 : S480x2048.Slices ![o2, 0] S120x2048) :
    FVec Ideal S120x2048 .bf16 :=
  maximumf (extractStridedSlice S120x2048 ![o1, 0] P h1) (extractStridedSlice S120x2048 ![o2, 0] P h2)

theorem rowMax_apply (P : FVec Ideal S480x2048 .bf16) (o1 o2 : ℕ) (h1 : S480x2048.Slices ![o1, 0] S120x2048) (h2 : S480x2048.Slices ![o2, 0] S120x2048)
    (k : Fin 120) (l : Fin 2048) :
    rowMax P o1 o2 h1 h2 (ix2 k l)
      = max (P (ix2 (⟨o1 + k.val, Nat.lt_of_lt_of_le (Nat.add_lt_add_left k.isLt o1) (h1.2 0)⟩ : Fin 480) l))
          (P (ix2 (⟨o2 + k.val, Nat.lt_of_lt_of_le (Nat.add_lt_add_left k.isLt o2) (h2.2 0)⟩ : Fin 480) l)) := by
  unfold rowMax
  rw [maximumf_apply, slice2_axis0_eq, slice2_axis0_eq]

/-- A 120-row block plus the bias column (120 x 1 spread over the columns). -/
def biasOnly (R : FVec Ideal S120x2048 .bf16) (b : Vec Ideal S120x1 .f32) : FVec Ideal S120x2048 .f32 :=
  have v17 : FVec Ideal S120x1 .f32 := shapeCast S120x1 b shapeCasts_S120x1_S120x1
  have v18 : FVec Ideal S120x2048 .f32 := extf .f32 R bitsLt_bf16_f32
  have v19 : FVec Ideal S120x2048 .f32 := broadcastTo S120x2048 v17 broadcasts_S120x1_S120x2048
  addf v18 v19

theorem biasOnly_apply (R : FVec Ideal S120x2048 .bf16) (b : Vec Ideal S120x1 .f32) (k : Fin 120) (l : Fin 2048) :
    biasOnly R b (ix2 k l) = R (ix2 k l) + b (ix2 k (0 : Fin 1)) := by
  unfold biasOnly
  rw [addf_apply, extf_apply, Cert.Lib.broadcastTo_a1_ab_apply, shapeCast_self]

/-- The clamp at zero. -/
def reluOnly (Z : FVec Ideal S120x2048 .f32) : FVec Ideal S120x2048 .bf16 :=
  have cst_5 : Ideal .f32 := Scalar.ofBits .f32 0x00000000#32
  have v21 : FVec Ideal S120x2048 .f32 := broadcast S120x2048 cst_5
  have v22 : FVec Ideal S120x2048 .f32 := maximumf Z v21
  truncf .bf16 v22 bitsLt_bf16_f32

theorem reluOnly_apply (Z : FVec Ideal S120x2048 .f32) (k : Fin 120) (l : Fin 2048) :
    reluOnly Z (ix2 k l) = max (Z (ix2 k l)) (Ideal.ofBits .f32 0x00000000#32) := rfl

/-- Bias then clamp. -/
def biasRelu (R : FVec Ideal S120x2048 .bf16) (b : Vec Ideal S120x1 .f32) : FVec Ideal S120x2048 .bf16 := reluOnly (biasOnly R b)

theorem biasRelu_apply (R : FVec Ideal S120x2048 .bf16) (b : Vec Ideal S120x1 .f32) (k : Fin 120) (l : Fin 2048) :
    biasRelu R b (ix2 k l) = max (R (ix2 k l) + b (ix2 k (0 : Fin 1))) (Ideal.ofBits .f32 0x00000000#32) := by
  unfold biasRelu
  rw [reluOnly_apply, biasOnly_apply]

/-! ## Second convolution -/

/-- The second banded matrix times rows [o, o + 600) of the stack of pooled rows, maximum of the two halves. -/
def pool2 (T : FVec Ideal S160x600 .bf16) (A : FVec Ideal S1440x2048 .bf16) (o : ℕ) (h : S1440x2048.Slices ![o, 0] S600x2048) : FVec Ideal S80x2048 .bf16 :=
  have v175 : FVec Ideal S600x2048 .bf16 := extractStridedSlice S600x2048 ![o, 0] A h
  have cst_46 : FVec Ideal S160x2048 .f32 := constant S160x2048 .f32 0x00000000#32
  have v176 : FVec Ideal S160x2048 .f32 := matmul dot_S160x600_S600x2048_S160x2048_1_0_0_1_n_n none T v175 cst_46
  have v177 : FVec Ideal S160x2048 .bf16 := truncf .bf16 v176 bitsLt_bf16_f32
  have v178 : FVec Ideal S80x2048 .bf16 := extractStridedSlice S80x2048 ![0, 0] v177 slices_S160x2048_o0_0_S80x2048
  have v179 : FVec Ideal S80x2048 .bf16 := extractStridedSlice S80x2048 ![80, 0] v177 slices_S160x2048_o80_0_S80x2048
  maximumf v178 v179

/-- Row `ρ` of the second banded matrix against column `l` of rows [o, o + 600) of the stack. -/
def band2 (T : FVec Ideal S160x600 .bf16) (A : FVec Ideal S1440x2048 .bf16) (o : ℕ) (h : S1440x2048.Slices ![o, 0] S600x2048)
    (ρ : Fin 160) (l : Fin 2048) : Ideal .f32 :=
  ∑ c : Fin 600, T (ix2 ρ c) * A (ix2 (⟨o + c.val, Nat.lt_of_lt_of_le (Nat.add_lt_add_left c.isLt o) (h.2 0)⟩ : Fin 1440) l)

theorem pool2_apply (T : FVec Ideal S160x600 .bf16) (A : FVec Ideal S1440x2048 .bf16) (o : ℕ) (h : S1440x2048.Slices ![o, 0] S600x2048)
    (q : Fin 80) (l : Fin 2048) :
    pool2 T A o h (ix2 q l)
      = max (band2 T A o h ⟨q.val, by have := q.isLt; omega⟩ l) (band2 T A o h ⟨80 + q.val, by have := q.isLt; omega⟩ l) := by
  unfold pool2
  rw [maximumf_apply,
    slice2_axis0_apply 0 _ slices_S160x2048_o0_0_S80x2048 q l (⟨q.val, by have := q.isLt; omega⟩ : Fin 160) (Nat.zero_add _).symm,
    slice2_axis0_apply 80 _ slices_S160x2048_o80_0_S80x2048 q l (⟨80 + q.val, by have := q.isLt; omega⟩ : Fin 160) rfl,
    truncf_apply, truncf_apply, dot_c2]
  unfold band2
  refine congrArg₂ max ?_ ?_
  · refine (Cert.Lib.matmul_plain_zero_apply _ none _ _ _ l).trans (Finset.sum_congr rfl fun c _ => ?_)
    rw [slice2_axis0_eq]
  · refine (Cert.Lib.matmul_plain_zero_apply _ none _ _ _ l).trans (Finset.sum_congr rfl fun c _ => ?_)
    rw [slice2_axis0_eq]

end Cert.KernelIdeal.Net

end
-- ==== Proof.KernelScores.lean ====
/-
  The single-launch program's second dense layer, read at an entry: a score at (k, l) is row k of the 10 x 50 weights
  against column l of the clamped 50 x 2048 hidden block, plus the bias entry k. The hidden block is the first dense
  layer over the 320 x 2048 stack of the four pooled second-convolution rows, plus its bias, clamped at zero.
-/
import proofs.«138577_g2000503492652488_pallasbulk_942_42_alg».proof.Proof.Gen.KernelIdeal.Skeleton
import proofs.«138577_g2000503492652488_pallasbulk_942_42_alg».proof.Proof.LibMatDot
import proofs.«138577_g2000503492652488_pallasbulk_942_42_alg».proof.Proof.LibColumn
import Idealize.ShloMosaic.Lib.ValueIdx
import Idealize.ShloMosaic.Lib.ValueLayout

noncomputable section

namespace Cert.KernelIdeal.Net

open Cert.KernelIdeal Cert.KernelIdeal.Gen
open Idealize.ShloMosaic Idealize.ShloMosaic.ValueIdx
open scoped BigOperators

/-- The 320 x 2048 stack of the four pooled rows of the second convolution (each 80 x 2048: 4 columns x 20 channels),
    from the eight products' pooled halves, the two already finished rows and the bias column. -/
def kFlat (v204 v210 v216 v222 v231 : FVec Ideal S80x2048 .bf16) (v237 : FVec Ideal S80x2048 .f32) (v242 v251 : Vec Ideal S80x1 .f32) : FVec Ideal S320x2048 .bf16 :=
  have cst_59 : Ideal .f32 := Scalar.ofBits .f32 0x00000000#32
  have v238 : FVec Ideal S80x2048 .f32 := broadcast S80x2048 cst_59
  have v239 : FVec Ideal S80x2048 .f32 := maximumf v237 v238
  have v240 : FVec Ideal S80x2048 .bf16 := truncf .bf16 v239 bitsLt_bf16_f32
  have v241 : FVec Ideal S80x2048 .bf16 := maximumf v204 v210
  have v243 : FVec Ideal S80x1 .f32 := shapeCast S80x1 v242 shapeCasts_S80x1_S80x1
  have v244 : FVec Ideal S80x2048 .f32 := extf .f32 v241 bitsLt_bf16_f32
  have v245 : FVec Ideal S80x2048 .f32 := broadcastTo S80x2048 v243 broadcasts_S80x1_S80x2048
  have v246 : FVec Ideal S80x2048 .f32 := addf v244 v245
  have cst_62 : Ideal .f32 := Scalar.ofBits .f32 0x00000000#32
  have v247 : FVec Ideal S80x2048 .f32 := broadcast S80x2048 cst_62
  have v248 : FVec Ideal S80x2048 .f32 := maximumf v246 v247
  have v249 : FVec Ideal S80x2048 .bf16 := truncf .bf16 v248 bitsLt_bf16_f32
  have v250 : FVec Ideal S80x2048 .bf16 := maximumf v216 v222
  have v252 : FVec Ideal S80x1 .f32 := shapeCast S80x1 v251 shapeCasts_S80x1_S80x1
  have v253 : FVec Ideal S80x2048 .f32 := extf .f32 v250 bitsLt_bf16_f32
  have v254 : FVec Ideal S80x2048 .f32 := broadcastTo S80x2048 v252 broadcasts_S80x1_S80x2048
  have v255 : FVec Ideal S80x2048 .f32 := addf v253 v254
  have cst_65 : Ideal .f32 := Scalar.ofBits .f32 0x00000000#32
  have v256 : FVec Ideal S80x2048 .f32 := broadcast S80x2048 cst_65
  have v257 : FVec Ideal S80x2048 .f32 := maximumf v255 v256
  have v258 : FVec Ideal S80x2048 .bf16 := truncf .bf16 v257 bitsLt_bf16_f32
  concatenate S320x2048 0 [⟨S80x2048, v231⟩, ⟨S80x2048, v240⟩, ⟨S80x2048, v249⟩, ⟨S80x2048, v258⟩] concatenates_S80x2048_S80x2048_S80x2048_S80x2048_S320x2048_d0

/-- The clamped 50 x 2048 hidden block: the first dense layer over the stack, plus its bias column, clamped at zero. -/
def kHid (v204 v210 v216 v222 v231 : FVec Ideal S80x2048 .bf16) (v237 : FVec Ideal S80x2048 .f32) (v242 v251 : Vec Ideal S80x1 .f32) (v259 : Vec Ideal S50x320 .bf16) (v263 : Vec Ideal S50x1 .f32) : FVec Ideal S50x2048 .bf16 :=
  have v260 : FVec Ideal S50x320 .bf16 := shapeCast S50x320 v259 shapeCasts_S50x320_S50x320
  have cst_68 : FVec Ideal S50x2048 .f32 := constant S50x2048 .f32 0x00000000#32
  have v262 : FVec Ideal S50x2048 .f32 := matmul dot_S50x320_S320x2048_S50x2048_1_0_0_1_n_n none v260 (kFlat v204 v210 v216 v222 v231 v237 v242 v251) cst_68
  have v264 : FVec Ideal S50x1 .f32 := shapeCast S50x1 v263 shapeCasts_S50x1_S50x1
  have v265 : FVec Ideal S50x2048 .f32 := broadcastTo S50x2048 v264 broadcasts_S50x1_S50x2048
  have v266 : FVec Ideal S50x2048 .f32 := addf v262 v265
  have cst_71 : Ideal .f32 := Scalar.ofBits .f32 0x00000000#32
  have v267 : FVec Ideal S50x2048 .f32 := broadcast S50x2048 cst_71
  have v268 : FVec Ideal S50x2048 .f32 := maximumf v266 v267
  truncf .bf16 v268 bitsLt_bf16_f32

/-- The scores are the second dense layer over the clamped hidden block. -/
theorem pay35_eq (v204 v210 v216 v222 v231 : FVec Ideal S80x2048 .bf16) (v237 : FVec Ideal S80x2048 .f32) (v242 v251 : Vec Ideal S80x1 .f32) (v259 : Vec Ideal S50x320 .bf16) (v263 : Vec Ideal S50x1 .f32) (v270 : Vec Ideal S10x50 .bf16) (v273 : Vec Ideal S10x1 .f32) :
    k0_pay35 v204 v210 v216 v222 v231 v237 v242 v251 v259 v263 v270 v273
      = addf (matmul dot_S10x50_S50x2048_S10x2048_1_0_0_1_n_n none (shapeCast S10x50 v270 shapeCasts_S10x50_S10x50 : FVec Ideal S10x50 .bf16) (kHid v204 v210 v216 v222 v231 v237 v242 v251 v259 v263) (constant S10x2048 .f32 0x00000000#32))
          (broadcastTo S10x2048 (shapeCast S10x1 v273 shapeCasts_S10x1_S10x1 : FVec Ideal S10x1 .f32) broadcasts_S10x1_S10x2048) := rfl

theorem dot_fc2 : dot_S10x50_S50x2048_S10x2048_1_0_0_1_n_n = Cert.Lib.matDot dot_S10x50_S50x2048_S10x2048_1_0_0_1_n_n_wf := rfl
theorem dot_fc1 : dot_S50x320_S320x2048_S50x2048_1_0_0_1_n_n = Cert.Lib.matDot dot_S50x320_S320x2048_S50x2048_1_0_0_1_n_n_wf := rfl

/-- A score at (k, l): the weights' row k against the hidden block's column l, plus the bias entry k. -/
theorem pay35_apply (v204 v210 v216 v222 v231 : FVec Ideal S80x2048 .bf16) (v237 : FVec Ideal S80x2048 .f32) (v242 v251 : Vec Ideal S80x1 .f32) (v259 : Vec Ideal S50x320 .bf16) (v263 : Vec Ideal S50x1 .f32) (v270 : Vec Ideal S10x50 .bf16) (v273 : Vec Ideal S10x1 .f32) (k : Fin 10) (l : Fin 2048) :
    k0_pay35 v204 v210 v216 v222 v231 v237 v242 v251 v259 v263 v270 v273 (ix2 k l)
      = (∑ a : Fin 50, v270 (ix2 k a) * kHid v204 v210 v216 v222 v231 v237 v242 v251 v259 v263 (ix2 a l)) + v273 (ix2 k (0 : Fin 1)) := by
  rw [pay35_eq, addf_apply, dot_fc2, shapeCast_self, shapeCast_self, Cert.Lib.broadcastTo_a1_ab_apply]
  refine congrArg (· + v273 (ix2 k (0 : Fin 1))) ?_
  exact Cert.Lib.matmul_plain_zero_apply _ none _ _ k l

/-- A hidden value at (a, l): the first dense layer's row a against the stack's column l, plus the bias entry a, clamped. -/
theorem kHid_apply (v204 v210 v216 v222 v231 : FVec Ideal S80x2048 .bf16) (v237 : FVec Ideal S80x2048 .f32) (v242 v251 : Vec Ideal S80x1 .f32) (v259 : Vec Ideal S50x320 .bf16) (v263 : Vec Ideal S50x1 .f32) (a : Fin 50) (l : Fin 2048) :
    kHid v204 v210 v216 v222 v231 v237 v242 v251 v259 v263 (ix2 a l)
      = max ((∑ q : Fin 320, v259 (ix2 a q) * kFlat v204 v210 v216 v222 v231 v237 v242 v251 (ix2 q l)) + v263 (ix2 a (0 : Fin 1)))
          (Ideal.ofBits .f32 0x00000000#32) := by
  unfold kHid
  show max ((matmul dot_S50x320_S320x2048_S50x2048_1_0_0_1_n_n none (shapeCast S50x320 v259 shapeCasts_S50x320_S50x320 : FVec Ideal S50x320 .bf16) (kFlat v204 v210 v216 v222 v231 v237 v242 v251) (constant S50x2048 .f32 0x00000000#32)) (ix2 a l)
      + broadcastTo S50x2048 (shapeCast S50x1 v263 shapeCasts_S50x1_S50x1 : FVec Ideal S50x1 .f32) broadcasts_S50x1_S50x2048 (ix2 a l)) (Ideal.ofBits .f32 0x00000000#32) = _
  rw [dot_fc1, shapeCast_self, shapeCast_self, Cert.Lib.broadcastTo_a1_ab_apply]
  refine congrArg (fun s => max (s + v263 (ix2 a (0 : Fin 1))) (Ideal.ofBits .f32 0x00000000#32)) ?_
  exact Cert.Lib.matmul_plain_zero_apply _ none _ _ a l

end Cert.KernelIdeal.Net

end
-- ==== Proof.KernelRows.lean ====
/-
  The single-launch program's two stacks, row block by row block.
  The 1440 x 2048 stack of the first layer's twelve pooled rows: row block ρ = 2 g + e comes from the group of four
  convolution rows at image rows [32·4g, 32·4g + 256), the pair of 120-row slices at 240 e and 240 e + 120. The
  320 x 2048 stack of the second layer's four pooled rows: row block s is the maximum of the products at stack rows
  [120·2s, …) and [120·(2s+1), …), plus the bias column, clamped at zero.
-/
import proofs.«138577_g2000503492652488_pallasbulk_942_42_alg».proof.Proof.KernelPatterns
import proofs.«138577_g2000503492652488_pallasbulk_942_42_alg».proof.Proof.KernelScores

set_option maxRecDepth 16384

noncomputable section

namespace Cert.KernelIdeal.Net

open Cert.KernelIdeal Cert.KernelIdeal.Gen
open Idealize.ShloMosaic Idealize.ShloMosaic.ValueIdx
open scoped BigOperators

/-! ## The first layer's stack -/

/-- The twelve pooled rows stacked: from the banded matrix `T`, the image block `X` and the bias column `b`. -/
def kA2 (T : FVec Ideal S960x256 .bf16) (X : FVec Ideal S896x2048 .bf16) (b : Vec Ideal S120x1 .f32) : FVec Ideal S1440x2048 .bf16 :=
  concatenate S1440x2048 0 [⟨S120x2048, biasRelu (rowMax (pool1 T X 0 slices_S896x2048_o0_0_S256x2048) 0 120 slices_S480x2048_o0_0_S120x2048 slices_S480x2048_o120_0_S120x2048) b⟩,
    ⟨S120x2048, biasRelu (rowMax (pool1 T X 0 slices_S896x2048_o0_0_S256x2048) 240 360 slices_S480x2048_o240_0_S120x2048 slices_S480x2048_o360_0_S120x2048) b⟩,
    ⟨S120x2048, biasRelu (rowMax (pool1 T X 128 slices_S896x2048_o128_0_S256x2048) 0 120 slices_S480x2048_o0_0_S120x2048 slices_S480x2048_o120_0_S120x2048) b⟩,
    ⟨S120x2048, biasRelu (rowMax (pool1 T X 128 slices_S896x2048_o128_0_S256x2048) 240 360 slices_S480x2048_o240_0_S120x2048 slices_S480x2048_o360_0_S120x2048) b⟩,
    ⟨S120x2048, biasRelu (rowMax (pool1 T X 256 slices_S896x2048_o256_0_S256x2048) 0 120 slices_S480x2048_o0_0_S120x2048 slices_S480x2048_o120_0_S120x2048) b⟩,
    ⟨S120x2048, biasRelu (rowMax (pool1 T X 256 slices_S896x2048_o256_0_S256x2048) 240 360 slices_S480x2048_o240_0_S120x2048 slices_S480x2048_o360_0_S120x2048) b⟩,
    ⟨S120x2048, biasRelu (rowMax (pool1 T X 384 slices_S896x2048_o384_0_S256x2048) 0 120 slices_S480x2048_o0_0_S120x2048 slices_S480x2048_o120_0_S120x2048) b⟩,
    ⟨S120x2048, biasRelu (rowMax (pool1 T X 384 slices_S896x2048_o384_0_S256x2048) 240 360 slices_S480x2048_o240_0_S120x2048 slices_S480x2048_o360_0_S120x2048) b⟩,
    ⟨S120x2048, biasRelu (rowMax (pool1 T X 512 slices_S896x2048_o512_0_S256x2048) 0 120 slices_S480x2048_o0_0_S120x2048 slices_S480x2048_o120_0_S120x2048) b⟩,
    ⟨S120x2048, biasRelu (rowMax (pool1 T X 512 slices_S896x2048_o512_0_S256x2048) 240 360 slices_S480x2048_o240_0_S120x2048 slices_S480x2048_o360_0_S120x2048) b⟩,
    ⟨S120x2048, biasRelu (rowMax (pool1 T X 640 slices_S896x2048_o640_0_S256x2048) 0 120 slices_S480x2048_o0_0_S120x2048 slices_S480x2048_o120_0_S120x2048) b⟩,
    ⟨S120x2048, biasRelu (rowMax (pool1 T X 640 slices_S896x2048_o640_0_S256x2048) 240 360 slices_S480x2048_o240_0_S120x2048 slices_S480x2048_o360_0_S120x2048) b⟩] concatenates_S120x2048_S120x2048_S120x2048_S120x2048_S120x2048_S120x2048_S120x2048_S120x2048_S120x2048_S120x2048_S120x2048_S120x2048_S1440x2048_d0

/-- The program's stack is that one (its operands read once, the bias column twelve times). -/
theorem pay24_eq (a0 : Vec Ideal S896x2048 .bf16) (a1 : Vec Ideal S960x256 .bf16) (a5 : Vec Ideal S120x1 .f32) :
    k0_pay24 (k0_pay2 a0) (k0_pay3 a1) (k0_pay5 a0 a1 a5) (k0_pay6 a0 a1 a5) (k0_pay10 (k0_pay8 a0 a1) a5) (k0_pay11 (k0_pay9 a0 a1) a5)
        (k0_pay13 (k0_pay2 a0) (k0_pay3 a1) a5) (k0_pay14 (k0_pay2 a0) (k0_pay3 a1) a5)
        (k0_pay19 (k0_pay16 (k0_pay2 a0) (k0_pay3 a1)) (k0_pay17 (k0_pay2 a0) (k0_pay3 a1)) a5) (k0_pay20 (k0_pay16 (k0_pay2 a0) (k0_pay3 a1)) (k0_pay17 (k0_pay2 a0) (k0_pay3 a1)) a5)
        (k0_pay22 (k0_pay2 a0) (k0_pay3 a1) a5) (k0_pay23 (k0_pay2 a0) (k0_pay3 a1) a5) a5 a5
      = kA2 (k0_pay3 a1) (k0_pay2 a0) a5 := rfl

/-- One pooled row at (k, l), in the four band sums it is the maximum of. -/
theorem kRow_apply (T : FVec Ideal S960x256 .bf16) (X : FVec Ideal S896x2048 .bf16) (b : Vec Ideal S120x1 .f32)
    (o : ℕ) (h : S896x2048.Slices ![o, 0] S256x2048) (o1 o2 : ℕ) (h1 : S480x2048.Slices ![o1, 0] S120x2048) (h2 : S480x2048.Slices ![o2, 0] S120x2048)
    (k : Fin 120) (l : Fin 2048) :
    biasRelu (rowMax (pool1 T X o h) o1 o2 h1 h2) b (ix2 k l)
      = max (max (max (band1 T X o h ⟨o1 + k.val, by have := h1.2 0; have := k.isLt; show o1 + k.val < 960; simp at *; omega⟩ l)
                      (band1 T X o h ⟨480 + (o1 + k.val), by have := h1.2 0; have := k.isLt; show 480 + (o1 + k.val) < 960; simp at *; omega⟩ l))
                 (max (band1 T X o h ⟨o2 + k.val, by have := h2.2 0; have := k.isLt; show o2 + k.val < 960; simp at *; omega⟩ l)
                      (band1 T X o h ⟨480 + (o2 + k.val), by have := h2.2 0; have := k.isLt; show 480 + (o2 + k.val) < 960; simp at *; omega⟩ l))
              + b (ix2 k (0 : Fin 1))) (Ideal.ofBits .f32 0x00000000#32) := by
  rw [biasRelu_apply, rowMax_apply, pool1_apply, pool1_apply]

end Cert.KernelIdeal.Net

end
-- ==== Proof.KernelStack.lean ====
/-
  The first layer's stack at an entry, uniformly in the row block. With c1 oy p k l the band sum of convolution row
  oy (0 … 23), column parity p, lane k = 10·(pooled column) + channel — row 480 p + 120 (oy mod 4) + k of the banded
  matrix against column l of image rows [128 (oy div 4), … + 256) — the stack's entry (120 ρ + k, l) is
  max(max(c1 (2ρ) 0, c1 (2ρ) 1), max(c1 (2ρ+1) 0, c1 (2ρ+1) 1)) plus the bias entry k, clamped at zero.
-/
import proofs.«138577_g2000503492652488_pallasbulk_942_42_alg».proof.Proof.KernelRows
import Idealize.ShloMosaic.Lib.Pipeline.Value

set_option maxRecDepth 16384

noncomputable section

namespace Cert.KernelIdeal.Net

open Cert.KernelIdeal Cert.KernelIdeal.Gen
open Idealize.ShloMosaic Idealize.ShloMosaic.ValueIdx
open scoped BigOperators

/-- The band sum of convolution row `oy`, column parity `p`, lane `k`, image column `l`. -/
def c1 (T : FVec Ideal S960x256 .bf16) (X : FVec Ideal S896x2048 .bf16) (oy : Fin 24) (p : Fin 2) (k : Fin 120) (l : Fin 2048) : Ideal .f32 :=
  ∑ c : Fin 256, T (ix2 (⟨480 * p.val + 120 * (oy.val % 4) + k.val, by have := p.isLt; have := k.isLt; have := Nat.mod_lt oy.val (by norm_num : 0 < 4); omega⟩ : Fin 960) c)
    * X (ix2 (⟨128 * (oy.val / 4) + c.val, by have := oy.isLt; have := c.isLt; omega⟩ : Fin 896) l)

/-- A pooled, biased, clamped value of the first layer: pooled row `ρ`, lane `k`, image column `l`. -/
def a2v (T : FVec Ideal S960x256 .bf16) (X : FVec Ideal S896x2048 .bf16) (b : Vec Ideal S120x1 .f32) (ρ : Fin 12) (k : Fin 120) (l : Fin 2048) : Ideal .f32 :=
  max (max (max (c1 T X ⟨2 * ρ.val, by have := ρ.isLt; omega⟩ 0 k l) (c1 T X ⟨2 * ρ.val, by have := ρ.isLt; omega⟩ 1 k l))
           (max (c1 T X ⟨2 * ρ.val + 1, by have := ρ.isLt; omega⟩ 0 k l) (c1 T X ⟨2 * ρ.val + 1, by have := ρ.isLt; omega⟩ 1 k l))
        + b (ix2 k (0 : Fin 1))) (Ideal.ofBits .f32 0x00000000#32)

/-- The program's band sum at image-row offset `o` and matrix row `ρ'` is the uniform one. -/
theorem band1_eq_c1 (T : FVec Ideal S960x256 .bf16) (X : FVec Ideal S896x2048 .bf16) (o : ℕ) (h : S896x2048.Slices ![o, 0] S256x2048)
    (oy : Fin 24) (p : Fin 2) (k : Fin 120) (l : Fin 2048) (ρ' : Fin 960) (ho : o = 128 * (oy.val / 4))
    (hρ : ρ'.val = 480 * p.val + 120 * (oy.val % 4) + k.val) :
    band1 T X o h ρ' l = c1 T X oy p k l := by
  subst ho
  unfold band1 c1
  refine Finset.sum_congr rfl fun c _ => ?_
  exact congrArg (fun r => T (ix2 r c) * X (ix2 (⟨128 * (oy.val / 4) + c.val, by have := oy.isLt; have := c.isLt; omega⟩ : Fin 896) l)) (Fin.ext hρ)

set_option maxHeartbeats 3200000 in
/-- The stack at (120 ρ + k, l). -/
theorem kA2_apply (T : FVec Ideal S960x256 .bf16) (X : FVec Ideal S896x2048 .bf16) (b : Vec Ideal S120x1 .f32)
    (ρ : Fin 12) (k : Fin 120) (l : Fin 2048) :
    kA2 T X b (ix2 (⟨120 * ρ.val + k.val, by have := ρ.isLt; have := k.isLt; omega⟩ : Fin 1440) l) = a2v T X b ρ k l := by
  unfold kA2
  obtain ⟨ρv, hρv⟩ := ρ
  interval_cases ρv
  · -- pooled row 0: image rows from 0, slices at 0 and 120
    refine (concatenate_apply_piece (t := S1440x2048) (0 : Fin 2) _ _ _ 0 ?hk_0 S120x2048 ?x_0 ?hxk_0 ?hr_0 0 ?hpre_0 (ix2 k l) ?hi_0 ?ha_0).trans ?rest_0
    case hxk_0 => exact rfl
    case hk_0 => simp
    case hr_0 => rfl
    case hpre_0 => rfl
    case hi_0 => exact fun bx hb => match bx with | ⟨0, _⟩ => absurd rfl hb | ⟨1, _⟩ => rfl
    case ha_0 => rfl
    rw [kRow_apply]
    show _ = max (max (max (c1 T X ⟨0, by norm_num⟩ 0 k l) (c1 T X ⟨0, by norm_num⟩ 1 k l))
        (max (c1 T X ⟨1, by norm_num⟩ 0 k l) (c1 T X ⟨1, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 0 _ ⟨0, by norm_num⟩ 0 k l _ (by norm_num) (by show 0 + k.val = 480 * 0 + 120 * (0 % 4) + k.val; omega)
    · exact band1_eq_c1 T X 0 _ ⟨0, by norm_num⟩ 1 k l _ (by norm_num) (by show 480 + (0 + k.val) = 480 * 1 + 120 * (0 % 4) + k.val; omega)
    · exact band1_eq_c1 T X 0 _ ⟨1, by norm_num⟩ 0 k l _ (by norm_num) (by show 120 + k.val = 480 * 0 + 120 * (1 % 4) + k.val; omega)
    · exact band1_eq_c1 T X 0 _ ⟨1, by norm_num⟩ 1 k l _ (by norm_num) (by show 480 + (120 + k.val) = 480 * 1 + 120 * (1 % 4) + k.val; omega)
  · -- pooled row 1: image rows from 0, slices at 240 and 360
    refine (concatenate_apply_piece (t := S1440x2048) (0 : Fin 2) _ _ _ 1 ?hk_1 S120x2048 ?x_1 ?hxk_1 ?hr_1 120 ?hpre_1 (ix2 k l) ?hi_1 ?ha_1).trans ?rest_1
    case hxk_1 => exact rfl
    case hk_1 => simp
    case hr_1 => rfl
    case hpre_1 => rfl
    case hi_1 => exact fun bx hb => match bx with | ⟨0, _⟩ => absurd rfl hb | ⟨1, _⟩ => rfl
    case ha_1 => rfl
    rw [kRow_apply]
    show _ = max (max (max (c1 T X ⟨2, by norm_num⟩ 0 k l) (c1 T X ⟨2, by norm_num⟩ 1 k l))
        (max (c1 T X ⟨3, by norm_num⟩ 0 k l) (c1 T X ⟨3, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 0 _ ⟨2, by norm_num⟩ 0 k l _ (by norm_num) (by show 240 + k.val = 480 * 0 + 120 * (2 % 4) + k.val; omega)
    · exact band1_eq_c1 T X 0 _ ⟨2, by norm_num⟩ 1 k l _ (by norm_num) (by show 480 + (240 + k.val) = 480 * 1 + 120 * (2 % 4) + k.val; omega)
    · exact band1_eq_c1 T X 0 _ ⟨3, by norm_num⟩ 0 k l _ (by norm_num) (by show 360 + k.val = 480 * 0 + 120 * (3 % 4) + k.val; omega)
    · exact band1_eq_c1 T X 0 _ ⟨3, by norm_num⟩ 1 k l _ (by norm_num) (by show 480 + (360 + k.val) = 480 * 1 + 120 * (3 % 4) + k.val; omega)
  · -- pooled row 2: image rows from 128, slices at 0 and 120
    refine (concatenate_apply_piece (t := S1440x2048) (0 : Fin 2) _ _ _ 2 ?hk_2 S120x2048 ?x_2 ?hxk_2 ?hr_2 240 ?hpre_2 (ix2 k l) ?hi_2 ?ha_2).trans ?rest_2
    case hxk_2 => exact rfl
    case hk_2 => simp
    case hr_2 => rfl
    case hpre_2 => rfl
    case hi_2 => exact fun bx hb => match bx with | ⟨0, _⟩ => absurd rfl hb | ⟨1, _⟩ => rfl
    case ha_2 => rfl
    rw [kRow_apply]
    show _ = max (max (max (c1 T X ⟨4, by norm_num⟩ 0 k l) (c1 T X ⟨4, by norm_num⟩ 1 k l))
        (max (c1 T X ⟨5, by norm_num⟩ 0 k l) (c1 T X ⟨5, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 128 _ ⟨4, by norm_num⟩ 0 k l _ (by norm_num) (by show 0 + k.val = 480 * 0 + 120 * (4 % 4) + k.val; omega)
    · exact band1_eq_c1 T X 128 _ ⟨4, by norm_num⟩ 1 k l _ (by norm_num) (by show 480 + (0 + k.val) = 480 * 1 + 120 * (4 % 4) + k.val; omega)
    · exact band1_eq_c1 T X 128 _ ⟨5, by norm_num⟩ 0 k l _ (by norm_num) (by show 120 + k.val = 480 * 0 + 120 * (5 % 4) + k.val; omega)
    · exact band1_eq_c1 T X 128 _ ⟨5, by norm_num⟩ 1 k l _ (by norm_num) (by show 480 + (120 + k.val) = 480 * 1 + 120 * (5 % 4) + k.val; omega)
  · -- pooled row 3: image rows from 128, slices at 240 and 360
    refine (concatenate_apply_piece (t := S1440x2048) (0 : Fin 2) _ _ _ 3 ?hk_3 S120x2048 ?x_3 ?hxk_3 ?hr_3 360 ?hpre_3 (ix2 k l) ?hi_3 ?ha_3).trans ?rest_3
    case hxk_3 => exact rfl
    case hk_3 => simp
    case hr_3 => rfl
    case hpre_3 => rfl
    case hi_3 => exact fun bx hb => match bx with | ⟨0, _⟩ => absurd rfl hb | ⟨1, _⟩ => rfl
    case ha_3 => rfl
    rw [kRow_apply]
    show _ = max (max (max (c1 T X ⟨6, by norm_num⟩ 0 k l) (c1 T X ⟨6, by norm_num⟩ 1 k l))
        (max (c1 T X ⟨7, by norm_num⟩ 0 k l) (c1 T X ⟨7, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 128 _ ⟨6, by norm_num⟩ 0 k l _ (by norm_num) (by show 240 + k.val = 480 * 0 + 120 * (6 % 4) + k.val; omega)
    · exact band1_eq_c1 T X 128 _ ⟨6, by norm_num⟩ 1 k l _ (by norm_num) (by show 480 + (240 + k.val) = 480 * 1 + 120 * (6 % 4) + k.val; omega)
    · exact band1_eq_c1 T X 128 _ ⟨7, by norm_num⟩ 0 k l _ (by norm_num) (by show 360 + k.val = 480 * 0 + 120 * (7 % 4) + k.val; omega)
    · exact band1_eq_c1 T X 128 _ ⟨7, by norm_num⟩ 1 k l _ (by norm_num) (by show 480 + (360 + k.val) = 480 * 1 + 120 * (7 % 4) + k.val; omega)
  · -- pooled row 4: image rows from 256, slices at 0 and 120
    refine (concatenate_apply_piece (t := S1440x2048) (0 : Fin 2) _ _ _ 4 ?hk_4 S120x2048 ?x_4 ?hxk_4 ?hr_4 480 ?hpre_4 (ix2 k l) ?hi_4 ?ha_4).trans ?rest_4
    case hxk_4 => exact rfl
    case hk_4 => simp
    case hr_4 => rfl
    case hpre_4 => rfl
    case hi_4 => exact fun bx hb => match bx with | ⟨0, _⟩ => absurd rfl hb | ⟨1, _⟩ => rfl
    case ha_4 => rfl
    rw [kRow_apply]
    show _ = max (max (max (c1 T X ⟨8, by norm_num⟩ 0 k l) (c1 T X ⟨8, by norm_num⟩ 1 k l))
        (max (c1 T X ⟨9, by norm_num⟩ 0 k l) (c1 T X ⟨9, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 256 _ ⟨8, by norm_num⟩ 0 k l _ (by norm_num) (by show 0 + k.val = 480 * 0 + 120 * (8 % 4) + k.val; omega)
    · exact band1_eq_c1 T X 256 _ ⟨8, by norm_num⟩ 1 k l _ (by norm_num) (by show 480 + (0 + k.val) = 480 * 1 + 120 * (8 % 4) + k.val; omega)
    · exact band1_eq_c1 T X 256 _ ⟨9, by norm_num⟩ 0 k l _ (by norm_num) (by show 120 + k.val = 480 * 0 + 120 * (9 % 4) + k.val; omega)
    · exact band1_eq_c1 T X 256 _ ⟨9, by norm_num⟩ 1 k l _ (by norm_num) (by show 480 + (120 + k.val) = 480 * 1 + 120 * (9 % 4) + k.val; omega)
  · -- pooled row 5: image rows from 256, slices at 240 and 360
    refine (concatenate_apply_piece (t := S1440x2048) (0 : Fin 2) _ _ _ 5 ?hk_5 S120x2048 ?x_5 ?hxk_5 ?hr_5 600 ?hpre_5 (ix2 k l) ?hi_5 ?ha_5).trans ?rest_5
    case hxk_5 => exact rfl
    case hk_5 => simp
    case hr_5 => rfl
    case hpre_5 => rfl
    case hi_5 => exact fun bx hb => match bx with | ⟨0, _⟩ => absurd rfl hb | ⟨1, _⟩ => rfl
    case ha_5 => rfl
    rw [kRow_apply]
    show _ = max (max (max (c1 T X ⟨10, by norm_num⟩ 0 k l) (c1 T X ⟨10, by norm_num⟩ 1 k l))
        (max (c1 T X ⟨11, by norm_num⟩ 0 k l) (c1 T X ⟨11, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 256 _ ⟨10, by norm_num⟩ 0 k l _ (by norm_num) (by show 240 + k.val = 480 * 0 + 120 * (10 % 4) + k.val; omega)
    · exact band1_eq_c1 T X 256 _ ⟨10, by norm_num⟩ 1 k l _ (by norm_num) (by show 480 + (240 + k.val) = 480 * 1 + 120 * (10 % 4) + k.val; omega)
    · exact band1_eq_c1 T X 256 _ ⟨11, by norm_num⟩ 0 k l _ (by norm_num) (by show 360 + k.val = 480 * 0 + 120 * (11 % 4) + k.val; omega)
    · exact band1_eq_c1 T X 256 _ ⟨11, by norm_num⟩ 1 k l _ (by norm_num) (by show 480 + (360 + k.val) = 480 * 1 + 120 * (11 % 4) + k.val; omega)
  · -- pooled row 6: image rows from 384, slices at 0 and 120
    refine (concatenate_apply_piece (t := S1440x2048) (0 : Fin 2) _ _ _ 6 ?hk_6 S120x2048 ?x_6 ?hxk_6 ?hr_6 720 ?hpre_6 (ix2 k l) ?hi_6 ?ha_6).trans ?rest_6
    case hxk_6 => exact rfl
    case hk_6 => simp
    case hr_6 => rfl
    case hpre_6 => rfl
    case hi_6 => exact fun bx hb => match bx with | ⟨0, _⟩ => absurd rfl hb | ⟨1, _⟩ => rfl
    case ha_6 => rfl
    rw [kRow_apply]
    show _ = max (max (max (c1 T X ⟨12, by norm_num⟩ 0 k l) (c1 T X ⟨12, by norm_num⟩ 1 k l))
        (max (c1 T X ⟨13, by norm_num⟩ 0 k l) (c1 T X ⟨13, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 384 _ ⟨12, by norm_num⟩ 0 k l _ (by norm_num) (by show 0 + k.val = 480 * 0 + 120 * (12 % 4) + k.val; omega)
    · exact band1_eq_c1 T X 384 _ ⟨12, by norm_num⟩ 1 k l _ (by norm_num) (by show 480 + (0 + k.val) = 480 * 1 + 120 * (12 % 4) + k.val; omega)
    · exact band1_eq_c1 T X 384 _ ⟨13, by norm_num⟩ 0 k l _ (by norm_num) (by show 120 + k.val = 480 * 0 + 120 * (13 % 4) + k.val; omega)
    · exact band1_eq_c1 T X 384 _ ⟨13, by norm_num⟩ 1 k l _ (by norm_num) (by show 480 + (120 + k.val) = 480 * 1 + 120 * (13 % 4) + k.val; omega)
  · -- pooled row 7: image rows from 384, slices at 240 and 360
    refine (concatenate_apply_piece (t := S1440x2048) (0 : Fin 2) _ _ _ 7 ?hk_7 S120x2048 ?x_7 ?hxk_7 ?hr_7 840 ?hpre_7 (ix2 k l) ?hi_7 ?ha_7).trans ?rest_7
    case hxk_7 => exact rfl
    case hk_7 => simp
    case hr_7 => rfl
    case hpre_7 => rfl
    case hi_7 => exact fun bx hb => match bx with | ⟨0, _⟩ => absurd rfl hb | ⟨1, _⟩ => rfl
    case ha_7 => rfl
    rw [kRow_apply]
    show _ = max (max (max (c1 T X ⟨14, by norm_num⟩ 0 k l) (c1 T X ⟨14, by norm_num⟩ 1 k l))
        (max (c1 T X ⟨15, by norm_num⟩ 0 k l) (c1 T X ⟨15, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 384 _ ⟨14, by norm_num⟩ 0 k l _ (by norm_num) (by show 240 + k.val = 480 * 0 + 120 * (14 % 4) + k.val; omega)
    · exact band1_eq_c1 T X 384 _ ⟨14, by norm_num⟩ 1 k l _ (by norm_num) (by show 480 + (240 + k.val) = 480 * 1 + 120 * (14 % 4) + k.val; omega)
    · exact band1_eq_c1 T X 384 _ ⟨15, by norm_num⟩ 0 k l _ (by norm_num) (by show 360 + k.val = 480 * 0 + 120 * (15 % 4) + k.val; omega)
    · exact band1_eq_c1 T X 384 _ ⟨15, by norm_num⟩ 1 k l _ (by norm_num) (by show 480 + (360 + k.val) = 480 * 1 + 120 * (15 % 4) + k.val; omega)
  · -- pooled row 8: image rows from 512, slices at 0 and 120
    refine (concatenate_apply_piece (t := S1440x2048) (0 : Fin 2) _ _ _ 8 ?hk_8 S120x2048 ?x_8 ?hxk_8 ?hr_8 960 ?hpre_8 (ix2 k l) ?hi_8 ?ha_8).trans ?rest_8
    case hxk_8 => exact rfl
    case hk_8 => simp
    case hr_8 => rfl
    case hpre_8 => rfl
    case hi_8 => exact fun bx hb => match bx with | ⟨0, _⟩ => absurd rfl hb | ⟨1, _⟩ => rfl
    case ha_8 => rfl
    rw [kRow_apply]
    show _ = max (max (max (c1 T X ⟨16, by norm_num⟩ 0 k l) (c1 T X ⟨16, by norm_num⟩ 1 k l))
        (max (c1 T X ⟨17, by norm_num⟩ 0 k l) (c1 T X ⟨17, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 512 _ ⟨16, by norm_num⟩ 0 k l _ (by norm_num) (by show 0 + k.val = 480 * 0 + 120 * (16 % 4) + k.val; omega)
    · exact band1_eq_c1 T X 512 _ ⟨16, by norm_num⟩ 1 k l _ (by norm_num) (by show 480 + (0 + k.val) = 480 * 1 + 120 * (16 % 4) + k.val; omega)
    · exact band1_eq_c1 T X 512 _ ⟨17, by norm_num⟩ 0 k l _ (by norm_num) (by show 120 + k.val = 480 * 0 + 120 * (17 % 4) + k.val; omega)
    · exact band1_eq_c1 T X 512 _ ⟨17, by norm_num⟩ 1 k l _ (by norm_num) (by show 480 + (120 + k.val) = 480 * 1 + 120 * (17 % 4) + k.val; omega)
  · -- pooled row 9: image rows from 512, slices at 240 and 360
    refine (concatenate_apply_piece (t := S1440x2048) (0 : Fin 2) _ _ _ 9 ?hk_9 S120x2048 ?x_9 ?hxk_9 ?hr_9 1080 ?hpre_9 (ix2 k l) ?hi_9 ?ha_9).trans ?rest_9
    case hxk_9 => exact rfl
    case hk_9 => simp
    case hr_9 => rfl
    case hpre_9 => rfl
    case hi_9 => exact fun bx hb => match bx with | ⟨0, _⟩ => absurd rfl hb | ⟨1, _⟩ => rfl
    case ha_9 => rfl
    rw [kRow_apply]
    show _ = max (max (max (c1 T X ⟨18, by norm_num⟩ 0 k l) (c1 T X ⟨18, by norm_num⟩ 1 k l))
        (max (c1 T X ⟨19, by norm_num⟩ 0 k l) (c1 T X ⟨19, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 512 _ ⟨18, by norm_num⟩ 0 k l _ (by norm_num) (by show 240 + k.val = 480 * 0 + 120 * (18 % 4) + k.val; omega)
    · exact band1_eq_c1 T X 512 _ ⟨18, by norm_num⟩ 1 k l _ (by norm_num) (by show 480 + (240 + k.val) = 480 * 1 + 120 * (18 % 4) + k.val; omega)
    · exact band1_eq_c1 T X 512 _ ⟨19, by norm_num⟩ 0 k l _ (by norm_num) (by show 360 + k.val = 480 * 0 + 120 * (19 % 4) + k.val; omega)
    · exact band1_eq_c1 T X 512 _ ⟨19, by norm_num⟩ 1 k l _ (by norm_num) (by show 480 + (360 + k.val) = 480 * 1 + 120 * (19 % 4) + k.val; omega)
  · -- pooled row 10: image rows from 640, slices at 0 and 120
    refine (concatenate_apply_piece (t := S1440x2048) (0 : Fin 2) _ _ _ 10 ?hk_10 S120x2048 ?x_10 ?hxk_10 ?hr_10 1200 ?hpre_10 (ix2 k l) ?hi_10 ?ha_10).trans ?rest_10
    case hxk_10 => exact rfl
    case hk_10 => simp
    case hr_10 => rfl
    case hpre_10 => rfl
    case hi_10 => exact fun bx hb => match bx with | ⟨0, _⟩ => absurd rfl hb | ⟨1, _⟩ => rfl
    case ha_10 => rfl
    rw [kRow_apply]
    show _ = max (max (max (c1 T X ⟨20, by norm_num⟩ 0 k l) (c1 T X ⟨20, by norm_num⟩ 1 k l))
        (max (c1 T X ⟨21, by norm_num⟩ 0 k l) (c1 T X ⟨21, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 640 _ ⟨20, by norm_num⟩ 0 k l _ (by norm_num) (by show 0 + k.val = 480 * 0 + 120 * (20 % 4) + k.val; omega)
    · exact band1_eq_c1 T X 640 _ ⟨20, by norm_num⟩ 1 k l _ (by norm_num) (by show 480 + (0 + k.val) = 480 * 1 + 120 * (20 % 4) + k.val; omega)
    · exact band1_eq_c1 T X 640 _ ⟨21, by norm_num⟩ 0 k l _ (by norm_num) (by show 120 + k.val = 480 * 0 + 120 * (21 % 4) + k.val; omega)
    · exact band1_eq_c1 T X 640 _ ⟨21, by norm_num⟩ 1 k l _ (by norm_num) (by show 480 + (120 + k.val) = 480 * 1 + 120 * (21 % 4) + k.val; omega)
  · -- pooled row 11: image rows from 640, slices at 240 and 360
    refine (concatenate_apply_piece (t := S1440x2048) (0 : Fin 2) _ _ _ 11 ?hk_11 S120x2048 ?x_11 ?hxk_11 ?hr_11 1320 ?hpre_11 (ix2 k l) ?hi_11 ?ha_11).trans ?rest_11
    case hxk_11 => exact rfl
    case hk_11 => simp
    case hr_11 => rfl
    case hpre_11 => rfl
    case hi_11 => exact fun bx hb => match bx with | ⟨0, _⟩ => absurd rfl hb | ⟨1, _⟩ => rfl
    case ha_11 => rfl
    rw [kRow_apply]
    show _ = max (max (max (c1 T X ⟨22, by norm_num⟩ 0 k l) (c1 T X ⟨22, by norm_num⟩ 1 k l))
        (max (c1 T X ⟨23, by norm_num⟩ 0 k l) (c1 T X ⟨23, by norm_num⟩ 1 k l)) + b (ix2 k (0 : Fin 1))) (Ideal.ofBits .f32 0x00000000#32)
    refine congrArg₂ max (congrArg₂ (· + ·) (congrArg₂ max (congrArg₂ max ?_ ?_) (congrArg₂ max ?_ ?_)) rfl) rfl
    · exact band1_eq_c1 T X 640 _ ⟨22, by norm_num⟩ 0 k l _ (by norm_num) (by show 240 + k.val = 480 * 0 + 120 * (22 % 4) + k.val; omega)
    · exact band1_eq_c1 T X 640 _ ⟨22, by norm_num⟩ 1 k l _ (by norm_num) (by show 480 + (240 + k.val) = 480 * 1 + 120 * (22 % 4) + k.val; omega)
    · exact band1_eq_c1 T X 640 _ ⟨23, by norm_num⟩ 0 k l _ (by norm_num) (by show 360 + k.val = 480 * 0 + 120 * (23 % 4) + k.val; omega)
    · exact band1_eq_c1 T X 640 _ ⟨23, by norm_num⟩ 1 k l _ (by norm_num) (by show 480 + (360 + k.val) = 480 * 1 + 120 * (23 % 4) + k.val; omega)

end Cert.KernelIdeal.Net

end
-- ==== Proof.KernelFlat.lean ====
/-
  The second layer's stack at an entry, uniformly in the row block. With c2 oy p q l the band sum of second-convolution
  row oy (0 … 7), column parity p, lane q = 20·(pooled column) + channel — row 80 p + q of the second banded matrix against
  column l of stack rows [120 oy, 120 oy + 600) — the 320-row stack's entry (80 s + q, l) is
  max(max(c2 (2s) 0, c2 (2s) 1), max(c2 (2s+1) 0, c2 (2s+1) 1)) plus the bias entry q, clamped at zero.
-/
import proofs.«138577_g2000503492652488_pallasbulk_942_42_alg».proof.Proof.KernelStack

set_option maxRecDepth 16384

noncomputable section

namespace Cert.KernelIdeal.Net

open Cert.KernelIdeal Cert.KernelIdeal.Gen
open Idealize.ShloMosaic Idealize.ShloMosaic.ValueIdx
open scoped BigOperators

/-- The band sum of second-convolution row `oy`, column parity `p`, lane `q`, image column `l`. -/
def c2 (T : FVec Ideal S160x600 .bf16) (A : FVec Ideal S1440x2048 .bf16) (oy : Fin 8) (p : Fin 2) (q : Fin 80) (l : Fin 2048) : Ideal .f32 :=
  ∑ c : Fin 600, T (ix2 (⟨80 * p.val + q.val, by have := p.isLt; have := q.isLt; omega⟩ : Fin 160) c)
    * A (ix2 (⟨120 * oy.val + c.val, by have := oy.isLt; have := c.isLt; omega⟩ : Fin 1440) l)

/-- A pooled, biased, clamped value of the second layer: pooled row `s`, lane `q`, image column `l`. -/
def flatv (T : FVec Ideal S160x600 .bf16) (A : FVec Ideal S1440x2048 .bf16) (b : Vec Ideal S80x1 .f32) (s : Fin 4) (q : Fin 80) (l : Fin 2048) : Ideal .f32 :=
  max (max (max (c2 T A ⟨2 * s.val, by have := s.isLt; omega⟩ 0 q l) (c2 T A ⟨2 * s.val, by have := s.isLt; omega⟩ 1 q l))
           (max (c2 T A ⟨2 * s.val + 1, by have := s.isLt; omega⟩ 0 q l) (c2 T A ⟨2 * s.val + 1, by have := s.isLt; omega⟩ 1 q l))
        + b (ix2 q (0 : Fin 1))) (Ideal.ofBits .f32 0x00000000#32)

theorem band2_eq_c2 (T : FVec Ideal S160x600 .bf16) (A : FVec Ideal S1440x2048 .bf16) (o : ℕ) (h : S1440x2048.Slices ![o, 0] S600x2048)
    (oy : Fin 8) (p : Fin 2) (q : Fin 80) (l : Fin 2048) (ρ' : Fin 160) (ho : o = 120 * oy.val) (hρ : ρ'.val = 80 * p.val + q.val) :
    band2 T A o h ρ' l = c2 T A oy p q l := by
  subst ho
  unfold band2 c2
  refine Finset.sum_congr rfl fun c _ => ?_
  exact congrArg (fun r => T (ix2 r c) * A (ix2 (⟨120 * oy.val + c.val, by have := oy.isLt; have := c.isLt; omega⟩ : Fin 1440) l)) (Fin.ext hρ)

/-- An 80-row block plus the bias column. -/
def biasOnly80 (R : FVec Ideal S80x2048 .bf16) (b : Vec Ideal S80x1 .f32) : FVec Ideal S80x2048 .f32 :=
  have v234 : FVec Ideal S80x1 .f32 := shapeCast S80x1 b shapeCasts_S80x1_S80x1
  have v235 : FVec Ideal S80x2048 .f32 := extf .f32 R bitsLt_bf16_f32
  have v236 : FVec Ideal S80x2048 .f32 := broadcastTo S80x2048 v234 broadcasts_S80x1_S80x2048
  addf v235 v236

theorem biasOnly80_apply (R : FVec Ideal S80x2048 .bf16) (b : Vec Ideal S80x1 .f32) (q : Fin 80) (l : Fin 2048) :
    biasOnly80 R b (ix2 q l) = R (ix2 q l) + b (ix2 q (0 : Fin 1)) := by
  unfold biasOnly80
  rw [addf_apply, extf_apply, Cert.Lib.broadcastTo_a1_ab_apply, shapeCast_self]

/-- Bias then clamp, 80 rows. -/
def biasRelu80 (R : FVec Ideal S80x2048 .bf16) (b : Vec Ideal S80x1 .f32) : FVec Ideal S80x2048 .bf16 :=
  have cst_56 : Ideal .f32 := Scalar.ofBits .f32 0x00000000#32
  have v229 : FVec Ideal S80x2048 .f32 := broadcast S80x2048 cst_56
  have v230 : FVec Ideal S80x2048 .f32 := maximumf (biasOnly80 R b) v229
  truncf .bf16 v230 bitsLt_bf16_f32

theorem biasRelu80_apply (R : FVec Ideal S80x2048 .bf16) (b : Vec Ideal S80x1 .f32) (q : Fin 80) (l : Fin 2048) :
    biasRelu80 R b (ix2 q l) = max (R (ix2 q l) + b (ix2 q (0 : Fin 1))) (Ideal.ofBits .f32 0x00000000#32) := by
  show max (biasOnly80 R b (ix2 q l)) (Ideal.ofBits .f32 0x00000000#32) = _
  rw [biasOnly80_apply]

/-- The program's pieces of the second convolution are these patterns. -/
theorem pay26_eq (v1 : FVec Ideal S896x2048 .bf16) (v3 : FVec Ideal S960x256 .bf16) (v23 v31 v51 v59 v79 v87 v107 v115 v135 : FVec Ideal S120x2048 .bf16) (v140 : FVec Ideal S120x2048 .f32) (v156 v164 : Vec Ideal S120x1 .f32) (v173 : Vec Ideal S160x600 .bf16) :
    k0_pay26 v1 v3 v23 v31 v51 v59 v79 v87 v107 v115 v135 v140 v156 v164 v173
      = pool2 (k0_pay25 v173) (k0_pay24 v1 v3 v23 v31 v51 v59 v79 v87 v107 v115 v135 v140 v156 v164) 0 slices_S1440x2048_o0_0_S600x2048 := rfl
theorem pay27_eq (v1 : FVec Ideal S896x2048 .bf16) (v3 : FVec Ideal S960x256 .bf16) (v23 v31 v51 v59 v79 v87 v107 v115 v135 : FVec Ideal S120x2048 .bf16) (v140 : FVec Ideal S120x2048 .f32) (v156 v164 : Vec Ideal S120x1 .f32) (v173 : Vec Ideal S160x600 .bf16) :
    k0_pay27 v1 v3 v23 v31 v51 v59 v79 v87 v107 v115 v135 v140 v156 v164 v173
      = pool2 (k0_pay25 v173) (k0_pay24 v1 v3 v23 v31 v51 v59 v79 v87 v107 v115 v135 v140 v156 v164) 120 slices_S1440x2048_o120_0_S600x2048 := rfl
theorem pay29_eq (A : FVec Ideal S1440x2048 .bf16) (T : FVec Ideal S160x600 .bf16) : k0_pay29 A T = pool2 T A 480 slices_S1440x2048_o480_0_S600x2048 := rfl
theorem pay30_eq (A : FVec Ideal S1440x2048 .bf16) (T : FVec Ideal S160x600 .bf16) : k0_pay30 A T = pool2 T A 600 slices_S1440x2048_o600_0_S600x2048 := rfl
theorem pay31_eq (A : FVec Ideal S1440x2048 .bf16) (T : FVec Ideal S160x600 .bf16) : k0_pay31 A T = pool2 T A 720 slices_S1440x2048_o720_0_S600x2048 := rfl
theorem pay32_eq (A : FVec Ideal S1440x2048 .bf16) (T : FVec Ideal S160x600 .bf16) : k0_pay32 A T = pool2 T A 840 slices_S1440x2048_o840_0_S600x2048 := rfl
theorem pay33_eq (v180 v186 : FVec Ideal S80x2048 .bf16) (b : Vec Ideal S80x1 .f32) : k0_pay33 v180 v186 b = biasRelu80 (maximumf v180 v186) b := rfl
theorem pay34_eq (A : FVec Ideal S1440x2048 .bf16) (T : FVec Ideal S160x600 .bf16) (b : Vec Ideal S80x1 .f32) :
    k0_pay34 A T (extractStridedSlice S600x2048 ![240, 0] A slices_S1440x2048_o240_0_S600x2048) (constant S160x2048 .f32 0x00000000#32) b
      = biasOnly80 (maximumf (pool2 T A 240 slices_S1440x2048_o240_0_S600x2048) (pool2 T A 360 slices_S1440x2048_o360_0_S600x2048)) b := rfl

set_option maxHeartbeats 1600000 in
/-- The 320-row stack over the eight pooled products, at (80 s + q, l). -/
theorem kFlat_val (T : FVec Ideal S160x600 .bf16) (A : FVec Ideal S1440x2048 .bf16) (b : Vec Ideal S80x1 .f32)
    (s : Fin 4) (q : Fin 80) (l : Fin 2048) :
    kFlat (pool2 T A 480 slices_S1440x2048_o480_0_S600x2048) (pool2 T A 600 slices_S1440x2048_o600_0_S600x2048) (pool2 T A 720 slices_S1440x2048_o720_0_S600x2048) (pool2 T A 840 slices_S1440x2048_o840_0_S600x2048)
        (biasRelu80 (maximumf (pool2 T A 0 slices_S1440x2048_o0_0_S600x2048) (pool2 T A 120 slices_S1440x2048_o120_0_S600x2048)) b)
        (biasOnly80 (maximumf (pool2 T A 240 slices_S1440x2048_o240_0_S600x2048) (pool2 T A 360 slices_S1440x2048_o360_0_S600x2048)) b) b b
        (ix2 (⟨80 * s.val + q.val, by have := s.isLt; have := q.isLt; omega⟩ : Fin 320) l)
      = flatv T A b s q l := by
  unfold kFlat
  obtain ⟨sv, hsv⟩ := s
  interval_cases sv
  · -- pooled row 0: stack rows from 0 and 120
    refine (concatenate_apply_piece (t := S320x2048) (0 : Fin 2) _ _ _ 0 ?hk_0 S80x2048 ?x_0 ?hxk_0 ?hr_0 0 ?hpre_0 (ix2 q l) ?hi_0 ?ha_0).trans ?rest_0
    case hxk_0 => exact rfl
    case hk_0 => simp
    case hr_0 => rfl
    case hpre_0 => rfl
    case hi_0 => exact fun bx hb => match bx with | ⟨0, _⟩ => absurd rfl hb | ⟨1, _⟩ => rfl
    case ha_0 => rfl
    rw [biasRelu80_apply, maximumf_apply, pool2_apply, pool2_apply]
    show _ = max (max (max (c2 T A ⟨0, by norm_num⟩ 0 q l) (c2 T A ⟨0, by norm_num⟩ 1 q l))
        (max (c2 T A ⟨1, by norm_num⟩ 0 q l) (c2 T A ⟨1, by norm_num⟩ 1 q l)) + b (ix2 q (0 : Fin 1))) (Ideal.ofBits .f32 0x00000000#32)
    refine congrArg₂ max (congrArg₂ (· + ·) (congrArg₂ max (congrArg₂ max ?_ ?_) (congrArg₂ max ?_ ?_)) rfl) rfl
    · exact band2_eq_c2 T A 0 _ ⟨0, by norm_num⟩ 0 q l _ (by norm_num) (by show q.val = 80 * 0 + q.val; omega)
    · exact band2_eq_c2 T A 0 _ ⟨0, by norm_num⟩ 1 q l _ (by norm_num) (by show 80 + q.val = 80 * 1 + q.val; omega)
    · exact band2_eq_c2 T A 120 _ ⟨1, by norm_num⟩ 0 q l _ (by norm_num) (by show q.val = 80 * 0 + q.val; omega)
    · exact band2_eq_c2 T A 120 _ ⟨1, by norm_num⟩ 1 q l _ (by norm_num) (by show 80 + q.val = 80 * 1 + q.val; omega)
  · -- pooled row 1: stack rows from 240 and 360
    refine (concatenate_apply_piece (t := S320x2048) (0 : Fin 2) _ _ _ 1 ?hk_1 S80x2048 ?x_1 ?hxk_1 ?hr_1 80 ?hpre_1 (ix2 q l) ?hi_1 ?ha_1).trans ?rest_1
    case hxk_1 => exact rfl
    case hk_1 => simp
    case hr_1 => rfl
    case hpre_1 => rfl
    case hi_1 => exact fun bx hb => match bx with | ⟨0, _⟩ => absurd rfl hb | ⟨1, _⟩ => rfl
    case ha_1 => rfl
    show max (biasOnly80 (maximumf (pool2 T A 240 slices_S1440x2048_o240_0_S600x2048) (pool2 T A 360 slices_S1440x2048_o360_0_S600x2048)) b (ix2 q l)) (Ideal.ofBits .f32 0x00000000#32) = _
    rw [biasOnly80_apply, maximumf_apply, pool2_apply, pool2_apply]
    show _ = max (max (max (c2 T A ⟨2, by norm_num⟩ 0 q l) (c2 T A ⟨2, by norm_num⟩ 1 q l))
        (max (c2 T A ⟨3, by norm_num⟩ 0 q l) (c2 T A ⟨3, by norm_num⟩ 1 q l)) + b (ix2 q (0 : Fin 1))) (Ideal.ofBits .f32 0x00000000#32)
    refine congrArg₂ max (congrArg₂ (· + ·) (congrArg₂ max (congrArg₂ max ?_ ?_) (congrArg₂ max ?_ ?_)) rfl) rfl
    · exact band2_eq_c2 T A 240 _ ⟨2, by norm_num⟩ 0 q l _ (by norm_num) (by show q.val = 80 * 0 + q.val; omega)
    · exact band2_eq_c2 T A 240 _ ⟨2, by norm_num⟩ 1 q l _ (by norm_num) (by show 80 + q.val = 80 * 1 + q.val; omega)
    · exact band2_eq_c2 T A 360 _ ⟨3, by norm_num⟩ 0 q l _ (by norm_num) (by show q.val = 80 * 0 + q.val; omega)
    · exact band2_eq_c2 T A 360 _ ⟨3, by norm_num⟩ 1 q l _ (by norm_num) (by show 80 + q.val = 80 * 1 + q.val; omega)
  · -- pooled row 2: stack rows from 480 and 600
    refine (concatenate_apply_piece (t := S320x2048) (0 : Fin 2) _ _ _ 2 ?hk_2 S80x2048 ?x_2 ?hxk_2 ?hr_2 160 ?hpre_2 (ix2 q l) ?hi_2 ?ha_2).trans ?rest_2
    case hxk_2 => exact rfl
    case hk_2 => simp
    case hr_2 => rfl
    case hpre_2 => rfl
    case hi_2 => exact fun bx hb => match bx with | ⟨0, _⟩ => absurd rfl hb | ⟨1, _⟩ => rfl
    case ha_2 => rfl
    show biasRelu80 (maximumf (pool2 T A 480 slices_S1440x2048_o480_0_S600x2048) (pool2 T A 600 slices_S1440x2048_o600_0_S600x2048)) b (ix2 q l) = _
    rw [biasRelu80_apply, maximumf_apply, pool2_apply, pool2_apply]
    show _ = max (max (max (c2 T A ⟨4, by norm_num⟩ 0 q l) (c2 T A ⟨4, by norm_num⟩ 1 q l))
        (max (c2 T A ⟨5, by norm_num⟩ 0 q l) (c2 T A ⟨5, by norm_num⟩ 1 q l)) + b (ix2 q (0 : Fin 1))) (Ideal.ofBits .f32 0x00000000#32)
    refine congrArg₂ max (congrArg₂ (· + ·) (congrArg₂ max (congrArg₂ max ?_ ?_) (congrArg₂ max ?_ ?_)) rfl) rfl
    · exact band2_eq_c2 T A 480 _ ⟨4, by norm_num⟩ 0 q l _ (by norm_num) (by show q.val = 80 * 0 + q.val; omega)
    · exact band2_eq_c2 T A 480 _ ⟨4, by norm_num⟩ 1 q l _ (by norm_num) (by show 80 + q.val = 80 * 1 + q.val; omega)
    · exact band2_eq_c2 T A 600 _ ⟨5, by norm_num⟩ 0 q l _ (by norm_num) (by show q.val = 80 * 0 + q.val; omega)
    · exact band2_eq_c2 T A 600 _ ⟨5, by norm_num⟩ 1 q l _ (by norm_num) (by show 80 + q.val = 80 * 1 + q.val; omega)
  · -- pooled row 3: stack rows from 720 and 840
    refine (concatenate_apply_piece (t := S320x2048) (0 : Fin 2) _ _ _ 3 ?hk_3 S80x2048 ?x_3 ?hxk_3 ?hr_3 240 ?hpre_3 (ix2 q l) ?hi_3 ?ha_3).trans ?rest_3
    case hxk_3 => exact rfl
    case hk_3 => simp
    case hr_3 => rfl
    case hpre_3 => rfl
    case hi_3 => exact fun bx hb => match bx with | ⟨0, _⟩ => absurd rfl hb | ⟨1, _⟩ => rfl
    case ha_3 => rfl
    show biasRelu80 (maximumf (pool2 T A 720 slices_S1440x2048_o720_0_S600x2048) (pool2 T A 840 slices_S1440x2048_o840_0_S600x2048)) b (ix2 q l) = _
    rw [biasRelu80_apply, maximumf_apply, pool2_apply, pool2_apply]
    show _ = max (max (max (c2 T A ⟨6, by norm_num⟩ 0 q l) (c2 T A ⟨6, by norm_num⟩ 1 q l))
        (max (c2 T A ⟨7, by norm_num⟩ 0 q l) (c2 T A ⟨7, by norm_num⟩ 1 q l)) + b (ix2 q (0 : Fin 1))) (Ideal.ofBits .f32 0x00000000#32)
    refine congrArg₂ max (congrArg₂ (· + ·) (congrArg₂ max (congrArg₂ max ?_ ?_) (congrArg₂ max ?_ ?_)) rfl) rfl
    · exact band2_eq_c2 T A 720 _ ⟨6, by norm_num⟩ 0 q l _ (by norm_num) (by show q.val = 80 * 0 + q.val; omega)
    · exact band2_eq_c2 T A 720 _ ⟨6, by norm_num⟩ 1 q l _ (by norm_num) (by show 80 + q.val = 80 * 1 + q.val; omega)
    · exact band2_eq_c2 T A 840 _ ⟨7, by norm_num⟩ 0 q l _ (by norm_num) (by show q.val = 80 * 0 + q.val; omega)
    · exact band2_eq_c2 T A 840 _ ⟨7, by norm_num⟩ 1 q l _ (by norm_num) (by show 80 + q.val = 80 * 1 + q.val; omega)

end Cert.KernelIdeal.Net

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.KernelValue.lean ====
/-
  The single-launch program's score at (k, l) as one formula of its nine operand blocks: the second dense layer over
  the clamped first dense layer over the 4 x 80 pooled second-convolution values, those over the twelve pooled
  first-convolution rows.
-/
import proofs.«138577_g2000503492652488_pallasbulk_942_42_alg».proof.Proof.KernelStages
import proofs.«138577_g2000503492652488_pallasbulk_942_42_alg».proof.Proof.KernelFlat
import proofs.«138577_g2000503492652488_pallasbulk_942_42_alg».proof.Proof.LibBlockSum

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem hz2v : (![0, 0] : Fin 2 → Nat) = fun _ => 0 := funext fun a => by fin_cases a <;> rfl

/-- The scores through the patterns: the same term, regrouped. -/
theorem kScores_eq (x0 : Vec Ideal S896x2048 .bf16) (x1 : Vec Ideal S960x256 .bf16) (x2 : Vec Ideal S160x600 .bf16) (x3 : Vec Ideal S50x320 .bf16) (x4 : Vec Ideal S10x50 .bf16) (x5 : Vec Ideal S120x1 .f32) (x6 : Vec Ideal S80x1 .f32) (x7 : Vec Ideal S50x1 .f32) (x8 : Vec Ideal S10x1 .f32) :
    kScores x0 x1 x2 x3 x4 x5 x6 x7 x8
      = k0_pay35 (pool2 (k0_pay25 (View.ld x2 rIn2)) (kA2 (k0_pay3 (View.ld x1 rIn1)) (k0_pay2 (View.ld x0 rIn0)) (View.ld x5 rIn5)) 480 slices_S1440x2048_o480_0_S600x2048) (pool2 (k0_pay25 (View.ld x2 rIn2)) (kA2 (k0_pay3 (View.ld x1 rIn1)) (k0_pay2 (View.ld x0 rIn0)) (View.ld x5 rIn5)) 600 slices_S1440x2048_o600_0_S600x2048) (pool2 (k0_pay25 (View.ld x2 rIn2)) (kA2 (k0_pay3 (View.ld x1 rIn1)) (k0_pay2 (View.ld x0 rIn0)) (View.ld x5 rIn5)) 720 slices_S1440x2048_o720_0_S600x2048) (pool2 (k0_pay25 (View.ld x2 rIn2)) (kA2 (k0_pay3 (View.ld x1 rIn1)) (k0_pay2 (View.ld x0 rIn0)) (View.ld x5 rIn5)) 840 slices_S1440x2048_o840_0_S600x2048)
          (biasRelu80 (maximumf (pool2 (k0_pay25 (View.ld x2 rIn2)) (kA2 (k0_pay3 (View.ld x1 rIn1)) (k0_pay2 (View.ld x0 rIn0)) (View.ld x5 rIn5)) 0 slices_S1440x2048_o0_0_S600x2048) (pool2 (k0_pay25 (View.ld x2 rIn2)) (kA2 (k0_pay3 (View.ld x1 rIn1)) (k0_pay2 (View.ld x0 rIn0)) (View.ld x5 rIn5)) 120 slices_S1440x2048_o120_0_S600x2048)) (View.ld x6 rIn6))
          (biasOnly80 (maximumf (pool2 (k0_pay25 (View.ld x2 rIn2)) (kA2 (k0_pay3 (View.ld x1 rIn1)) (k0_pay2 (View.ld x0 rIn0)) (View.ld x5 rIn5)) 240 slices_S1440x2048_o240_0_S600x2048) (pool2 (k0_pay25 (View.ld x2 rIn2)) (kA2 (k0_pay3 (View.ld x1 rIn1)) (k0_pay2 (View.ld x0 rIn0)) (View.ld x5 rIn5)) 360 slices_S1440x2048_o360_0_S600x2048)) (View.ld x6 rIn6))
          (View.ld x6 rIn6) (View.ld x6 rIn6) (View.ld x3 rIn3) (View.ld x7 rIn7) (View.ld x4 rIn4) (View.ld x8 rIn8) := rfl

/-- The score at (k, l). -/
theorem kScores_val (x0 : Vec Ideal S896x2048 .bf16) (x1 : Vec Ideal S960x256 .bf16) (x2 : Vec Ideal S160x600 .bf16) (x3 : Vec Ideal S50x320 .bf16) (x4 : Vec Ideal S10x50 .bf16) (x5 : Vec Ideal S120x1 .f32) (x6 : Vec Ideal S80x1 .f32) (x7 : Vec Ideal S50x1 .f32) (x8 : Vec Ideal S10x1 .f32) (k : Fin 10) (l : Fin 2048) :
    kScores x0 x1 x2 x3 x4 x5 x6 x7 x8 (ix2 k l)
      = (∑ a : Fin 50, x4 (ix2 k a) *
          max ((∑ s : Fin 4, ∑ q : Fin 80, x3 (ix2 a (⟨80 * s.val + q.val, by have := s.isLt; have := q.isLt; omega⟩ : Fin 320))
                  * flatv x2 (kA2 x1 x0 x5) x6 s q l) + x7 (ix2 a (0 : Fin 1))) (Ideal.ofBits .f32 0x00000000#32))
        + x8 (ix2 k (0 : Fin 1)) := by
  rw [kScores_eq, pay35_apply]
  simp only [View.ld_unit_zero (S := S896x2048) hz2v, View.ld_unit_zero (S := S960x256) hz2v, View.ld_unit_zero (S := S160x600) hz2v,
    View.ld_unit_zero (S := S50x320) hz2v, View.ld_unit_zero (S := S10x50) hz2v, View.ld_unit_zero (S := S120x1) hz2v,
    View.ld_unit_zero (S := S80x1) hz2v, View.ld_unit_zero (S := S50x1) hz2v, View.ld_unit_zero (S := S10x1) hz2v]
  rw [show View.ld x4 rIn4 = x4 from View.ld_unit_zero (S := S10x50) hz2v _ x4,
    show View.ld x8 rIn8 = x8 from View.ld_unit_zero (S := S10x1) hz2v _ x8]
  refine congrArg (· + x8 (ix2 k (0 : Fin 1))) (Finset.sum_congr rfl fun a _ => ?_)
  refine congrArg (x4 (ix2 k a) * ·) ?_
  rw [kHid_apply]
  refine congrArg (fun s => max (s + x7 (ix2 a (0 : Fin 1))) (Ideal.ofBits .f32 0x00000000#32)) ?_
  refine (Cert.Lib.sum_blocks 4 80 _).trans (Finset.sum_congr rfl fun s _ => Finset.sum_congr rfl fun q _ => ?_)
  have e : (finProdFinEquiv (s, q) : Fin (4 * 80)) = (⟨80 * s.val + q.val, by have := s.isLt; have := q.isLt; omega⟩ : Fin 320) :=
    Fin.ext (by rw [Cert.Lib.blockIdx_val]; show q.val + 80 * s.val = 80 * s.val + q.val; omega)
  rw [e, kFlat_val]
  unfold k0_pay25 k0_pay3 k0_pay2
  rw [shapeCast_self, shapeCast_self, shapeCast_self]

end Cert.KernelIdeal.Net

end
-- ==== Proof.LibMidUnit.lean ====
/-
  Arrays with a unit axis in the middle, read at an index.

  A `[a, 1, b, c]` array cast to `[a, b, c]` reads, at `(s, r, q)`, the operand at `(s, 0, r, q)`; a `[1, c]` row cast to
  `[1, 1, c]` reads its entry `q`; a `[1, 1, c]` array repeated over `[a, b, c]` reads, at `(s, r, q)`, its entry `q`; and slab
  `s` of an `[a, b, c]` array, taken as the unit-stride slice `[s : s + 1]` and cast to `[b, c]`, reads at `(r, q)` the array's
  `(s, r, q)`. Stated over any element type and over literal coordinates, so that they fire on indices built by
  `ix2`, `ix3`, `ix4`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-- `[a, 1, b, c]` cast to `[a, b, c]`, at `(s, r, q)`: the operand at `(s, 0, r, q)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (s : Fin a) (r : Fin b) (q : Fin c) :
    shapeCast ⟨3, ![a, b, c]⟩ x h (ix3 s r q) = x (ix4 s (0 : Fin 1) r q) :=
  shapeCast_apply x h _ _ (by
    rw [Shape.rowMajor_val_four, Shape.rowMajor_val_three]
    show ((s.val * 1 + 0) * b + r.val) * c + q.val = (s.val * b + r.val) * c + q.val
    rw [Nat.mul_one, Nat.add_zero])

/-- A `[1, c]` row cast to `[1, 1, c]`, at `(u, v, q)`: the row's entry `q`. -/
theorem shapeCast_1c_11c_apply {c : ℕ} (x : (⟨2, ![1, c]⟩ : Shape).Idx → α)
    (h : (⟨2, ![1, c]⟩ : Shape).ShapeCasts ⟨3, ![1, 1, c]⟩) (u v : Fin 1) (q : Fin c) :
    shapeCast ⟨3, ![1, 1, c]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * c + q.val = (u.val * 1 + v.val) * c + q.val
    rw [hu, hv])

/-- A `[1, 1, c]` array repeated over `[a, b, c]`, at `(s, r, q)`: its entry `q`. -/
theorem broadcastTo_11c_abc_apply {a b c : ℕ} (v : (⟨3, ![1, 1, c]⟩ : Shape).Idx → α)
    (h : (⟨3, ![1, 1, c]⟩ : Shape).Broadcasts ⟨3, ![a, b, c]⟩) (s : Fin a) (r : Fin b) (q : Fin c) :
    broadcastTo ⟨3, ![a, b, c]⟩ v h (ix3 s r q) = v (ix3 (0 : Fin 1) (0 : Fin 1) q) := by
  refine broadcastTo_apply v h (ix3 s r q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- Slab `s` of an `[a, b, c]` array as a `[b, c]` matrix, at `(r, q)`: the array's `(s, r, q)`. -/
theorem slab3_apply {a b c s : ℕ} (hs : s < a) (X : (⟨3, ![a, b, c]⟩ : Shape).Idx → α)
    (h : (⟨3, ![a, b, c]⟩ : Shape).Slices ![s, 0, 0] ⟨3, ![1, b, c]⟩)
    (hc : (⟨3, ![1, b, c]⟩ : Shape).ShapeCasts ⟨2, ![b, c]⟩) (r : Fin b) (q : Fin c) :
    shapeCast ⟨2, ![b, c]⟩ (extractStridedSlice ⟨3, ![1, b, c]⟩ ![s, 0, 0] X h) hc (ix2 r q) = X (ix3 (⟨s, hs⟩ : Fin a) r q) := by
  rw [shapeCast_1ab_ab_apply]
  exact extractStridedSlice_apply _ X h _ _ fun ax => match ax with
    | ⟨0, _⟩ => (Nat.add_zero s).symm
    | ⟨1, _⟩ => (Nat.zero_add r.val).symm
    | ⟨2, _⟩ => (Nat.zero_add q.val).symm

end Cert.Lib

end
-- ==== Proof.ReferenceConvLib.lean ====
/-
  Stacked rows against a banded factor, accumulated, pooled and clamped, read at an entry (any sizes).

  An `[a, b, K]` array whose leading two axes are merged row-major into `[a * b, K]` reads, at row `i * b + r`, the array's
  `(i, r, ·)`; an `[m, c]` matrix split row-major into `[a, d, b, c]` reads, at `(p, j, r, q)`, row `(p * d + j) * b + r`; a load
  of `m` consecutive leading rows of a buffer from row `o` reads the buffer at row `i + o`. So the product of the merged rows
  with one `[1, K, c]` slab of a factor, read at row `i * b + r` and column `q`, is the sum over `w` of the array's
  `(i, r, w)` times the slab's `(0, w, q)`; five such products added one after another to a zero array read, there, the five
  sums added in that order from zero; the entrywise maximum of two such arrays, split into row pairs, reads the maximum of
  the two at the pair's row; and the maximum of the two rows of a pair, plus a bias row, clamped below at zero, reads
  entrywise as that.
-/
import proofs.«138577_g2000503492652488_pallasbulk_942_42_alg».proof.Proof.LibMatDot
import proofs.«138577_g2000503492652488_pallasbulk_942_42_alg».proof.Proof.LibMidUnit
import Idealize.ShloMosaic.Lib.ValueIdx
import Idealize.ShloMosaic.Lib.Pipeline.Value
import Idealize.ShloMosaic.Lib.ValueLayout

noncomputable section

namespace Cert.ReferenceIdeal.Net

open Idealize.ShloMosaic Idealize.ShloMosaic.ValueIdx
open scoped BigOperators

section
variable {α : Type}

/-- `[a, b, c]` merged to `[m, c]` (row-major), at row `i * b + r`: the operand at `(i, r, q)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (r : Fin b) (q : Fin c) (row : Fin m)
    (hrow : row.val = i.val * b + r.val) :
    shapeCast ⟨2, ![m, c]⟩ x h (ix2 row q) = x (ix3 i r q) :=
  shapeCast_apply x h _ _ (by
    rw [Shape.rowMajor_val_three, Shape.rowMajor_val_two]
    show (i.val * b + r.val) * c + q.val = row.val * c + q.val
    rw [hrow])

/-- `[m, c]` split to `[a, d, b, c]` (row-major), at `(p, j, r, q)`: the operand at row `(p * d + j) * b + r`. -/
theorem shapeCast_mc_adbc_apply {a d b c m : ℕ} (x : (⟨2, ![m, c]⟩ : Shape).Idx → α)
    (h : (⟨2, ![m, c]⟩ : Shape).ShapeCasts ⟨4, ![a, d, b, c]⟩) (p : Fin a) (j : Fin d) (r : Fin b) (q : Fin c) (row : Fin m)
    (hrow : row.val = (p.val * d + j.val) * b + r.val) :
    shapeCast ⟨4, ![a, d, b, c]⟩ x h (ix4 p j r q) = x (ix2 row q) :=
  shapeCast_apply x h _ _ (by
    rw [Shape.rowMajor_val_two, Shape.rowMajor_val_four]
    show row.val * c + q.val = ((p.val * d + j.val) * b + r.val) * c + q.val
    rw [hrow])

end

/-- A load of `m` consecutive leading rows of an `[n0, n1, n2]` buffer from row `o`, at `(i, r, w)`: the buffer at
    `(i + o, r, w)`. -/
theorem ld_rows3_apply {Val : EltTy → Type} {e : EltTy} {n0 n1 n2 m : ℕ} (o : ℕ)
    (X : (⟨3, ![n0, n1, n2]⟩ : Shape).Idx → Val e)
    (inb : ∀ a, (![o, 0, 0] : Fin 3 → ℕ) a + (⟨3, ![m, n1, n2]⟩ : Shape).size a ≤ (⟨3, ![n0, n1, n2]⟩ : Shape).size a)
    (i : Fin m) (r : Fin n1) (w : Fin n2) (k : Fin n0) (hk : k.val = i.val + o) :
    View.ld X (Rect.unit (s := ⟨3, ![n0, n1, n2]⟩) ![o, 0, 0] (⟨3, ![m, n1, n2]⟩ : Shape).size inb) (ix3 i r w)
      = X (ix3 k r w) := by
  show X _ = X _
  refine congrArg X (funext fun ax => Fin.ext ?_)
  match ax with
  | ⟨0, _⟩ => show o + 1 * i.val = k.val; omega
  | ⟨1, _⟩ => show 0 + 1 * r.val = r.val; omega
  | ⟨2, _⟩ => show 0 + 1 * w.val = w.val; omega

variable {a b K c m : ℕ}

/-- The merged rows of an `[a, b, K]` array against one `[1, K, c]` slab of a factor, into the zero accumulator. -/
def rowsDot (wf : DotDims.WF ⟨2, ![m, K]⟩ ⟨2, ![K, c]⟩ ⟨2, ![m, c]⟩ [1] [0] [0] [1] [] [])
    (h0 : (⟨3, ![a, b, K]⟩ : Shape).ShapeCasts ⟨3, ![a, b, K]⟩)
    (h1 : (⟨3, ![a, b, K]⟩ : Shape).ShapeCasts ⟨2, ![m, K]⟩) (h2 : (⟨3, ![1, K, c]⟩ : Shape).ShapeCasts ⟨2, ![K, c]⟩)
    (X : FVec Ideal ⟨3, ![a, b, K]⟩ .f32) (W : FVec Ideal ⟨3, ![1, K, c]⟩ .f32) : FVec Ideal ⟨2, ![m, c]⟩ .f32 :=
  matmul (Cert.Lib.matDot wf) none
    (shapeCast ⟨2, ![m, K]⟩ (shapeCast ⟨3, ![a, b, K]⟩ X h0 : FVec Ideal ⟨3, ![a, b, K]⟩ .f32) h1 : FVec Ideal ⟨2, ![m, K]⟩ .f32)
    (shapeCast ⟨2, ![K, c]⟩ W h2 : FVec Ideal ⟨2, ![K, c]⟩ .f32) (constant ⟨2, ![m, c]⟩ .f32 0x00000000#32)

/-- At row `i * b + r` and column `q`: the sum over `w` of the array's `(i, r, w)` times the slab's `(0, w, q)`. -/
theorem rowsDot_apply (wf : DotDims.WF ⟨2, ![m, K]⟩ ⟨2, ![K, c]⟩ ⟨2, ![m, c]⟩ [1] [0] [0] [1] [] [])
    (h0 : (⟨3, ![a, b, K]⟩ : Shape).ShapeCasts ⟨3, ![a, b, K]⟩)
    (h1 : (⟨3, ![a, b, K]⟩ : Shape).ShapeCasts ⟨2, ![m, K]⟩) (h2 : (⟨3, ![1, K, c]⟩ : Shape).ShapeCasts ⟨2, ![K, c]⟩)
    (X : FVec Ideal ⟨3, ![a, b, K]⟩ .f32) (W : FVec Ideal ⟨3, ![1, K, c]⟩ .f32)
    (i : Fin a) (r : Fin b) (q : Fin c) (row : Fin m) (hrow : row.val = i.val * b + r.val) :
    rowsDot wf h0 h1 h2 X W (ix2 row q) = ∑ w : Fin K, X (ix3 i r w) * W (ix3 (0 : Fin 1) w q) := by
  unfold rowsDot
  refine (Cert.Lib.matmul_plain_zero_apply wf none _ _ row q).trans ?_
  refine Finset.sum_congr rfl fun w _ => ?_
  rw [shapeCast_self, shapeCast_abc_mc_apply X h1 i r w row hrow, shapeCast_1ab_ab_apply]

/-- Five such products added one after another to the zero array. -/
def rowsAcc (wf : DotDims.WF ⟨2, ![m, K]⟩ ⟨2, ![K, c]⟩ ⟨2, ![m, c]⟩ [1] [0] [0] [1] [] [])
    (h0 : (⟨3, ![a, b, K]⟩ : Shape).ShapeCasts ⟨3, ![a, b, K]⟩)
    (h1 : (⟨3, ![a, b, K]⟩ : Shape).ShapeCasts ⟨2, ![m, K]⟩) (h2 : (⟨3, ![1, K, c]⟩ : Shape).ShapeCasts ⟨2, ![K, c]⟩)
    (X0 X1 X2 X3 X4 : FVec Ideal ⟨3, ![a, b, K]⟩ .f32) (W0 W1 W2 W3 W4 : FVec Ideal ⟨3, ![1, K, c]⟩ .f32) :
    FVec Ideal ⟨2, ![m, c]⟩ .f32 :=
  addf (addf (addf (addf (addf (broadcast ⟨2, ![m, c]⟩ (Scalar.ofBits .f32 0x00000000#32) : FVec Ideal ⟨2, ![m, c]⟩ .f32)
    (rowsDot wf h0 h1 h2 X0 W0)) (rowsDot wf h0 h1 h2 X1 W1)) (rowsDot wf h0 h1 h2 X2 W2)) (rowsDot wf h0 h1 h2 X3 W3))
    (rowsDot wf h0 h1 h2 X4 W4)

/-- At row `i * b + r` and column `q`: the five sums added in that order from zero. -/
theorem rowsAcc_apply (wf : DotDims.WF ⟨2, ![m, K]⟩ ⟨2, ![K, c]⟩ ⟨2, ![m, c]⟩ [1] [0] [0] [1] [] [])
    (h0 : (⟨3, ![a, b, K]⟩ : Shape).ShapeCasts ⟨3, ![a, b, K]⟩)
    (h1 : (⟨3, ![a, b, K]⟩ : Shape).ShapeCasts ⟨2, ![m, K]⟩) (h2 : (⟨3, ![1, K, c]⟩ : Shape).ShapeCasts ⟨2, ![K, c]⟩)
    (X0 X1 X2 X3 X4 : FVec Ideal ⟨3, ![a, b, K]⟩ .f32) (W0 W1 W2 W3 W4 : FVec Ideal ⟨3, ![1, K, c]⟩ .f32)
    (i : Fin a) (r : Fin b) (q : Fin c) (row : Fin m) (hrow : row.val = i.val * b + r.val) :
    rowsAcc wf h0 h1 h2 X0 X1 X2 X3 X4 W0 W1 W2 W3 W4 (ix2 row q)
      = ((((Ideal.ofBits .f32 0x00000000#32
            + ∑ w : Fin K, X0 (ix3 i r w) * W0 (ix3 (0 : Fin 1) w q))
            + ∑ w : Fin K, X1 (ix3 i r w) * W1 (ix3 (0 : Fin 1) w q))
            + ∑ w : Fin K, X2 (ix3 i r w) * W2 (ix3 (0 : Fin 1) w q))
            + ∑ w : Fin K, X3 (ix3 i r w) * W3 (ix3 (0 : Fin 1) w q))
          + ∑ w : Fin K, X4 (ix3 i r w) * W4 (ix3 (0 : Fin 1) w q) := by
  unfold rowsAcc
  rw [addf_apply, addf_apply, addf_apply, addf_apply, addf_apply,
    rowsDot_apply wf h0 h1 h2 X0 W0 i r q row hrow, rowsDot_apply wf h0 h1 h2 X1 W1 i r q row hrow,
    rowsDot_apply wf h0 h1 h2 X2 W2 i r q row hrow, rowsDot_apply wf h0 h1 h2 X3 W3 i r q row hrow,
    rowsDot_apply wf h0 h1 h2 X4 W4 i r q row hrow]
  rfl

/-- The entrywise maximum of two `[m, c]` arrays, split into `a'` pairs of `b` rows, at `(p, j, r, q)`: the maximum of
    the two at row `(p * 2 + j) * b + r`. -/
theorem pairSplit_apply {a' : ℕ} (E O : FVec Ideal ⟨2, ![m, c]⟩ .f32)
    (h : (⟨2, ![m, c]⟩ : Shape).ShapeCasts ⟨4, ![a', 2, b, c]⟩) (p : Fin a') (j : Fin 2) (r : Fin b) (q : Fin c) (row : Fin m)
    (hrow : row.val = (p.val * 2 + j.val) * b + r.val) :
    shapeCast ⟨4, ![a', 2, b, c]⟩ (maximumf E O : FVec Ideal ⟨2, ![m, c]⟩ .f32) h (ix4 p j r q)
      = max (E (ix2 row q)) (O (ix2 row q)) := by
  rw [shapeCast_mc_adbc_apply _ h p j r q row hrow, maximumf_apply]

/-- The first rows of the pairs: the slice at `[0, 0, 0, 0]` with its unit axis dropped, at `(p, r, q)`. -/
theorem pairFst_apply {a' : ℕ} (P : FVec Ideal ⟨4, ![a', 2, b, c]⟩ .f32)
    (hs : (⟨4, ![a', 2, b, c]⟩ : Shape).Slices ![0, 0, 0, 0] ⟨4, ![a', 1, b, c]⟩)
    (hc : (⟨4, ![a', 1, b, c]⟩ : Shape).ShapeCasts ⟨3, ![a', b, c]⟩) (p : Fin a') (r : Fin b) (q : Fin c) :
    shapeCast ⟨3, ![a', b, c]⟩ (extractStridedSlice ⟨4, ![a', 1, b, c]⟩ ![0, 0, 0, 0] P hs : FVec Ideal ⟨4, ![a', 1, b, c]⟩ .f32) hc
        (ix3 p r q) = P (ix4 p (0 : Fin 2) r q) := by
  rw [Cert.Lib.shapeCast_a1bc_abc_apply]
  exact slice4_axis1_apply 0 P hs p (0 : Fin 1) r q (0 : Fin 2) rfl

/-- The second rows of the pairs: the slice at `[0, 1, 0, 0]`, at `(p, 0, r, q)`. -/
theorem pairSnd_apply {a' : ℕ} (P : FVec Ideal ⟨4, ![a', 2, b, c]⟩ .f32)
    (hs : (⟨4, ![a', 2, b, c]⟩ : Shape).Slices ![0, 1, 0, 0] ⟨4, ![a', 1, b, c]⟩) (p : Fin a') (r : Fin b) (q : Fin c) :
    extractStridedSlice ⟨4, ![a', 1, b, c]⟩ ![0, 1, 0, 0] P hs (ix4 p (0 : Fin 1) r q) = P (ix4 p (1 : Fin 2) r q) :=
  slice4_axis1_apply 1 P hs p (0 : Fin 1) r q (1 : Fin 2) rfl

/-- The maximum of the two rows of each pair, plus the bias row, clamped below at zero. -/
def poolBias {a' : ℕ} (hc : (⟨4, ![a', 1, b, c]⟩ : Shape).ShapeCasts ⟨3, ![a', b, c]⟩)
    (hb0 : (⟨2, ![1, c]⟩ : Shape).ShapeCasts ⟨2, ![1, c]⟩) (hb1 : (⟨2, ![1, c]⟩ : Shape).ShapeCasts ⟨3, ![1, 1, c]⟩)
    (hbr : (⟨3, ![1, 1, c]⟩ : Shape).Broadcasts ⟨3, ![a', b, c]⟩)
    (v60 : FVec Ideal ⟨3, ![a', b, c]⟩ .f32) (v61 : FVec Ideal ⟨4, ![a', 1, b, c]⟩ .f32) (v64 : FVec Ideal ⟨2, ![1, c]⟩ .f32) :
    FVec Ideal ⟨3, ![a', b, c]⟩ .f32 :=
  maximumf (addf (maximumf v60 (shapeCast ⟨3, ![a', b, c]⟩ v61 hc : FVec Ideal ⟨3, ![a', b, c]⟩ .f32))
      (broadcastTo ⟨3, ![a', b, c]⟩ (shapeCast ⟨3, ![1, 1, c]⟩ (shapeCast ⟨2, ![1, c]⟩ v64 hb0 : FVec Ideal ⟨2, ![1, c]⟩ .f32) hb1 :
        FVec Ideal ⟨3, ![1, 1, c]⟩ .f32) hbr))
    (broadcast ⟨3, ![a', b, c]⟩ (Scalar.ofBits .f32 0x00000000#32) : FVec Ideal ⟨3, ![a', b, c]⟩ .f32)

/-- A pooled value at `(p, r, q)`. -/
theorem poolBias_apply {a' : ℕ} (hc : (⟨4, ![a', 1, b, c]⟩ : Shape).ShapeCasts ⟨3, ![a', b, c]⟩)
    (hb0 : (⟨2, ![1, c]⟩ : Shape).ShapeCasts ⟨2, ![1, c]⟩) (hb1 : (⟨2, ![1, c]⟩ : Shape).ShapeCasts ⟨3, ![1, 1, c]⟩)
    (hbr : (⟨3, ![1, 1, c]⟩ : Shape).Broadcasts ⟨3, ![a', b, c]⟩)
    (v60 : FVec Ideal ⟨3, ![a', b, c]⟩ .f32) (v61 : FVec Ideal ⟨4, ![a', 1, b, c]⟩ .f32) (v64 : FVec Ideal ⟨2, ![1, c]⟩ .f32)
    (p : Fin a') (r : Fin b) (q : Fin c) :
    poolBias hc hb0 hb1 hbr v60 v61 v64 (ix3 p r q)
      = max (max (v60 (ix3 p r q)) (v61 (ix4 p (0 : Fin 1) r q)) + v64 (ix2 (0 : Fin 1) q)) (Ideal.ofBits .f32 0x00000000#32) := by
  unfold poolBias
  rw [maximumf_apply, addf_apply, maximumf_apply, Cert.Lib.shapeCast_a1bc_abc_apply, Cert.Lib.broadcastTo_11c_abc_apply,
    Cert.Lib.shapeCast_1c_11c_apply, shapeCast_self]
  rfl

end Cert.ReferenceIdeal.Net

end
-- ==== Proof.ReferenceConv2.lean ====
/-
  The convolution of the second launch of the two-launch program, read at an entry of its four pooled rows.

  The launch holds 12 rows of 128 images (120 columns each: the first launch's result), an even and an odd banded factor
  (5 slabs of 120 x 80) and a bias row. For each of the 8 output rows oy it accumulates, from zero and in the order
  i = 0, …, 4, the products of rows oy + i with slab i of a factor: at image r and column q that is
      ((((0 + S 0) + S 1) + S 2) + S 3) + S 4,   S i = the sum over k of row (oy + i, r, k) times factor (i, k, q).
  It then takes the maximum of the even and the odd accumulations, the maximum over each pair of output rows (2 s, 2 s + 1),
  adds the bias entry q and clamps below at zero. The pooled row s at (r, q) is that value.
-/
import proofs.«138577_g2000503492652488_pallasbulk_942_42_alg».proof.Proof.Gen.ReferenceIdeal.Frame
import proofs.«138577_g2000503492652488_pallasbulk_942_42_alg».proof.Proof.ReferenceConvLib

set_option maxRecDepth 16384

noncomputable section

namespace Cert.ReferenceIdeal.Net

open Cert.ReferenceIdeal Cert.ReferenceIdeal.Gen
open Idealize.ShloMosaic Idealize.ShloMosaic.ValueIdx
open scoped BigOperators

theorem conv2_hz2 : (![0, 0] : Fin 2 → Nat) = fun _ => 0 := funext fun a => by fin_cases a <;> rfl

/-- Rows `oy + i` of image `r` against column `q` of slab `i` of a factor. -/
def cS2 (x0 : Vec Ideal S12x128x120 .f32) (t : Vec Ideal S5x120x80 .f32) (r : Fin 128) (q : Fin 80)
    (i : ℕ) (hi : i < 5) (oy : Fin 8) : Ideal .f32 :=
  ∑ k : Fin 120, x0 (ix3 (⟨oy.val + i, by have := oy.isLt; omega⟩ : Fin 12) r k) * t (ix3 (⟨i, hi⟩ : Fin 5) k q)

/-- The five of them accumulated from zero, in the order `i = 0, …, 4`. -/
def cAcc2 (x0 : Vec Ideal S12x128x120 .f32) (t : Vec Ideal S5x120x80 .f32) (r : Fin 128) (q : Fin 80) (oy : Fin 8) :
    Ideal .f32 :=
  ((((Ideal.ofBits .f32 0x00000000#32 + cS2 x0 t r q 0 (by norm_num) oy) + cS2 x0 t r q 1 (by norm_num) oy)
      + cS2 x0 t r q 2 (by norm_num) oy) + cS2 x0 t r q 3 (by norm_num) oy) + cS2 x0 t r q 4 (by norm_num) oy

/-- One sum, through the loads of the 8 rows from row `i` and of slab `i`. -/
theorem cS2_eq (x0 : Vec Ideal S12x128x120 .f32) (t : Vec Ideal S5x120x80 .f32) (r : Fin 128) (q : Fin 80)
    (i : ℕ) (hi : i < 5) (oy : Fin 8)
    (inbX : ∀ a, (![i, 0, 0] : Fin 3 → ℕ) a + S8x128x120.size a ≤ S12x128x120.size a)
    (inbT : ∀ a, (![i, 0, 0] : Fin 3 → ℕ) a + S1x120x80.size a ≤ S5x120x80.size a) :
    (∑ k : Fin 120, View.ld x0 (Rect.unit (s := S12x128x120) ![i, 0, 0] S8x128x120.size inbX) (ix3 oy r k)
        * View.ld t (Rect.unit (s := S5x120x80) ![i, 0, 0] S1x120x80.size inbT) (ix3 (0 : Fin 1) k q))
      = cS2 x0 t r q i hi oy := by
  unfold cS2
  refine Finset.sum_congr rfl fun k _ => ?_
  rw [ld_rows3_apply i x0 inbX oy r k ⟨oy.val + i, by have := oy.isLt; omega⟩ rfl,
    ld_rows3_apply i t inbT (0 : Fin 1) k q ⟨i, hi⟩ (Nat.zero_add i).symm]

/-- The accumulation of the 1024 merged rows (row `128 oy + r`) against one factor. -/
def cvE2 (x0 : Vec Ideal S12x128x120 .f32) (t : Vec Ideal S5x120x80 .f32) : FVec Ideal S1024x80 .f32 :=
  rowsAcc dot_S1024x120_S120x80_S1024x80_1_0_0_1_n_n_wf shapeCasts_S8x128x120_S8x128x120 shapeCasts_S8x128x120_S1024x120
    shapeCasts_S1x120x80_S120x80
    (View.ld x0 r1_0) (View.ld x0 r1_2) (View.ld x0 r1_4) (View.ld x0 r1_6) (View.ld x0 r1_8)
    (View.ld t r1_1) (View.ld t r1_3) (View.ld t r1_5) (View.ld t r1_7) (View.ld t r1_9)

/-- At row `128 oy + r` and column `q`. -/
theorem cvE2_apply (x0 : Vec Ideal S12x128x120 .f32) (t : Vec Ideal S5x120x80 .f32) (oy : Fin 8) (r : Fin 128) (q : Fin 80)
    (row : Fin 1024) (hrow : row.val = oy.val * 128 + r.val) :
    cvE2 x0 t (ix2 row q) = cAcc2 x0 t r q oy := by
  unfold cvE2 cAcc2
  rw [rowsAcc_apply _ _ _ _ _ _ _ _ _ _ _ _ _ _ oy r q row hrow,
    cS2_eq x0 t r q 0 (by norm_num) oy, cS2_eq x0 t r q 1 (by norm_num) oy, cS2_eq x0 t r q 2 (by norm_num) oy,
    cS2_eq x0 t r q 3 (by norm_num) oy, cS2_eq x0 t r q 4 (by norm_num) oy]

/-- The maximum of the even and the odd accumulations, split into the 4 pairs of output rows. -/
def cvP2 (x0 : Vec Ideal S12x128x120 .f32) (x1 x2 : Vec Ideal S5x120x80 .f32) : FVec Ideal S4x2x128x80 .f32 :=
  shapeCast S4x2x128x80 (maximumf (cvE2 x0 x1) (cvE2 x0 x2) : FVec Ideal S1024x80 .f32) shapeCasts_S1024x80_S4x2x128x80

/-- The launch's pair array is that. -/
theorem pay8_eq2 (x0 : Vec Ideal S12x128x120 .f32) (x1 x2 : Vec Ideal S5x120x80 .f32) :
    k1_pay8 (k1_pay4 (View.ld x0 r1_0) (View.ld x1 r1_1) (View.ld x0 r1_2) (View.ld x1 r1_3))
        (k1_pay5 (View.ld x0 r1_0) (View.ld x2 r1_1) (View.ld x0 r1_2) (View.ld x2 r1_3)) (k1_pay6 (View.ld x0 r1_4))
        (k1_pay7 (View.ld x1 r1_5)) (View.ld x2 r1_5) (View.ld x0 r1_6) (View.ld x1 r1_7) (View.ld x2 r1_7) (View.ld x0 r1_8)
        (View.ld x1 r1_9) (View.ld x2 r1_9)
      = cvP2 x0 x1 x2 := rfl

/-- The pair array at `(s, 0, r, q)`: output row `2 s`. -/
theorem cvP2_apply_zero (x0 : Vec Ideal S12x128x120 .f32) (x1 x2 : Vec Ideal S5x120x80 .f32) (s : Fin 4) (r : Fin 128)
    (q : Fin 80) :
    cvP2 x0 x1 x2 (ix4 s (0 : Fin 2) r q)
      = max (cAcc2 x0 x1 r q ⟨2 * s.val, by have := s.isLt; omega⟩) (cAcc2 x0 x2 r q ⟨2 * s.val, by have := s.isLt; omega⟩) := by
  have hs := s.isLt
  have hr := r.isLt
  unfold cvP2
  rw [pairSplit_apply _ _ _ s (0 : Fin 2) r q ⟨2 * s.val * 128 + r.val, by omega⟩
      (by show 2 * s.val * 128 + r.val = (s.val * 2 + 0) * 128 + r.val; omega),
    cvE2_apply x0 x1 ⟨2 * s.val, by omega⟩ r q _ rfl, cvE2_apply x0 x2 ⟨2 * s.val, by omega⟩ r q _ rfl]

/-- The pair array at `(s, 1, r, q)`: output row `2 s + 1`. -/
theorem cvP2_apply_one (x0 : Vec Ideal S12x128x120 .f32) (x1 x2 : Vec Ideal S5x120x80 .f32) (s : Fin 4) (r : Fin 128)
    (q : Fin 80) :
    cvP2 x0 x1 x2 (ix4 s (1 : Fin 2) r q)
      = max (cAcc2 x0 x1 r q ⟨2 * s.val + 1, by have := s.isLt; omega⟩)
          (cAcc2 x0 x2 r q ⟨2 * s.val + 1, by have := s.isLt; omega⟩) := by
  have hs := s.isLt
  have hr := r.isLt
  unfold cvP2
  rw [pairSplit_apply _ _ _ s (1 : Fin 2) r q ⟨(2 * s.val + 1) * 128 + r.val, by omega⟩
      (by show (2 * s.val + 1) * 128 + r.val = (s.val * 2 + 1) * 128 + r.val; omega),
    cvE2_apply x0 x1 ⟨2 * s.val + 1, by omega⟩ r q _ rfl, cvE2_apply x0 x2 ⟨2 * s.val + 1, by omega⟩ r q _ rfl]

/-- The first rows of the launch's pairs at `(s, r, q)`: output row `2 s`. -/
theorem pay9_conv_apply (x0 : Vec Ideal S12x128x120 .f32) (x1 x2 : Vec Ideal S5x120x80 .f32)
    (s : Fin 4) (r : Fin 128) (q : Fin 80) :
    k1_pay9 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9) (ix3 s r q)
      = max (cAcc2 x0 x1 r q ⟨2 * s.val, by have := s.isLt; omega⟩) (cAcc2 x0 x2 r q ⟨2 * s.val, by have := s.isLt; omega⟩) := by
  unfold k1_pay9
  rw [pay8_eq2, pairFst_apply, cvP2_apply_zero]

/-- The second rows of the launch's pairs at `(s, 0, r, q)`: output row `2 s + 1`. -/
theorem pay10_conv_apply (x0 : Vec Ideal S12x128x120 .f32) (x1 x2 : Vec Ideal S5x120x80 .f32)
    (s : Fin 4) (r : Fin 128) (q : Fin 80) :
    k1_pay10 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9) (ix4 s (0 : Fin 1) r q)
      = max (cAcc2 x0 x1 r q ⟨2 * s.val + 1, by have := s.isLt; omega⟩)
          (cAcc2 x0 x2 r q ⟨2 * s.val + 1, by have := s.isLt; omega⟩) := by
  unfold k1_pay10
  rw [pay8_eq2, pairSnd_apply, cvP2_apply_one]

/-- The bias row as loaded. -/
theorem ld_bias2 (x3 : Vec Ideal S1x80 .f32) : View.ld x3 r1_10 = x3 := View.ld_unit_zero conv2_hz2 _ x3

end Cert.ReferenceIdeal.Net

end
-- ==== Proof.ReferenceHidden.lean ====
/-
  The two-launch program's first dense layer, read at an entry. The second launch pools its convolution's 8 x 128 x 80
  rows in pairs, adds the bias row and clamps at zero (4 x 128 x 80); the hidden value at (r, a) is the sum, accumulated
  from zero over the four pooled rows, of row r of each against column a of that row's 80 x 50 weight slab, plus the
  bias entry a.
-/
import proofs.«138577_g2000503492652488_pallasbulk_942_42_alg».proof.Proof.Gen.ReferenceIdeal.Skeleton
import proofs.«138577_g2000503492652488_pallasbulk_942_42_alg».proof.Proof.LibMidUnit
import proofs.«138577_g2000503492652488_pallasbulk_942_42_alg».proof.Proof.LibMatDot
import Idealize.ShloMosaic.Lib.ValueIdx
import Idealize.ShloMosaic.Lib.ValueLayout

noncomputable section

namespace Cert.ReferenceIdeal.Net

open Cert.ReferenceIdeal Cert.ReferenceIdeal.Gen
open Idealize.ShloMosaic Idealize.ShloMosaic.ValueIdx
open scoped BigOperators

/-- The four pooled rows of the second convolution (4 x 128 x 80), from the even and odd rows of the column-pooled
    sums and the bias row: the maximum of the two, plus the bias, clamped at zero. -/
def rPool2 (v60 : FVec Ideal S4x128x80 .f32) (v61 : FVec Ideal S4x1x128x80 .f32) (v64 : Vec Ideal S1x80 .f32) : FVec Ideal S4x128x80 .f32 :=
  have v62 : FVec Ideal S4x128x80 .f32 := shapeCast S4x128x80 v61 shapeCasts_S4x1x128x80_S4x128x80
  have v63 : FVec Ideal S4x128x80 .f32 := maximumf v60 v62
  have v65 : FVec Ideal S1x80 .f32 := shapeCast S1x80 v64 shapeCasts_S1x80_S1x80
  have v66 : FVec Ideal S1x1x80 .f32 := shapeCast S1x1x80 v65 shapeCasts_S1x80_S1x1x80
  have v67 : FVec Ideal S4x128x80 .f32 := broadcastTo S4x128x80 v66 broadcasts_S1x1x80_S4x128x80
  have v68 : FVec Ideal S4x128x80 .f32 := addf v63 v67
  have cst_53 : Ideal .f32 := Scalar.ofBits .f32 0x00000000#32
  have v69 : FVec Ideal S4x128x80 .f32 := broadcast S4x128x80 cst_53
  maximumf v68 v69

/-- A pooled value at (s, r, q). -/
theorem rPool2_apply (v60 : FVec Ideal S4x128x80 .f32) (v61 : FVec Ideal S4x1x128x80 .f32) (v64 : Vec Ideal S1x80 .f32)
    (s : Fin 4) (r : Fin 128) (q : Fin 80) :
    rPool2 v60 v61 v64 (ix3 s r q)
      = max (max (v60 (ix3 s r q)) (v61 (ix4 s (0 : Fin 1) r q)) + v64 (ix2 (0 : Fin 1) q)) (Ideal.ofBits .f32 0x00000000#32) := by
  unfold rPool2
  show max (max (v60 (ix3 s r q)) (shapeCast S4x128x80 v61 shapeCasts_S4x1x128x80_S4x128x80 (ix3 s r q))
      + broadcastTo S4x128x80 (shapeCast S1x1x80 (shapeCast S1x80 v64 shapeCasts_S1x80_S1x80 : FVec Ideal S1x80 .f32) shapeCasts_S1x80_S1x1x80 : FVec Ideal S1x1x80 .f32) broadcasts_S1x1x80_S4x128x80 (ix3 s r q))
      (Ideal.ofBits .f32 0x00000000#32) = _
  rw [Cert.Lib.shapeCast_a1bc_abc_apply, Cert.Lib.broadcastTo_11c_abc_apply, Cert.Lib.shapeCast_1c_11c_apply, shapeCast_self]

/-- The hidden block (before the clamp): the four products accumulated from zero, plus the bias row. -/
def rHid (y : FVec Ideal S4x128x80 .f32) (w0 w1 w2 w3 : Vec Ideal S1x80x50 .f32) (b : Vec Ideal S1x50 .f32) : FVec Ideal S128x50 .f32 :=
  addf (addf (addf (addf (addf (broadcast S128x50 (Scalar.ofBits .f32 0x00000000#32) : FVec Ideal S128x50 .f32)
      (matmul dot_S128x80_S80x50_S128x50_1_0_0_1_n_n none
      (shapeCast S128x80 (extractStridedSlice S1x128x80 ![0, 0, 0] y slices_S4x128x80_o0_0_0_S1x128x80) shapeCasts_S1x128x80_S128x80 : FVec Ideal S128x80 .f32)
      (shapeCast S80x50 w0 shapeCasts_S1x80x50_S80x50 : FVec Ideal S80x50 .f32) (constant S128x50 .f32 0x00000000#32)))
      (matmul dot_S128x80_S80x50_S128x50_1_0_0_1_n_n none
      (shapeCast S128x80 (extractStridedSlice S1x128x80 ![1, 0, 0] y slices_S4x128x80_o1_0_0_S1x128x80) shapeCasts_S1x128x80_S128x80 : FVec Ideal S128x80 .f32)
      (shapeCast S80x50 w1 shapeCasts_S1x80x50_S80x50 : FVec Ideal S80x50 .f32) (constant S128x50 .f32 0x00000000#32)))
      (matmul dot_S128x80_S80x50_S128x50_1_0_0_1_n_n none
      (shapeCast S128x80 (extractStridedSlice S1x128x80 ![2, 0, 0] y slices_S4x128x80_o2_0_0_S1x128x80) shapeCasts_S1x128x80_S128x80 : FVec Ideal S128x80 .f32)
      (shapeCast S80x50 w2 shapeCasts_S1x80x50_S80x50 : FVec Ideal S80x50 .f32) (constant S128x50 .f32 0x00000000#32)))
      (matmul dot_S128x80_S80x50_S128x50_1_0_0_1_n_n none
      (shapeCast S128x80 (extractStridedSlice S1x128x80 ![3, 0, 0] y slices_S4x128x80_o3_0_0_S1x128x80) shapeCasts_S1x128x80_S128x80 : FVec Ideal S128x80 .f32)
      (shapeCast S80x50 w3 shapeCasts_S1x80x50_S80x50 : FVec Ideal S80x50 .f32) (constant S128x50 .f32 0x00000000#32)))
    (broadcastTo S128x50 (shapeCast S1x50 b shapeCasts_S1x50_S1x50 : FVec Ideal S1x50 .f32) broadcasts_S1x50_S128x50)

/-- The launch's hidden block is that, over its pooled rows. -/
theorem pay11_eq (v60 : FVec Ideal S4x128x80 .f32) (v61 : FVec Ideal S4x1x128x80 .f32) (v64 : Vec Ideal S1x80 .f32)
    (w0 w1 w2 w3 : Vec Ideal S1x80x50 .f32) (b : Vec Ideal S1x50 .f32) :
    k1_pay11 v60 v61 v64 w0 w1 w2 w3 b = rHid (rPool2 v60 v61 v64) w0 w1 w2 w3 b := rfl

theorem dot_hid : dot_S128x80_S80x50_S128x50_1_0_0_1_n_n = Cert.Lib.matDot dot_S128x80_S80x50_S128x50_1_0_0_1_n_n_wf := rfl

/-- One pooled row against its weight slab, at (r, a). -/
theorem slabDot_apply {s : ℕ} (hs : s < 4) (y : FVec Ideal S4x128x80 .f32) (w : Vec Ideal S1x80x50 .f32)
    (h : S4x128x80.Slices ![s, 0, 0] S1x128x80) (r : Fin 128) (a : Fin 50) :
    matmul dot_S128x80_S80x50_S128x50_1_0_0_1_n_n none
        (shapeCast S128x80 (extractStridedSlice S1x128x80 ![s, 0, 0] y h) shapeCasts_S1x128x80_S128x80 : FVec Ideal S128x80 .f32)
        (shapeCast S80x50 w shapeCasts_S1x80x50_S80x50 : FVec Ideal S80x50 .f32) (constant S128x50 .f32 0x00000000#32) (ix2 r a)
      = ∑ q : Fin 80, y (ix3 (⟨s, hs⟩ : Fin 4) r q) * w (ix3 (0 : Fin 1) q a) := by
  rw [dot_hid]
  refine (Cert.Lib.matmul_plain_zero_apply _ none _ _ r a).trans ?_
  refine Finset.sum_congr rfl fun q _ => ?_
  rw [Cert.Lib.slab3_apply hs, shapeCast_1ab_ab_apply]

/-- A hidden value at (r, a). -/
theorem rHid_apply (y : FVec Ideal S4x128x80 .f32) (w0 w1 w2 w3 : Vec Ideal S1x80x50 .f32) (b : Vec Ideal S1x50 .f32)
    (r : Fin 128) (a : Fin 50) :
    rHid y w0 w1 w2 w3 b (ix2 r a)
      = ((((Ideal.ofBits .f32 0x00000000#32
            + ∑ q : Fin 80, y (ix3 (0 : Fin 4) r q) * w0 (ix3 (0 : Fin 1) q a))
            + ∑ q : Fin 80, y (ix3 (1 : Fin 4) r q) * w1 (ix3 (0 : Fin 1) q a))
            + ∑ q : Fin 80, y (ix3 (2 : Fin 4) r q) * w2 (ix3 (0 : Fin 1) q a))
            + ∑ q : Fin 80, y (ix3 (3 : Fin 4) r q) * w3 (ix3 (0 : Fin 1) q a))
          + b (ix2 (0 : Fin 1) a) := by
  unfold rHid
  rw [addf_apply, addf_apply, addf_apply, addf_apply, addf_apply, shapeCast_self, broadcastTo_1b_ab_apply,
    slabDot_apply (by norm_num : 0 < 4), slabDot_apply (by norm_num : 1 < 4), slabDot_apply (by norm_num : 2 < 4),
    slabDot_apply (by norm_num : 3 < 4)]
  rfl

end Cert.ReferenceIdeal.Net

end
-- ==== Proof.ReferenceConv2Pool.lean ====
/-
  The four pooled rows of the second launch of the two-launch program, read at an entry: the maximum over the pair of output
  rows (2 s, 2 s + 1) of the maximum of the even and the odd accumulations, plus the bias entry q, clamped below at zero.
-/
import proofs.«138577_g2000503492652488_pallasbulk_942_42_alg».proof.Proof.ReferenceConv2
import proofs.«138577_g2000503492652488_pallasbulk_942_42_alg».proof.Proof.ReferenceHidden

set_option maxRecDepth 16384

noncomputable section

namespace Cert.ReferenceIdeal.Net

open Cert.ReferenceIdeal Cert.ReferenceIdeal.Gen
open Idealize.ShloMosaic Idealize.ShloMosaic.ValueIdx
open scoped BigOperators

/-- The second launch's pooled row `s` at `(r, q)`. -/
theorem rPool2_conv_apply (x0 : Vec Ideal S12x128x120 .f32) (x1 x2 : Vec Ideal S5x120x80 .f32) (x3 : Vec Ideal S1x80 .f32)
    (s : Fin 4) (r : Fin 128) (q : Fin 80) :
    rPool2
        (k1_pay9 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9))
        (k1_pay10 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9))
        (View.ld x3 r1_10) (ix3 s r q)
      = max (max (max (cAcc2 x0 x1 r q ⟨2 * s.val, by have := s.isLt; omega⟩)
                      (cAcc2 x0 x2 r q ⟨2 * s.val, by have := s.isLt; omega⟩))
                 (max (cAcc2 x0 x1 r q ⟨2 * s.val + 1, by have := s.isLt; omega⟩)
                      (cAcc2 x0 x2 r q ⟨2 * s.val + 1, by have := s.isLt; omega⟩))
              + x3 (ix2 (0 : Fin 1) q))
          (Ideal.ofBits .f32 0x00000000#32) := by
  rw [rPool2_apply, pay9_conv_apply, pay10_conv_apply, ld_bias2]

end Cert.ReferenceIdeal.Net

end
-- ==== Proof.ReferenceValueScores.lean ====
/-
  The second launch of the two-launch program: a score as one formula of the launch's operand blocks.

  With Y s q the pooled row s of the launch's convolution at (r, q) (the maximum over the output rows 2 s and 2 s + 1 of the
  maximum of the even and the odd accumulations, plus the bias entry q, clamped below at zero), the hidden value a of image r is
      H a = ((((0 + sum_q Y 0 q * W (0, q, a)) + sum_q Y 1 q * W (1, q, a)) + sum_q Y 2 q * W (2, q, a)) + sum_q Y 3 q * W (3, q, a)) + b a
  and the score k of image r is the sum over a of max (H a) 0 times the weight (a, k), plus the bias entry k.
-/
import proofs.«138577_g2000503492652488_pallasbulk_942_42_alg».proof.Proof.ReferenceStages
import proofs.«138577_g2000503492652488_pallasbulk_942_42_alg».proof.Proof.ReferenceConv2Pool

set_option maxRecDepth 16384

noncomputable section

namespace Cert.ReferenceIdeal.Net

open Cert.ReferenceIdeal Cert.ReferenceIdeal.Gen
open Idealize.ShloMosaic Idealize.ShloMosaic.ValueIdx
open scoped BigOperators

/-- The pooled row `s` of the second convolution at `(r, q)`. -/
def pool2v (x0 : Vec Ideal S12x128x120 .f32) (x1 x2 : Vec Ideal S5x120x80 .f32) (x3 : Vec Ideal S1x80 .f32)
    (s : Fin 4) (r : Fin 128) (q : Fin 80) : Ideal .f32 :=
  max (max (max (cAcc2 x0 x1 r q ⟨2 * s.val, by have := s.isLt; omega⟩)
                (cAcc2 x0 x2 r q ⟨2 * s.val, by have := s.isLt; omega⟩))
           (max (cAcc2 x0 x1 r q ⟨2 * s.val + 1, by have := s.isLt; omega⟩)
                (cAcc2 x0 x2 r q ⟨2 * s.val + 1, by have := s.isLt; omega⟩))
        + x3 (ix2 (0 : Fin 1) q))
      (Ideal.ofBits .f32 0x00000000#32)

/-- The hidden value `a` of image `r` (before the clamp). -/
def hid2v (x0 : Vec Ideal S12x128x120 .f32) (x1 x2 : Vec Ideal S5x120x80 .f32) (x3 : Vec Ideal S1x80 .f32)
    (x4 : Vec Ideal S4x80x50 .f32) (x5 : Vec Ideal S1x50 .f32) (r : Fin 128) (a : Fin 50) : Ideal .f32 :=
  ((((Ideal.ofBits .f32 0x00000000#32
        + ∑ q : Fin 80, pool2v x0 x1 x2 x3 (0 : Fin 4) r q * x4 (ix3 (0 : Fin 4) q a))
        + ∑ q : Fin 80, pool2v x0 x1 x2 x3 (1 : Fin 4) r q * x4 (ix3 (1 : Fin 4) q a))
        + ∑ q : Fin 80, pool2v x0 x1 x2 x3 (2 : Fin 4) r q * x4 (ix3 (2 : Fin 4) q a))
        + ∑ q : Fin 80, pool2v x0 x1 x2 x3 (3 : Fin 4) r q * x4 (ix3 (3 : Fin 4) q a))
      + x5 (ix2 (0 : Fin 1) a)

/-- One pooled row against its weight slab, through the launch's loads. -/
theorem slab2_sum (x0 : Vec Ideal S12x128x120 .f32) (x1 x2 : Vec Ideal S5x120x80 .f32) (x3 : Vec Ideal S1x80 .f32)
    (x4 : Vec Ideal S4x80x50 .f32) (s : Fin 4)
    (inb : ∀ ax, (![s.val, 0, 0] : Fin 3 → ℕ) ax + S1x80x50.size ax ≤ S4x80x50.size ax) (r : Fin 128) (a : Fin 50) :
    (∑ q : Fin 80,
        rPool2
            (k1_pay9 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9))
            (k1_pay10 (k1_pay4 (View.ld x0 r1_0) (View.ld x1 r1_1) (View.ld x0 r1_2) (View.ld x1 r1_3))
          (k1_pay5 (View.ld x0 r1_0) (View.ld x2 r1_1) (View.ld x0 r1_2) (View.ld x2 r1_3)) (k1_pay6 (View.ld x0 r1_4))
          (k1_pay7 (View.ld x1 r1_5)) (View.ld x2 r1_5) (View.ld x0 r1_6) (View.ld x1 r1_7) (View.ld x2 r1_7)
          (View.ld x0 r1_8) (View.ld x1 r1_9) (View.ld x2 r1_9))
            (View.ld x3 r1_10) (ix3 s r q)
          * View.ld x4 (Rect.unit (s := S4x80x50) ![s.val, 0, 0] S1x80x50.size inb) (ix3 (0 : Fin 1) q a))
      = ∑ q : Fin 80, pool2v x0 x1 x2 x3 s r q * x4 (ix3 s q a) := by
  refine Finset.sum_congr rfl fun q _ => ?_
  rw [rPool2_conv_apply, ld_rows3_apply s.val x4 inb (0 : Fin 1) q a s (Nat.zero_add _).symm]
  rfl

/-- The launch's hidden block at `(r, a)`. -/
theorem rHidden_value (x0 : Vec Ideal S12x128x120 .f32) (x1 x2 : Vec Ideal S5x120x80 .f32) (x3 : Vec Ideal S1x80 .f32)
    (x4 : Vec Ideal S4x80x50 .f32) (x5 : Vec Ideal S1x50 .f32) (r : Fin 128) (a : Fin 50) :
    rHidden x0 x1 x2 x3 x4 x5 (ix2 r a) = hid2v x0 x1 x2 x3 x4 x5 r a := by
  unfold rHidden hid2v
  rw [pay11_eq, rHid_apply, View.ld_unit_zero conv2_hz2 _ x5]
  refine congrArg₂ (· + ·) (congrArg₂ (· + ·) (congrArg₂ (· + ·) (congrArg₂ (· + ·) (congrArg₂ (· + ·) rfl ?_) ?_) ?_) ?_) rfl
  · exact slab2_sum x0 x1 x2 x3 x4 (0 : Fin 4) _ r a
  · exact slab2_sum x0 x1 x2 x3 x4 (1 : Fin 4) _ r a
  · exact slab2_sum x0 x1 x2 x3 x4 (2 : Fin 4) _ r a
  · exact slab2_sum x0 x1 x2 x3 x4 (3 : Fin 4) _ r a

/-- The launch's score `k` of image `r`. -/
theorem refScores_value (x0 : Vec Ideal S12x128x120 .f32) (x1 x2 : Vec Ideal S5x120x80 .f32) (x3 : Vec Ideal S1x80 .f32)
    (x4 : Vec Ideal S4x80x50 .f32) (x5 : Vec Ideal S1x50 .f32) (x6 : Vec Ideal S50x10 .f32) (x7 : Vec Ideal S1x10 .f32)
    (r : Fin 128) (k : Fin 10) :
    refScores (rHidden x0 x1 x2 x3 x4 x5) (View.ld x6 r1_16) (View.ld x7 r1_17) (ix2 r k)
      = (∑ a : Fin 50, max (hid2v x0 x1 x2 x3 x4 x5 r a) (Ideal.ofBits .f32 0x00000000#32) * x6 (ix2 a k))
          + x7 (ix2 (0 : Fin 1) k) := by
  rw [refScores_apply, View.ld_unit_zero conv2_hz2 _ x6, View.ld_unit_zero conv2_hz2 _ x7]
  refine congrArg (· + x7 (ix2 (0 : Fin 1) k)) ?_
  refine Finset.sum_congr rfl fun a _ => ?_
  rw [rHidden_value]

end Cert.ReferenceIdeal.Net

end
-- ==== Proof.LibAcc.lean ====
/-
  A sum accumulated term by term from zero is the sum.
-/
import Mathlib.Algebra.BigOperators.Fin
import Mathlib.Data.EReal.Basic

namespace Cert.Lib

open scoped BigOperators

/-- Five terms added one after the other to zero. -/
theorem acc5 (f : Fin 5 → EReal) : ((((0 + f 0) + f 1) + f 2) + f 3) + f 4 = ∑ i, f i := by
  rw [Fin.sum_univ_five, zero_add]

/-- Four terms added one after the other to zero. -/
theorem acc4 (f : Fin 4 → EReal) : (((0 + f 0) + f 1) + f 2) + f 3 = ∑ i, f i := by
  rw [Fin.sum_univ_four, zero_add]

end Cert.Lib
-- ==== Proof.GlueConv2.lean ====
/-
  The second convolution, the two programs' band sums. The single-launch program multiplies a 160 x 600 banded matrix
  with 600 consecutive rows (5 pooled rows of 120 lanes) of the first layer's stack; the two-launch program adds, from
  zero, five products of 120 lanes with the band's rows. When the banded matrix's row is the band and the stack's
  column is the first launch's output for the image, the two sums agree.
-/
import proofs.«138577_g2000503492652488_pallasbulk_942_42_alg».proof.Proof.KernelFlat
import proofs.«138577_g2000503492652488_pallasbulk_942_42_alg».proof.Proof.ReferenceConv2
import proofs.«138577_g2000503492652488_pallasbulk_942_42_alg».proof.Proof.LibBlockSum
import proofs.«138577_g2000503492652488_pallasbulk_942_42_alg».proof.Proof.LibAcc

noncomputable section

namespace Cert.Net

open Idealize.ShloMosaic Idealize.ShloMosaic.ValueIdx
open scoped BigOperators

/-- The two-launch program's accumulated sum is the sum of its five products. -/
theorem cAcc2_sum (x0 : Vec Ideal Cert.ReferenceIdeal.S12x128x120 .f32) (t : Vec Ideal Cert.ReferenceIdeal.S5x120x80 .f32) (r : Fin 128) (q : Fin 80) (oy : Fin 8) :
    Cert.ReferenceIdeal.Net.cAcc2 x0 t r q oy = ∑ i : Fin 5, Cert.ReferenceIdeal.Net.cS2 x0 t r q i.val i.isLt oy := by
  unfold Cert.ReferenceIdeal.Net.cAcc2
  rw [Ideal.ofBits_zero_f32]
  exact Cert.Lib.acc5 (fun i : Fin 5 => Cert.ReferenceIdeal.Net.cS2 x0 t r q i.val i.isLt oy)

/-- The band sums agree. -/
theorem conv2_eq (T : FVec Ideal Cert.KernelIdeal.S160x600 .bf16) (A : FVec Ideal Cert.KernelIdeal.S1440x2048 .bf16)
    (x0 : Vec Ideal Cert.ReferenceIdeal.S12x128x120 .f32) (t : Vec Ideal Cert.ReferenceIdeal.S5x120x80 .f32)
    (oy : Fin 8) (p : Fin 2) (q : Fin 80) (l : Fin 2048) (r : Fin 128)
    (hT : ∀ (i : Fin 5) (k' : Fin 120),
      T (ix2 (⟨80 * p.val + q.val, by have := p.isLt; have := q.isLt; omega⟩ : Fin 160)
          (⟨120 * i.val + k'.val, by have := i.isLt; have := k'.isLt; omega⟩ : Fin 600)) = t (ix3 i k' q))
    (hA : ∀ (ρ : Fin 12) (k' : Fin 120),
      A (ix2 (⟨120 * ρ.val + k'.val, by have := ρ.isLt; have := k'.isLt; omega⟩ : Fin 1440) l) = x0 (ix3 ρ r k')) :
    Cert.KernelIdeal.Net.c2 T A oy p q l = Cert.ReferenceIdeal.Net.cAcc2 x0 t r q oy := by
  rw [cAcc2_sum]
  unfold Cert.KernelIdeal.Net.c2
  refine (Cert.Lib.sum_blocks 5 120 _).trans (Finset.sum_congr rfl fun i _ => ?_)
  unfold Cert.ReferenceIdeal.Net.cS2
  refine Finset.sum_congr rfl fun k' _ => ?_
  have hi := i.isLt
  have hk := k'.isLt
  have ho := oy.isLt
  have e : (finProdFinEquiv (i, k') : Fin (5 * 120)) = (⟨120 * i.val + k'.val, by omega⟩ : Fin 600) :=
    Fin.ext (by rw [Cert.Lib.blockIdx_val]; show k'.val + 120 * i.val = 120 * i.val + k'.val; omega)
  rw [e, hT i k']
  have e2 : (⟨120 * oy.val + (⟨120 * i.val + k'.val, by omega⟩ : Fin 600).val, by show 120 * oy.val + (120 * i.val + k'.val) < 1440; omega⟩ : Fin 1440)
      = (⟨120 * (⟨oy.val + i.val, by omega⟩ : Fin 12).val + k'.val, by show 120 * (oy.val + i.val) + k'.val < 1440; omega⟩ : Fin 1440) :=
    Fin.ext (by show 120 * oy.val + (120 * i.val + k'.val) = 120 * (oy.val + i.val) + k'.val; omega)
  rw [e2, hA ⟨oy.val + i.val, by omega⟩ k']
  exact EReal.mul_comm _ _

end Cert.Net

end
-- ==== Proof.ScoresCore.lean ====
/-
  The ten scores agree, over plain blocks. Both scores are the second dense layer over the clamped first dense layer over
  the 4 x 80 pooled second-convolution values. Given that the dense weights and biases agree entry for entry, that the
  second banded matrix is the two banded factors, and that the first layer's stack is the first launch's output: the
  products commute, the first dense layer's 320 products regroup as 4 x 80, and each pooled second-convolution value is
  the same maximum of four band sums plus the same bias.
-/
import proofs.«138577_g2000503492652488_pallasbulk_942_42_alg».proof.Proof.KernelValue
import proofs.«138577_g2000503492652488_pallasbulk_942_42_alg».proof.Proof.ReferenceValueScores
import proofs.«138577_g2000503492652488_pallasbulk_942_42_alg».proof.Proof.GlueConv2
import proofs.«138577_g2000503492652488_pallasbulk_942_42_alg».proof.Proof.LibAcc

noncomputable section

namespace Cert.Net

open Idealize.ShloMosaic Idealize.ShloMosaic.ValueIdx
open scoped BigOperators

set_option maxHeartbeats 1600000 in
theorem scores_core (X0 : Vec Ideal Cert.KernelIdeal.S896x2048 .bf16) (X1 : Vec Ideal Cert.KernelIdeal.S960x256 .bf16) (X2 : Vec Ideal Cert.KernelIdeal.S160x600 .bf16)
    (X3 : Vec Ideal Cert.KernelIdeal.S50x320 .bf16) (X4 : Vec Ideal Cert.KernelIdeal.S10x50 .bf16) (X5 : Vec Ideal Cert.KernelIdeal.S120x1 .f32) (X6 : Vec Ideal Cert.KernelIdeal.S80x1 .f32)
    (X7 : Vec Ideal Cert.KernelIdeal.S50x1 .f32) (X8 : Vec Ideal Cert.KernelIdeal.S10x1 .f32)
    (R0 : Vec Ideal Cert.ReferenceIdeal.S12x128x120 .f32) (R1 R2 : Vec Ideal Cert.ReferenceIdeal.S5x120x80 .f32) (R3 : Vec Ideal Cert.ReferenceIdeal.S1x80 .f32)
    (R4 : Vec Ideal Cert.ReferenceIdeal.S4x80x50 .f32) (R5 : Vec Ideal Cert.ReferenceIdeal.S1x50 .f32) (R6 : Vec Ideal Cert.ReferenceIdeal.S50x10 .f32) (R7 : Vec Ideal Cert.ReferenceIdeal.S1x10 .f32)
    (r : Fin 128) (l : Fin 2048) (k : Fin 10)
    (h8 : X8 (ix2 k (0 : Fin 1)) = R7 (ix2 (0 : Fin 1) k))
    (h4 : ∀ a : Fin 50, X4 (ix2 k a) = R6 (ix2 a k))
    (h7 : ∀ a : Fin 50, X7 (ix2 a (0 : Fin 1)) = R5 (ix2 (0 : Fin 1) a))
    (h3 : ∀ (a : Fin 50) (s : Fin 4) (q : Fin 80),
      X3 (ix2 a (⟨80 * s.val + q.val, by have := s.isLt; have := q.isLt; omega⟩ : Fin 320)) = R4 (ix3 s q a))
    (h6 : ∀ q : Fin 80, X6 (ix2 q (0 : Fin 1)) = R3 (ix2 (0 : Fin 1) q))
    (H2e : ∀ (q : Fin 80) (i : Fin 5) (k' : Fin 120),
      X2 (ix2 (⟨80 * (0 : Fin 2).val + q.val, by have := (0 : Fin 2).isLt; have := q.isLt; omega⟩ : Fin 160)
          (⟨120 * i.val + k'.val, by have := i.isLt; have := k'.isLt; omega⟩ : Fin 600)) = R1 (ix3 i k' q))
    (H2o : ∀ (q : Fin 80) (i : Fin 5) (k' : Fin 120),
      X2 (ix2 (⟨80 * (1 : Fin 2).val + q.val, by have := (1 : Fin 2).isLt; have := q.isLt; omega⟩ : Fin 160)
          (⟨120 * i.val + k'.val, by have := i.isLt; have := k'.isLt; omega⟩ : Fin 600)) = R2 (ix3 i k' q))
    (hA : ∀ (ρ : Fin 12) (k' : Fin 120),
      Cert.KernelIdeal.Net.kA2 X1 X0 X5 (ix2 (⟨120 * ρ.val + k'.val, by have := ρ.isLt; have := k'.isLt; omega⟩ : Fin 1440) l) = R0 (ix3 ρ r k')) :
    Cert.ReferenceIdeal.Net.refScores (Cert.ReferenceIdeal.Net.rHidden R0 R1 R2 R3 R4 R5) (View.ld R6 Cert.ReferenceIdeal.Gen.r1_16) (View.ld R7 Cert.ReferenceIdeal.Gen.r1_17) (ix2 r k)
      = Cert.KernelIdeal.Net.kScores X0 X1 X2 X3 X4 X5 X6 X7 X8 (ix2 k l) := by
  rw [Cert.ReferenceIdeal.Net.refScores_value R0 R1 R2 R3 R4 R5 R6 R7 r k, Cert.KernelIdeal.Net.kScores_val X0 X1 X2 X3 X4 X5 X6 X7 X8 k l, ← h8]
  refine congrArg (· + X8 (ix2 k (0 : Fin 1))) (Finset.sum_congr rfl fun a _ => ?_)
  rw [← h4 a]
  refine (EReal.mul_comm _ _).trans ?_
  congr 1
  refine congrArg (fun h => max h (Ideal.ofBits .f32 0x00000000#32)) ?_
  unfold Cert.ReferenceIdeal.Net.hid2v
  rw [Ideal.ofBits_zero_f32, ← h7 a]
  refine congrArg (· + X7 (ix2 a (0 : Fin 1))) ?_
  refine (Cert.Lib.acc4 (fun s : Fin 4 => ∑ q : Fin 80, Cert.ReferenceIdeal.Net.pool2v R0 R1 R2 R3 s r q * R4 (ix3 s q a))).trans ?_
  refine Finset.sum_congr rfl fun s _ => Finset.sum_congr rfl fun q _ => ?_
  rw [← h3 a s q]
  refine (EReal.mul_comm _ _).trans ?_
  congr 1
  unfold Cert.ReferenceIdeal.Net.pool2v Cert.KernelIdeal.Net.flatv
  rw [← h6 q]
  refine congrArg₂ max (congrArg₂ (· + ·) (congrArg₂ max (congrArg₂ max ?_ ?_) (congrArg₂ max ?_ ?_)) rfl) rfl
  · exact (conv2_eq X2 (Cert.KernelIdeal.Net.kA2 X1 X0 X5) R0 R1 ⟨2 * s.val, by have := s.isLt; omega⟩ 0 q l r (H2e q) hA).symm
  · exact (conv2_eq X2 (Cert.KernelIdeal.Net.kA2 X1 X0 X5) R0 R2 ⟨2 * s.val, by have := s.isLt; omega⟩ 1 q l r (H2o q) hA).symm
  · exact (conv2_eq X2 (Cert.KernelIdeal.Net.kA2 X1 X0 X5) R0 R1 ⟨2 * s.val + 1, by have := s.isLt; omega⟩ 0 q l r (H2e q) hA).symm
  · exact (conv2_eq X2 (Cert.KernelIdeal.Net.kA2 X1 X0 X5) R0 R2 ⟨2 * s.val + 1, by have := s.isLt; omega⟩ 1 q l r (H2o q) hA).symm

end Cert.Net

end
-- ==== Proof.KernelBlocks.lean ====
/-
  The single launch's operand blocks as pieces of the operand arrays. The eight weight and bias operands are taken
  whole at every grid point; the image operand's block at point t is columns [2048 t, 2048 t + 2048) of the 896 x 16384
  array.
-/
import proofs.«138577_g2000503492652488_pallasbulk_942_42_alg».proof.Proof.KernelIdealHost
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Operand 1 is taken whole at every point. -/
theorem iblk_1 (c : Dev nD) (t : Fin cfg0.N) (j : S960x256.Idx) : iblk m c 1 t j = V m c main_v73 j := by
  unfold iblk
  rw [View.read_apply]
  refine congrArg (V m c main_v73) ?_
  obtain ⟨e0, e1⟩ := idx_w1 t
  funext a
  apply Fin.ext
  match a with
  | ⟨0, _⟩ => show win0_1.index t (0 : Fin 2) * 960 + 1 * (j 0).val = (j 0).val; omega
  | ⟨1, _⟩ => show win0_1.index t (1 : Fin 2) * 256 + 1 * (j 1).val = (j 1).val; omega

theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Operand 2 is taken whole at every point. -/
theorem iblk_2 (c : Dev nD) (t : Fin cfg0.N) (j : S160x600.Idx) : iblk m c 2 t j = V m c main_v121 j := by
  unfold iblk
  rw [View.read_apply]
  refine congrArg (V m c main_v121) ?_
  obtain ⟨e0, e1⟩ := idx_w2 t
  funext a
  apply Fin.ext
  match a with
  | ⟨0, _⟩ => show win0_2.index t (0 : Fin 2) * 160 + 1 * (j 0).val = (j 0).val; omega
  | ⟨1, _⟩ => show win0_2.index t (1 : Fin 2) * 600 + 1 * (j 1).val = (j 1).val; omega

theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Operand 3 is taken whole at every point. -/
theorem iblk_3 (c : Dev nD) (t : Fin cfg0.N) (j : S50x320.Idx) : iblk m c 3 t j = V m c main_v125 j := by
  unfold iblk
  rw [View.read_apply]
  refine congrArg (V m c main_v125) ?_
  obtain ⟨e0, e1⟩ := idx_w3 t
  funext a
  apply Fin.ext
  match a with
  | ⟨0, _⟩ => show win0_3.index t (0 : Fin 2) * 50 + 1 * (j 0).val = (j 0).val; omega
  | ⟨1, _⟩ => show win0_3.index t (1 : Fin 2) * 320 + 1 * (j 1).val = (j 1).val; omega

theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Operand 4 is taken whole at every point. -/
theorem iblk_4 (c : Dev nD) (t : Fin cfg0.N) (j : S10x50.Idx) : iblk m c 4 t j = V m c main_v126 j := by
  unfold iblk
  rw [View.read_apply]
  refine congrArg (V m c main_v126) ?_
  obtain ⟨e0, e1⟩ := idx_w4 t
  funext a
  apply Fin.ext
  match a with
  | ⟨0, _⟩ => show win0_4.index t (0 : Fin 2) * 10 + 1 * (j 0).val = (j 0).val; omega
  | ⟨1, _⟩ => show win0_4.index t (1 : Fin 2) * 50 + 1 * (j 1).val = (j 1).val; omega

theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Operand 5 is taken whole at every point. -/
theorem iblk_5 (c : Dev nD) (t : Fin cfg0.N) (j : S120x1.Idx) : iblk m c 5 t j = V m c main_v130 j := by
  unfold iblk
  rw [View.read_apply]
  refine congrArg (V m c main_v130) ?_
  obtain ⟨e0, e1⟩ := idx_w5 t
  funext a
  apply Fin.ext
  match a with
  | ⟨0, _⟩ => show win0_5.index t (0 : Fin 2) * 120 + 1 * (j 0).val = (j 0).val; omega
  | ⟨1, _⟩ => show win0_5.index t (1 : Fin 2) * 1 + 1 * (j 1).val = (j 1).val; omega

theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Operand 6 is taken whole at every point. -/
theorem iblk_6 (c : Dev nD) (t : Fin cfg0.N) (j : S80x1.Idx) : iblk m c 6 t j = V m c main_v134 j := by
  unfold iblk
  rw [View.read_apply]
  refine congrArg (V m c main_v134) ?_
  obtain ⟨e0, e1⟩ := idx_w6 t
  funext a
  apply Fin.ext
  match a with
  | ⟨0, _⟩ => show win0_6.index t (0 : Fin 2) * 80 + 1 * (j 0).val = (j 0).val; omega
  | ⟨1, _⟩ => show win0_6.index t (1 : Fin 2) * 1 + 1 * (j 1).val = (j 1).val; omega

theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Operand 7 is taken whole at every point. -/
theorem iblk_7 (c : Dev nD) (t : Fin cfg0.N) (j : S50x1.Idx) : iblk m c 7 t j = V m c main_v135 j := by
  unfold iblk
  rw [View.read_apply]
  refine congrArg (V m c main_v135) ?_
  obtain ⟨e0, e1⟩ := idx_w7 t
  funext a
  apply Fin.ext
  match a with
  | ⟨0, _⟩ => show win0_7.index t (0 : Fin 2) * 50 + 1 * (j 0).val = (j 0).val; omega
  | ⟨1, _⟩ => show win0_7.index t (1 : Fin 2) * 1 + 1 * (j 1).val = (j 1).val; omega

theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Operand 8 is taken whole at every point. -/
theorem iblk_8 (c : Dev nD) (t : Fin cfg0.N) (j : S10x1.Idx) : iblk m c 8 t j = V m c main_v136 j := by
  unfold iblk
  rw [View.read_apply]
  refine congrArg (V m c main_v136) ?_
  obtain ⟨e0, e1⟩ := idx_w8 t
  funext a
  apply Fin.ext
  match a with
  | ⟨0, _⟩ => show win0_8.index t (0 : Fin 2) * 10 + 1 * (j 0).val = (j 0).val; omega
  | ⟨1, _⟩ => show win0_8.index t (1 : Fin 2) * 1 + 1 * (j 1).val = (j 1).val; omega

theorem idx_w0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The image operand's block at point t: columns 2048 t + l of the whole array. -/
theorem iblk_0 (c : Dev nD) (t : Fin cfg0.N) (ρ : Fin 896) (l : Fin 2048) :
    iblk m c 0 t (ix2 ρ l) = V m c main_v4 (ix2 ρ (⟨2048 * t.val + l.val, by have := t.isLt; have : cfg0.N = 8 := N_0; have := l.isLt; omega⟩ : Fin 16384)) := by
  unfold iblk
  rw [View.read_apply]
  refine congrArg (V m c main_v4) ?_
  obtain ⟨e0, e1⟩ := idx_w0 t
  funext a
  apply Fin.ext
  match a with
  | ⟨0, _⟩ => show win0_0.index t (0 : Fin 2) * 896 + 1 * ρ.val = ρ.val; omega
  | ⟨1, _⟩ => show win0_0.index t (1 : Fin 2) * 2048 + 1 * l.val = 2048 * t.val + l.val; omega

end Cert.KernelIdeal.Net

end
-- ==== Proof.KernelOperandsDense.lean ====
/-
  The single-launch program's dense-layer and bias operands, as functions of the program's arguments.
  The 10 x 50 second dense weights are the argument itself (a format cast is the identity on extended reals); the
  two dense biases are the argument vectors as one-column matrices; the two convolution bias columns repeat the
  10 (20) channel biases over the 12 (4) pooled columns, entry 10 * oxh + co (20 * oxh + co) being bias co; and the
  50 x 320 first dense weights are the argument with its 320 columns, read as (channel, row, column) = 20 x 4 x 4,
  permuted to (row, column, channel): column 80 * oy + 20 * ox + co is the argument's column 16 * co + 4 * oy + ox.
-/
import proofs.«138577_g2000503492652488_pallasbulk_942_42_alg».proof.Proof.KernelIdealHost

import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The second dense weights: the argument's entry. -/
theorem V_v126 (c : Dev nD) (k : Fin 10) (a : Fin 50) :
    V m c main_v126 (ix2 k a) = m ((c : Thread nD τ).loc main_arg7) (ix2 k a) := by
  have e : @Eq (FVec Ideal S10x50 .bf16) (V m c main_v126)
      (truncf .bf16 (m ((c : Thread nD τ).loc main_arg7) : FVec Ideal S10x50 .f32) bitsLt_bf16_f32) := by
    host_read
  exact congrFun e (ix2 k a)

/-- The second dense bias as a column: entry k. -/
theorem V_v136 (c : Dev nD) (k : Fin 10) :
    V m c main_v136 (ix2 k (0 : Fin 1)) = m ((c : Thread nD τ).loc main_arg8) (ix1 k) := by
  have e : @Eq (FVec Ideal S10x1 .f32) (V m c main_v136)
      (shapeCast S10x1 (m ((c : Thread nD τ).loc main_arg8) : FVec Ideal S10 .f32) shapeCasts_S10_S10x1) := by
    host_read
    rfl
  refine (congrFun e (ix2 k (0 : Fin 1))).trans ?_
  exact shapeCast_apply _ _ (ix2 k (0 : Fin 1)) (ix1 k) (by
    rw [Shape.rowMajor_val_one, Shape.rowMajor_val_two]
    show k.val = k.val * 1 + 0
    omega)

/-- The first dense bias as a column: entry a. -/
theorem V_v135 (c : Dev nD) (a : Fin 50) :
    V m c main_v135 (ix2 a (0 : Fin 1)) = m ((c : Thread nD τ).loc main_arg6) (ix1 a) := by
  have e : @Eq (FVec Ideal S50x1 .f32) (V m c main_v135)
      (shapeCast S50x1 (m ((c : Thread nD τ).loc main_arg6) : FVec Ideal S50 .f32) shapeCasts_S50_S50x1) := by
    host_read
    rfl
  refine (congrFun e (ix2 a (0 : Fin 1))).trans ?_
  exact shapeCast_apply _ _ (ix2 a (0 : Fin 1)) (ix1 a) (by
    rw [Shape.rowMajor_val_one, Shape.rowMajor_val_two]
    show a.val = a.val * 1 + 0
    omega)

/-- The first convolution's bias column: entry 10 * oxh + co is the bias of channel co. -/
theorem V_v130 (c : Dev nD) (oxh : Fin 12) (co : Fin 10) (h : 10 * oxh.val + co.val < 120) :
    V m c main_v130 (ix2 (⟨10 * oxh.val + co.val, h⟩ : Fin 120) (0 : Fin 1)) = m ((c : Thread nD τ).loc main_arg2) (ix1 co) := by
  have e : @Eq (FVec Ideal S120x1 .f32) (V m c main_v130)
      (shapeCast S120x1 (shapeCast S120 (broadcastInDim S12x10 ![0, 1] bcast_S1x10_S12x10_0_1
        (shapeCast S1x10 (m ((c : Thread nD τ).loc main_arg2) : FVec Ideal S10 .f32) shapeCasts_S10_S1x10))
        shapeCasts_S12x10_S120) shapeCasts_S120_S120x1) := by
    host_read
    rfl
  refine (congrFun e _).trans ?_
  refine (shapeCast_apply _ _ (ix2 (⟨10 * oxh.val + co.val, h⟩ : Fin 120) (0 : Fin 1)) (ix1 (⟨10 * oxh.val + co.val, h⟩ : Fin 120)) (by
    rw [Shape.rowMajor_val_one, Shape.rowMajor_val_two]
    show 10 * oxh.val + co.val = (10 * oxh.val + co.val) * 1 + 0
    omega)).trans ?_
  refine (shapeCast_apply _ _ (ix1 (⟨10 * oxh.val + co.val, h⟩ : Fin 120)) (ix2 oxh co) (by
    rw [Shape.rowMajor_val_one, Shape.rowMajor_val_two]
    show oxh.val * 10 + co.val = 10 * oxh.val + co.val
    omega)).trans ?_
  refine (broadcastInDim_apply _ _ _ (ix2 oxh co) (ix2 (0 : Fin 1) co) (fun a => match a with
    | ⟨0, _⟩ => rfl
    | ⟨1, _⟩ => rfl)).trans ?_
  exact shapeCast_apply _ _ (ix2 (0 : Fin 1) co) (ix1 co) (by
    rw [Shape.rowMajor_val_one, Shape.rowMajor_val_two]
    show co.val = 0 * 10 + co.val
    omega)

/-- The second convolution's bias column: entry 20 * oxh + co is the bias of channel co. -/
theorem V_v134 (c : Dev nD) (oxh : Fin 4) (co : Fin 20) (h : 20 * oxh.val + co.val < 80) :
    V m c main_v134 (ix2 (⟨20 * oxh.val + co.val, h⟩ : Fin 80) (0 : Fin 1)) = m ((c : Thread nD τ).loc main_arg4) (ix1 co) := by
  have e : @Eq (FVec Ideal S80x1 .f32) (V m c main_v134)
      (shapeCast S80x1 (shapeCast S80 (broadcastInDim S4x20 ![0, 1] bcast_S1x20_S4x20_0_1
        (shapeCast S1x20 (m ((c : Thread nD τ).loc main_arg4) : FVec Ideal S20 .f32) shapeCasts_S20_S1x20))
        shapeCasts_S4x20_S80) shapeCasts_S80_S80x1) := by
    host_read
    rfl
  refine (congrFun e _).trans ?_
  refine (shapeCast_apply _ _ (ix2 (⟨20 * oxh.val + co.val, h⟩ : Fin 80) (0 : Fin 1)) (ix1 (⟨20 * oxh.val + co.val, h⟩ : Fin 80)) (by
    rw [Shape.rowMajor_val_one, Shape.rowMajor_val_two]
    show 20 * oxh.val + co.val = (20 * oxh.val + co.val) * 1 + 0
    omega)).trans ?_
  refine (shapeCast_apply _ _ (ix1 (⟨20 * oxh.val + co.val, h⟩ : Fin 80)) (ix2 oxh co) (by
    rw [Shape.rowMajor_val_one, Shape.rowMajor_val_two]
    show oxh.val * 20 + co.val = 20 * oxh.val + co.val
    omega)).trans ?_
  refine (broadcastInDim_apply _ _ _ (ix2 oxh co) (ix2 (0 : Fin 1) co) (fun a => match a with
    | ⟨0, _⟩ => rfl
    | ⟨1, _⟩ => rfl)).trans ?_
  exact shapeCast_apply _ _ (ix2 (0 : Fin 1) co) (ix1 co) (by
    rw [Shape.rowMajor_val_one, Shape.rowMajor_val_two]
    show co.val = 0 * 20 + co.val
    omega)

/-- The first dense weights, columns permuted: column 80 * oy + 20 * ox + co is the argument's column 16 * co + 4 * oy + ox. -/
theorem V_v125 (c : Dev nD) (a : Fin 50) (oy ox : Fin 4) (co : Fin 20)
    (h : 80 * oy.val + 20 * ox.val + co.val < 320) (h' : 16 * co.val + 4 * oy.val + ox.val < 320) :
    V m c main_v125 (ix2 a (⟨80 * oy.val + 20 * ox.val + co.val, h⟩ : Fin 320))
      = m ((c : Thread nD τ).loc main_arg5) (ix2 a (⟨16 * co.val + 4 * oy.val + ox.val, h'⟩ : Fin 320)) := by
  have e : @Eq (FVec Ideal S50x320 .bf16) (V m c main_v125)
      (truncf .bf16 (shapeCast S50x320 (transpose S50x4x4x20 [0, 2, 3, 1]
        (shapeCast S50x20x4x4 (m ((c : Thread nD τ).loc main_arg5) : FVec Ideal S50x320 .f32) shapeCasts_S50x320_S50x20x4x4)
        transposes_S50x20x4x4_S50x4x4x20_0_2_3_1) shapeCasts_S50x4x4x20_S50x320) bitsLt_bf16_f32) := by
    host_read
    rfl
  refine (congrFun e _).trans ?_
  refine (truncf_apply _ bitsLt_bf16_f32 _).trans ?_
  refine (shapeCast_apply _ _ (ix2 a (⟨80 * oy.val + 20 * ox.val + co.val, h⟩ : Fin 320)) (ix4 a oy ox co) (by
    rw [Shape.rowMajor_val_four, Shape.rowMajor_val_two]
    show ((a.val * 4 + oy.val) * 4 + ox.val) * 20 + co.val = a.val * 320 + (80 * oy.val + 20 * ox.val + co.val)
    omega)).trans ?_
  refine (transpose_apply _ _ _ (ix4 a oy ox co) (ix4 a co oy ox) (fun b => match b with
    | ⟨0, _⟩ => rfl
    | ⟨1, _⟩ => rfl
    | ⟨2, _⟩ => rfl
    | ⟨3, _⟩ => rfl)).trans ?_
  exact shapeCast_apply _ _ (ix4 a co oy ox) (ix2 a (⟨16 * co.val + 4 * oy.val + ox.val, h'⟩ : Fin 320)) (by
    rw [Shape.rowMajor_val_four, Shape.rowMajor_val_two]
    show a.val * 320 + (16 * co.val + 4 * oy.val + ox.val) = ((a.val * 20 + co.val) * 4 + oy.val) * 4 + ox.val
    omega)

end Cert.KernelIdeal.Net
-- ==== Proof.KernelOperandsInput.lean ====
/-
  The single-launch program's image operand as a function of the image argument. The 16384 x 1 x 28 x 28 batch is
  transposed to (row, column, channel, image), the unit channel axis dropped, cast (the identity on extended reals),
  the column axis padded from 28 to 32 with the real number of the integer word 0, and the result flattened to
  896 = 28 * 32 rows by 16384 columns: entry (32 * h + w, n) is pixel (h, w) of image n for w < 28, and zero for
  the four padding columns 28 ≤ w < 32.
-/
import proofs.«138577_g2000503492652488_pallasbulk_942_42_alg».proof.Proof.KernelIdealHost
import Idealize.ShloMosaic.Lib.KernelVsHost
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The image operand as the chain of operations on the image argument. -/
theorem V_v4_eq (c : Dev nD) :
    @Eq (FVec Ideal S896x16384 .bf16) (V m c main_v4)
      (shapeCast S896x16384 (pad S28x32x16384 ![0, 0, 0] ![0, 4, 0] ![0, 0, 0]
        (truncf .bf16 (shapeCast S28x28x16384 (transpose S28x28x1x16384 [2, 3, 1, 0]
          (m ((c : Thread nD τ).loc main_arg0) : FVec Ideal S16384x1x28x28 .f32) transposes_S16384x1x28x28_S28x28x1x16384_2_3_1_0)
          shapeCasts_S28x28x1x16384_S28x28x16384) bitsLt_bf16_f32 : FVec Ideal S28x28x16384 .bf16)
        (sitofp (F := Ideal) .bf16 (constantI S_ 32 0#32) : FVec Ideal S_ .bf16)
        pads_S28x28x16384_S28x32x16384_000_040_000 h_S_) shapeCasts_S28x32x16384_S896x16384) := by
  host_read
  rfl

/-- Inside the image: entry (32 * h + w, n) with w < 28 is pixel (h, w) of image n. -/
theorem V_v4_inside (c : Dev nD) (h : Fin 28) (w : Fin 28) (n : Fin 16384) (hr : 32 * h.val + w.val < 896) :
    V m c main_v4 (ix2 (⟨32 * h.val + w.val, hr⟩ : Fin 896) n)
      = m ((c : Thread nD τ).loc main_arg0) (ix4 n (0 : Fin 1) h w) := by
  refine (congrFun (V_v4_eq m c) _).trans ?_
  refine (shapeCast_apply _ _ (ix2 (⟨32 * h.val + w.val, hr⟩ : Fin 896) n) (ix3 h (⟨w.val, by omega⟩ : Fin 32) n) (by
    rw [Shape.rowMajor_val_three, Shape.rowMajor_val_two]
    show (h.val * 32 + w.val) * 16384 + n.val = (32 * h.val + w.val) * 16384 + n.val
    omega)).trans ?_
  refine (pad_apply_of_inside _ _ _ _ _ pads_S28x28x16384_S28x32x16384_000_040_000 h_S_
    (ix3 h (⟨w.val, by omega⟩ : Fin 32) n) (ix3 h w n) (by
      intro a
      match a with
      | ⟨0, _⟩ => show h.val = 0 + h.val * (0 + 1); omega
      | ⟨1, _⟩ => show w.val = 0 + w.val * (0 + 1); omega
      | ⟨2, _⟩ => show n.val = 0 + n.val * (0 + 1); omega)).trans ?_
  refine (truncf_apply _ bitsLt_bf16_f32 _).trans ?_
  refine (shapeCast_apply _ _ (ix3 h w n) (ix4 h w (0 : Fin 1) n) (by
    rw [Shape.rowMajor_val_four, Shape.rowMajor_val_three]
    show ((h.val * 28 + w.val) * 1 + 0) * 16384 + n.val = (h.val * 28 + w.val) * 16384 + n.val
    omega)).trans ?_
  exact transpose_apply _ _ _ (ix4 h w (0 : Fin 1) n) (ix4 n (0 : Fin 1) h w) (fun b => match b with
    | ⟨0, _⟩ => rfl
    | ⟨1, _⟩ => rfl
    | ⟨2, _⟩ => rfl
    | ⟨3, _⟩ => rfl)

/-- The padding columns: entry (32 * h + w, n) with 28 ≤ w < 32 is zero, the value of the zero word. -/
theorem V_v4_pad (c : Dev nD) (h : Fin 28) (w : Fin 32) (hw : 28 ≤ w.val) (n : Fin 16384) (hr : 32 * h.val + w.val < 896) :
    V m c main_v4 (ix2 (⟨32 * h.val + w.val, hr⟩ : Fin 896) n) = Ideal.ofBits .f32 0x00000000#32 := by
  refine (congrFun (V_v4_eq m c) _).trans ?_
  refine (shapeCast_apply _ _ (ix2 (⟨32 * h.val + w.val, hr⟩ : Fin 896) n) (ix3 h w n) (by
    rw [Shape.rowMajor_val_three, Shape.rowMajor_val_two]
    show (h.val * 32 + w.val) * 16384 + n.val = (32 * h.val + w.val) * 16384 + n.val
    omega)).trans ?_
  refine (pad_apply_of_not_inside _ _ _ _ _ pads_S28x28x16384_S28x32x16384_000_040_000 h_S_
    (ix3 h w n) (1 : Fin 3) (by
      intro hin
      have e : (w.val - 0) / (0 + 1) < 28 := hin.2.2
      omega)).trans ?_
  show (((0#32 : BitVec 32).toInt : ℝ) : EReal) = Ideal.ofBits .f32 0x00000000#32
  rw [Ideal.ofBits_zero_f32]
  simp

/-- Both cases in one. -/
theorem V_v4 (c : Dev nD) (h : Fin 28) (w : Fin 32) (n : Fin 16384) (hr : 32 * h.val + w.val < 896) :
    V m c main_v4 (ix2 (⟨32 * h.val + w.val, hr⟩ : Fin 896) n)
      = if hw : w.val < 28 then m ((c : Thread nD τ).loc main_arg0) (ix4 n (0 : Fin 1) h (⟨w.val, hw⟩ : Fin 28))
        else Ideal.ofBits .f32 0x00000000#32 := by
  by_cases hw : w.val < 28
  · rw [dif_pos hw]
    exact V_v4_inside m c h (⟨w.val, hw⟩ : Fin 28) n hr
  · rw [dif_neg hw]
    exact V_v4_pad m c h w (by omega) n hr

end Cert.KernelIdeal.Net
-- ==== Proof.ReferenceBlocks.lean ====
/-
  The two launches' operand blocks as pieces of the operand arrays, over the buffer contents a launch is entered with. In
  each launch every weight and bias operand is taken whole at every grid point; the first operand's block at point t is
  images [128 t, 128 t + 128) (the middle axis) of the whole array: 28 x 16384 x 28 for the first launch, 12 x 16384 x 120
  for the second.
-/
import proofs.«138577_g2000503492652488_pallasbulk_942_42_alg».proof.Proof.Gen.ReferenceIdeal.Frame
import Idealize.ShloMosaic.Lib.Pipeline.Value
import Idealize.ShloMosaic.Lib.ValueIdx

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Entered
variable (V : (c : Dev nD) → (b : Ref sig .tc) → Buf (Elt F) ((c : Thread nD τ).loc b))

/-! ## The first launch -/

theorem idx0_w1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- Operand 1 of launch one is taken whole at every point. -/
theorem iblk0_1 (c : Dev nD) (t : Fin cfg0.N) (j : S5x28x120.Idx) : iblk0 V c 1 t j = V c main_v30 j := by
  unfold iblk0
  rw [View.read_apply]
  refine congrArg (V c main_v30) ?_
  obtain ⟨e0, e1, e2⟩ := idx0_w1 t
  funext a
  apply Fin.ext
  match a with
  | ⟨0, _⟩ => show win0_1.index t (0 : Fin 3) * 5 + 1 * (j 0).val = (j 0).val; omega
  | ⟨1, _⟩ => show win0_1.index t (1 : Fin 3) * 28 + 1 * (j 1).val = (j 1).val; omega
  | ⟨2, _⟩ => show win0_1.index t (2 : Fin 3) * 120 + 1 * (j 2).val = (j 2).val; omega

theorem idx0_w2 : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

/-- Operand 2 of launch one is taken whole at every point. -/
theorem iblk0_2 (c : Dev nD) (t : Fin cfg0.N) (j : S5x28x120.Idx) : iblk0 V c 2 t j = V c main_v59 j := by
  unfold iblk0
  rw [View.read_apply]
  refine congrArg (V c main_v59) ?_
  obtain ⟨e0, e1, e2⟩ := idx0_w2 t
  funext a
  apply Fin.ext
  match a with
  | ⟨0, _⟩ => show win0_2.index t (0 : Fin 3) * 5 + 1 * (j 0).val = (j 0).val; omega
  | ⟨1, _⟩ => show win0_2.index t (1 : Fin 3) * 28 + 1 * (j 1).val = (j 1).val; omega
  | ⟨2, _⟩ => show win0_2.index t (2 : Fin 3) * 120 + 1 * (j 2).val = (j 2).val; omega

theorem idx0_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Operand 3 of launch one is taken whole at every point. -/
theorem iblk0_3 (c : Dev nD) (t : Fin cfg0.N) (j : S1x120.Idx) : iblk0 V c 3 t j = V c main_v63 j := by
  unfold iblk0
  rw [View.read_apply]
  refine congrArg (V c main_v63) ?_
  obtain ⟨e0, e1⟩ := idx0_w3 t
  funext a
  apply Fin.ext
  match a with
  | ⟨0, _⟩ => show win0_3.index t (0 : Fin 2) * 1 + 1 * (j 0).val = (j 0).val; omega
  | ⟨1, _⟩ => show win0_3.index t (1 : Fin 2) * 120 + 1 * (j 1).val = (j 1).val; omega

theorem idx0_w0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- Operand 0 of launch one at point t: images 128 t + r of the whole array. -/
theorem iblk0_0 (c : Dev nD) (t : Fin cfg0.N) (h : Fin 28) (r : Fin 128) (w : Fin 28) :
    iblk0 V c 0 t (ix3 h r w)
      = V c main_v1 (ix3 h (⟨128 * t.val + r.val, by have := t.isLt; have : cfg0.N = 128 := N_0; have := r.isLt; omega⟩ : Fin 16384) w) := by
  unfold iblk0
  rw [View.read_apply]
  refine congrArg (V c main_v1) ?_
  obtain ⟨e0, e1, e2⟩ := idx0_w0 t
  funext a
  apply Fin.ext
  match a with
  | ⟨0, _⟩ => show win0_0.index t (0 : Fin 3) * 28 + 1 * h.val = h.val; omega
  | ⟨1, _⟩ => show win0_0.index t (1 : Fin 3) * 128 + 1 * r.val = 128 * t.val + r.val; omega
  | ⟨2, _⟩ => show win0_0.index t (2 : Fin 3) * 28 + 1 * w.val = w.val; omega

/-! ## The second launch -/

theorem idx1_w1 : ∀ t : Fin cfg1.N, win1_1.index t (0 : Fin 3) = 0 ∧ win1_1.index t (1 : Fin 3) = 0 ∧ win1_1.index t (2 : Fin 3) = 0 :=
  (by decide +kernel : ∀ t : Fin grid1.N, win1_1.index t (0 : Fin 3) = 0 ∧ win1_1.index t (1 : Fin 3) = 0 ∧ win1_1.index t (2 : Fin 3) = 0)

/-- Operand 1 of launch two is taken whole at every point. -/
theorem iblk1_1 (c : Dev nD) (t : Fin cfg1.N) (j : S5x120x80.Idx) : iblk1 V c 1 t j = V c main_v93 j := by
  unfold iblk1
  rw [View.read_apply]
  refine congrArg (V c main_v93) ?_
  obtain ⟨e0, e1, e2⟩ := idx1_w1 t
  funext a
  apply Fin.ext
  match a with
  | ⟨0, _⟩ => show win1_1.index t (0 : Fin 3) * 5 + 1 * (j 0).val = (j 0).val; omega
  | ⟨1, _⟩ => show win1_1.index t (1 : Fin 3) * 120 + 1 * (j 1).val = (j 1).val; omega
  | ⟨2, _⟩ => show win1_1.index t (2 : Fin 3) * 80 + 1 * (j 2).val = (j 2).val; omega

theorem idx1_w2 : ∀ t : Fin cfg1.N, win1_2.index t (0 : Fin 3) = 0 ∧ win1_2.index t (1 : Fin 3) = 0 ∧ win1_2.index t (2 : Fin 3) = 0 :=
  (by decide +kernel : ∀ t : Fin grid1.N, win1_2.index t (0 : Fin 3) = 0 ∧ win1_2.index t (1 : Fin 3) = 0 ∧ win1_2.index t (2 : Fin 3) = 0)

/-- Operand 2 of launch two is taken whole at every point. -/
theorem iblk1_2 (c : Dev nD) (t : Fin cfg1.N) (j : S5x120x80.Idx) : iblk1 V c 2 t j = V c main_v122 j := by
  unfold iblk1
  rw [View.read_apply]
  refine congrArg (V c main_v122) ?_
  obtain ⟨e0, e1, e2⟩ := idx1_w2 t
  funext a
  apply Fin.ext
  match a with
  | ⟨0, _⟩ => show win1_2.index t (0 : Fin 3) * 5 + 1 * (j 0).val = (j 0).val; omega
  | ⟨1, _⟩ => show win1_2.index t (1 : Fin 3) * 120 + 1 * (j 1).val = (j 1).val; omega
  | ⟨2, _⟩ => show win1_2.index t (2 : Fin 3) * 80 + 1 * (j 2).val = (j 2).val; omega

theorem idx1_w3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Operand 3 of launch two is taken whole at every point. -/
theorem iblk1_3 (c : Dev nD) (t : Fin cfg1.N) (j : S1x80.Idx) : iblk1 V c 3 t j = V c main_v126 j := by
  unfold iblk1
  rw [View.read_apply]
  refine congrArg (V c main_v126) ?_
  obtain ⟨e0, e1⟩ := idx1_w3 t
  funext a
  apply Fin.ext
  match a with
  | ⟨0, _⟩ => show win1_3.index t (0 : Fin 2) * 1 + 1 * (j 0).val = (j 0).val; omega
  | ⟨1, _⟩ => show win1_3.index t (1 : Fin 2) * 80 + 1 * (j 1).val = (j 1).val; omega

theorem idx1_w4 : ∀ t : Fin cfg1.N, win1_4.index t (0 : Fin 3) = 0 ∧ win1_4.index t (1 : Fin 3) = 0 ∧ win1_4.index t (2 : Fin 3) = 0 :=
  (by decide +kernel : ∀ t : Fin grid1.N, win1_4.index t (0 : Fin 3) = 0 ∧ win1_4.index t (1 : Fin 3) = 0 ∧ win1_4.index t (2 : Fin 3) = 0)

/-- Operand 4 of launch two is taken whole at every point. -/
theorem iblk1_4 (c : Dev nD) (t : Fin cfg1.N) (j : S4x80x50.Idx) : iblk1 V c 4 t j = V c main_v129 j := by
  unfold iblk1
  rw [View.read_apply]
  refine congrArg (V c main_v129) ?_
  obtain ⟨e0, e1, e2⟩ := idx1_w4 t
  funext a
  apply Fin.ext
  match a with
  | ⟨0, _⟩ => show win1_4.index t (0 : Fin 3) * 4 + 1 * (j 0).val = (j 0).val; omega
  | ⟨1, _⟩ => show win1_4.index t (1 : Fin 3) * 80 + 1 * (j 1).val = (j 1).val; omega
  | ⟨2, _⟩ => show win1_4.index t (2 : Fin 3) * 50 + 1 * (j 2).val = (j 2).val; omega

theorem idx1_w5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Operand 5 of launch two is taken whole at every point. -/
theorem iblk1_5 (c : Dev nD) (t : Fin cfg1.N) (j : S1x50.Idx) : iblk1 V c 5 t j = V c main_v130 j := by
  unfold iblk1
  rw [View.read_apply]
  refine congrArg (V c main_v130) ?_
  obtain ⟨e0, e1⟩ := idx1_w5 t
  funext a
  apply Fin.ext
  match a with
  | ⟨0, _⟩ => show win1_5.index t (0 : Fin 2) * 1 + 1 * (j 0).val = (j 0).val; omega
  | ⟨1, _⟩ => show win1_5.index t (1 : Fin 2) * 50 + 1 * (j 1).val = (j 1).val; omega

theorem idx1_w6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Operand 6 of launch two is taken whole at every point. -/
theorem iblk1_6 (c : Dev nD) (t : Fin cfg1.N) (j : S50x10.Idx) : iblk1 V c 6 t j = V c main_v131 j := by
  unfold iblk1
  rw [View.read_apply]
  refine congrArg (V c main_v131) ?_
  obtain ⟨e0, e1⟩ := idx1_w6 t
  funext a
  apply Fin.ext
  match a with
  | ⟨0, _⟩ => show win1_6.index t (0 : Fin 2) * 50 + 1 * (j 0).val = (j 0).val; omega
  | ⟨1, _⟩ => show win1_6.index t (1 : Fin 2) * 10 + 1 * (j 1).val = (j 1).val; omega

theorem idx1_w7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Operand 7 of launch two is taken whole at every point. -/
theorem iblk1_7 (c : Dev nD) (t : Fin cfg1.N) (j : S1x10.Idx) : iblk1 V c 7 t j = V c main_v132 j := by
  unfold iblk1
  rw [View.read_apply]
  refine congrArg (V c main_v132) ?_
  obtain ⟨e0, e1⟩ := idx1_w7 t
  funext a
  apply Fin.ext
  match a with
  | ⟨0, _⟩ => show win1_7.index t (0 : Fin 2) * 1 + 1 * (j 0).val = (j 0).val; omega
  | ⟨1, _⟩ => show win1_7.index t (1 : Fin 2) * 10 + 1 * (j 1).val = (j 1).val; omega

theorem idx1_w0 : ∀ t : Fin cfg1.N, win1_0.index t (0 : Fin 3) = 0 ∧ win1_0.index t (1 : Fin 3) = t.val ∧ win1_0.index t (2 : Fin 3) = 0 :=
  (by decide +kernel : ∀ t : Fin grid1.N, win1_0.index t (0 : Fin 3) = 0 ∧ win1_0.index t (1 : Fin 3) = t.val ∧ win1_0.index t (2 : Fin 3) = 0)

/-- Operand 0 of launch two at point t: images 128 t + r of the whole array. -/
theorem iblk1_0 (c : Dev nD) (t : Fin cfg1.N) (ρ : Fin 12) (r : Fin 128) (k : Fin 120) :
    iblk1 V c 0 t (ix3 ρ r k)
      = V c main_v64 (ix3 ρ (⟨128 * t.val + r.val, by have := t.isLt; have : cfg1.N = 128 := N_1; have := r.isLt; omega⟩ : Fin 16384) k) := by
  unfold iblk1
  rw [View.read_apply]
  refine congrArg (V c main_v64) ?_
  obtain ⟨e0, e1, e2⟩ := idx1_w0 t
  funext a
  apply Fin.ext
  match a with
  | ⟨0, _⟩ => show win1_0.index t (0 : Fin 3) * 12 + 1 * ρ.val = ρ.val; omega
  | ⟨1, _⟩ => show win1_0.index t (1 : Fin 3) * 128 + 1 * r.val = 128 * t.val + r.val; omega
  | ⟨2, _⟩ => show win1_0.index t (2 : Fin 3) * 120 + 1 * k.val = k.val; omega

end Entered

end Cert.ReferenceIdeal.Net

end
-- ==== Proof.ReferenceOperandsArgs.lean ====
/-
  The two-launch program's arguments at the boundaries of its run. No host operation writes an argument and the first
  launch writes only its own output array, so at the first launch's entry and at its exit each of the nine argument
  buffers still holds what the initial memory holds.
-/
import proofs.«138577_g2000503492652488_pallasbulk_942_42_alg».proof.Proof.Gen.ReferenceIdeal.Frame
import Idealize.ShloMosaic.Lib.Pipeline.Value
import Idealize.ShloMosaic.Lib.ValueIdx
import Idealize.ShloMosaic.Lib.ValueLayout

set_option maxRecDepth 16384

noncomputable section

namespace Cert.ReferenceIdeal.Net

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- At the first launch's entry the argument buffers hold the initial memory's contents. -/
theorem W9_main_arg0 (c : Dev nD) : W9 (F := Ideal) m ρ c (Proc.devRef .tc main_arg0) = m ((c.tc : Thread nD τ).loc main_arg0) := by
  after_results
theorem W9_main_arg1 (c : Dev nD) : W9 (F := Ideal) m ρ c (Proc.devRef .tc main_arg1) = m ((c.tc : Thread nD τ).loc main_arg1) := by
  after_results
theorem W9_main_arg2 (c : Dev nD) : W9 (F := Ideal) m ρ c (Proc.devRef .tc main_arg2) = m ((c.tc : Thread nD τ).loc main_arg2) := by
  after_results
theorem W9_main_arg3 (c : Dev nD) : W9 (F := Ideal) m ρ c (Proc.devRef .tc main_arg3) = m ((c.tc : Thread nD τ).loc main_arg3) := by
  after_results
theorem W9_main_arg4 (c : Dev nD) : W9 (F := Ideal) m ρ c (Proc.devRef .tc main_arg4) = m ((c.tc : Thread nD τ).loc main_arg4) := by
  after_results
theorem W9_main_arg5 (c : Dev nD) : W9 (F := Ideal) m ρ c (Proc.devRef .tc main_arg5) = m ((c.tc : Thread nD τ).loc main_arg5) := by
  after_results
theorem W9_main_arg6 (c : Dev nD) : W9 (F := Ideal) m ρ c (Proc.devRef .tc main_arg6) = m ((c.tc : Thread nD τ).loc main_arg6) := by
  after_results
theorem W9_main_arg7 (c : Dev nD) : W9 (F := Ideal) m ρ c (Proc.devRef .tc main_arg7) = m ((c.tc : Thread nD τ).loc main_arg7) := by
  after_results
theorem W9_main_arg8 (c : Dev nD) : W9 (F := Ideal) m ρ c (Proc.devRef .tc main_arg8) = m ((c.tc : Thread nD τ).loc main_arg8) := by
  after_results

/-- At the first launch's exit too: it writes only its output array. -/
theorem W10_main_arg3 (c : Dev nD) : W10 (F := Ideal) m ρ c (Proc.devRef .tc main_arg3) = m ((c.tc : Thread nD τ).loc main_arg3) :=
  (W10_of_ne m ρ c main_arg3 (by decide)).trans (W9_main_arg3 m ρ c)
theorem W10_main_arg4 (c : Dev nD) : W10 (F := Ideal) m ρ c (Proc.devRef .tc main_arg4) = m ((c.tc : Thread nD τ).loc main_arg4) :=
  (W10_of_ne m ρ c main_arg4 (by decide)).trans (W9_main_arg4 m ρ c)
theorem W10_main_arg5 (c : Dev nD) : W10 (F := Ideal) m ρ c (Proc.devRef .tc main_arg5) = m ((c.tc : Thread nD τ).loc main_arg5) :=
  (W10_of_ne m ρ c main_arg5 (by decide)).trans (W9_main_arg5 m ρ c)
theorem W10_main_arg6 (c : Dev nD) : W10 (F := Ideal) m ρ c (Proc.devRef .tc main_arg6) = m ((c.tc : Thread nD τ).loc main_arg6) :=
  (W10_of_ne m ρ c main_arg6 (by decide)).trans (W9_main_arg6 m ρ c)
theorem W10_main_arg7 (c : Dev nD) : W10 (F := Ideal) m ρ c (Proc.devRef .tc main_arg7) = m ((c.tc : Thread nD τ).loc main_arg7) :=
  (W10_of_ne m ρ c main_arg7 (by decide)).trans (W9_main_arg7 m ρ c)
theorem W10_main_arg8 (c : Dev nD) : W10 (F := Ideal) m ρ c (Proc.devRef .tc main_arg8) = m ((c.tc : Thread nD τ).loc main_arg8) :=
  (W10_of_ne m ρ c main_arg8 (by decide)).trans (W9_main_arg8 m ρ c)

end Cert.ReferenceIdeal.Net

end
-- ==== Proof.ReferenceOperandsHead.lean ====
/-
  The second launch's dense-layer operands as functions of the program's arguments. The second dense layer's weight
  operand (50 x 10) is the transpose of fc2_w and its bias row (1 x 10) is fc2_b; the first dense layer's bias row
  (1 x 50) is fc1_b; its weight operand (4 x 80 x 50) holds, at (oy, 20 ox + co, a), the entry of fc1_w at row a and
  column 16 co + 4 oy + ox (the flattening of a 20 x 4 x 4 feature map); the convolution's bias row (1 x 80) holds
  conv2_b tiled four times: entry 20 oxh + co is conv2_b at co.
-/
import proofs.«138577_g2000503492652488_pallasbulk_942_42_alg».proof.Proof.Gen.ReferenceIdeal.Frame
import proofs.«138577_g2000503492652488_pallasbulk_942_42_alg».proof.Proof.ReferenceOperandsArgs
import Idealize.ShloMosaic.Lib.Pipeline.Value
import Idealize.ShloMosaic.Lib.ValueIdx
import Idealize.ShloMosaic.Lib.ValueLayout

set_option maxRecDepth 16384

noncomputable section

namespace Cert.ReferenceIdeal.Net

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- The second dense layer's bias row: fc2_b. -/
theorem second_fc2_b (c : Dev nD) (k : Fin 10) :
    (V19 (F := Ideal) m ρ c main_v132 : S1x10.Idx → Ideal .f32) (ix2 (0 : Fin 1) k)
      = (m ((c.tc : Thread nD τ).loc main_arg8) : S10.Idx → Ideal .f32) (ix1 k) := by
  show (StableHlo.after hostOps1_8 (W18 m ρ c) (Proc.devRef .tc main_v132) : S1x10.Idx → Ideal .f32) (ix2 (0 : Fin 1) k) = _
  simp only [hostOps1_8]
  after_results
  rw [W10_main_arg8]
  exact shapeCast_a_1a_apply _ _ _ _

/-- The second dense layer's weights: fc2_w transposed. -/
theorem second_fc2_w (c : Dev nD) (a : Fin 50) (k : Fin 10) :
    (V19 (F := Ideal) m ρ c main_v131 : S50x10.Idx → Ideal .f32) (ix2 a k)
      = (m ((c.tc : Thread nD τ).loc main_arg7) : S10x50.Idx → Ideal .f32) (ix2 k a) := by
  show (StableHlo.after hostOps1_8 (W18 m ρ c) (Proc.devRef .tc main_v131) : S50x10.Idx → Ideal .f32) (ix2 a k) = _
  simp only [hostOps1_8]
  after_results
  rw [W10_main_arg7]
  exact transpose_ix2_apply _ _ _ _

/-- The first dense layer's bias row: fc1_b. -/
theorem second_fc1_b (c : Dev nD) (a : Fin 50) :
    (V19 (F := Ideal) m ρ c main_v130 : S1x50.Idx → Ideal .f32) (ix2 (0 : Fin 1) a)
      = (m ((c.tc : Thread nD τ).loc main_arg6) : S50.Idx → Ideal .f32) (ix1 a) := by
  show (StableHlo.after hostOps1_8 (W18 m ρ c) (Proc.devRef .tc main_v130) : S1x50.Idx → Ideal .f32) (ix2 (0 : Fin 1) a) = _
  simp only [hostOps1_8]
  after_results
  rw [W10_main_arg6]
  exact shapeCast_a_1a_apply _ _ _ _

/-- The second convolution's bias row: conv2_b tiled over the four pooled columns. -/
theorem second_conv2_b (c : Dev nD) (oxh : Fin 4) (co : Fin 20) :
    (V19 (F := Ideal) m ρ c main_v126 : S1x80.Idx → Ideal .f32) (ix2 (0 : Fin 1) (⟨20 * oxh.val + co.val, by omega⟩ : Fin 80))
      = (m ((c.tc : Thread nD τ).loc main_arg4) : S20.Idx → Ideal .f32) (ix1 co) := by
  show (StableHlo.after hostOps1_8 (W18 m ρ c) (Proc.devRef .tc main_v126) : S1x80.Idx → Ideal .f32) (ix2 (0 : Fin 1) (⟨20 * oxh.val + co.val, by omega⟩ : Fin 80)) = _
  simp only [hostOps1_8]
  after_results
  rw [W10_main_arg4]
  show shapeCast S1x80 (shapeCast S80 (broadcastInDim S4x20 ![0, 1] bcast_S1x20_S4x20_0_1
      (shapeCast S1x20 (m ((c.tc : Thread nD τ).loc main_arg4) : S20.Idx → Ideal .f32) shapeCasts_S20_S1x20)) shapeCasts_S4x20_S80)
      shapeCasts_S80_S1x80 (ix2 (0 : Fin 1) (⟨20 * oxh.val + co.val, by omega⟩ : Fin 80)) = _
  refine (shapeCast_a_1a_apply _ _ _ _).trans ?_
  refine (shapeCast_apply _ _ _ (ix2 oxh co) ?_).trans ?_
  · rw [Shape.rowMajor_val_two, Shape.rowMajor_val_one]
    show oxh.val * 20 + co.val = 20 * oxh.val + co.val
    omega
  refine (broadcastInDim_apply _ _ _ (ix2 oxh co) (ix2 (0 : Fin 1) co) ?_).trans ?_
  · intro b
    match b with
    | ⟨0, _⟩ => rfl
    | ⟨1, _⟩ => rfl
  exact shapeCast_a_1a_apply _ _ _ _

/-- The first dense layer's weights, rows in the order (pooled row, pooled column, channel). -/
theorem second_fc1_w (c : Dev nD) (oy ox : Fin 4) (co : Fin 20) (a : Fin 50) :
    (V19 (F := Ideal) m ρ c main_v129 : S4x80x50.Idx → Ideal .f32) (ix3 oy (⟨20 * ox.val + co.val, by omega⟩ : Fin 80) a)
      = (m ((c.tc : Thread nD τ).loc main_arg5) : S50x320.Idx → Ideal .f32) (ix2 a (⟨16 * co.val + 4 * oy.val + ox.val, by omega⟩ : Fin 320)) := by
  show (StableHlo.after hostOps1_8 (W18 m ρ c) (Proc.devRef .tc main_v129) : S4x80x50.Idx → Ideal .f32) (ix3 oy (⟨20 * ox.val + co.val, by omega⟩ : Fin 80) a) = _
  simp only [hostOps1_8]
  after_results
  rw [W10_main_arg5]
  show shapeCast S4x80x50 (transpose S4x4x20x50 [2, 3, 1, 0]
      (shapeCast S50x20x4x4 (m ((c.tc : Thread nD τ).loc main_arg5) : S50x320.Idx → Ideal .f32) shapeCasts_S50x320_S50x20x4x4)
      transposes_S50x20x4x4_S4x4x20x50_2_3_1_0) shapeCasts_S4x4x20x50_S4x80x50
      (ix3 oy (⟨20 * ox.val + co.val, by omega⟩ : Fin 80) a) = _
  refine (shapeCast_apply _ _ _ (ix4 oy ox co a) ?_).trans ?_
  · rw [Shape.rowMajor_val_four, Shape.rowMajor_val_three]
    show ((oy.val * 4 + ox.val) * 20 + co.val) * 50 + a.val = (oy.val * 80 + (20 * ox.val + co.val)) * 50 + a.val
    omega
  refine (transpose_apply _ _ _ (ix4 oy ox co a) (ix4 a co oy ox) ?_).trans ?_
  · intro b
    match b with
    | ⟨0, _⟩ => rfl
    | ⟨1, _⟩ => rfl
    | ⟨2, _⟩ => rfl
    | ⟨3, _⟩ => rfl
  refine shapeCast_apply _ _ (ix4 a co oy ox) (ix2 a (⟨16 * co.val + 4 * oy.val + ox.val, by omega⟩ : Fin 320)) ?_
  rw [Shape.rowMajor_val_two, Shape.rowMajor_val_four]
  show a.val * 320 + (16 * co.val + 4 * oy.val + ox.val) = ((a.val * 20 + co.val) * 4 + oy.val) * 4 + ox.val
  omega

end Cert.ReferenceIdeal.Net

end
-- ==== Proof.ReferenceOperandsFirst.lean ====
/-
  The first launch's image operand and bias row as functions of the program's arguments. The image operand
  (28 x 16384 x 28) is the batch with its unit channel axis dropped and the row axis moved in front: entry (h, n, w) is
  x at (n, 0, h, w). The bias row (1 x 120) holds conv1_b tiled over the twelve pooled columns: entry 10 oxh + co is
  conv1_b at co.
-/
import proofs.«138577_g2000503492652488_pallasbulk_942_42_alg».proof.Proof.Gen.ReferenceIdeal.Frame
import Idealize.ShloMosaic.Lib.Pipeline.Value
import Idealize.ShloMosaic.Lib.ValueIdx
import Idealize.ShloMosaic.Lib.ValueLayout

set_option maxRecDepth 16384

noncomputable section

namespace Cert.ReferenceIdeal.Net

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- The first launch's image operand: the batch, row-major in the image row. -/
theorem first_x (c : Dev nD) (h : Fin 28) (n : Fin 16384) (w : Fin 28) :
    (V9 (F := Ideal) m ρ c main_v1 : S28x16384x28.Idx → Ideal .f32) (ix3 h n w)
      = (m ((c.tc : Thread nD τ).loc main_arg0) : S16384x1x28x28.Idx → Ideal .f32) (ix4 n (0 : Fin 1) h w) := by
  show (W9 m ρ c (Proc.devRef .tc main_v1) : S28x16384x28.Idx → Ideal .f32) (ix3 h n w) = _
  after_results
  show transpose S28x16384x28 [1, 0, 2]
      (shapeCast S16384x28x28 (m ((c.tc : Thread nD τ).loc main_arg0) : S16384x1x28x28.Idx → Ideal .f32) shapeCasts_S16384x1x28x28_S16384x28x28)
      transposes_S16384x28x28_S28x16384x28_1_0_2 (ix3 h n w) = _
  refine (transpose_apply _ _ _ (ix3 h n w) (ix3 n h w) ?_).trans ?_
  · intro b
    match b with
    | ⟨0, _⟩ => rfl
    | ⟨1, _⟩ => rfl
    | ⟨2, _⟩ => rfl
  refine shapeCast_apply _ _ (ix3 n h w) (ix4 n (0 : Fin 1) h w) ?_
  rw [Shape.rowMajor_val_four, Shape.rowMajor_val_three]
  show ((n.val * 1 + 0) * 28 + h.val) * 28 + w.val = (n.val * 28 + h.val) * 28 + w.val
  omega

set_option maxHeartbeats 2000000 in
/-- The first convolution's bias row: conv1_b tiled over the twelve pooled columns. -/
theorem first_conv1_b (c : Dev nD) (oxh : Fin 12) (co : Fin 10) :
    (V9 (F := Ideal) m ρ c main_v63 : S1x120.Idx → Ideal .f32) (ix2 (0 : Fin 1) (⟨10 * oxh.val + co.val, by omega⟩ : Fin 120))
      = (m ((c.tc : Thread nD τ).loc main_arg2) : S10.Idx → Ideal .f32) (ix1 co) := by
  show (W9 m ρ c (Proc.devRef .tc main_v63) : S1x120.Idx → Ideal .f32) (ix2 (0 : Fin 1) (⟨10 * oxh.val + co.val, by omega⟩ : Fin 120)) = _
  after_results_simp
  show shapeCast S1x120 (shapeCast S120 (broadcastInDim S12x10 ![0, 1] bcast_S1x10_S12x10_0_1
      (shapeCast S1x10 (m ((c.tc : Thread nD τ).loc main_arg2) : S10.Idx → Ideal .f32) shapeCasts_S10_S1x10)) shapeCasts_S12x10_S120)
      shapeCasts_S120_S1x120 (ix2 (0 : Fin 1) (⟨10 * oxh.val + co.val, by omega⟩ : Fin 120)) = _
  refine (shapeCast_a_1a_apply _ _ _ _).trans ?_
  refine (shapeCast_apply _ _ _ (ix2 oxh co) ?_).trans ?_
  · rw [Shape.rowMajor_val_two, Shape.rowMajor_val_one]
    show oxh.val * 10 + co.val = 10 * oxh.val + co.val
    omega
  refine (broadcastInDim_apply _ _ _ (ix2 oxh co) (ix2 (0 : Fin 1) co) ?_).trans ?_
  · intro b
    match b with
    | ⟨0, _⟩ => rfl
    | ⟨1, _⟩ => rfl
  exact shapeCast_a_1a_apply _ _ _ _

end Cert.ReferenceIdeal.Net

end
-- ==== Proof.ScoresOperands.lean ====
/-
  The two programs' operand blocks for one image, entry against entry. Image `n` sits in the single launch's grid point
  n / 2048 at column n % 2048, and in both of the other program's launches at grid point n / 128, row n % 128. From
  memories that agree on the nine arguments: the dense weights and the bias vectors agree entry for entry (each is a
  re-laid copy of an argument on both sides), and the image block's column is the image.
-/
import proofs.«138577_g2000503492652488_pallasbulk_942_42_alg».proof.Proof.Entry
import proofs.«138577_g2000503492652488_pallasbulk_942_42_alg».proof.Proof.KernelBlocks
import proofs.«138577_g2000503492652488_pallasbulk_942_42_alg».proof.Proof.KernelOperandsDense
import proofs.«138577_g2000503492652488_pallasbulk_942_42_alg».proof.Proof.KernelOperandsInput
import proofs.«138577_g2000503492652488_pallasbulk_942_42_alg».proof.Proof.ReferenceBlocks
import proofs.«138577_g2000503492652488_pallasbulk_942_42_alg».proof.Proof.ReferenceOperandsHead
import proofs.«138577_g2000503492652488_pallasbulk_942_42_alg».proof.Proof.ReferenceOperandsFirst

noncomputable section

namespace Cert.Net

open Idealize.ShloMosaic Idealize.ShloMosaic.TcCoe Idealize.SL.Sem
open Idealize.ShloMosaic.ValueIdx

/-- The first launch's grid point that computes image `n`. -/
def fPt (n : Fin 16384) : Fin Cert.ReferenceIdeal.cfg0.N := ⟨n.val / 128, by have := n.isLt; have : Cert.ReferenceIdeal.cfg0.N = 128 := Cert.ReferenceIdeal.Gen.N_0; omega⟩

theorem rPt_val (n : Fin 16384) : (rPt n).val = n.val / 128 := rfl
theorem kPt_val (n : Fin 16384) : (kPt n).val = n.val / 2048 := rfl

/-- Second dense layer's bias. -/
theorem op_fc2_b [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (k : Fin 10) :
    (Cert.KernelIdeal.Net.iblk m c 8 (kPt n)) (ix2 k (0 : Fin 1)) = (Cert.ReferenceIdeal.Gen.iblk1 (Cert.ReferenceIdeal.Gen.V19 m' ρ') c 7 (rPt n)) (ix2 (0 : Fin 1) k) := by
  rw [Cert.KernelIdeal.Net.iblk_8, Cert.KernelIdeal.Net.V_v136, Cert.ReferenceIdeal.Net.iblk1_7]
  refine Eq.trans ?_ (Cert.ReferenceIdeal.Net.second_fc2_b m' ρ' c k).symm
  exact (congrFun (hagree c).2.2.2.2.2.2.2.2 (ix1 k)).symm

/-- Second dense layer's weights. -/
theorem op_fc2_w [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (k : Fin 10) (a : Fin 50) :
    (Cert.KernelIdeal.Net.iblk m c 4 (kPt n)) (ix2 k a) = (Cert.ReferenceIdeal.Gen.iblk1 (Cert.ReferenceIdeal.Gen.V19 m' ρ') c 6 (rPt n)) (ix2 a k) := by
  rw [Cert.KernelIdeal.Net.iblk_4, Cert.KernelIdeal.Net.V_v126, Cert.ReferenceIdeal.Net.iblk1_6]
  refine Eq.trans ?_ (Cert.ReferenceIdeal.Net.second_fc2_w m' ρ' c a k).symm
  exact (congrFun (hagree c).2.2.2.2.2.2.2.1 (ix2 k a)).symm

/-- First dense layer's bias. -/
theorem op_fc1_b [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (a : Fin 50) :
    (Cert.KernelIdeal.Net.iblk m c 7 (kPt n)) (ix2 a (0 : Fin 1)) = (Cert.ReferenceIdeal.Gen.iblk1 (Cert.ReferenceIdeal.Gen.V19 m' ρ') c 5 (rPt n)) (ix2 (0 : Fin 1) a) := by
  rw [Cert.KernelIdeal.Net.iblk_7, Cert.KernelIdeal.Net.V_v135, Cert.ReferenceIdeal.Net.iblk1_5]
  refine Eq.trans ?_ (Cert.ReferenceIdeal.Net.second_fc1_b m' ρ' c a).symm
  exact (congrFun (hagree c).2.2.2.2.2.2.1 (ix1 a)).symm

/-- First dense layer's weights: column 80 s + q of the one against entry (s, q) of the other's slab stack. -/
theorem op_fc1_w [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (a : Fin 50) (s : Fin 4) (q : Fin 80) :
    (Cert.KernelIdeal.Net.iblk m c 3 (kPt n)) (ix2 a (⟨80 * s.val + q.val, by have := s.isLt; have := q.isLt; omega⟩ : Fin 320)) = (Cert.ReferenceIdeal.Gen.iblk1 (Cert.ReferenceIdeal.Gen.V19 m' ρ') c 4 (rPt n)) (ix3 s q a) := by
  have hq := q.isLt
  have hs := s.isLt
  have eq1 : (⟨80 * s.val + q.val, by omega⟩ : Fin 320)
      = (⟨80 * s.val + 20 * (⟨q.val / 20, by omega⟩ : Fin 4).val + (⟨q.val % 20, Nat.mod_lt _ (by norm_num)⟩ : Fin 20).val, by show 80 * s.val + 20 * (q.val / 20) + q.val % 20 < 320; omega⟩ : Fin 320) :=
    Fin.ext (by show 80 * s.val + q.val = 80 * s.val + 20 * (q.val / 20) + q.val % 20; omega)
  have eq2 : q = (⟨20 * (⟨q.val / 20, by omega⟩ : Fin 4).val + (⟨q.val % 20, Nat.mod_lt _ (by norm_num)⟩ : Fin 20).val, by show 20 * (q.val / 20) + q.val % 20 < 80; omega⟩ : Fin 80) :=
    Fin.ext (by show q.val = 20 * (q.val / 20) + q.val % 20; omega)
  rw [Cert.KernelIdeal.Net.iblk_3, eq1, Cert.KernelIdeal.Net.V_v125 m c a s ⟨q.val / 20, by omega⟩ ⟨q.val % 20, Nat.mod_lt _ (by norm_num)⟩ _ (by show 16 * (q.val % 20) + 4 * s.val + q.val / 20 < 320; omega), Cert.ReferenceIdeal.Net.iblk1_4]
  conv_rhs => rw [eq2]
  refine Eq.trans ?_ (Cert.ReferenceIdeal.Net.second_fc1_w m' ρ' c s ⟨q.val / 20, by omega⟩ ⟨q.val % 20, Nat.mod_lt _ (by norm_num)⟩ a).symm
  exact (congrFun (hagree c).2.2.2.2.2.1 _).symm

/-- Second convolution's bias. -/
theorem op_conv2_b [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (q : Fin 80) :
    (Cert.KernelIdeal.Net.iblk m c 6 (kPt n)) (ix2 q (0 : Fin 1)) = (Cert.ReferenceIdeal.Gen.iblk1 (Cert.ReferenceIdeal.Gen.V19 m' ρ') c 3 (rPt n)) (ix2 (0 : Fin 1) q) := by
  have hq := q.isLt
  have eq2 : q = (⟨20 * (⟨q.val / 20, by omega⟩ : Fin 4).val + (⟨q.val % 20, Nat.mod_lt _ (by norm_num)⟩ : Fin 20).val, by show 20 * (q.val / 20) + q.val % 20 < 80; omega⟩ : Fin 80) :=
    Fin.ext (by show q.val = 20 * (q.val / 20) + q.val % 20; omega)
  rw [Cert.KernelIdeal.Net.iblk_6, Cert.ReferenceIdeal.Net.iblk1_3]
  rw [eq2]
  rw [Cert.KernelIdeal.Net.V_v134 m c ⟨q.val / 20, by omega⟩ ⟨q.val % 20, Nat.mod_lt _ (by norm_num)⟩ _]
  refine Eq.trans ?_ (Cert.ReferenceIdeal.Net.second_conv2_b m' ρ' c ⟨q.val / 20, by omega⟩ ⟨q.val % 20, Nat.mod_lt _ (by norm_num)⟩).symm
  exact (congrFun (hagree c).2.2.2.2.1 _).symm

/-- First convolution's bias. -/
theorem op_conv1_b [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (k : Fin 120) :
    (Cert.KernelIdeal.Net.iblk m c 5 (kPt n)) (ix2 k (0 : Fin 1)) = (Cert.ReferenceIdeal.Gen.iblk0 (Cert.ReferenceIdeal.Gen.V9 m' ρ') c 3 (fPt n)) (ix2 (0 : Fin 1) k) := by
  have hk := k.isLt
  have eq2 : k = (⟨10 * (⟨k.val / 10, by omega⟩ : Fin 12).val + (⟨k.val % 10, Nat.mod_lt _ (by norm_num)⟩ : Fin 10).val, by show 10 * (k.val / 10) + k.val % 10 < 120; omega⟩ : Fin 120) :=
    Fin.ext (by show k.val = 10 * (k.val / 10) + k.val % 10; omega)
  rw [Cert.KernelIdeal.Net.iblk_5, Cert.ReferenceIdeal.Net.iblk0_3]
  rw [eq2]
  rw [Cert.KernelIdeal.Net.V_v130 m c ⟨k.val / 10, by omega⟩ ⟨k.val % 10, Nat.mod_lt _ (by norm_num)⟩ _]
  refine Eq.trans ?_ (Cert.ReferenceIdeal.Net.first_conv1_b m' ρ' c ⟨k.val / 10, by omega⟩ ⟨k.val % 10, Nat.mod_lt _ (by norm_num)⟩).symm
  exact (congrFun (hagree c).2.2.1 _).symm

/-- The image: row 32 h + w (w < 28) of the one's image block at the image's column is entry (h, ·, w) of the other's at
    the image's row. -/
theorem op_image [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (h : Fin 28) (w : Fin 28) :
    (Cert.KernelIdeal.Net.iblk m c 0 (kPt n)) (ix2 (⟨32 * h.val + w.val, by have := h.isLt; have := w.isLt; omega⟩ : Fin 896) (kCol n))
      = (Cert.ReferenceIdeal.Gen.iblk0 (Cert.ReferenceIdeal.Gen.V9 m' ρ') c 0 (fPt n)) (ix3 h (rRow n) w) := by
  have hn := n.isLt
  have e1 : (⟨2048 * (kPt n).val + (kCol n).val, by have := (kCol n).isLt; show 2048 * (n.val / 2048) + (kCol n).val < 16384; have : (kCol n).val = n.val % 2048 := rfl; omega⟩ : Fin 16384) = n :=
    Fin.ext (by show 2048 * (n.val / 2048) + n.val % 2048 = n.val; omega)
  have e2 : (⟨128 * (fPt n).val + (rRow n).val, by show 128 * (n.val / 128) + n.val % 128 < 16384; omega⟩ : Fin 16384) = n :=
    Fin.ext (by show 128 * (n.val / 128) + n.val % 128 = n.val; omega)
  rw [Cert.KernelIdeal.Net.iblk_0, e1, Cert.KernelIdeal.Net.V_v4_inside m c h w n _, Cert.ReferenceIdeal.Net.iblk0_0, e2]
  refine Eq.trans ?_ (Cert.ReferenceIdeal.Net.first_x m' ρ' c h n w).symm
  exact (congrFun (hagree c).1 _).symm

end Cert.Net

end
-- ==== Proof.ReferenceOperandsTap.lean ====
/-
  The index words of a banded convolution factor, and the lookup that builds it.

  For an output-column parity p (0 or 1), an input column w and a pooled output column oxh, the factor reads the
  kernel column w - (2 oxh + p) when that lies in 0 … 4 and is zero otherwise. The program computes the difference as
  a 32-bit word, tests 0 ≤ d < 5 on it, and clamps it into 0 … 4 (then adds 5 if negative, which never happens) to get
  a position for a lookup along the kernel-column axis. Over the small ranges that occur (w < 28, oxh < 12) the words
  behave like the integers: the test holds exactly when 2 oxh + p ≤ w < 2 oxh + p + 5, and then the clamped position is
  w - (2 oxh + p).

  The lookup itself: rows of a K x J x A x B array picked along its second axis by an R x C array of positions, giving
  K x R x C x A x B; entry (i, r, c, a, b) is the operand at (i, position(r, c) clamped into 0 … J - 1, a, b).
-/
import Idealize.ShloMosaic.Lib.ValueIdx

namespace Cert.ReferenceIdeal.Net

open Idealize.ShloMosaic Idealize.ShloMosaic.ValueIdx

/-- The word of w - (2 oxh + p). -/
def tapDiff (p : BitVec 32) (w oxh : ℕ) : BitVec 32 :=
  IntOp.subi (BitVec.ofNat 32 w) (IntOp.addi (IntOp.muli 2#32 (BitVec.ofNat 32 oxh)) p)

/-- The test 0 ≤ d < 5 on that word. -/
def tapValid (p : BitVec 32) (w oxh : ℕ) : BitVec 1 :=
  IntOp.andi (IntOp.cmpi .sge (tapDiff p w oxh) 0#32) (IntOp.cmpi .slt (tapDiff p w oxh) 5#32)

/-- The word clamped into 0 … 4. -/
def tapClip (p : BitVec 32) (w oxh : ℕ) : BitVec 32 :=
  IntOp.minsi 4#32 (IntOp.maxsi 0#32 (tapDiff p w oxh))

/-- The lookup position: the clamped word, moved up by 5 if negative. -/
def tapIndex (p : BitVec 32) (w oxh : ℕ) : BitVec 32 :=
  Scalar.select (IntOp.cmpi .slt (tapClip p w oxh) 0#32) (IntOp.addi (tapClip p w oxh) 5#32) (tapClip p w oxh)

/-- Over the ranges that occur the words behave like the integers. -/
theorem tap_facts : ∀ (p : Fin 2) (w : Fin 28) (oxh : Fin 12),
    (tapValid (BitVec.ofNat 32 p.val) w.val oxh.val = 1#1 ↔ (2 * oxh.val + p.val ≤ w.val ∧ w.val < 2 * oxh.val + p.val + 5))
    ∧ ((2 * oxh.val + p.val ≤ w.val ∧ w.val < 2 * oxh.val + p.val + 5) →
        min (tapIndex (BitVec.ofNat 32 p.val) w.val oxh.val).toInt.toNat 4 = w.val - (2 * oxh.val + p.val)) := by
  decide +kernel

section TapLookup
variable {α : Type}

/-- The lookup's dimension numbers for an operand [K, J, A, B], positions [R, C, 1] and result [K, R, C, A, B]: the
    second operand axis is picked by the position and dropped, the other three are copied whole. -/
abbrev tapDims (K J A B R C : Nat)
    (wf : GatherDims.WF ⟨4, ![K, J, A, B]⟩ ⟨3, ![R, C, 1]⟩ ⟨5, ![K, R, C, A, B]⟩ [0, 3, 4] [1] [] [1] [] 2 ![K, 1, A, B]) :
    GatherDims ⟨4, ![K, J, A, B]⟩ ⟨3, ![R, C, 1]⟩ ⟨5, ![K, R, C, A, B]⟩ where
  offsetDims := [0, 3, 4]
  collapsedSliceDims := [1]
  operandBatchingDims := []
  startIndicesBatchingDims := []
  startIndexMap := [1]
  indexVectorDim := 2
  sliceSizes := ![K, 1, A, B]
  wf := wf

/-- THE LOOKUP READ AT (i, r, c, a, b): the operand at (i, t, a, b), t the position at (r, c, 0) read signed and
    clamped into 0 … J - 1. -/
theorem gather_tap_apply {K J A B R C w : Nat} (hJ : 0 < J)
    (wf : GatherDims.WF ⟨4, ![K, J, A, B]⟩ ⟨3, ![R, C, 1]⟩ ⟨5, ![K, R, C, A, B]⟩ [0, 3, 4] [1] [] [1] [] 2 ![K, 1, A, B])
    (x : (⟨4, ![K, J, A, B]⟩ : Shape).Idx → α) (idx : IVec ⟨3, ![R, C, 1]⟩ w)
    (i : Fin K) (r : Fin R) (c : Fin C) (a : Fin A) (b : Fin B) :
    Host.gather (tapDims K J A B R C wf) x idx (ix5 i r c a b)
      = x (ix4 i (⟨min (idx (ix3 r c (0 : Fin 1))).toInt.toNat (J - 1), by omega⟩ : Fin J) a b) := by
  unfold Host.gather
  congr 1
  funext ax
  refine Fin.ext ?_
  have h0 : (tapDims K J A B R C wf).start (ix5 i r c a b) idx (0 : Fin 4) + (tapDims K J A B R C wf).batchCoord (ix5 i r c a b) (0 : Fin 4)
      + (tapDims K J A B R C wf).offCoord (ix5 i r c a b) (0 : Fin 4) = i.val := by
    rw [GatherDims.batchCoord_eq_zero _ _ _ List.not_mem_nil]
    have hstart : (tapDims K J A B R C wf).start (ix5 i r c a b) idx (0 : Fin 4) = 0 := by
      unfold GatherDims.start
      rw [dif_neg (show (0 : Fin 4) ∉ ([1] : List (Fin 4)) by decide)]
    have hkept : (0 : Fin 4) ∈ (tapDims K J A B R C wf).sKept :=
      (GatherDims.mem_sKept _ _).mpr ⟨(show (0 : Fin 4) ∉ ([1] : List (Fin 4)) by decide), List.not_mem_nil⟩
    rw [hstart]
    unfold GatherDims.offCoord
    rw [dif_pos hkept]
    simp only [Nat.zero_add, Nat.add_zero]
    rfl
  have h1 : (tapDims K J A B R C wf).start (ix5 i r c a b) idx (1 : Fin 4) + (tapDims K J A B R C wf).batchCoord (ix5 i r c a b) (1 : Fin 4)
      + (tapDims K J A B R C wf).offCoord (ix5 i r c a b) (1 : Fin 4) = min (idx (ix3 r c (0 : Fin 1))).toInt.toNat (J - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (tapDims K J A B R C wf).startIndexMap from List.mem_singleton.mpr rfl)]
    have hsi : (tapDims K J A B R C wf).siIdx (ix5 i r c a b) ⟨List.idxOf (1 : Fin 4) (tapDims K J A B R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  have h2 : (tapDims K J A B R C wf).start (ix5 i r c a b) idx (2 : Fin 4) + (tapDims K J A B R C wf).batchCoord (ix5 i r c a b) (2 : Fin 4)
      + (tapDims K J A B R C wf).offCoord (ix5 i r c a b) (2 : Fin 4) = a.val := by
    rw [GatherDims.batchCoord_eq_zero _ _ _ List.not_mem_nil]
    have hstart : (tapDims K J A B R C wf).start (ix5 i r c a b) idx (2 : Fin 4) = 0 := by
      unfold GatherDims.start
      rw [dif_neg (show (2 : Fin 4) ∉ ([1] : List (Fin 4)) by decide)]
    have hkept : (2 : Fin 4) ∈ (tapDims K J A B R C wf).sKept :=
      (GatherDims.mem_sKept _ _).mpr ⟨(show (2 : Fin 4) ∉ ([1] : List (Fin 4)) by decide), List.not_mem_nil⟩
    rw [hstart]
    unfold GatherDims.offCoord
    rw [dif_pos hkept]
    simp only [Nat.zero_add, Nat.add_zero]
    rfl
  have h3 : (tapDims K J A B R C wf).start (ix5 i r c a b) idx (3 : Fin 4) + (tapDims K J A B R C wf).batchCoord (ix5 i r c a b) (3 : Fin 4)
      + (tapDims K J A B R C wf).offCoord (ix5 i r c a b) (3 : Fin 4) = b.val := by
    rw [GatherDims.batchCoord_eq_zero _ _ _ List.not_mem_nil]
    have hstart : (tapDims K J A B R C wf).start (ix5 i r c a b) idx (3 : Fin 4) = 0 := by
      unfold GatherDims.start
      rw [dif_neg (show (3 : Fin 4) ∉ ([1] : List (Fin 4)) by decide)]
    have hkept : (3 : Fin 4) ∈ (tapDims K J A B R C wf).sKept :=
      (GatherDims.mem_sKept _ _).mpr ⟨(show (3 : Fin 4) ∉ ([1] : List (Fin 4)) by decide), List.not_mem_nil⟩
    rw [hstart]
    unfold GatherDims.offCoord
    rw [dif_pos hkept]
    simp only [Nat.zero_add, Nat.add_zero]
    rfl
  match ax with
  | ⟨0, _⟩ => exact h0
  | ⟨1, _⟩ => exact h1
  | ⟨2, _⟩ => exact h2
  | ⟨3, _⟩ => exact h3

end TapLookup

end Cert.ReferenceIdeal.Net
-- ==== Proof.KernelOperandsLib.lean ====
/-
  General facts used to read the two banded weight matrices.

  A column lookup: an operand [K, N, A, B] looked up along its second axis at a rank-2 array of indices [R, C] (given
  as [R, C, 1]), result [K, R, C, A, B] — a gather with offset axes [0, 3, 4], collapsed axis [1], start index map [1],
  index vector axis 2 and slice sizes [K, 1, A, B]. Result entry (i, r, c, a, b) is the operand at (i, n, a, b) with n
  the index word at (r, c, 0), read signed and clamped into [0, N - 1].
  A conjunction over an axis: a reduction by "and" of one-bit words from the word 1 is 1 when every word is 1.
  Joining arrays along an axis respects equality of the pieces.
-/
import Idealize.ShloMosaic.Lib.ValueIdx
import Idealize.ShloMosaic.Lib.Pipeline.Value
import Idealize.ShloMosaic.Lib.ReduceAll

namespace Cert.KernelIdeal.Net

open Idealize.ShloMosaic Idealize.ShloMosaic.ValueIdx

section ColsAt
variable {α : Type}

/-- Those dimension numbers for an operand [K, N, A, B], start indices [R, C, 1] and result [K, R, C, A, B]. -/
abbrev colsAtDims (K N A B R C : Nat)
    (wf : GatherDims.WF ⟨4, ![K, N, A, B]⟩ ⟨3, ![R, C, 1]⟩ ⟨5, ![K, R, C, A, B]⟩ [0, 3, 4] [1] [] [1] [] 2 ![K, 1, A, B]) :
    GatherDims ⟨4, ![K, N, A, B]⟩ ⟨3, ![R, C, 1]⟩ ⟨5, ![K, R, C, A, B]⟩ where
  offsetDims := [0, 3, 4]
  collapsedSliceDims := [1]
  operandBatchingDims := []
  startIndicesBatchingDims := []
  startIndexMap := [1]
  indexVectorDim := 2
  sliceSizes := ![K, 1, A, B]
  wf := wf

/-- THE COLUMN LOOKUP READ AT (i, r, c, a, b): the operand at (i, n, a, b), n the index word at (r, c, 0) read signed
    and clamped into [0, N - 1]. -/
theorem gather_colsAt_apply {K N A B R C w : Nat} (hN : 0 < N)
    (wf : GatherDims.WF ⟨4, ![K, N, A, B]⟩ ⟨3, ![R, C, 1]⟩ ⟨5, ![K, R, C, A, B]⟩ [0, 3, 4] [1] [] [1] [] 2 ![K, 1, A, B])
    (x : (⟨4, ![K, N, A, B]⟩ : Shape).Idx → α) (idx : IVec ⟨3, ![R, C, 1]⟩ w)
    (i : Fin K) (r : Fin R) (c : Fin C) (a : Fin A) (b : Fin B) :
    Host.gather (colsAtDims K N A B R C wf) x idx (ix5 i r c a b)
      = x (ix4 i ⟨min (idx (ix3 r c (0 : Fin 1))).toInt.toNat (N - 1), by omega⟩ a b) := by
  unfold Host.gather
  congr 1
  funext ax
  refine Fin.ext ?_
  have hkept : ∀ ax : Fin 4, ax ≠ 1 → ax ∈ (colsAtDims K N A B R C wf).sKept := fun ax hne =>
    (GatherDims.mem_sKept _ _).mpr ⟨(by simpa using hne), List.not_mem_nil⟩
  have hoff : ∀ ax : Fin 4, (hne : ax ≠ 1) →
      (colsAtDims K N A B R C wf).start (ix5 i r c a b) idx ax + (colsAtDims K N A B R C wf).batchCoord (ix5 i r c a b) ax
        + (colsAtDims K N A B R C wf).offCoord (ix5 i r c a b) ax
      = (ix5 i r c a b ((colsAtDims K N A B R C wf).offsetDims[(colsAtDims K N A B R C wf).sKept.idxOf ax]'(by
          rw [(colsAtDims K N A B R C wf).offset_length]; exact List.idxOf_lt_length_iff.2 (hkept ax hne)))).val := by
    intro ax hne
    rw [GatherDims.batchCoord_eq_zero _ _ _ List.not_mem_nil]
    have hstart : (colsAtDims K N A B R C wf).start (ix5 i r c a b) idx ax = 0 := by
      unfold GatherDims.start
      rw [dif_neg (show ax ∉ ([1] : List (Fin 4)) by simpa using hne)]
    rw [hstart]
    unfold GatherDims.offCoord
    rw [dif_pos (hkept ax hne)]
    simp only [Nat.zero_add, Nat.add_zero]
  have h1 : (colsAtDims K N A B R C wf).start (ix5 i r c a b) idx (1 : Fin 4) + (colsAtDims K N A B R C wf).batchCoord (ix5 i r c a b) (1 : Fin 4)
      + (colsAtDims K N A B R C wf).offCoord (ix5 i r c a b) (1 : Fin 4) = min (idx (ix3 r c (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (colsAtDims K N A B R C wf).startIndexMap from List.mem_singleton.mpr rfl)]
    have hsi : (colsAtDims K N A B R C wf).siIdx (ix5 i r c a b) ⟨List.idxOf (1 : Fin 4) (colsAtDims K N A B R C wf).startIndexMap,
        List.idxOf_lt_length_iff.2 (List.mem_singleton.mpr rfl)⟩ = ix3 r c (0 : Fin 1) := by
      funext bb; refine Fin.ext ?_
      match bb with
      | ⟨0, _⟩ => rfl
      | ⟨1, _⟩ => rfl
      | ⟨2, _⟩ => rfl
    rw [hsi]
    rfl
  match ax with
  | ⟨0, _⟩ => exact (hoff (0 : Fin 4) (by decide)).trans rfl
  | ⟨1, _⟩ => exact h1
  | ⟨2, _⟩ => exact (hoff (2 : Fin 4) (by decide)).trans rfl
  | ⟨3, _⟩ => exact (hoff (3 : Fin 4) (by decide)).trans rfl

end ColsAt

section AllOnes

/-- A left fold by "and" from the word 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by "and" from the word 1 of an array of words that are all 1 is 1 at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hall : ∀ i, x i = 1#1) : Host.reduce IntOp.andi x init h hu j = 1#1 := by
  rw [Host.reduce_eq_foldl, hinit]
  exact foldl_andi_one x _ fun i _ => hall i

end AllOnes

section Join
variable {α : Type}

/-- Two pieces joined: equal pieces give equal joins. -/
theorem concatenate_two_congr {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- Four pieces joined: equal pieces give equal joins. -/
theorem concatenate_four_congr {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁; subst e₂; subst e₃; subst e₄; rfl

end Join

end Cert.KernelIdeal.Net
-- ==== Proof.KernelOperandsBand2Even.lean ====
/-
  One half of the single-launch program's second banded matrix (output-column parity 0), read at an entry.
  The 80 x 600 half holds, at row 20 * oxh + co and column 120 * i + 10 * cc + ci, the second convolution's weight
  (co, ci, i, cc - (2 * oxh + 0)) when 2 * oxh + 0 ≤ cc < 2 * oxh + 0 + 5, and zero otherwise. The program builds it from
  index words: the difference cc - (2 * oxh + 0), its test 0 ≤ d < 5, the difference clamped into 0 … 4 as a lookup
  position along the kernel-column axis (the lookup's own range test on a clamped position always holds, so its
  fallback value is never chosen), then a transpose and a flattening. Each step is read off the program's lines.
-/
import proofs.«138577_g2000503492652488_pallasbulk_942_42_alg».proof.Proof.KernelIdealHost
import proofs.«138577_g2000503492652488_pallasbulk_942_42_alg».proof.Proof.ReferenceOperandsTap
import proofs.«138577_g2000503492652488_pallasbulk_942_42_alg».proof.Proof.KernelOperandsLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx
open Cert.ReferenceIdeal.Net (tapDiff tapValid tapClip tapIndex tap_facts tapDims gather_tap_apply)

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same, then closing what is left by unfolding. -/
local macro "host_step" : tactic => `(tactic| (host_read <;> rfl))

/-- The lookup's range test on a clamped position holds, for every parity, column and pooled column that occur. -/
theorem tap_inRange : ∀ (p : Fin 2) (w : Fin 28) (oxh : Fin 12),
    IntOp.andi (IntOp.cmpi .sge (tapIndex (BitVec.ofNat 32 p.val) w.val oxh.val) 0#32)
      (IntOp.cmpi .sle (tapIndex (BitVec.ofNat 32 p.val) w.val oxh.val) 4#32) = 1#1 := by
  decide +kernel

theorem band2_gather_eq : gather_S5x5x10x20_S12x4x1_S5x12x4x10x20_034_1_n_n_1_2_511020
    = tapDims 5 5 10 20 12 4 gather_S5x5x10x20_S12x4x1_S5x12x4x10x20_034_1_n_n_1_2_511020_wf := rfl

/-! ## The program's lines -/

set_option maxHeartbeats 4000000 in
/-- The half is the flattening of the transpose of the masked lookup. -/
theorem band2Even_out (c : Dev nD) : @Eq (FVec Ideal S80x600 .f32) (V m c main_v96)
    (shapeCast S80x600 (transpose S4x20x5x12x10 [2, 4, 0, 1, 3] (V m c main_v94 : FVec Ideal S5x12x4x10x20 .f32)
      transposes_S5x12x4x10x20_S4x20x5x12x10_2_4_0_1_3) shapeCasts_S4x20x5x12x10_S80x600) := by
  host_step

set_option maxHeartbeats 4000000 in
/-- The masked lookup: the lookup where the band's test holds, the zero array elsewhere. -/
theorem band2Even_where (c : Dev nD) : @Eq (FVec Ideal S5x12x4x10x20 .f32) (V m c main_v94)
    (select (broadcastInDim S5x12x4x10x20 ![0, 1, 2, 3, 4] bcast_S1x12x4x1x1_S5x12x4x10x20_0_1_2_3_4
        (broadcastInDim S1x12x4x1x1 ![1, 2] bcast_S12x4_S1x12x4x1x1_1_2 (V m c main_v92 : IVec S12x4 1)))
      (V m c main_v87 : FVec Ideal S5x12x4x10x20 .f32) (V m c main_call19_v2 : FVec Ideal S5x12x4x10x20 .f32)) := by
  host_step

set_option maxHeartbeats 4000000 in
/-- The band's test at (cc, oxh). -/
theorem band2Even_band (c : Dev nD) (cc : Fin 12) (oxh : Fin 4) :
    (V m c main_v92 : IVec S12x4 1) (ix2 cc oxh) = tapValid (BitVec.ofNat 32 (0 : Fin 2).val) cc.val oxh.val := by
  host_step

set_option maxHeartbeats 4000000 in
/-- The zero array. -/
theorem band2Even_zero (c : Dev nD) (k : S5x12x4x10x20.Idx) :
    (V m c main_call19_v2 : FVec Ideal S5x12x4x10x20 .f32) k = Ideal.ofBits .f32 0x00000000#32 := by
  host_step

set_option maxHeartbeats 4000000 in
/-- The lookup: the gathered weights where the lookup's own range test holds, its fallback elsewhere. -/
theorem band2Even_take (c : Dev nD) : @Eq (FVec Ideal S5x12x4x10x20 .f32) (V m c main_v87)
    (select (broadcastInDim S5x12x4x10x20 ![1, 2] bcast_S12x4_S5x12x4x10x20_1_2 (V m c main_call18_v12 : IVec S12x4 1))
      (Host.gather gather_S5x5x10x20_S12x4x1_S5x12x4x10x20_034_1_n_n_1_2_511020 (V m c main_v85 : FVec Ideal S5x5x10x20 .f32)
        (V m c main_call18_v5 : IVec S12x4x1 32))
      (V m c main_call18_v15 : FVec Ideal S5x12x4x10x20 .f32)) := by
  host_step

set_option maxHeartbeats 4000000 in
/-- The lookup's range test: the conjunction over the one component. -/
theorem band2Even_ok (c : Dev nD) : @Eq (IVec S12x4 1) (V m c main_call18_v12)
    (Host.reduce IntOp.andi (V m c main_call18_v11 : IVec S12x4x1 1) (V m c main_call18_c_3 : IVec S_ 1) reducesTo_S12x4x1_S12x4_d2 h_S_) := by
  host_step

set_option maxHeartbeats 4000000 in
/-- The component's test at (cc, oxh, 0). -/
theorem band2Even_cmp (c : Dev nD) (cc : Fin 12) (oxh : Fin 4) (u : Fin 1) :
    (V m c main_call18_v11 : IVec S12x4x1 1) (ix3 cc oxh u)
      = IntOp.andi (IntOp.cmpi .sge (tapIndex (BitVec.ofNat 32 (0 : Fin 2).val) cc.val oxh.val) 0#32) (IntOp.cmpi .sle (tapIndex (BitVec.ofNat 32 (0 : Fin 2).val) cc.val oxh.val) 4#32) := by
  host_step

set_option maxHeartbeats 4000000 in
/-- The conjunction starts from the word 1. -/
theorem band2Even_one (c : Dev nD) (k : S_.Idx) : (V m c main_call18_c_3 : IVec S_ 1) k = 1#1 := by
  host_step

set_option maxHeartbeats 4000000 in
/-- The lookup position at (cc, oxh, 0). -/
theorem band2Even_pos (c : Dev nD) (cc : Fin 12) (oxh : Fin 4) (u : Fin 1) :
    (V m c main_call18_v5 : IVec S12x4x1 32) (ix3 cc oxh u) = tapIndex (BitVec.ofNat 32 (0 : Fin 2).val) cc.val oxh.val := by
  host_step

set_option maxHeartbeats 4000000 in
/-- The weights with the kernel axes in front. -/
theorem band2Even_wt (c : Dev nD) : @Eq (FVec Ideal S5x5x10x20 .f32) (V m c main_v85)
    (transpose S5x5x10x20 [2, 3, 1, 0] ((m ((c : Thread nD τ).loc main_arg3)) : FVec Ideal S20x10x5x5 .f32) transposes_S20x10x5x5_S5x5x10x20_2_3_1_0) := by
  host_step

/-! ## The half at an entry -/

/-- The lookup's own range test holds everywhere. -/
theorem band2Even_ok_one (c : Dev nD) (cc : Fin 12) (oxh : Fin 4) : (V m c main_call18_v12 : IVec S12x4 1) (ix2 cc oxh) = 1#1 := by
  rw [band2Even_ok m c]
  refine reduce_andi_one _ _ _ _ _ (band2Even_one m c _) fun (i3 : S12x4x1.Idx) => ?_
  have h0 : (i3 0).val < 12 := (i3 0).isLt
  have h1 : (i3 1).val < 4 := (i3 1).isLt
  rw [eq_ix3 i3]
  refine (band2Even_cmp m c (i3 0) (i3 1) (i3 2)).trans ?_
  exact tap_inRange (0 : Fin 2) ⟨(i3 0).val, by omega⟩ ⟨(i3 1).val, by omega⟩

/-- THE HALF AT AN ENTRY. -/
theorem band2Even_entry (c : Dev nD) (oxh : Fin 4) (co : Fin 20) (i : Fin 5) (cc : Fin 12) (ci : Fin 10)
    (hr : 20 * oxh.val + co.val < 80) (hq : 120 * i.val + (10 * cc.val + ci.val) < 600) :
    (V m c main_v96 : FVec Ideal S80x600 .f32) (ix2 (⟨20 * oxh.val + co.val, hr⟩ : Fin 80) (⟨120 * i.val + (10 * cc.val + ci.val), hq⟩ : Fin 600))
      = if h : 2 * oxh.val + 0 ≤ cc.val ∧ cc.val < 2 * oxh.val + 0 + 5 then
          (m ((c : Thread nD τ).loc main_arg3)) (ix4 co ci i (⟨cc.val - (2 * oxh.val + 0), by omega⟩ : Fin 5))
        else Ideal.ofBits .f32 0x00000000#32 := by
  refine (congrFun (band2Even_out m c) _).trans ?_
  refine (shapeCast_apply _ _ _ (ix5 oxh co i cc ci) ?_).trans ?_
  · rw [Shape.rowMajor_val_five, Shape.rowMajor_val_two]
    show (((oxh.val * 20 + co.val) * 5 + i.val) * 12 + cc.val) * 10 + ci.val = (20 * oxh.val + co.val) * 600 + (120 * i.val + (10 * cc.val + ci.val))
    omega
  refine (transpose_apply _ _ _ (ix5 oxh co i cc ci) (ix5 i cc oxh ci co) ?_).trans ?_
  · intro b
    match b with
    | ⟨0, _⟩ => rfl
    | ⟨1, _⟩ => rfl
    | ⟨2, _⟩ => rfl
    | ⟨3, _⟩ => rfl
    | ⟨4, _⟩ => rfl
  refine (congrFun (band2Even_where m c) _).trans ?_
  rw [select_apply]
  have hc : broadcastInDim S5x12x4x10x20 ![0, 1, 2, 3, 4] bcast_S1x12x4x1x1_S5x12x4x10x20_0_1_2_3_4
        (broadcastInDim S1x12x4x1x1 ![1, 2] bcast_S12x4_S1x12x4x1x1_1_2 (V m c main_v92 : IVec S12x4 1)) (ix5 i cc oxh ci co)
      = tapValid (BitVec.ofNat 32 (0 : Fin 2).val) cc.val oxh.val := by
    refine (broadcastInDim_apply _ _ _ (ix5 i cc oxh ci co) (ix5 (0 : Fin 1) cc oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) cc oxh (0 : Fin 1) (0 : Fin 1)) (ix2 cc oxh) ?_).trans ?_
    · intro b
      match b with
      | ⟨0, _⟩ => rfl
      | ⟨1, _⟩ => rfl
    exact band2Even_band m c cc oxh
  have hg : (V m c main_v87 : FVec Ideal S5x12x4x10x20 .f32) (ix5 i cc oxh ci co)
      = (m ((c : Thread nD τ).loc main_arg3)) (ix4 co ci i (⟨min (tapIndex (BitVec.ofNat 32 (0 : Fin 2).val) cc.val oxh.val).toInt.toNat (5 - 1), by omega⟩ : Fin 5)) := by
    refine (congrFun (band2Even_take m c) _).trans ?_
    rw [select_apply]
    have hok : broadcastInDim S5x12x4x10x20 ![1, 2] bcast_S12x4_S5x12x4x10x20_1_2 (V m c main_call18_v12 : IVec S12x4 1) (ix5 i cc oxh ci co) = 1#1 := by
      refine (broadcastInDim_apply _ _ _ (ix5 i cc oxh ci co) (ix2 cc oxh) ?_).trans ?_
      · intro b
        match b with
        | ⟨0, _⟩ => rfl
        | ⟨1, _⟩ => rfl
      exact band2Even_ok_one m c cc oxh
    rw [hok, select_one, band2_gather_eq]
    refine (gather_tap_apply (by norm_num) _ _ _ i cc oxh ci co).trans ?_
    rw [band2Even_wt m c]
    refine (transpose_apply _ _ _ (ix4 i (⟨min ((V m c main_call18_v5 : IVec S12x4x1 32) (ix3 cc oxh (0 : Fin 1))).toInt.toNat (5 - 1), by omega⟩ : Fin 5) ci co)
      (ix4 co ci i (⟨min ((V m c main_call18_v5 : IVec S12x4x1 32) (ix3 cc oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => (m ((c : Thread nD τ).loc main_arg3)) (ix4 co ci i t))
      (Fin.ext (congrArg (fun v : BitVec 32 => min v.toInt.toNat (5 - 1)) (band2Even_pos m c cc oxh (0 : Fin 1))))
  rw [hc, hg, band2Even_zero m c]
  obtain ⟨hv, hi⟩ := tap_facts (0 : Fin 2) ⟨cc.val, by omega⟩ ⟨oxh.val, by omega⟩
  by_cases h : 2 * oxh.val + 0 ≤ cc.val ∧ cc.val < 2 * oxh.val + 0 + 5
  · rw [dif_pos h, hv.mpr h, select_one]
    exact congrArg (fun t : Fin 5 => (m ((c : Thread nD τ).loc main_arg3)) (ix4 co ci i t)) (Fin.ext (hi h))
  · rw [dif_neg h, eq_zero_of_ne_one (fun e => h (hv.mp e)), select_zero]

end Cert.KernelIdeal.Net
-- ==== Proof.KernelOperandsBand2Odd.lean ====
/-
  One half of the single-launch program's second banded matrix (output-column parity 1), read at an entry.
  The 80 x 600 half holds, at row 20 * oxh + co and column 120 * i + 10 * cc + ci, the second convolution's weight
  (co, ci, i, cc - (2 * oxh + 1)) when 2 * oxh + 1 ≤ cc < 2 * oxh + 1 + 5, and zero otherwise. The program builds it from
  index words: the difference cc - (2 * oxh + 1), its test 0 ≤ d < 5, the difference clamped into 0 … 4 as a lookup
  position along the kernel-column axis (the lookup's own range test on a clamped position always holds, so its
  fallback value is never chosen), then a transpose and a flattening. Each step is read off the program's lines.
-/
import proofs.«138577_g2000503492652488_pallasbulk_942_42_alg».proof.Proof.KernelIdealHost
import proofs.«138577_g2000503492652488_pallasbulk_942_42_alg».proof.Proof.ReferenceOperandsTap
import proofs.«138577_g2000503492652488_pallasbulk_942_42_alg».proof.Proof.KernelOperandsLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx
open Cert.ReferenceIdeal.Net (tapDiff tapValid tapClip tapIndex tap_facts tapDims gather_tap_apply)

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same, then closing what is left by unfolding. -/
local macro "host_step" : tactic => `(tactic| (host_read <;> rfl))

/-- The lookup's range test on a clamped position holds, for every parity, column and pooled column that occur. -/
theorem tap_inRange : ∀ (p : Fin 2) (w : Fin 28) (oxh : Fin 12),
    IntOp.andi (IntOp.cmpi .sge (tapIndex (BitVec.ofNat 32 p.val) w.val oxh.val) 0#32)
      (IntOp.cmpi .sle (tapIndex (BitVec.ofNat 32 p.val) w.val oxh.val) 4#32) = 1#1 := by
  decide +kernel

theorem band2_gather_eq : gather_S5x5x10x20_S12x4x1_S5x12x4x10x20_034_1_n_n_1_2_511020
    = tapDims 5 5 10 20 12 4 gather_S5x5x10x20_S12x4x1_S5x12x4x10x20_034_1_n_n_1_2_511020_wf := rfl

/-! ## The program's lines -/

set_option maxHeartbeats 4000000 in
/-- The half is the flattening of the transpose of the masked lookup. -/
theorem band2Odd_out (c : Dev nD) : @Eq (FVec Ideal S80x600 .f32) (V m c main_v119)
    (shapeCast S80x600 (transpose S4x20x5x12x10 [2, 4, 0, 1, 3] (V m c main_v117 : FVec Ideal S5x12x4x10x20 .f32)
      transposes_S5x12x4x10x20_S4x20x5x12x10_2_4_0_1_3) shapeCasts_S4x20x5x12x10_S80x600) := by
  host_step

set_option maxHeartbeats 4000000 in
/-- The masked lookup: the lookup where the band's test holds, the zero array elsewhere. -/
theorem band2Odd_where (c : Dev nD) : @Eq (FVec Ideal S5x12x4x10x20 .f32) (V m c main_v117)
    (select (broadcastInDim S5x12x4x10x20 ![0, 1, 2, 3, 4] bcast_S1x12x4x1x1_S5x12x4x10x20_0_1_2_3_4
        (broadcastInDim S1x12x4x1x1 ![1, 2] bcast_S12x4_S1x12x4x1x1_1_2 (V m c main_v115 : IVec S12x4 1)))
      (V m c main_v110 : FVec Ideal S5x12x4x10x20 .f32) (V m c main_call22_v2 : FVec Ideal S5x12x4x10x20 .f32)) := by
  host_step

set_option maxHeartbeats 4000000 in
/-- The band's test at (cc, oxh). -/
theorem band2Odd_band (c : Dev nD) (cc : Fin 12) (oxh : Fin 4) :
    (V m c main_v115 : IVec S12x4 1) (ix2 cc oxh) = tapValid (BitVec.ofNat 32 (1 : Fin 2).val) cc.val oxh.val := by
  host_step

set_option maxHeartbeats 4000000 in
/-- The zero array. -/
theorem band2Odd_zero (c : Dev nD) (k : S5x12x4x10x20.Idx) :
    (V m c main_call22_v2 : FVec Ideal S5x12x4x10x20 .f32) k = Ideal.ofBits .f32 0x00000000#32 := by
  host_step

set_option maxHeartbeats 4000000 in
/-- The lookup: the gathered weights where the lookup's own range test holds, its fallback elsewhere. -/
theorem band2Odd_take (c : Dev nD) : @Eq (FVec Ideal S5x12x4x10x20 .f32) (V m c main_v110)
    (select (broadcastInDim S5x12x4x10x20 ![1, 2] bcast_S12x4_S5x12x4x10x20_1_2 (V m c main_call21_v12 : IVec S12x4 1))
      (Host.gather gather_S5x5x10x20_S12x4x1_S5x12x4x10x20_034_1_n_n_1_2_511020 (V m c main_v108 : FVec Ideal S5x5x10x20 .f32)
        (V m c main_call21_v5 : IVec S12x4x1 32))
      (V m c main_call21_v15 : FVec Ideal S5x12x4x10x20 .f32)) := by
  host_step

set_option maxHeartbeats 4000000 in
/-- The lookup's range test: the conjunction over the one component. -/
theorem band2Odd_ok (c : Dev nD) : @Eq (IVec S12x4 1) (V m c main_call21_v12)
    (Host.reduce IntOp.andi (V m c main_call21_v11 : IVec S12x4x1 1) (V m c main_call21_c_3 : IVec S_ 1) reducesTo_S12x4x1_S12x4_d2 h_S_) := by
  host_step

set_option maxHeartbeats 4000000 in
/-- The component's test at (cc, oxh, 0). -/
theorem band2Odd_cmp (c : Dev nD) (cc : Fin 12) (oxh : Fin 4) (u : Fin 1) :
    (V m c main_call21_v11 : IVec S12x4x1 1) (ix3 cc oxh u)
      = IntOp.andi (IntOp.cmpi .sge (tapIndex (BitVec.ofNat 32 (1 : Fin 2).val) cc.val oxh.val) 0#32) (IntOp.cmpi .sle (tapIndex (BitVec.ofNat 32 (1 : Fin 2).val) cc.val oxh.val) 4#32) := by
  host_step

set_option maxHeartbeats 4000000 in
/-- The conjunction starts from the word 1. -/
theorem band2Odd_one (c : Dev nD) (k : S_.Idx) : (V m c main_call21_c_3 : IVec S_ 1) k = 1#1 := by
  host_step

set_option maxHeartbeats 4000000 in
/-- The lookup position at (cc, oxh, 0). -/
theorem band2Odd_pos (c : Dev nD) (cc : Fin 12) (oxh : Fin 4) (u : Fin 1) :
    (V m c main_call21_v5 : IVec S12x4x1 32) (ix3 cc oxh u) = tapIndex (BitVec.ofNat 32 (1 : Fin 2).val) cc.val oxh.val := by
  host_step

set_option maxHeartbeats 4000000 in
/-- The weights with the kernel axes in front. -/
theorem band2Odd_wt (c : Dev nD) : @Eq (FVec Ideal S5x5x10x20 .f32) (V m c main_v108)
    (transpose S5x5x10x20 [2, 3, 1, 0] ((m ((c : Thread nD τ).loc main_arg3)) : FVec Ideal S20x10x5x5 .f32) transposes_S20x10x5x5_S5x5x10x20_2_3_1_0) := by
  host_step

/-! ## The half at an entry -/

/-- The lookup's own range test holds everywhere. -/
theorem band2Odd_ok_one (c : Dev nD) (cc : Fin 12) (oxh : Fin 4) : (V m c main_call21_v12 : IVec S12x4 1) (ix2 cc oxh) = 1#1 := by
  rw [band2Odd_ok m c]
  refine reduce_andi_one _ _ _ _ _ (band2Odd_one m c _) fun (i3 : S12x4x1.Idx) => ?_
  have h0 : (i3 0).val < 12 := (i3 0).isLt
  have h1 : (i3 1).val < 4 := (i3 1).isLt
  rw [eq_ix3 i3]
  refine (band2Odd_cmp m c (i3 0) (i3 1) (i3 2)).trans ?_
  exact tap_inRange (1 : Fin 2) ⟨(i3 0).val, by omega⟩ ⟨(i3 1).val, by omega⟩

/-- THE HALF AT AN ENTRY. -/
theorem band2Odd_entry (c : Dev nD) (oxh : Fin 4) (co : Fin 20) (i : Fin 5) (cc : Fin 12) (ci : Fin 10)
    (hr : 20 * oxh.val + co.val < 80) (hq : 120 * i.val + (10 * cc.val + ci.val) < 600) :
    (V m c main_v119 : FVec Ideal S80x600 .f32) (ix2 (⟨20 * oxh.val + co.val, hr⟩ : Fin 80) (⟨120 * i.val + (10 * cc.val + ci.val), hq⟩ : Fin 600))
      = if h : 2 * oxh.val + 1 ≤ cc.val ∧ cc.val < 2 * oxh.val + 1 + 5 then
          (m ((c : Thread nD τ).loc main_arg3)) (ix4 co ci i (⟨cc.val - (2 * oxh.val + 1), by omega⟩ : Fin 5))
        else Ideal.ofBits .f32 0x00000000#32 := by
  refine (congrFun (band2Odd_out m c) _).trans ?_
  refine (shapeCast_apply _ _ _ (ix5 oxh co i cc ci) ?_).trans ?_
  · rw [Shape.rowMajor_val_five, Shape.rowMajor_val_two]
    show (((oxh.val * 20 + co.val) * 5 + i.val) * 12 + cc.val) * 10 + ci.val = (20 * oxh.val + co.val) * 600 + (120 * i.val + (10 * cc.val + ci.val))
    omega
  refine (transpose_apply _ _ _ (ix5 oxh co i cc ci) (ix5 i cc oxh ci co) ?_).trans ?_
  · intro b
    match b with
    | ⟨0, _⟩ => rfl
    | ⟨1, _⟩ => rfl
    | ⟨2, _⟩ => rfl
    | ⟨3, _⟩ => rfl
    | ⟨4, _⟩ => rfl
  refine (congrFun (band2Odd_where m c) _).trans ?_
  rw [select_apply]
  have hc : broadcastInDim S5x12x4x10x20 ![0, 1, 2, 3, 4] bcast_S1x12x4x1x1_S5x12x4x10x20_0_1_2_3_4
        (broadcastInDim S1x12x4x1x1 ![1, 2] bcast_S12x4_S1x12x4x1x1_1_2 (V m c main_v115 : IVec S12x4 1)) (ix5 i cc oxh ci co)
      = tapValid (BitVec.ofNat 32 (1 : Fin 2).val) cc.val oxh.val := by
    refine (broadcastInDim_apply _ _ _ (ix5 i cc oxh ci co) (ix5 (0 : Fin 1) cc oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) cc oxh (0 : Fin 1) (0 : Fin 1)) (ix2 cc oxh) ?_).trans ?_
    · intro b
      match b with
      | ⟨0, _⟩ => rfl
      | ⟨1, _⟩ => rfl
    exact band2Odd_band m c cc oxh
  have hg : (V m c main_v110 : FVec Ideal S5x12x4x10x20 .f32) (ix5 i cc oxh ci co)
      = (m ((c : Thread nD τ).loc main_arg3)) (ix4 co ci i (⟨min (tapIndex (BitVec.ofNat 32 (1 : Fin 2).val) cc.val oxh.val).toInt.toNat (5 - 1), by omega⟩ : Fin 5)) := by
    refine (congrFun (band2Odd_take m c) _).trans ?_
    rw [select_apply]
    have hok : broadcastInDim S5x12x4x10x20 ![1, 2] bcast_S12x4_S5x12x4x10x20_1_2 (V m c main_call21_v12 : IVec S12x4 1) (ix5 i cc oxh ci co) = 1#1 := by
      refine (broadcastInDim_apply _ _ _ (ix5 i cc oxh ci co) (ix2 cc oxh) ?_).trans ?_
      · intro b
        match b with
        | ⟨0, _⟩ => rfl
        | ⟨1, _⟩ => rfl
      exact band2Odd_ok_one m c cc oxh
    rw [hok, select_one, band2_gather_eq]
    refine (gather_tap_apply (by norm_num) _ _ _ i cc oxh ci co).trans ?_
    rw [band2Odd_wt m c]
    refine (transpose_apply _ _ _ (ix4 i (⟨min ((V m c main_call21_v5 : IVec S12x4x1 32) (ix3 cc oxh (0 : Fin 1))).toInt.toNat (5 - 1), by omega⟩ : Fin 5) ci co)
      (ix4 co ci i (⟨min ((V m c main_call21_v5 : IVec S12x4x1 32) (ix3 cc oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => (m ((c : Thread nD τ).loc main_arg3)) (ix4 co ci i t))
      (Fin.ext (congrArg (fun v : BitVec 32 => min v.toInt.toNat (5 - 1)) (band2Odd_pos m c cc oxh (0 : Fin 1))))
  rw [hc, hg, band2Odd_zero m c]
  obtain ⟨hv, hi⟩ := tap_facts (1 : Fin 2) ⟨cc.val, by omega⟩ ⟨oxh.val, by omega⟩
  by_cases h : 2 * oxh.val + 1 ≤ cc.val ∧ cc.val < 2 * oxh.val + 1 + 5
  · rw [dif_pos h, hv.mpr h, select_one]
    exact congrArg (fun t : Fin 5 => (m ((c : Thread nD τ).loc main_arg3)) (ix4 co ci i t)) (Fin.ext (hi h))
  · rw [dif_neg h, eq_zero_of_ne_one (fun e => h (hv.mp e)), select_zero]

end Cert.KernelIdeal.Net
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.KernelOperandsBand2.lean ====
/-
  The single-launch program's second banded matrix (160 x 600), read at an entry. The matrix is the two parities'
  80 x 600 halves one above the other, cast (the identity on extended reals): row 80 * p + 20 * oxh + co, column
  120 * i + 10 * cc + ci holds the second convolution's weight (co, ci, i, cc - (2 * oxh + p)) when
  2 * oxh + p ≤ cc < 2 * oxh + p + 5, and zero otherwise.
-/
import proofs.«138577_g2000503492652488_pallasbulk_942_42_alg».proof.Proof.KernelIdealHost
import proofs.«138577_g2000503492652488_pallasbulk_942_42_alg».proof.Proof.KernelOperandsBand2Even
import proofs.«138577_g2000503492652488_pallasbulk_942_42_alg».proof.Proof.KernelOperandsBand2Odd
import proofs.«138577_g2000503492652488_pallasbulk_942_42_alg».proof.Proof.LibPair
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx
open Cert.ReferenceIdeal.Net (tapDiff tapValid tapClip tapIndex tap_facts tapDims gather_tap_apply)

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same where a buffer's reading may already be partly unfolded. -/
local macro "host_read_again" : tactic =>
  `(tactic| ((try dsimp only [V, V0])
             (try simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append])
             after_results_simp))

set_option maxHeartbeats 4000000 in
/-- The matrix is the cast of the joined halves. -/
theorem band2_cast (c : Dev nD) : @Eq (FVec Ideal S160x600 .bf16) (V m c main_v121)
    (truncf .bf16 (V m c main_v120 : FVec Ideal S160x600 .f32) bitsLt_bf16_f32) := by
  host_read <;> rfl

set_option maxHeartbeats 8000000 in
/-- The joined halves. -/
theorem band2_join (c : Dev nD) : @Eq (FVec Ideal S160x600 .f32) (V m c main_v120)
    (concatenate S160x600 0 [⟨S80x600, (V m c main_v96 : FVec Ideal S80x600 .f32)⟩, ⟨S80x600, (V m c main_v119 : FVec Ideal S80x600 .f32)⟩]
      concatenates_S80x600_S80x600_S160x600_d0) := by
  host_read
  refine concatenate_two_congr 0 _ ?_ ?_
  · host_read_again <;> rfl
  · host_read_again <;> rfl

/-- The upper half's rows. -/
theorem V_v121_even (c : Dev nD) (oxh : Fin 4) (co : Fin 20) (i : Fin 5) (cc : Fin 12) (ci : Fin 10)
    (hr : 20 * oxh.val + co.val < 160) (hq : 120 * i.val + (10 * cc.val + ci.val) < 600) :
    V m c main_v121 (ix2 (⟨20 * oxh.val + co.val, hr⟩ : Fin 160) (⟨120 * i.val + (10 * cc.val + ci.val), hq⟩ : Fin 600))
      = if h : 2 * oxh.val + 0 ≤ cc.val ∧ cc.val < 2 * oxh.val + 0 + 5 then
          (m ((c : Thread nD τ).loc main_arg3)) (ix4 co ci i (⟨cc.val - (2 * oxh.val + 0), by omega⟩ : Fin 5))
        else Ideal.ofBits .f32 0x00000000#32 := by
  refine (congrFun (band2_cast m c) _).trans ?_
  refine (truncf_apply _ bitsLt_bf16_f32 _).trans ?_
  rw [band2_join m c]
  refine (Cert.Lib.pair_rows_top _ _ concatenates_S80x600_S80x600_S160x600_d0 (⟨20 * oxh.val + co.val, by omega⟩ : Fin 80)
    (⟨120 * i.val + (10 * cc.val + ci.val), hq⟩ : Fin 600) hr).trans ?_
  exact band2Even_entry m c oxh co i cc ci (by omega) hq

/-- The lower half's rows. -/
theorem V_v121_odd (c : Dev nD) (oxh : Fin 4) (co : Fin 20) (i : Fin 5) (cc : Fin 12) (ci : Fin 10)
    (hr : 80 + (20 * oxh.val + co.val) < 160) (hq : 120 * i.val + (10 * cc.val + ci.val) < 600) :
    V m c main_v121 (ix2 (⟨80 + (20 * oxh.val + co.val), hr⟩ : Fin 160) (⟨120 * i.val + (10 * cc.val + ci.val), hq⟩ : Fin 600))
      = if h : 2 * oxh.val + 1 ≤ cc.val ∧ cc.val < 2 * oxh.val + 1 + 5 then
          (m ((c : Thread nD τ).loc main_arg3)) (ix4 co ci i (⟨cc.val - (2 * oxh.val + 1), by omega⟩ : Fin 5))
        else Ideal.ofBits .f32 0x00000000#32 := by
  refine (congrFun (band2_cast m c) _).trans ?_
  refine (truncf_apply _ bitsLt_bf16_f32 _).trans ?_
  rw [band2_join m c]
  refine (Cert.Lib.pair_rows_bottom _ _ concatenates_S80x600_S80x600_S160x600_d0 (⟨20 * oxh.val + co.val, by omega⟩ : Fin 80)
    (⟨120 * i.val + (10 * cc.val + ci.val), hq⟩ : Fin 600) hr).trans ?_
  exact band2Odd_entry m c oxh co i cc ci (by omega) hq

/-- THE SECOND BANDED MATRIX AT AN ENTRY, for either parity. -/
theorem V_v121 (c : Dev nD) (p : Fin 2) (oxh : Fin 4) (co : Fin 20) (i : Fin 5) (cc : Fin 12) (ci : Fin 10)
    (hr : 80 * p.val + (20 * oxh.val + co.val) < 160) (hq : 120 * i.val + (10 * cc.val + ci.val) < 600) :
    V m c main_v121 (ix2 (⟨80 * p.val + (20 * oxh.val + co.val), hr⟩ : Fin 160) (⟨120 * i.val + (10 * cc.val + ci.val), hq⟩ : Fin 600))
      = if h : 2 * oxh.val + p.val ≤ cc.val ∧ cc.val < 2 * oxh.val + p.val + 5 then
          (m ((c : Thread nD τ).loc main_arg3)) (ix4 co ci i (⟨cc.val - (2 * oxh.val + p.val), by omega⟩ : Fin 5))
        else Ideal.ofBits .f32 0x00000000#32 := by
  match p, hr with
  | ⟨0, hp⟩, hr =>
    have e : (⟨80 * (⟨0, hp⟩ : Fin 2).val + (20 * oxh.val + co.val), hr⟩ : Fin 160) = ⟨20 * oxh.val + co.val, by omega⟩ :=
      Fin.ext (by show 80 * 0 + (20 * oxh.val + co.val) = 20 * oxh.val + co.val; omega)
    rw [e]
    exact V_v121_even m c oxh co i cc ci (by omega) hq
  | ⟨1, hp⟩, hr =>
    have e : (⟨80 * (⟨1, hp⟩ : Fin 2).val + (20 * oxh.val + co.val), hr⟩ : Fin 160) = ⟨80 + (20 * oxh.val + co.val), by omega⟩ :=
      Fin.ext (by show 80 * 1 + (20 * oxh.val + co.val) = 80 + (20 * oxh.val + co.val); omega)
    rw [e]
    exact V_v121_odd m c oxh co i cc ci (by omega) hq

end Cert.KernelIdeal.Net
-- ==== Proof.ReferenceOperandsBandSecond.lean ====
/-
  The second launch's two banded factors (5 x 120 x 80) as functions of conv2_w. For parity p (0: even output columns,
  1: odd), entry (i, 10 w + ci, 20 oxh + co) is conv2_w at (co, ci, i, w - (2 oxh + p)) when 2 oxh + p ≤ w < 2 oxh + p + 5
  and zero otherwise: row i of each 5 x 5 kernel laid along the 12 input columns (ten channels each) at the offset of
  output column 2 oxh + p.
-/
import proofs.«138577_g2000503492652488_pallasbulk_942_42_alg».proof.Proof.Gen.ReferenceIdeal.Frame
import proofs.«138577_g2000503492652488_pallasbulk_942_42_alg».proof.Proof.ReferenceOperandsTap
import proofs.«138577_g2000503492652488_pallasbulk_942_42_alg».proof.Proof.ReferenceOperandsArgs
import Idealize.ShloMosaic.Lib.Pipeline.Value
import Idealize.ShloMosaic.Lib.ValueIdx
import Idealize.ShloMosaic.Lib.ValueLayout

set_option maxRecDepth 16384

noncomputable section

namespace Cert.ReferenceIdeal.Net

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- The difference words: input column minus (twice the pooled output column plus the parity). -/
def secondDiff (p : BitVec 32) : IVec S12x4 32 :=
  subi
    (broadcastInDim S12x4 ![0, 1] bcast_S12x1_S12x4_0_1 (broadcastInDim S12x1 ![0] bcast_S12_S12x1_0 (iotaInDim S12 32 0)))
    (broadcastInDim S12x4 ![0, 1] bcast_S1x4_S12x4_0_1 (broadcastInDim S1x4 ![1] bcast_S4_S1x4_1
      (addi (muli (broadcastInDim S4 ![] bcast_S_S4 (constantI S_ 32 2#32)) (iotaInDim S4 32 0))
        (broadcastInDim S4 ![] bcast_S_S4 (constantI S_ 32 p)))))

/-- The test 0 ≤ d < 5. -/
def secondValid (p : BitVec 32) : IVec S12x4 1 :=
  andi (cmpi .sge (secondDiff p) (broadcastInDim S12x4 ![] bcast_S_S12x4 (constantI S_ 32 0#32)))
    (cmpi .slt (secondDiff p) (broadcastInDim S12x4 ![] bcast_S_S12x4 (constantI S_ 32 5#32)))

/-- The difference clamped into 0 … 4. -/
def secondClip (p : BitVec 32) : IVec S12x4 32 :=
  minsi (broadcastInDim S12x4 ![] bcast_S_S12x4 (constantI S_ 32 4#32))
    (maxsi (broadcastInDim S12x4 ![] bcast_S_S12x4 (constantI S_ 32 0#32)) (secondDiff p))

/-- The lookup positions. -/
def secondTap (p : BitVec 32) : IVec S12x4 32 :=
  select (cmpi .slt (secondClip p) (broadcastInDim S12x4 ![] bcast_S_S12x4 (constantI S_ 32 0#32)))
    (addi (secondClip p) (broadcastInDim S12x4 ![] bcast_S_S12x4 (constantI S_ 32 5#32))) (secondClip p)

/-- The banded factor of parity p built from the weights: looked up at the positions, zeroed where the test fails, the
    pooled-column axis moved behind the channel axis, and flattened. -/
def secondBand (p : BitVec 32) (wt : S20x10x5x5.Idx → Ideal .f32) : S5x120x80.Idx → Ideal .f32 :=
  shapeCast S5x120x80 (transpose S5x12x10x4x20 [0, 1, 3, 2, 4]
    (select
      (broadcastInDim S5x12x4x10x20 ![0, 1, 2, 3, 4] bcast_S1x12x4x1x1_S5x12x4x10x20_0_1_2_3_4
        (broadcastInDim S1x12x4x1x1 ![1, 2] bcast_S12x4_S1x12x4x1x1_1_2 (secondValid p)))
      (Host.gather gather_S5x5x10x20_S12x4x1_S5x12x4x10x20_034_1_n_n_1_2_511020 (transpose S5x5x10x20 [2, 3, 1, 0] wt transposes_S20x10x5x5_S5x5x10x20_2_3_1_0)
        (broadcastInDim S12x4x1 ![0, 1] bcast_S12x4_S12x4x1_0_1 (secondTap p)))
      (broadcastInDim S5x12x4x10x20 ![] bcast_S_S5x12x4x10x20 (constant (F := Ideal) S_ .f32 0x00000000#32)))
    transposes_S5x12x4x10x20_S5x12x10x4x20_0_1_3_2_4) shapeCasts_S5x12x10x4x20_S5x120x80

theorem secondValid_apply (p : BitVec 32) (w : Fin 12) (oxh : Fin 4) :
    secondValid p (ix2 w oxh) = tapValid p w.val oxh.val := rfl

theorem secondTap_apply (p : BitVec 32) (w : Fin 12) (oxh : Fin 4) :
    secondTap p (ix2 w oxh) = tapIndex p w.val oxh.val := rfl

theorem second_gather_eq : gather_S5x5x10x20_S12x4x1_S5x12x4x10x20_034_1_n_n_1_2_511020 = tapDims 5 5 10 20 12 4 gather_S5x5x10x20_S12x4x1_S5x12x4x10x20_034_1_n_n_1_2_511020_wf := rfl

/-- THE FACTOR AT AN ENTRY: kernel row i, input column w and input channel ci, pooled output column oxh and output channel co hold
    the weight at kernel column w - (2 oxh + p) when that is one of 0 … 4, and zero otherwise. -/
theorem secondBand_apply (p : Fin 2) (wt : S20x10x5x5.Idx → Ideal .f32) (i : Fin 5) (w : Fin 12) (ci : Fin 10) (oxh : Fin 4) (co : Fin 20) :
    secondBand (BitVec.ofNat 32 p.val) wt (ix3 i (⟨10 * w.val + ci.val, by omega⟩ : Fin 120) (⟨20 * oxh.val + co.val, by omega⟩ : Fin 80))
      = if h : 2 * oxh.val + p.val ≤ w.val ∧ w.val < 2 * oxh.val + p.val + 5 then
          wt (ix4 co ci i (⟨w.val - (2 * oxh.val + p.val), by omega⟩ : Fin 5))
        else Ideal.ofBits .f32 0x00000000#32 := by
  unfold secondBand
  refine (shapeCast_apply _ _ _ (ix5 i w ci oxh co) ?_).trans ?_
  · rw [Shape.rowMajor_val_five, Shape.rowMajor_val_three]
    show (((i.val * 12 + w.val) * 10 + ci.val) * 4 + oxh.val) * 20 + co.val = (i.val * 120 + (10 * w.val + ci.val)) * 80 + (20 * oxh.val + co.val)
    omega
  refine (transpose_apply _ _ _ (ix5 i w ci oxh co) (ix5 i w oxh ci co) ?_).trans ?_
  · intro b
    match b with
    | ⟨0, _⟩ => rfl
    | ⟨1, _⟩ => rfl
    | ⟨2, _⟩ => rfl
    | ⟨3, _⟩ => rfl
    | ⟨4, _⟩ => rfl
  rw [select_apply]
  have hc : broadcastInDim S5x12x4x10x20 ![0, 1, 2, 3, 4] bcast_S1x12x4x1x1_S5x12x4x10x20_0_1_2_3_4
        (broadcastInDim S1x12x4x1x1 ![1, 2] bcast_S12x4_S1x12x4x1x1_1_2 (secondValid (BitVec.ofNat 32 p.val))) (ix5 i w oxh ci co)
      = tapValid (BitVec.ofNat 32 p.val) w.val oxh.val := by
    refine (broadcastInDim_apply _ _ _ (ix5 i w oxh ci co) (ix5 (0 : Fin 1) w oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) w oxh (0 : Fin 1) (0 : Fin 1)) (ix2 w oxh) ?_).trans ?_
    · intro b
      match b with
      | ⟨0, _⟩ => rfl
      | ⟨1, _⟩ => rfl
    exact secondValid_apply _ w oxh
  have hg : Host.gather gather_S5x5x10x20_S12x4x1_S5x12x4x10x20_034_1_n_n_1_2_511020 (transpose S5x5x10x20 [2, 3, 1, 0] wt transposes_S20x10x5x5_S5x5x10x20_2_3_1_0)
        (broadcastInDim S12x4x1 ![0, 1] bcast_S12x4_S12x4x1_0_1 (secondTap (BitVec.ofNat 32 p.val))) (ix5 i w oxh ci co)
      = wt (ix4 co ci i (⟨min (tapIndex (BitVec.ofNat 32 p.val) w.val oxh.val).toInt.toNat (5 - 1), by omega⟩ : Fin 5)) := by
    rw [second_gather_eq]
    refine (gather_tap_apply (by norm_num) _ _ _ i w oxh ci co).trans ?_
    have hp : broadcastInDim S12x4x1 ![0, 1] bcast_S12x4_S12x4x1_0_1 (secondTap (BitVec.ofNat 32 p.val)) (ix3 w oxh (0 : Fin 1))
        = tapIndex (BitVec.ofNat 32 p.val) w.val oxh.val := by
      refine (broadcastInDim_apply _ _ _ (ix3 w oxh (0 : Fin 1)) (ix2 w oxh) ?_).trans ?_
      · intro b
        match b with
        | ⟨0, _⟩ => rfl
        | ⟨1, _⟩ => rfl
      exact secondTap_apply _ w oxh
    refine (transpose_apply _ _ _ (ix4 i (⟨min (broadcastInDim S12x4x1 ![0, 1] bcast_S12x4_S12x4x1_0_1 (secondTap (BitVec.ofNat 32 p.val)) (ix3 w oxh (0 : Fin 1))).toInt.toNat (5 - 1), by omega⟩ : Fin 5) ci co)
      (ix4 co ci i (⟨min (broadcastInDim S12x4x1 ![0, 1] bcast_S12x4_S12x4x1_0_1 (secondTap (BitVec.ofNat 32 p.val)) (ix3 w oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => wt (ix4 co ci i t)) (Fin.ext (congrArg (fun v : BitVec 32 => min v.toInt.toNat (5 - 1)) hp))
  rw [hc, hg]
  obtain ⟨hv, hi⟩ := tap_facts p ⟨w.val, by omega⟩ ⟨oxh.val, by omega⟩
  by_cases h : 2 * oxh.val + p.val ≤ w.val ∧ w.val < 2 * oxh.val + p.val + 5
  · rw [dif_pos h, hv.mpr h, select_one]
    exact congrArg (fun t : Fin 5 => wt (ix4 co ci i t)) (Fin.ext (hi h))
  · rw [dif_neg h, eq_zero_of_ne_one (fun e => h (hv.mp e)), select_zero]
    rfl

set_option maxHeartbeats 4000000 in
/-- The second launch's even factor is the banded factor of parity 0 of conv2_w. -/
theorem second_even_eq (c : Dev nD) :
    (V19 (F := Ideal) m ρ c main_v93 : S5x120x80.Idx → Ideal .f32)
      = secondBand (BitVec.ofNat 32 (0 : Fin 2).val) (m ((c.tc : Thread nD τ).loc main_arg3) : S20x10x5x5.Idx → Ideal .f32) := by
  show (W19 m ρ c (Proc.devRef .tc main_v93) : S5x120x80.Idx → Ideal .f32) = _
  after_results_simp
  rw [W10_main_arg3 m ρ c]
  rfl

set_option maxHeartbeats 4000000 in
/-- The second launch's odd factor is the banded factor of parity 1 of conv2_w. -/
theorem second_odd_eq (c : Dev nD) :
    (V19 (F := Ideal) m ρ c main_v122 : S5x120x80.Idx → Ideal .f32)
      = secondBand (BitVec.ofNat 32 (1 : Fin 2).val) (m ((c.tc : Thread nD τ).loc main_arg3) : S20x10x5x5.Idx → Ideal .f32) := by
  show (W19 m ρ c (Proc.devRef .tc main_v122) : S5x120x80.Idx → Ideal .f32) = _
  after_results_simp
  rw [W10_main_arg3 m ρ c]
  rfl

/-- The second launch's even factor at an entry. -/
theorem second_even (c : Dev nD) (i : Fin 5) (w : Fin 12) (ci : Fin 10) (oxh : Fin 4) (co : Fin 20) :
    (V19 (F := Ideal) m ρ c main_v93 : S5x120x80.Idx → Ideal .f32) (ix3 i (⟨10 * w.val + ci.val, by omega⟩ : Fin 120) (⟨20 * oxh.val + co.val, by omega⟩ : Fin 80))
      = if h : 2 * oxh.val ≤ w.val ∧ w.val < 2 * oxh.val + 5 then
          (m ((c.tc : Thread nD τ).loc main_arg3) : S20x10x5x5.Idx → Ideal .f32) (ix4 co ci i (⟨w.val - (2 * oxh.val), by omega⟩ : Fin 5))
        else Ideal.ofBits .f32 0x00000000#32 :=
  (congrFun (second_even_eq m ρ c) _).trans (secondBand_apply (0 : Fin 2) _ i w ci oxh co)

/-- The second launch's odd factor at an entry. -/
theorem second_odd (c : Dev nD) (i : Fin 5) (w : Fin 12) (ci : Fin 10) (oxh : Fin 4) (co : Fin 20) :
    (V19 (F := Ideal) m ρ c main_v122 : S5x120x80.Idx → Ideal .f32) (ix3 i (⟨10 * w.val + ci.val, by omega⟩ : Fin 120) (⟨20 * oxh.val + co.val, by omega⟩ : Fin 80))
      = if h : 2 * oxh.val + 1 ≤ w.val ∧ w.val < 2 * oxh.val + 1 + 5 then
          (m ((c.tc : Thread nD τ).loc main_arg3) : S20x10x5x5.Idx → Ideal .f32) (ix4 co ci i (⟨w.val - (2 * oxh.val + 1), by omega⟩ : Fin 5))
        else Ideal.ofBits .f32 0x00000000#32 :=
  (congrFun (second_odd_eq m ρ c) _).trans (secondBand_apply (1 : Fin 2) _ i w ci oxh co)

end Cert.ReferenceIdeal.Net

end
-- ==== Proof.ScoresBand2.lean ====
/-
  The second banded matrix of the single-launch program against the two banded factors of the other program's second
  launch: both hold the second convolution's weight at (channel out, channel in, row i, column cc - (2 oxh + p)) when that
  column is in range and zero otherwise, so they agree entry for entry (lane q = 20 oxh + co, lane k' = 10 cc + ci).
-/
import proofs.«138577_g2000503492652488_pallasbulk_942_42_alg».proof.Proof.ScoresOperands
import proofs.«138577_g2000503492652488_pallasbulk_942_42_alg».proof.Proof.KernelOperandsBand2
import proofs.«138577_g2000503492652488_pallasbulk_942_42_alg».proof.Proof.ReferenceOperandsBandSecond

noncomputable section

namespace Cert.Net

open Idealize.ShloMosaic Idealize.ShloMosaic.TcCoe Idealize.SL.Sem
open Idealize.ShloMosaic.ValueIdx

/-- The second banded matrix's upper half against the even banded factor. -/
theorem op_band2_even [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (q : Fin 80) (i : Fin 5) (k' : Fin 120) :
    (Cert.KernelIdeal.Net.iblk m c 2 (kPt n)) (ix2 (⟨80 * (0 : Fin 2).val + q.val, by have := (0 : Fin 2).isLt; have := q.isLt; omega⟩ : Fin 160)
        (⟨120 * i.val + k'.val, by have := i.isLt; have := k'.isLt; omega⟩ : Fin 600)) = (Cert.ReferenceIdeal.Gen.iblk1 (Cert.ReferenceIdeal.Gen.V19 m' ρ') c 1 (rPt n)) (ix3 i k' q) := by
  have hq := q.isLt
  have hk := k'.isLt
  have hi := i.isLt
  have hp : ((0 : Fin 2)).val = 0 := rfl
  -- split the lanes: q = 20 oxh + co, k' = 10 cc + ci
  have eq : q = (⟨20 * (⟨q.val / 20, by omega⟩ : Fin 4).val + (⟨q.val % 20, Nat.mod_lt _ (by norm_num)⟩ : Fin 20).val, by show 20 * (q.val / 20) + q.val % 20 < 80; omega⟩ : Fin 80) :=
    Fin.ext (by show q.val = 20 * (q.val / 20) + q.val % 20; omega)
  have ek : k' = (⟨10 * (⟨k'.val / 10, by omega⟩ : Fin 12).val + (⟨k'.val % 10, Nat.mod_lt _ (by norm_num)⟩ : Fin 10).val, by show 10 * (k'.val / 10) + k'.val % 10 < 120; omega⟩ : Fin 120) :=
    Fin.ext (by show k'.val = 10 * (k'.val / 10) + k'.val % 10; omega)
  have er : (⟨80 * (0 : Fin 2).val + q.val, by omega⟩ : Fin 160)
      = (⟨80 * (0 : Fin 2).val + (20 * (⟨q.val / 20, by omega⟩ : Fin 4).val + (⟨q.val % 20, Nat.mod_lt _ (by norm_num)⟩ : Fin 20).val), by show 80 * 0 + (20 * (q.val / 20) + q.val % 20) < 160; omega⟩ : Fin 160) :=
    Fin.ext (by show 80 * 0 + q.val = 80 * 0 + (20 * (q.val / 20) + q.val % 20); omega)
  have ec : (⟨120 * i.val + k'.val, by omega⟩ : Fin 600)
      = (⟨120 * i.val + (10 * (⟨k'.val / 10, by omega⟩ : Fin 12).val + (⟨k'.val % 10, Nat.mod_lt _ (by norm_num)⟩ : Fin 10).val), by show 120 * i.val + (10 * (k'.val / 10) + k'.val % 10) < 600; omega⟩ : Fin 600) :=
    Fin.ext (by show 120 * i.val + k'.val = 120 * i.val + (10 * (k'.val / 10) + k'.val % 10); omega)
  rw [Cert.KernelIdeal.Net.iblk_2, er, ec, Cert.KernelIdeal.Net.V_v121 m c (0 : Fin 2) ⟨q.val / 20, by omega⟩ ⟨q.val % 20, Nat.mod_lt _ (by norm_num)⟩ i ⟨k'.val / 10, by omega⟩ ⟨k'.val % 10, Nat.mod_lt _ (by norm_num)⟩ _ _,
    Cert.ReferenceIdeal.Net.iblk1_1]
  rw [show ix3 i k' q = ix3 i (⟨10 * (⟨k'.val / 10, by omega⟩ : Fin 12).val + (⟨k'.val % 10, Nat.mod_lt _ (by norm_num)⟩ : Fin 10).val, by show 10 * (k'.val / 10) + k'.val % 10 < 120; omega⟩ : Fin 120)
      (⟨20 * (⟨q.val / 20, by omega⟩ : Fin 4).val + (⟨q.val % 20, Nat.mod_lt _ (by norm_num)⟩ : Fin 20).val, by show 20 * (q.val / 20) + q.val % 20 < 80; omega⟩ : Fin 80)
    from congrArg₂ (fun a b => ix3 i a b) ek eq]
  rw [Cert.ReferenceIdeal.Net.second_even m' ρ' c i ⟨k'.val / 10, by omega⟩ ⟨k'.val % 10, Nat.mod_lt _ (by norm_num)⟩ ⟨q.val / 20, by omega⟩ ⟨q.val % 20, Nat.mod_lt _ (by norm_num)⟩]
  by_cases hc : 2 * (q.val / 20) + 0 ≤ k'.val / 10 ∧ k'.val / 10 < 2 * (q.val / 20) + 0 + 5
  · rw [dif_pos (by show 2 * (q.val / 20) + ((0 : Fin 2)).val ≤ k'.val / 10 ∧ k'.val / 10 < 2 * (q.val / 20) + ((0 : Fin 2)).val + 5; rw [hp]; exact hc),
      dif_pos (by show 2 * (q.val / 20) ≤ k'.val / 10 ∧ k'.val / 10 < 2 * (q.val / 20) + 5; omega)]
    refine ((congrFun (hagree c).2.2.2.1 _).symm.trans ?_)
    refine congrArg (m' ((c.tc : Thread Cert.ReferenceIdeal.nD Cert.ReferenceIdeal.τ).loc Cert.ReferenceIdeal.main_arg3)) ?_
    refine congrArg (ix4 (⟨q.val % 20, Nat.mod_lt _ (by norm_num)⟩ : Fin 20) (⟨k'.val % 10, Nat.mod_lt _ (by norm_num)⟩ : Fin 10) i) (Fin.ext ?_)
    show k'.val / 10 - (2 * (q.val / 20) + ((0 : Fin 2)).val) = k'.val / 10 - (2 * (q.val / 20))
    rw [hp]
    all_goals omega
  · rw [dif_neg (by show ¬(2 * (q.val / 20) + ((0 : Fin 2)).val ≤ k'.val / 10 ∧ k'.val / 10 < 2 * (q.val / 20) + ((0 : Fin 2)).val + 5); rw [hp]; exact hc),
      dif_neg (by show ¬(2 * (q.val / 20) ≤ k'.val / 10 ∧ k'.val / 10 < 2 * (q.val / 20) + 5); omega)]

/-- The second banded matrix's lower half against the odd banded factor. -/
theorem op_band2_odd [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (q : Fin 80) (i : Fin 5) (k' : Fin 120) :
    (Cert.KernelIdeal.Net.iblk m c 2 (kPt n)) (ix2 (⟨80 * (1 : Fin 2).val + q.val, by have := (1 : Fin 2).isLt; have := q.isLt; omega⟩ : Fin 160)
        (⟨120 * i.val + k'.val, by have := i.isLt; have := k'.isLt; omega⟩ : Fin 600)) = (Cert.ReferenceIdeal.Gen.iblk1 (Cert.ReferenceIdeal.Gen.V19 m' ρ') c 2 (rPt n)) (ix3 i k' q) := by
  have hq := q.isLt
  have hk := k'.isLt
  have hi := i.isLt
  have hp : ((1 : Fin 2)).val = 1 := rfl
  -- split the lanes: q = 20 oxh + co, k' = 10 cc + ci
  have eq : q = (⟨20 * (⟨q.val / 20, by omega⟩ : Fin 4).val + (⟨q.val % 20, Nat.mod_lt _ (by norm_num)⟩ : Fin 20).val, by show 20 * (q.val / 20) + q.val % 20 < 80; omega⟩ : Fin 80) :=
    Fin.ext (by show q.val = 20 * (q.val / 20) + q.val % 20; omega)
  have ek : k' = (⟨10 * (⟨k'.val / 10, by omega⟩ : Fin 12).val + (⟨k'.val % 10, Nat.mod_lt _ (by norm_num)⟩ : Fin 10).val, by show 10 * (k'.val / 10) + k'.val % 10 < 120; omega⟩ : Fin 120) :=
    Fin.ext (by show k'.val = 10 * (k'.val / 10) + k'.val % 10; omega)
  have er : (⟨80 * (1 : Fin 2).val + q.val, by omega⟩ : Fin 160)
      = (⟨80 * (1 : Fin 2).val + (20 * (⟨q.val / 20, by omega⟩ : Fin 4).val + (⟨q.val % 20, Nat.mod_lt _ (by norm_num)⟩ : Fin 20).val), by show 80 * 1 + (20 * (q.val / 20) + q.val % 20) < 160; omega⟩ : Fin 160) :=
    Fin.ext (by show 80 * 1 + q.val = 80 * 1 + (20 * (q.val / 20) + q.val % 20); omega)
  have ec : (⟨120 * i.val + k'.val, by omega⟩ : Fin 600)
      = (⟨120 * i.val + (10 * (⟨k'.val / 10, by omega⟩ : Fin 12).val + (⟨k'.val % 10, Nat.mod_lt _ (by norm_num)⟩ : Fin 10).val), by show 120 * i.val + (10 * (k'.val / 10) + k'.val % 10) < 600; omega⟩ : Fin 600) :=
    Fin.ext (by show 120 * i.val + k'.val = 120 * i.val + (10 * (k'.val / 10) + k'.val % 10); omega)
  rw [Cert.KernelIdeal.Net.iblk_2, er, ec, Cert.KernelIdeal.Net.V_v121 m c (1 : Fin 2) ⟨q.val / 20, by omega⟩ ⟨q.val % 20, Nat.mod_lt _ (by norm_num)⟩ i ⟨k'.val / 10, by omega⟩ ⟨k'.val % 10, Nat.mod_lt _ (by norm_num)⟩ _ _,
    Cert.ReferenceIdeal.Net.iblk1_2]
  rw [show ix3 i k' q = ix3 i (⟨10 * (⟨k'.val / 10, by omega⟩ : Fin 12).val + (⟨k'.val % 10, Nat.mod_lt _ (by norm_num)⟩ : Fin 10).val, by show 10 * (k'.val / 10) + k'.val % 10 < 120; omega⟩ : Fin 120)
      (⟨20 * (⟨q.val / 20, by omega⟩ : Fin 4).val + (⟨q.val % 20, Nat.mod_lt _ (by norm_num)⟩ : Fin 20).val, by show 20 * (q.val / 20) + q.val % 20 < 80; omega⟩ : Fin 80)
    from congrArg₂ (fun a b => ix3 i a b) ek eq]
  rw [Cert.ReferenceIdeal.Net.second_odd m' ρ' c i ⟨k'.val / 10, by omega⟩ ⟨k'.val % 10, Nat.mod_lt _ (by norm_num)⟩ ⟨q.val / 20, by omega⟩ ⟨q.val % 20, Nat.mod_lt _ (by norm_num)⟩]
  by_cases hc : 2 * (q.val / 20) + 1 ≤ k'.val / 10 ∧ k'.val / 10 < 2 * (q.val / 20) + 1 + 5
  · rw [dif_pos (by show 2 * (q.val / 20) + ((1 : Fin 2)).val ≤ k'.val / 10 ∧ k'.val / 10 < 2 * (q.val / 20) + ((1 : Fin 2)).val + 5; rw [hp]; exact hc),
      dif_pos (by show 2 * (q.val / 20) + 1 ≤ k'.val / 10 ∧ k'.val / 10 < 2 * (q.val / 20) + 1 + 5; omega)]
    refine ((congrFun (hagree c).2.2.2.1 _).symm.trans ?_)
    refine congrArg (m' ((c.tc : Thread Cert.ReferenceIdeal.nD Cert.ReferenceIdeal.τ).loc Cert.ReferenceIdeal.main_arg3)) ?_
    refine congrArg (ix4 (⟨q.val % 20, Nat.mod_lt _ (by norm_num)⟩ : Fin 20) (⟨k'.val % 10, Nat.mod_lt _ (by norm_num)⟩ : Fin 10) i) (Fin.ext ?_)
    show k'.val / 10 - (2 * (q.val / 20) + ((1 : Fin 2)).val) = k'.val / 10 - (2 * (q.val / 20) + 1)
    rw [hp]
    all_goals omega
  · rw [dif_neg (by show ¬(2 * (q.val / 20) + ((1 : Fin 2)).val ≤ k'.val / 10 ∧ k'.val / 10 < 2 * (q.val / 20) + ((1 : Fin 2)).val + 5); rw [hp]; exact hc),
      dif_neg (by show ¬(2 * (q.val / 20) + 1 ≤ k'.val / 10 ∧ k'.val / 10 < 2 * (q.val / 20) + 1 + 5); omega)]

end Cert.Net

end
-- ==== Proof.KernelBand1TopLib.lean ====
/-
  Padding read at an entry, for the first banded matrix. The zero padding value is the real number of the integer word
  0. A 120 x 5 x 28 table padded on its last axis to 32 reads the table for a column below 28 and zero on the four
  added columns; a 120 x 5 x 32 table padded on its middle axis to 8 rows with J rows in front reads row r' - J of the
  five when J ≤ r' < J + 5 and zero on the other rows.
-/
import proofs.«138577_g2000503492652488_pallasbulk_942_42_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Net

open Cert.KernelIdeal Cert.KernelIdeal.Gen
open Idealize.ShloMosaic Idealize.ShloMosaic.ValueIdx

/-- The padding value: the real number of the integer word 0, as a scalar array. -/
abbrev zeroPad : FVec Ideal S_ .f32 := sitofp (F := Ideal) .f32 (constantI S_ 32 0#32)

/-- It is the zero word's value. -/
theorem zeroPad_val : zeroPad (Shape.Idx.first h_S_) = Ideal.ofBits .f32 0x00000000#32 := by
  show (((0#32 : BitVec 32).toInt : ℝ) : EReal) = Ideal.ofBits .f32 0x00000000#32
  rw [Ideal.ofBits_zero_f32]
  simp

/-- The last axis padded from 28 to 32. -/
theorem padCols_apply (x : S120x5x28.Idx → Ideal .f32) (k : Fin 120) (i : Fin 5) (w : Fin 32) :
    pad S120x5x32 ![0, 0, 0] ![0, 0, 4] ![0, 0, 0] x zeroPad pads_S120x5x28_S120x5x32_000_000_040 h_S_ (ix3 k i w)
      = if h : w.val < 28 then x (ix3 k i (⟨w.val, h⟩ : Fin 28)) else Ideal.ofBits .f32 0x00000000#32 := by
  by_cases h : w.val < 28
  · rw [dif_pos h]
    exact pad_apply_of_inside _ _ _ _ _ pads_S120x5x28_S120x5x32_000_000_040 h_S_ (ix3 k i w) (ix3 k i (⟨w.val, h⟩ : Fin 28))
      (fun a => match a with
        | ⟨0, _⟩ => by show k.val = 0 + k.val * (0 + 1); omega
        | ⟨1, _⟩ => by show i.val = 0 + i.val * (0 + 1); omega
        | ⟨2, _⟩ => by show w.val = 0 + w.val * (0 + 1); omega)
  · rw [dif_neg h]
    refine (pad_apply_of_not_inside _ _ _ _ _ pads_S120x5x28_S120x5x32_000_000_040 h_S_ (ix3 k i w) (2 : Fin 3) (by
      intro hin
      have e : (w.val - 0) / (0 + 1) < 28 := hin.2.2
      rw [Nat.sub_zero, Nat.zero_add, Nat.div_one] at e
      exact h e)).trans ?_
    exact zeroPad_val

/-- The middle axis padded from 5 to 8 with J rows in front. -/
theorem padRows_apply {J H : Nat} (hp : S120x5x32.Pads ![0, J, 0] ![0, H, 0] ![0, 0, 0] S120x8x32)
    (x : S120x5x32.Idx → Ideal .f32) (k : Fin 120) (r' : Fin 8) (w : Fin 32) :
    pad S120x8x32 ![0, J, 0] ![0, H, 0] ![0, 0, 0] x zeroPad hp h_S_ (ix3 k r' w)
      = if h : J ≤ r'.val ∧ r'.val < J + 5 then x (ix3 k (⟨r'.val - J, by omega⟩ : Fin 5) w)
        else Ideal.ofBits .f32 0x00000000#32 := by
  by_cases h : J ≤ r'.val ∧ r'.val < J + 5
  · rw [dif_pos h]
    exact pad_apply_of_inside _ _ _ _ _ hp h_S_ (ix3 k r' w) (ix3 k (⟨r'.val - J, by omega⟩ : Fin 5) w)
      (fun a => match a with
        | ⟨0, _⟩ => by show k.val = 0 + k.val * (0 + 1); omega
        | ⟨1, _⟩ => by show r'.val = J + (r'.val - J) * (0 + 1); omega
        | ⟨2, _⟩ => by show w.val = 0 + w.val * (0 + 1); omega)
  · rw [dif_neg h]
    refine (pad_apply_of_not_inside _ _ _ _ _ hp h_S_ (ix3 k r' w) (1 : Fin 3) (by
      intro hin
      have e1 : J ≤ r'.val := hin.1
      have e2 : (r'.val - J) / (0 + 1) < 5 := hin.2.2
      rw [Nat.zero_add, Nat.div_one] at e2
      exact h ⟨e1, by omega⟩)).trans ?_
    exact zeroPad_val

end Cert.KernelIdeal.Net
-- ==== Proof.KernelBand1TopEven.lean ====
/-
  The single-launch program's first banded matrix, one output-column parity (0): the four row-shifted copies of the
  parity's 120 x 5 x 28 table, stacked (4 x 120 x 8 x 32). The table's last axis is padded from 28 to 32 with zeros;
  copy jj pads the middle axis from 5 to 8 rows with jj zero rows in front; each copy gets a leading unit axis and the
  four are joined along it. Entry (jj, k, r', w) of the stack is the table's entry (k, r' - jj, w) when
  jj ≤ r' < jj + 5 and w < 28, and zero otherwise.
-/
import proofs.«138577_g2000503492652488_pallasbulk_942_42_alg».proof.Proof.KernelIdealHost
import proofs.«138577_g2000503492652488_pallasbulk_942_42_alg».proof.Proof.KernelOperandsLib
import proofs.«138577_g2000503492652488_pallasbulk_942_42_alg».proof.Proof.KernelBand1TopLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same where a buffer's reading may already be partly unfolded. -/
local macro "host_read_again" : tactic =>
  `(tactic| ((try dsimp only [V, V0])
             (try simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append])
             after_results_simp))

/-- One joined piece, read at its own buffer. -/
local macro "piece_read" r:ident : tactic =>
  `(tactic| (first
      | (show (_ : Valuation τ sig (Elt Ideal)) (Proc.devRef .tc $r) = _
         host_read_again <;> rfl)
      | (host_read_again <;> rfl)))

/-! ## The program's lines -/

set_option maxHeartbeats 4000000 in
/-- The table with its last axis padded to 32. -/
theorem top1Even_cols (c : Dev nD) : @Eq (FVec Ideal S120x5x32 .f32) (V m c main_v28)
    (pad S120x5x32 ![0, 0, 0] ![0, 0, 4] ![0, 0, 0] (V m c main_v27 : FVec Ideal S120x5x28 .f32) zeroPad
      pads_S120x5x28_S120x5x32_000_000_040 h_S_) := by
  host_read <;> rfl

set_option maxHeartbeats 4000000 in
/-- Copy 0: 0 zero rows in front, with a leading unit axis. -/
theorem top1Even_copy0 (c : Dev nD) : @Eq (FVec Ideal S1x120x8x32 .f32) (V m c main_v33)
    (broadcastInDim S1x120x8x32 ![1, 2, 3] bcast_S120x8x32_S1x120x8x32_1_2_3
      (pad S120x8x32 ![0, 0, 0] ![0, 3, 0] ![0, 0, 0] (V m c main_v28 : FVec Ideal S120x5x32 .f32) zeroPad
        pads_S120x5x32_S120x8x32_000_030_000 h_S_)) := by
  host_read <;> rfl

set_option maxHeartbeats 4000000 in
/-- Copy 1: 1 zero rows in front, with a leading unit axis. -/
theorem top1Even_copy1 (c : Dev nD) : @Eq (FVec Ideal S1x120x8x32 .f32) (V m c main_v34)
    (broadcastInDim S1x120x8x32 ![1, 2, 3] bcast_S120x8x32_S1x120x8x32_1_2_3
      (pad S120x8x32 ![0, 1, 0] ![0, 2, 0] ![0, 0, 0] (V m c main_v28 : FVec Ideal S120x5x32 .f32) zeroPad
        pads_S120x5x32_S120x8x32_000_120_000 h_S_)) := by
  host_read <;> rfl

set_option maxHeartbeats 4000000 in
/-- Copy 2: 2 zero rows in front, with a leading unit axis. -/
theorem top1Even_copy2 (c : Dev nD) : @Eq (FVec Ideal S1x120x8x32 .f32) (V m c main_v35)
    (broadcastInDim S1x120x8x32 ![1, 2, 3] bcast_S120x8x32_S1x120x8x32_1_2_3
      (pad S120x8x32 ![0, 2, 0] ![0, 1, 0] ![0, 0, 0] (V m c main_v28 : FVec Ideal S120x5x32 .f32) zeroPad
        pads_S120x5x32_S120x8x32_000_210_000 h_S_)) := by
  host_read <;> rfl

set_option maxHeartbeats 4000000 in
/-- Copy 3: 3 zero rows in front, with a leading unit axis. -/
theorem top1Even_copy3 (c : Dev nD) : @Eq (FVec Ideal S1x120x8x32 .f32) (V m c main_v36)
    (broadcastInDim S1x120x8x32 ![1, 2, 3] bcast_S120x8x32_S1x120x8x32_1_2_3
      (pad S120x8x32 ![0, 3, 0] ![0, 0, 0] ![0, 0, 0] (V m c main_v28 : FVec Ideal S120x5x32 .f32) zeroPad
        pads_S120x5x32_S120x8x32_000_300_000 h_S_)) := by
  host_read <;> rfl

set_option maxHeartbeats 16000000 in
/-- The four copies joined along the leading axis. -/
theorem top1Even_stack (c : Dev nD) : @Eq (FVec Ideal S4x120x8x32 .f32) (V m c main_v37)
    (concatenate S4x120x8x32 0
      [⟨S1x120x8x32, (V m c main_v33 : FVec Ideal S1x120x8x32 .f32)⟩, ⟨S1x120x8x32, (V m c main_v34 : FVec Ideal S1x120x8x32 .f32)⟩,
       ⟨S1x120x8x32, (V m c main_v35 : FVec Ideal S1x120x8x32 .f32)⟩, ⟨S1x120x8x32, (V m c main_v36 : FVec Ideal S1x120x8x32 .f32)⟩]
      concatenates_S1x120x8x32_S1x120x8x32_S1x120x8x32_S1x120x8x32_S4x120x8x32_d0) := by
  host_read
  refine concatenate_four_congr 0 _ ?_ ?_ ?_ ?_
  · piece_read main_v33
  · piece_read main_v34
  · piece_read main_v35
  · piece_read main_v36

/-! ## The stack at an entry -/

/-- The padded table at an entry. -/
theorem top1Even_cols_apply (c : Dev nD) (k : Fin 120) (i : Fin 5) (w : Fin 32) :
    (V m c main_v28 : FVec Ideal S120x5x32 .f32) (ix3 k i w)
      = if h : w.val < 28 then (V m c main_v27 : FVec Ideal S120x5x28 .f32) (ix3 k i (⟨w.val, h⟩ : Fin 28))
        else Ideal.ofBits .f32 0x00000000#32 :=
  (congrFun (top1Even_cols m c) _).trans (padCols_apply _ k i w)

/-- Copy 0 at an entry. -/
theorem top1Even_copy0_apply (c : Dev nD) (k : Fin 120) (r' : Fin 8) (w : Fin 32) :
    (V m c main_v33 : FVec Ideal S1x120x8x32 .f32) (ix4 (0 : Fin 1) k r' w)
      = if h : 0 ≤ r'.val ∧ r'.val < 0 + 5 then (V m c main_v28 : FVec Ideal S120x5x32 .f32) (ix3 k (⟨r'.val - 0, by omega⟩ : Fin 5) w)
        else Ideal.ofBits .f32 0x00000000#32 := by
  refine (congrFun (top1Even_copy0 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_030_000 _ k r' w

/-- Copy 1 at an entry. -/
theorem top1Even_copy1_apply (c : Dev nD) (k : Fin 120) (r' : Fin 8) (w : Fin 32) :
    (V m c main_v34 : FVec Ideal S1x120x8x32 .f32) (ix4 (0 : Fin 1) k r' w)
      = if h : 1 ≤ r'.val ∧ r'.val < 1 + 5 then (V m c main_v28 : FVec Ideal S120x5x32 .f32) (ix3 k (⟨r'.val - 1, by omega⟩ : Fin 5) w)
        else Ideal.ofBits .f32 0x00000000#32 := by
  refine (congrFun (top1Even_copy1 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_120_000 _ k r' w

/-- Copy 2 at an entry. -/
theorem top1Even_copy2_apply (c : Dev nD) (k : Fin 120) (r' : Fin 8) (w : Fin 32) :
    (V m c main_v35 : FVec Ideal S1x120x8x32 .f32) (ix4 (0 : Fin 1) k r' w)
      = if h : 2 ≤ r'.val ∧ r'.val < 2 + 5 then (V m c main_v28 : FVec Ideal S120x5x32 .f32) (ix3 k (⟨r'.val - 2, by omega⟩ : Fin 5) w)
        else Ideal.ofBits .f32 0x00000000#32 := by
  refine (congrFun (top1Even_copy2 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_210_000 _ k r' w

/-- Copy 3 at an entry. -/
theorem top1Even_copy3_apply (c : Dev nD) (k : Fin 120) (r' : Fin 8) (w : Fin 32) :
    (V m c main_v36 : FVec Ideal S1x120x8x32 .f32) (ix4 (0 : Fin 1) k r' w)
      = if h : 3 ≤ r'.val ∧ r'.val < 3 + 5 then (V m c main_v28 : FVec Ideal S120x5x32 .f32) (ix3 k (⟨r'.val - 3, by omega⟩ : Fin 5) w)
        else Ideal.ofBits .f32 0x00000000#32 := by
  refine (congrFun (top1Even_copy3 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_300_000 _ k r' w

/-- The stack at an entry, by the copy. -/
theorem top1Even_stack_apply (c : Dev nD) (jj : Fin 4) (k : Fin 120) (r' : Fin 8) (w : Fin 32) :
    (V m c main_v37 : FVec Ideal S4x120x8x32 .f32) (ix4 jj k r' w)
      = if h : jj.val ≤ r'.val ∧ r'.val < jj.val + 5 then (V m c main_v28 : FVec Ideal S120x5x32 .f32) (ix3 k (⟨r'.val - jj.val, by omega⟩ : Fin 5) w)
        else Ideal.ofBits .f32 0x00000000#32 := by
  rw [top1Even_stack m c]
  match jj with
  | ⟨0, _⟩ =>
    refine (concatenate_apply_piece (0 : Fin 4) _ _ (ix4 (⟨0, by omega⟩ : Fin 4) k r' w) 0 (by simp) S1x120x8x32
      (V m c main_v33 : FVec Ideal S1x120x8x32 .f32) rfl rfl 0 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Even_copy0_apply m c k r' w
  | ⟨1, _⟩ =>
    refine (concatenate_apply_piece (0 : Fin 4) _ _ (ix4 (⟨1, by omega⟩ : Fin 4) k r' w) 1 (by simp) S1x120x8x32
      (V m c main_v34 : FVec Ideal S1x120x8x32 .f32) rfl rfl 1 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Even_copy1_apply m c k r' w
  | ⟨2, _⟩ =>
    refine (concatenate_apply_piece (0 : Fin 4) _ _ (ix4 (⟨2, by omega⟩ : Fin 4) k r' w) 2 (by simp) S1x120x8x32
      (V m c main_v35 : FVec Ideal S1x120x8x32 .f32) rfl rfl 2 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Even_copy2_apply m c k r' w
  | ⟨3, _⟩ =>
    refine (concatenate_apply_piece (0 : Fin 4) _ _ (ix4 (⟨3, by omega⟩ : Fin 4) k r' w) 3 (by simp) S1x120x8x32
      (V m c main_v36 : FVec Ideal S1x120x8x32 .f32) rfl rfl 3 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Even_copy3_apply m c k r' w

/-- THE STACK AT AN ENTRY: the table inside the band of rows and the 28 columns, zero elsewhere. -/
theorem top1Even_entry (c : Dev nD) (jj : Fin 4) (k : Fin 120) (r' : Fin 8) (w : Fin 32) :
    (V m c main_v37 : FVec Ideal S4x120x8x32 .f32) (ix4 jj k r' w)
      = if h : jj.val ≤ r'.val ∧ r'.val < jj.val + 5 ∧ w.val < 28 then
          (V m c main_v27 : FVec Ideal S120x5x28 .f32) (ix3 k (⟨r'.val - jj.val, by omega⟩ : Fin 5) (⟨w.val, h.2.2⟩ : Fin 28))
        else Ideal.ofBits .f32 0x00000000#32 := by
  rw [top1Even_stack_apply m c jj k r' w]
  by_cases h1 : jj.val ≤ r'.val ∧ r'.val < jj.val + 5
  · rw [dif_pos h1, top1Even_cols_apply m c]
    by_cases h2 : w.val < 28
    · rw [dif_pos h2, dif_pos ⟨h1.1, h1.2, h2⟩]
    · rw [dif_neg h2, dif_neg (fun h => h2 h.2.2)]
  · rw [dif_neg h1, dif_neg (fun h => h1 ⟨h.1, h.2.1⟩)]

end Cert.KernelIdeal.Net
-- ==== Proof.KernelBand1TopOdd.lean ====
/-
  The single-launch program's first banded matrix, one output-column parity (1): the four row-shifted copies of the
  parity's 120 x 5 x 28 table, stacked (4 x 120 x 8 x 32). The table's last axis is padded from 28 to 32 with zeros;
  copy jj pads the middle axis from 5 to 8 rows with jj zero rows in front; each copy gets a leading unit axis and the
  four are joined along it. Entry (jj, k, r', w) of the stack is the table's entry (k, r' - jj, w) when
  jj ≤ r' < jj + 5 and w < 28, and zero otherwise.
-/
import proofs.«138577_g2000503492652488_pallasbulk_942_42_alg».proof.Proof.KernelIdealHost
import proofs.«138577_g2000503492652488_pallasbulk_942_42_alg».proof.Proof.KernelOperandsLib
import proofs.«138577_g2000503492652488_pallasbulk_942_42_alg».proof.Proof.KernelBand1TopLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same where a buffer's reading may already be partly unfolded. -/
local macro "host_read_again" : tactic =>
  `(tactic| ((try dsimp only [V, V0])
             (try simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append])
             after_results_simp))

/-- One joined piece, read at its own buffer. -/
local macro "piece_read" r:ident : tactic =>
  `(tactic| (first
      | (show (_ : Valuation τ sig (Elt Ideal)) (Proc.devRef .tc $r) = _
         host_read_again <;> rfl)
      | (host_read_again <;> rfl)))

/-! ## The program's lines -/

set_option maxHeartbeats 4000000 in
/-- The table with its last axis padded to 32. -/
theorem top1Odd_cols (c : Dev nD) : @Eq (FVec Ideal S120x5x32 .f32) (V m c main_v61)
    (pad S120x5x32 ![0, 0, 0] ![0, 0, 4] ![0, 0, 0] (V m c main_v60 : FVec Ideal S120x5x28 .f32) zeroPad
      pads_S120x5x28_S120x5x32_000_000_040 h_S_) := by
  host_read <;> rfl

set_option maxHeartbeats 4000000 in
/-- Copy 0: 0 zero rows in front, with a leading unit axis. -/
theorem top1Odd_copy0 (c : Dev nD) : @Eq (FVec Ideal S1x120x8x32 .f32) (V m c main_v66)
    (broadcastInDim S1x120x8x32 ![1, 2, 3] bcast_S120x8x32_S1x120x8x32_1_2_3
      (pad S120x8x32 ![0, 0, 0] ![0, 3, 0] ![0, 0, 0] (V m c main_v61 : FVec Ideal S120x5x32 .f32) zeroPad
        pads_S120x5x32_S120x8x32_000_030_000 h_S_)) := by
  host_read <;> rfl

set_option maxHeartbeats 4000000 in
/-- Copy 1: 1 zero rows in front, with a leading unit axis. -/
theorem top1Odd_copy1 (c : Dev nD) : @Eq (FVec Ideal S1x120x8x32 .f32) (V m c main_v67)
    (broadcastInDim S1x120x8x32 ![1, 2, 3] bcast_S120x8x32_S1x120x8x32_1_2_3
      (pad S120x8x32 ![0, 1, 0] ![0, 2, 0] ![0, 0, 0] (V m c main_v61 : FVec Ideal S120x5x32 .f32) zeroPad
        pads_S120x5x32_S120x8x32_000_120_000 h_S_)) := by
  host_read <;> rfl

set_option maxHeartbeats 4000000 in
/-- Copy 2: 2 zero rows in front, with a leading unit axis. -/
theorem top1Odd_copy2 (c : Dev nD) : @Eq (FVec Ideal S1x120x8x32 .f32) (V m c main_v68)
    (broadcastInDim S1x120x8x32 ![1, 2, 3] bcast_S120x8x32_S1x120x8x32_1_2_3
      (pad S120x8x32 ![0, 2, 0] ![0, 1, 0] ![0, 0, 0] (V m c main_v61 : FVec Ideal S120x5x32 .f32) zeroPad
        pads_S120x5x32_S120x8x32_000_210_000 h_S_)) := by
  host_read <;> rfl

set_option maxHeartbeats 4000000 in
/-- Copy 3: 3 zero rows in front, with a leading unit axis. -/
theorem top1Odd_copy3 (c : Dev nD) : @Eq (FVec Ideal S1x120x8x32 .f32) (V m c main_v69)
    (broadcastInDim S1x120x8x32 ![1, 2, 3] bcast_S120x8x32_S1x120x8x32_1_2_3
      (pad S120x8x32 ![0, 3, 0] ![0, 0, 0] ![0, 0, 0] (V m c main_v61 : FVec Ideal S120x5x32 .f32) zeroPad
        pads_S120x5x32_S120x8x32_000_300_000 h_S_)) := by
  host_read <;> rfl

set_option maxHeartbeats 16000000 in
/-- The four copies joined along the leading axis. -/
theorem top1Odd_stack (c : Dev nD) : @Eq (FVec Ideal S4x120x8x32 .f32) (V m c main_v70)
    (concatenate S4x120x8x32 0
      [⟨S1x120x8x32, (V m c main_v66 : FVec Ideal S1x120x8x32 .f32)⟩, ⟨S1x120x8x32, (V m c main_v67 : FVec Ideal S1x120x8x32 .f32)⟩,
       ⟨S1x120x8x32, (V m c main_v68 : FVec Ideal S1x120x8x32 .f32)⟩, ⟨S1x120x8x32, (V m c main_v69 : FVec Ideal S1x120x8x32 .f32)⟩]
      concatenates_S1x120x8x32_S1x120x8x32_S1x120x8x32_S1x120x8x32_S4x120x8x32_d0) := by
  host_read
  refine concatenate_four_congr 0 _ ?_ ?_ ?_ ?_
  · piece_read main_v66
  · piece_read main_v67
  · piece_read main_v68
  · piece_read main_v69

/-! ## The stack at an entry -/

/-- The padded table at an entry. -/
theorem top1Odd_cols_apply (c : Dev nD) (k : Fin 120) (i : Fin 5) (w : Fin 32) :
    (V m c main_v61 : FVec Ideal S120x5x32 .f32) (ix3 k i w)
      = if h : w.val < 28 then (V m c main_v60 : FVec Ideal S120x5x28 .f32) (ix3 k i (⟨w.val, h⟩ : Fin 28))
        else Ideal.ofBits .f32 0x00000000#32 :=
  (congrFun (top1Odd_cols m c) _).trans (padCols_apply _ k i w)

/-- Copy 0 at an entry. -/
theorem top1Odd_copy0_apply (c : Dev nD) (k : Fin 120) (r' : Fin 8) (w : Fin 32) :
    (V m c main_v66 : FVec Ideal S1x120x8x32 .f32) (ix4 (0 : Fin 1) k r' w)
      = if h : 0 ≤ r'.val ∧ r'.val < 0 + 5 then (V m c main_v61 : FVec Ideal S120x5x32 .f32) (ix3 k (⟨r'.val - 0, by omega⟩ : Fin 5) w)
        else Ideal.ofBits .f32 0x00000000#32 := by
  refine (congrFun (top1Odd_copy0 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_030_000 _ k r' w

/-- Copy 1 at an entry. -/
theorem top1Odd_copy1_apply (c : Dev nD) (k : Fin 120) (r' : Fin 8) (w : Fin 32) :
    (V m c main_v67 : FVec Ideal S1x120x8x32 .f32) (ix4 (0 : Fin 1) k r' w)
      = if h : 1 ≤ r'.val ∧ r'.val < 1 + 5 then (V m c main_v61 : FVec Ideal S120x5x32 .f32) (ix3 k (⟨r'.val - 1, by omega⟩ : Fin 5) w)
        else Ideal.ofBits .f32 0x00000000#32 := by
  refine (congrFun (top1Odd_copy1 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_120_000 _ k r' w

/-- Copy 2 at an entry. -/
theorem top1Odd_copy2_apply (c : Dev nD) (k : Fin 120) (r' : Fin 8) (w : Fin 32) :
    (V m c main_v68 : FVec Ideal S1x120x8x32 .f32) (ix4 (0 : Fin 1) k r' w)
      = if h : 2 ≤ r'.val ∧ r'.val < 2 + 5 then (V m c main_v61 : FVec Ideal S120x5x32 .f32) (ix3 k (⟨r'.val - 2, by omega⟩ : Fin 5) w)
        else Ideal.ofBits .f32 0x00000000#32 := by
  refine (congrFun (top1Odd_copy2 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_210_000 _ k r' w

/-- Copy 3 at an entry. -/
theorem top1Odd_copy3_apply (c : Dev nD) (k : Fin 120) (r' : Fin 8) (w : Fin 32) :
    (V m c main_v69 : FVec Ideal S1x120x8x32 .f32) (ix4 (0 : Fin 1) k r' w)
      = if h : 3 ≤ r'.val ∧ r'.val < 3 + 5 then (V m c main_v61 : FVec Ideal S120x5x32 .f32) (ix3 k (⟨r'.val - 3, by omega⟩ : Fin 5) w)
        else Ideal.ofBits .f32 0x00000000#32 := by
  refine (congrFun (top1Odd_copy3 m c) _).trans ?_
  refine (broadcastInDim_apply _ _ _ (ix4 (0 : Fin 1) k r' w) (ix3 k r' w) (fun b => match b with
    | ⟨0, _⟩ => rfl
    | ⟨1, _⟩ => rfl
    | ⟨2, _⟩ => rfl)).trans ?_
  exact padRows_apply pads_S120x5x32_S120x8x32_000_300_000 _ k r' w

/-- The stack at an entry, by the copy. -/
theorem top1Odd_stack_apply (c : Dev nD) (jj : Fin 4) (k : Fin 120) (r' : Fin 8) (w : Fin 32) :
    (V m c main_v70 : FVec Ideal S4x120x8x32 .f32) (ix4 jj k r' w)
      = if h : jj.val ≤ r'.val ∧ r'.val < jj.val + 5 then (V m c main_v61 : FVec Ideal S120x5x32 .f32) (ix3 k (⟨r'.val - jj.val, by omega⟩ : Fin 5) w)
        else Ideal.ofBits .f32 0x00000000#32 := by
  rw [top1Odd_stack m c]
  match jj with
  | ⟨0, _⟩ =>
    refine (concatenate_apply_piece (0 : Fin 4) _ _ (ix4 (⟨0, by omega⟩ : Fin 4) k r' w) 0 (by simp) S1x120x8x32
      (V m c main_v66 : FVec Ideal S1x120x8x32 .f32) rfl rfl 0 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Odd_copy0_apply m c k r' w
  | ⟨1, _⟩ =>
    refine (concatenate_apply_piece (0 : Fin 4) _ _ (ix4 (⟨1, by omega⟩ : Fin 4) k r' w) 1 (by simp) S1x120x8x32
      (V m c main_v67 : FVec Ideal S1x120x8x32 .f32) rfl rfl 1 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Odd_copy1_apply m c k r' w
  | ⟨2, _⟩ =>
    refine (concatenate_apply_piece (0 : Fin 4) _ _ (ix4 (⟨2, by omega⟩ : Fin 4) k r' w) 2 (by simp) S1x120x8x32
      (V m c main_v68 : FVec Ideal S1x120x8x32 .f32) rfl rfl 2 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Odd_copy2_apply m c k r' w
  | ⟨3, _⟩ =>
    refine (concatenate_apply_piece (0 : Fin 4) _ _ (ix4 (⟨3, by omega⟩ : Fin 4) k r' w) 3 (by simp) S1x120x8x32
      (V m c main_v69 : FVec Ideal S1x120x8x32 .f32) rfl rfl 3 rfl
      (ix4 (0 : Fin 1) k r' w) (fun b hb => match b, hb with
        | ⟨0, _⟩, hb => absurd rfl hb
        | ⟨1, _⟩, _ => rfl
        | ⟨2, _⟩, _ => rfl
        | ⟨3, _⟩, _ => rfl) rfl).trans ?_
    exact top1Odd_copy3_apply m c k r' w

/-- THE STACK AT AN ENTRY: the table inside the band of rows and the 28 columns, zero elsewhere. -/
theorem top1Odd_entry (c : Dev nD) (jj : Fin 4) (k : Fin 120) (r' : Fin 8) (w : Fin 32) :
    (V m c main_v70 : FVec Ideal S4x120x8x32 .f32) (ix4 jj k r' w)
      = if h : jj.val ≤ r'.val ∧ r'.val < jj.val + 5 ∧ w.val < 28 then
          (V m c main_v60 : FVec Ideal S120x5x28 .f32) (ix3 k (⟨r'.val - jj.val, by omega⟩ : Fin 5) (⟨w.val, h.2.2⟩ : Fin 28))
        else Ideal.ofBits .f32 0x00000000#32 := by
  rw [top1Odd_stack_apply m c jj k r' w]
  by_cases h1 : jj.val ≤ r'.val ∧ r'.val < jj.val + 5
  · rw [dif_pos h1, top1Odd_cols_apply m c]
    by_cases h2 : w.val < 28
    · rw [dif_pos h2, dif_pos ⟨h1.1, h1.2, h2⟩]
    · rw [dif_neg h2, dif_neg (fun h => h2 h.2.2)]
  · rw [dif_neg h1, dif_neg (fun h => h1 ⟨h.1, h.2.1⟩)]

end Cert.KernelIdeal.Net
-- ==== Proof.KernelBand1Top.lean ====
/-
  The single-launch program's first banded matrix (960 x 256), read at an entry in terms of the two parities'
  120 x 5 x 28 tables. The matrix is the two parities' stacks of four row-shifted copies joined (8 x 120 x 8 x 32),
  flattened to 960 x 256 and cast (the identity on extended reals): row 480 * p + 120 * jj + k, column 32 * r' + w holds
  parity p's table at (k, r' - jj, w) when jj ≤ r' < jj + 5 and w < 28, and zero otherwise.
-/
import proofs.«138577_g2000503492652488_pallasbulk_942_42_alg».proof.Proof.KernelIdealHost
import proofs.«138577_g2000503492652488_pallasbulk_942_42_alg».proof.Proof.KernelBand1TopEven
import proofs.«138577_g2000503492652488_pallasbulk_942_42_alg».proof.Proof.KernelBand1TopOdd
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same where a buffer's reading may already be partly unfolded. -/
local macro "host_read_again" : tactic =>
  `(tactic| ((try dsimp only [V, V0])
             (try simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append])
             after_results_simp))

/-- One joined piece, read at its own buffer. -/
local macro "piece_read" r:ident : tactic =>
  `(tactic| (first
      | (show (_ : Valuation τ sig (Elt Ideal)) (Proc.devRef .tc $r) = _
         host_read_again <;> rfl)
      | (host_read_again <;> rfl)))

set_option maxHeartbeats 4000000 in
/-- The matrix is the cast of the flattened join. -/
theorem top1_cast (c : Dev nD) : @Eq (FVec Ideal S960x256 .bf16) (V m c main_v73)
    (truncf .bf16 (V m c main_v72 : FVec Ideal S960x256 .f32) bitsLt_bf16_f32) := by
  host_read <;> rfl

set_option maxHeartbeats 4000000 in
/-- The flattened join. -/
theorem top1_flat (c : Dev nD) : @Eq (FVec Ideal S960x256 .f32) (V m c main_v72)
    (shapeCast S960x256 (V m c main_v71 : FVec Ideal S8x120x8x32 .f32) shapeCasts_S8x120x8x32_S960x256) := by
  host_read <;> rfl

set_option maxHeartbeats 16000000 in
/-- The two parities' stacks joined. -/
theorem top1_join (c : Dev nD) : @Eq (FVec Ideal S8x120x8x32 .f32) (V m c main_v71)
    (concatenate S8x120x8x32 0 [⟨S4x120x8x32, (V m c main_v37 : FVec Ideal S4x120x8x32 .f32)⟩, ⟨S4x120x8x32, (V m c main_v70 : FVec Ideal S4x120x8x32 .f32)⟩]
      concatenates_S4x120x8x32_S4x120x8x32_S8x120x8x32_d0) := by
  host_read
  refine concatenate_two_congr 0 _ ?_ ?_
  · host_read_again <;> rfl
  · host_read_again <;> rfl

/-- Parity 0's rows of the matrix. -/
theorem V_v73_even (c : Dev nD) (jj : Fin 4) (k : Fin 120) (r' : Fin 8) (w : Fin 32)
    (hr : 480 * 0 + 120 * jj.val + k.val < 960) (hq : 32 * r'.val + w.val < 256) :
    V m c main_v73 (ix2 (⟨480 * 0 + 120 * jj.val + k.val, hr⟩ : Fin 960) (⟨32 * r'.val + w.val, hq⟩ : Fin 256))
      = if h : jj.val ≤ r'.val ∧ r'.val < jj.val + 5 ∧ w.val < 28 then
          (V m c main_v27 : FVec Ideal S120x5x28 .f32) (ix3 k (⟨r'.val - jj.val, by omega⟩ : Fin 5) (⟨w.val, h.2.2⟩ : Fin 28))
        else Ideal.ofBits .f32 0x00000000#32 := by
  refine (congrFun (top1_cast m c) _).trans ?_
  refine (truncf_apply _ bitsLt_bf16_f32 _).trans ?_
  rw [top1_flat m c]
  refine (shapeCast_apply _ _ (ix2 (⟨480 * 0 + 120 * jj.val + k.val, hr⟩ : Fin 960) (⟨32 * r'.val + w.val, hq⟩ : Fin 256))
    (ix4 (⟨jj.val, by omega⟩ : Fin 8) k r' w) (by
      rw [Shape.rowMajor_val_four, Shape.rowMajor_val_two]
      show ((jj.val * 120 + k.val) * 8 + r'.val) * 32 + w.val = (480 * 0 + 120 * jj.val + k.val) * 256 + (32 * r'.val + w.val)
      omega)).trans ?_
  rw [top1_join m c]
  refine (concatenate_pair_apply_left (s₁ := S4x120x8x32) (s₂ := S4x120x8x32) (0 : Fin 4) _ _ _ (ix4 (⟨jj.val, by omega⟩ : Fin 8) k r' w) rfl (ix4 jj k r' w)
    (fun b => match b with
      | ⟨0, _⟩ => rfl
      | ⟨1, _⟩ => rfl
      | ⟨2, _⟩ => rfl
      | ⟨3, _⟩ => rfl)).trans ?_
  exact top1Even_entry m c jj k r' w

/-- Parity 1's rows of the matrix. -/
theorem V_v73_odd (c : Dev nD) (jj : Fin 4) (k : Fin 120) (r' : Fin 8) (w : Fin 32)
    (hr : 480 * 1 + 120 * jj.val + k.val < 960) (hq : 32 * r'.val + w.val < 256) :
    V m c main_v73 (ix2 (⟨480 * 1 + 120 * jj.val + k.val, hr⟩ : Fin 960) (⟨32 * r'.val + w.val, hq⟩ : Fin 256))
      = if h : jj.val ≤ r'.val ∧ r'.val < jj.val + 5 ∧ w.val < 28 then
          (V m c main_v60 : FVec Ideal S120x5x28 .f32) (ix3 k (⟨r'.val - jj.val, by omega⟩ : Fin 5) (⟨w.val, h.2.2⟩ : Fin 28))
        else Ideal.ofBits .f32 0x00000000#32 := by
  refine (congrFun (top1_cast m c) _).trans ?_
  refine (truncf_apply _ bitsLt_bf16_f32 _).trans ?_
  rw [top1_flat m c]
  refine (shapeCast_apply _ _ (ix2 (⟨480 * 1 + 120 * jj.val + k.val, hr⟩ : Fin 960) (⟨32 * r'.val + w.val, hq⟩ : Fin 256))
    (ix4 (⟨4 + jj.val, by omega⟩ : Fin 8) k r' w) (by
      rw [Shape.rowMajor_val_four, Shape.rowMajor_val_two]
      show (((4 + jj.val) * 120 + k.val) * 8 + r'.val) * 32 + w.val = (480 * 1 + 120 * jj.val + k.val) * 256 + (32 * r'.val + w.val)
      omega)).trans ?_
  rw [top1_join m c]
  refine (concatenate_pair_apply_right (s₁ := S4x120x8x32) (s₂ := S4x120x8x32) (0 : Fin 4) _ _ _ (ix4 (⟨4 + jj.val, by omega⟩ : Fin 8) k r' w) rfl rfl (ix4 jj k r' w)
    (fun b hb => match b, hb with
      | ⟨0, _⟩, hb => absurd rfl hb
      | ⟨1, _⟩, _ => rfl
      | ⟨2, _⟩, _ => rfl
      | ⟨3, _⟩, _ => rfl)
    (by show jj.val + 4 = 4 + jj.val; omega)).trans ?_
  exact top1Odd_entry m c jj k r' w

/-- Parity 0, inside the band: the table's entry. -/
theorem V_v73_even_in (c : Dev nD) (jj : Fin 4) (k : Fin 120) (r' : Fin 8) (w : Fin 32)
    (hr : 480 * 0 + 120 * jj.val + k.val < 960) (hq : 32 * r'.val + w.val < 256)
    (hin : jj.val ≤ r'.val ∧ r'.val < jj.val + 5 ∧ w.val < 28) :
    V m c main_v73 (ix2 (⟨480 * 0 + 120 * jj.val + k.val, hr⟩ : Fin 960) (⟨32 * r'.val + w.val, hq⟩ : Fin 256))
      = (V m c main_v27 : FVec Ideal S120x5x28 .f32) (ix3 k (⟨r'.val - jj.val, by omega⟩ : Fin 5) (⟨w.val, hin.2.2⟩ : Fin 28)) :=
  (V_v73_even m c jj k r' w hr hq).trans (dif_pos hin)

/-- Parity 0, outside the band: zero. -/
theorem V_v73_even_out (c : Dev nD) (jj : Fin 4) (k : Fin 120) (r' : Fin 8) (w : Fin 32)
    (hr : 480 * 0 + 120 * jj.val + k.val < 960) (hq : 32 * r'.val + w.val < 256)
    (hout : ¬(jj.val ≤ r'.val ∧ r'.val < jj.val + 5 ∧ w.val < 28)) :
    V m c main_v73 (ix2 (⟨480 * 0 + 120 * jj.val + k.val, hr⟩ : Fin 960) (⟨32 * r'.val + w.val, hq⟩ : Fin 256))
      = Ideal.ofBits .f32 0x00000000#32 :=
  (V_v73_even m c jj k r' w hr hq).trans (dif_neg hout)

/-- Parity 1, inside the band: the table's entry. -/
theorem V_v73_odd_in (c : Dev nD) (jj : Fin 4) (k : Fin 120) (r' : Fin 8) (w : Fin 32)
    (hr : 480 * 1 + 120 * jj.val + k.val < 960) (hq : 32 * r'.val + w.val < 256)
    (hin : jj.val ≤ r'.val ∧ r'.val < jj.val + 5 ∧ w.val < 28) :
    V m c main_v73 (ix2 (⟨480 * 1 + 120 * jj.val + k.val, hr⟩ : Fin 960) (⟨32 * r'.val + w.val, hq⟩ : Fin 256))
      = (V m c main_v60 : FVec Ideal S120x5x28 .f32) (ix3 k (⟨r'.val - jj.val, by omega⟩ : Fin 5) (⟨w.val, hin.2.2⟩ : Fin 28)) :=
  (V_v73_odd m c jj k r' w hr hq).trans (dif_pos hin)

/-- Parity 1, outside the band: zero. -/
theorem V_v73_odd_out (c : Dev nD) (jj : Fin 4) (k : Fin 120) (r' : Fin 8) (w : Fin 32)
    (hr : 480 * 1 + 120 * jj.val + k.val < 960) (hq : 32 * r'.val + w.val < 256)
    (hout : ¬(jj.val ≤ r'.val ∧ r'.val < jj.val + 5 ∧ w.val < 28)) :
    V m c main_v73 (ix2 (⟨480 * 1 + 120 * jj.val + k.val, hr⟩ : Fin 960) (⟨32 * r'.val + w.val, hq⟩ : Fin 256))
      = Ideal.ofBits .f32 0x00000000#32 :=
  (V_v73_odd m c jj k r' w hr hq).trans (dif_neg hout)

/-- Either parity, outside the band: zero. -/
theorem V_v73_out (c : Dev nD) (p : Fin 2) (jj : Fin 4) (k : Fin 120) (r' : Fin 8) (w : Fin 32)
    (hr : 480 * p.val + 120 * jj.val + k.val < 960) (hq : 32 * r'.val + w.val < 256)
    (hout : ¬(jj.val ≤ r'.val ∧ r'.val < jj.val + 5 ∧ w.val < 28)) :
    V m c main_v73 (ix2 (⟨480 * p.val + 120 * jj.val + k.val, hr⟩ : Fin 960) (⟨32 * r'.val + w.val, hq⟩ : Fin 256))
      = Ideal.ofBits .f32 0x00000000#32 := by
  match p, hr with
  | ⟨0, _⟩, hr => exact V_v73_even_out m c jj k r' w hr hq hout
  | ⟨1, _⟩, hr => exact V_v73_odd_out m c jj k r' w hr hq hout

end Cert.KernelIdeal.Net
-- ==== Proof.KernelBand1TopTableEven.lean ====
/-
  One parity's (0) 120 x 5 x 28 table of the single-launch program's first banded matrix, read at an entry: at
  (10 * oxh + co, i, w) it holds the first convolution's weight (co, 0, i, w - (2 * oxh + 0)) when
  2 * oxh + 0 ≤ w < 2 * oxh + 0 + 5, and zero otherwise. The program builds it from index words: the difference
  w - (2 * oxh + 0), its test 0 ≤ d < 5, the difference clamped into 0 … 4 as a lookup position along the kernel-column
  axis (the lookup's own range test on a clamped position always holds), a flattening and a turn of the axes.
-/
import proofs.«138577_g2000503492652488_pallasbulk_942_42_alg».proof.Proof.KernelIdealHost
import proofs.«138577_g2000503492652488_pallasbulk_942_42_alg».proof.Proof.ReferenceOperandsTap
import proofs.«138577_g2000503492652488_pallasbulk_942_42_alg».proof.Proof.KernelOperandsLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx
open Cert.ReferenceIdeal.Net (tapDiff tapValid tapClip tapIndex tap_facts tapDims gather_tap_apply)

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same, then closing what is left by unfolding. -/
local macro "host_step" : tactic => `(tactic| (host_read <;> rfl))

/-- The lookup's range test on a clamped position holds, for every parity, column and pooled column that occur. -/
theorem tap_inRange1 : ∀ (p : Fin 2) (w : Fin 28) (oxh : Fin 12),
    IntOp.andi (IntOp.cmpi .sge (tapIndex (BitVec.ofNat 32 p.val) w.val oxh.val) 0#32)
      (IntOp.cmpi .sle (tapIndex (BitVec.ofNat 32 p.val) w.val oxh.val) 4#32) = 1#1 := by
  decide +kernel

theorem band1_gather_eq : gather_S5x5x1x10_S28x12x1_S5x28x12x1x10_034_1_n_n_1_2_51110
    = tapDims 5 5 1 10 28 12 gather_S5x5x1x10_S28x12x1_S5x28x12x1x10_034_1_n_n_1_2_51110_wf := rfl

/-! ## The program's lines -/

set_option maxHeartbeats 4000000 in
/-- The table is the turn of the flattening of the masked lookup. -/
theorem tab1Even_out (c : Dev nD) : @Eq (FVec Ideal S120x5x28 .f32) (V m c main_v27)
    (transpose S120x5x28 [2, 0, 1] (shapeCast S5x28x120 (V m c main_v25 : FVec Ideal S5x28x12x1x10 .f32) shapeCasts_S5x28x12x1x10_S5x28x120)
      transposes_S5x28x120_S120x5x28_2_0_1) := by
  host_step

set_option maxHeartbeats 4000000 in
/-- The masked lookup: the lookup where the band's test holds, the zero array elsewhere. -/
theorem tab1Even_where (c : Dev nD) : @Eq (FVec Ideal S5x28x12x1x10 .f32) (V m c main_v25)
    (select (broadcastInDim S5x28x12x1x10 ![0, 1, 2, 3, 4] bcast_S1x28x12x1x1_S5x28x12x1x10_0_1_2_3_4
        (broadcastInDim S1x28x12x1x1 ![1, 2] bcast_S28x12_S1x28x12x1x1_1_2 (V m c main_v23 : IVec S28x12 1)))
      (V m c main_v18 : FVec Ideal S5x28x12x1x10 .f32) (V m c main_call3_v2 : FVec Ideal S5x28x12x1x10 .f32)) := by
  host_step

set_option maxHeartbeats 4000000 in
/-- The band's test at (w, oxh). -/
theorem tab1Even_band (c : Dev nD) (w : Fin 28) (oxh : Fin 12) :
    (V m c main_v23 : IVec S28x12 1) (ix2 w oxh) = tapValid (BitVec.ofNat 32 (0 : Fin 2).val) w.val oxh.val := by
  host_step

set_option maxHeartbeats 4000000 in
/-- The zero array. -/
theorem tab1Even_zero (c : Dev nD) (k : S5x28x12x1x10.Idx) :
    (V m c main_call3_v2 : FVec Ideal S5x28x12x1x10 .f32) k = Ideal.ofBits .f32 0x00000000#32 := by
  host_step

set_option maxHeartbeats 4000000 in
/-- The lookup: the gathered weights where the lookup's own range test holds, its fallback elsewhere. -/
theorem tab1Even_take (c : Dev nD) : @Eq (FVec Ideal S5x28x12x1x10 .f32) (V m c main_v18)
    (select (broadcastInDim S5x28x12x1x10 ![1, 2] bcast_S28x12_S5x28x12x1x10_1_2 (V m c main_call2_v12 : IVec S28x12 1))
      (Host.gather gather_S5x5x1x10_S28x12x1_S5x28x12x1x10_034_1_n_n_1_2_51110 (V m c main_v16 : FVec Ideal S5x5x1x10 .f32)
        (V m c main_call2_v5 : IVec S28x12x1 32))
      (V m c main_call2_v15 : FVec Ideal S5x28x12x1x10 .f32)) := by
  host_step

set_option maxHeartbeats 4000000 in
/-- The lookup's range test: the conjunction over the one component. -/
theorem tab1Even_ok (c : Dev nD) : @Eq (IVec S28x12 1) (V m c main_call2_v12)
    (Host.reduce IntOp.andi (V m c main_call2_v11 : IVec S28x12x1 1) (V m c main_call2_c_3 : IVec S_ 1) reducesTo_S28x12x1_S28x12_d2 h_S_) := by
  host_step

set_option maxHeartbeats 4000000 in
/-- The component's test at (w, oxh, 0). -/
theorem tab1Even_cmp (c : Dev nD) (w : Fin 28) (oxh : Fin 12) (u : Fin 1) :
    (V m c main_call2_v11 : IVec S28x12x1 1) (ix3 w oxh u)
      = IntOp.andi (IntOp.cmpi .sge (tapIndex (BitVec.ofNat 32 (0 : Fin 2).val) w.val oxh.val) 0#32) (IntOp.cmpi .sle (tapIndex (BitVec.ofNat 32 (0 : Fin 2).val) w.val oxh.val) 4#32) := by
  host_step

set_option maxHeartbeats 4000000 in
/-- The conjunction starts from the word 1. -/
theorem tab1Even_one (c : Dev nD) (k : S_.Idx) : (V m c main_call2_c_3 : IVec S_ 1) k = 1#1 := by
  host_step

set_option maxHeartbeats 4000000 in
/-- The lookup position at (w, oxh, 0). -/
theorem tab1Even_pos (c : Dev nD) (w : Fin 28) (oxh : Fin 12) (u : Fin 1) :
    (V m c main_call2_v5 : IVec S28x12x1 32) (ix3 w oxh u) = tapIndex (BitVec.ofNat 32 (0 : Fin 2).val) w.val oxh.val := by
  host_step

set_option maxHeartbeats 4000000 in
/-- The weights with the kernel axes in front. -/
theorem tab1Even_wt (c : Dev nD) : @Eq (FVec Ideal S5x5x1x10 .f32) (V m c main_v16)
    (transpose S5x5x1x10 [2, 3, 1, 0] ((m ((c : Thread nD τ).loc main_arg1)) : FVec Ideal S10x1x5x5 .f32) transposes_S10x1x5x5_S5x5x1x10_2_3_1_0) := by
  host_step

/-! ## The table at an entry -/

/-- The lookup's own range test holds everywhere. -/
theorem tab1Even_ok_one (c : Dev nD) (w : Fin 28) (oxh : Fin 12) : (V m c main_call2_v12 : IVec S28x12 1) (ix2 w oxh) = 1#1 := by
  rw [tab1Even_ok m c]
  refine reduce_andi_one _ _ _ _ _ (tab1Even_one m c _) fun (i3 : S28x12x1.Idx) => ?_
  rw [eq_ix3 i3]
  refine (tab1Even_cmp m c (i3 0) (i3 1) (i3 2)).trans ?_
  exact tap_inRange1 (0 : Fin 2) (i3 0) (i3 1)

/-- THE TABLE AT AN ENTRY. -/
theorem tab1Even_entry (c : Dev nD) (oxh : Fin 12) (co : Fin 10) (i : Fin 5) (w : Fin 28)
    (hr : 10 * oxh.val + co.val < 120) :
    (V m c main_v27 : FVec Ideal S120x5x28 .f32) (ix3 (⟨10 * oxh.val + co.val, hr⟩ : Fin 120) i w)
      = if h : 2 * oxh.val + 0 ≤ w.val ∧ w.val < 2 * oxh.val + 0 + 5 then
          (m ((c : Thread nD τ).loc main_arg1)) (ix4 co (0 : Fin 1) i (⟨w.val - (2 * oxh.val + 0), by omega⟩ : Fin 5))
        else Ideal.ofBits .f32 0x00000000#32 := by
  refine (congrFun (tab1Even_out m c) _).trans ?_
  refine (transpose_apply _ _ _ (ix3 (⟨10 * oxh.val + co.val, hr⟩ : Fin 120) i w) (ix3 i w (⟨10 * oxh.val + co.val, hr⟩ : Fin 120)) ?_).trans ?_
  · intro b
    match b with
    | ⟨0, _⟩ => rfl
    | ⟨1, _⟩ => rfl
    | ⟨2, _⟩ => rfl
  refine (shapeCast_apply _ _ (ix3 i w (⟨10 * oxh.val + co.val, hr⟩ : Fin 120)) (ix5 i w oxh (0 : Fin 1) co) ?_).trans ?_
  · rw [Shape.rowMajor_val_five, Shape.rowMajor_val_three]
    show (((i.val * 28 + w.val) * 12 + oxh.val) * 1 + 0) * 10 + co.val = (i.val * 28 + w.val) * 120 + (10 * oxh.val + co.val)
    omega
  refine (congrFun (tab1Even_where m c) _).trans ?_
  rw [select_apply]
  have hc : broadcastInDim S5x28x12x1x10 ![0, 1, 2, 3, 4] bcast_S1x28x12x1x1_S5x28x12x1x10_0_1_2_3_4
        (broadcastInDim S1x28x12x1x1 ![1, 2] bcast_S28x12_S1x28x12x1x1_1_2 (V m c main_v23 : IVec S28x12 1)) (ix5 i w oxh (0 : Fin 1) co)
      = tapValid (BitVec.ofNat 32 (0 : Fin 2).val) w.val oxh.val := by
    refine (broadcastInDim_apply _ _ _ (ix5 i w oxh (0 : Fin 1) co) (ix5 (0 : Fin 1) w oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) w oxh (0 : Fin 1) (0 : Fin 1)) (ix2 w oxh) ?_).trans ?_
    · intro b
      match b with
      | ⟨0, _⟩ => rfl
      | ⟨1, _⟩ => rfl
    exact tab1Even_band m c w oxh
  have hg : (V m c main_v18 : FVec Ideal S5x28x12x1x10 .f32) (ix5 i w oxh (0 : Fin 1) co)
      = (m ((c : Thread nD τ).loc main_arg1)) (ix4 co (0 : Fin 1) i (⟨min (tapIndex (BitVec.ofNat 32 (0 : Fin 2).val) w.val oxh.val).toInt.toNat (5 - 1), by omega⟩ : Fin 5)) := by
    refine (congrFun (tab1Even_take m c) _).trans ?_
    rw [select_apply]
    have hok : broadcastInDim S5x28x12x1x10 ![1, 2] bcast_S28x12_S5x28x12x1x10_1_2 (V m c main_call2_v12 : IVec S28x12 1) (ix5 i w oxh (0 : Fin 1) co) = 1#1 := by
      refine (broadcastInDim_apply _ _ _ (ix5 i w oxh (0 : Fin 1) co) (ix2 w oxh) ?_).trans ?_
      · intro b
        match b with
        | ⟨0, _⟩ => rfl
        | ⟨1, _⟩ => rfl
      exact tab1Even_ok_one m c w oxh
    rw [hok, select_one, band1_gather_eq]
    refine (gather_tap_apply (by norm_num) _ _ _ i w oxh (0 : Fin 1) co).trans ?_
    rw [tab1Even_wt m c]
    refine (transpose_apply _ _ _ (ix4 i (⟨min ((V m c main_call2_v5 : IVec S28x12x1 32) (ix3 w oxh (0 : Fin 1))).toInt.toNat (5 - 1), by omega⟩ : Fin 5) (0 : Fin 1) co)
      (ix4 co (0 : Fin 1) i (⟨min ((V m c main_call2_v5 : IVec S28x12x1 32) (ix3 w oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => (m ((c : Thread nD τ).loc main_arg1)) (ix4 co (0 : Fin 1) i t))
      (Fin.ext (congrArg (fun v : BitVec 32 => min v.toInt.toNat (5 - 1)) (tab1Even_pos m c w oxh (0 : Fin 1))))
  rw [hc, hg, tab1Even_zero m c]
  obtain ⟨hv, hi⟩ := tap_facts (0 : Fin 2) w oxh
  by_cases h : 2 * oxh.val + 0 ≤ w.val ∧ w.val < 2 * oxh.val + 0 + 5
  · rw [dif_pos h, hv.mpr h, select_one]
    exact congrArg (fun t : Fin 5 => (m ((c : Thread nD τ).loc main_arg1)) (ix4 co (0 : Fin 1) i t)) (Fin.ext (hi h))
  · rw [dif_neg h, eq_zero_of_ne_one (fun e => h (hv.mp e)), select_zero]

end Cert.KernelIdeal.Net
-- ==== Proof.KernelBand1TopTableOdd.lean ====
/-
  One parity's (1) 120 x 5 x 28 table of the single-launch program's first banded matrix, read at an entry: at
  (10 * oxh + co, i, w) it holds the first convolution's weight (co, 0, i, w - (2 * oxh + 1)) when
  2 * oxh + 1 ≤ w < 2 * oxh + 1 + 5, and zero otherwise. The program builds it from index words: the difference
  w - (2 * oxh + 1), its test 0 ≤ d < 5, the difference clamped into 0 … 4 as a lookup position along the kernel-column
  axis (the lookup's own range test on a clamped position always holds), a flattening and a turn of the axes.
-/
import proofs.«138577_g2000503492652488_pallasbulk_942_42_alg».proof.Proof.KernelIdealHost
import proofs.«138577_g2000503492652488_pallasbulk_942_42_alg».proof.Proof.ReferenceOperandsTap
import proofs.«138577_g2000503492652488_pallasbulk_942_42_alg».proof.Proof.KernelOperandsLib
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Tactic
open Idealize.ShloMosaic.ValueIdx
open Cert.ReferenceIdeal.Net (tapDiff tapValid tapClip tapIndex tap_facts tapDims gather_tap_apply)

variable (m : (ℓ : Loc nD τ sig) → Buf (Elt Ideal) ℓ)

/-- Unfold the lines before the launch and rewrite every line's result at the buffer read. -/
local macro "host_read" : tactic =>
  `(tactic| (dsimp only [V, V0]
             simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, List.flatten_cons, List.flatten_nil, List.append_nil, List.cons_append, List.nil_append]
             after_results_simp))

/-- The same, then closing what is left by unfolding. -/
local macro "host_step" : tactic => `(tactic| (host_read <;> rfl))

/-- The lookup's range test on a clamped position holds, for every parity, column and pooled column that occur. -/
theorem tap_inRange1 : ∀ (p : Fin 2) (w : Fin 28) (oxh : Fin 12),
    IntOp.andi (IntOp.cmpi .sge (tapIndex (BitVec.ofNat 32 p.val) w.val oxh.val) 0#32)
      (IntOp.cmpi .sle (tapIndex (BitVec.ofNat 32 p.val) w.val oxh.val) 4#32) = 1#1 := by
  decide +kernel

theorem band1_gather_eq : gather_S5x5x1x10_S28x12x1_S5x28x12x1x10_034_1_n_n_1_2_51110
    = tapDims 5 5 1 10 28 12 gather_S5x5x1x10_S28x12x1_S5x28x12x1x10_034_1_n_n_1_2_51110_wf := rfl

/-! ## The program's lines -/

set_option maxHeartbeats 4000000 in
/-- The table is the turn of the flattening of the masked lookup. -/
theorem tab1Odd_out (c : Dev nD) : @Eq (FVec Ideal S120x5x28 .f32) (V m c main_v60)
    (transpose S120x5x28 [2, 0, 1] (shapeCast S5x28x120 (V m c main_v58 : FVec Ideal S5x28x12x1x10 .f32) shapeCasts_S5x28x12x1x10_S5x28x120)
      transposes_S5x28x120_S120x5x28_2_0_1) := by
  host_step

set_option maxHeartbeats 4000000 in
/-- The masked lookup: the lookup where the band's test holds, the zero array elsewhere. -/
theorem tab1Odd_where (c : Dev nD) : @Eq (FVec Ideal S5x28x12x1x10 .f32) (V m c main_v58)
    (select (broadcastInDim S5x28x12x1x10 ![0, 1, 2, 3, 4] bcast_S1x28x12x1x1_S5x28x12x1x10_0_1_2_3_4
        (broadcastInDim S1x28x12x1x1 ![1, 2] bcast_S28x12_S1x28x12x1x1_1_2 (V m c main_v56 : IVec S28x12 1)))
      (V m c main_v51 : FVec Ideal S5x28x12x1x10 .f32) (V m c main_call11_v2 : FVec Ideal S5x28x12x1x10 .f32)) := by
  host_step

set_option maxHeartbeats 4000000 in
/-- The band's test at (w, oxh). -/
theorem tab1Odd_band (c : Dev nD) (w : Fin 28) (oxh : Fin 12) :
    (V m c main_v56 : IVec S28x12 1) (ix2 w oxh) = tapValid (BitVec.ofNat 32 (1 : Fin 2).val) w.val oxh.val := by
  host_step

set_option maxHeartbeats 4000000 in
/-- The zero array. -/
theorem tab1Odd_zero (c : Dev nD) (k : S5x28x12x1x10.Idx) :
    (V m c main_call11_v2 : FVec Ideal S5x28x12x1x10 .f32) k = Ideal.ofBits .f32 0x00000000#32 := by
  host_step

set_option maxHeartbeats 4000000 in
/-- The lookup: the gathered weights where the lookup's own range test holds, its fallback elsewhere. -/
theorem tab1Odd_take (c : Dev nD) : @Eq (FVec Ideal S5x28x12x1x10 .f32) (V m c main_v51)
    (select (broadcastInDim S5x28x12x1x10 ![1, 2] bcast_S28x12_S5x28x12x1x10_1_2 (V m c main_call10_v12 : IVec S28x12 1))
      (Host.gather gather_S5x5x1x10_S28x12x1_S5x28x12x1x10_034_1_n_n_1_2_51110 (V m c main_v49 : FVec Ideal S5x5x1x10 .f32)
        (V m c main_call10_v5 : IVec S28x12x1 32))
      (V m c main_call10_v15 : FVec Ideal S5x28x12x1x10 .f32)) := by
  host_step

set_option maxHeartbeats 4000000 in
/-- The lookup's range test: the conjunction over the one component. -/
theorem tab1Odd_ok (c : Dev nD) : @Eq (IVec S28x12 1) (V m c main_call10_v12)
    (Host.reduce IntOp.andi (V m c main_call10_v11 : IVec S28x12x1 1) (V m c main_call10_c_3 : IVec S_ 1) reducesTo_S28x12x1_S28x12_d2 h_S_) := by
  host_step

set_option maxHeartbeats 4000000 in
/-- The component's test at (w, oxh, 0). -/
theorem tab1Odd_cmp (c : Dev nD) (w : Fin 28) (oxh : Fin 12) (u : Fin 1) :
    (V m c main_call10_v11 : IVec S28x12x1 1) (ix3 w oxh u)
      = IntOp.andi (IntOp.cmpi .sge (tapIndex (BitVec.ofNat 32 (1 : Fin 2).val) w.val oxh.val) 0#32) (IntOp.cmpi .sle (tapIndex (BitVec.ofNat 32 (1 : Fin 2).val) w.val oxh.val) 4#32) := by
  host_step

set_option maxHeartbeats 4000000 in
/-- The conjunction starts from the word 1. -/
theorem tab1Odd_one (c : Dev nD) (k : S_.Idx) : (V m c main_call10_c_3 : IVec S_ 1) k = 1#1 := by
  host_step

set_option maxHeartbeats 4000000 in
/-- The lookup position at (w, oxh, 0). -/
theorem tab1Odd_pos (c : Dev nD) (w : Fin 28) (oxh : Fin 12) (u : Fin 1) :
    (V m c main_call10_v5 : IVec S28x12x1 32) (ix3 w oxh u) = tapIndex (BitVec.ofNat 32 (1 : Fin 2).val) w.val oxh.val := by
  host_step

set_option maxHeartbeats 4000000 in
/-- The weights with the kernel axes in front. -/
theorem tab1Odd_wt (c : Dev nD) : @Eq (FVec Ideal S5x5x1x10 .f32) (V m c main_v49)
    (transpose S5x5x1x10 [2, 3, 1, 0] ((m ((c : Thread nD τ).loc main_arg1)) : FVec Ideal S10x1x5x5 .f32) transposes_S10x1x5x5_S5x5x1x10_2_3_1_0) := by
  host_step

/-! ## The table at an entry -/

/-- The lookup's own range test holds everywhere. -/
theorem tab1Odd_ok_one (c : Dev nD) (w : Fin 28) (oxh : Fin 12) : (V m c main_call10_v12 : IVec S28x12 1) (ix2 w oxh) = 1#1 := by
  rw [tab1Odd_ok m c]
  refine reduce_andi_one _ _ _ _ _ (tab1Odd_one m c _) fun (i3 : S28x12x1.Idx) => ?_
  rw [eq_ix3 i3]
  refine (tab1Odd_cmp m c (i3 0) (i3 1) (i3 2)).trans ?_
  exact tap_inRange1 (1 : Fin 2) (i3 0) (i3 1)

/-- THE TABLE AT AN ENTRY. -/
theorem tab1Odd_entry (c : Dev nD) (oxh : Fin 12) (co : Fin 10) (i : Fin 5) (w : Fin 28)
    (hr : 10 * oxh.val + co.val < 120) :
    (V m c main_v60 : FVec Ideal S120x5x28 .f32) (ix3 (⟨10 * oxh.val + co.val, hr⟩ : Fin 120) i w)
      = if h : 2 * oxh.val + 1 ≤ w.val ∧ w.val < 2 * oxh.val + 1 + 5 then
          (m ((c : Thread nD τ).loc main_arg1)) (ix4 co (0 : Fin 1) i (⟨w.val - (2 * oxh.val + 1), by omega⟩ : Fin 5))
        else Ideal.ofBits .f32 0x00000000#32 := by
  refine (congrFun (tab1Odd_out m c) _).trans ?_
  refine (transpose_apply _ _ _ (ix3 (⟨10 * oxh.val + co.val, hr⟩ : Fin 120) i w) (ix3 i w (⟨10 * oxh.val + co.val, hr⟩ : Fin 120)) ?_).trans ?_
  · intro b
    match b with
    | ⟨0, _⟩ => rfl
    | ⟨1, _⟩ => rfl
    | ⟨2, _⟩ => rfl
  refine (shapeCast_apply _ _ (ix3 i w (⟨10 * oxh.val + co.val, hr⟩ : Fin 120)) (ix5 i w oxh (0 : Fin 1) co) ?_).trans ?_
  · rw [Shape.rowMajor_val_five, Shape.rowMajor_val_three]
    show (((i.val * 28 + w.val) * 12 + oxh.val) * 1 + 0) * 10 + co.val = (i.val * 28 + w.val) * 120 + (10 * oxh.val + co.val)
    omega
  refine (congrFun (tab1Odd_where m c) _).trans ?_
  rw [select_apply]
  have hc : broadcastInDim S5x28x12x1x10 ![0, 1, 2, 3, 4] bcast_S1x28x12x1x1_S5x28x12x1x10_0_1_2_3_4
        (broadcastInDim S1x28x12x1x1 ![1, 2] bcast_S28x12_S1x28x12x1x1_1_2 (V m c main_v56 : IVec S28x12 1)) (ix5 i w oxh (0 : Fin 1) co)
      = tapValid (BitVec.ofNat 32 (1 : Fin 2).val) w.val oxh.val := by
    refine (broadcastInDim_apply _ _ _ (ix5 i w oxh (0 : Fin 1) co) (ix5 (0 : Fin 1) w oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) w oxh (0 : Fin 1) (0 : Fin 1)) (ix2 w oxh) ?_).trans ?_
    · intro b
      match b with
      | ⟨0, _⟩ => rfl
      | ⟨1, _⟩ => rfl
    exact tab1Odd_band m c w oxh
  have hg : (V m c main_v51 : FVec Ideal S5x28x12x1x10 .f32) (ix5 i w oxh (0 : Fin 1) co)
      = (m ((c : Thread nD τ).loc main_arg1)) (ix4 co (0 : Fin 1) i (⟨min (tapIndex (BitVec.ofNat 32 (1 : Fin 2).val) w.val oxh.val).toInt.toNat (5 - 1), by omega⟩ : Fin 5)) := by
    refine (congrFun (tab1Odd_take m c) _).trans ?_
    rw [select_apply]
    have hok : broadcastInDim S5x28x12x1x10 ![1, 2] bcast_S28x12_S5x28x12x1x10_1_2 (V m c main_call10_v12 : IVec S28x12 1) (ix5 i w oxh (0 : Fin 1) co) = 1#1 := by
      refine (broadcastInDim_apply _ _ _ (ix5 i w oxh (0 : Fin 1) co) (ix2 w oxh) ?_).trans ?_
      · intro b
        match b with
        | ⟨0, _⟩ => rfl
        | ⟨1, _⟩ => rfl
      exact tab1Odd_ok_one m c w oxh
    rw [hok, select_one, band1_gather_eq]
    refine (gather_tap_apply (by norm_num) _ _ _ i w oxh (0 : Fin 1) co).trans ?_
    rw [tab1Odd_wt m c]
    refine (transpose_apply _ _ _ (ix4 i (⟨min ((V m c main_call10_v5 : IVec S28x12x1 32) (ix3 w oxh (0 : Fin 1))).toInt.toNat (5 - 1), by omega⟩ : Fin 5) (0 : Fin 1) co)
      (ix4 co (0 : Fin 1) i (⟨min ((V m c main_call10_v5 : IVec S28x12x1 32) (ix3 w oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => (m ((c : Thread nD τ).loc main_arg1)) (ix4 co (0 : Fin 1) i t))
      (Fin.ext (congrArg (fun v : BitVec 32 => min v.toInt.toNat (5 - 1)) (tab1Odd_pos m c w oxh (0 : Fin 1))))
  rw [hc, hg, tab1Odd_zero m c]
  obtain ⟨hv, hi⟩ := tap_facts (1 : Fin 2) w oxh
  by_cases h : 2 * oxh.val + 1 ≤ w.val ∧ w.val < 2 * oxh.val + 1 + 5
  · rw [dif_pos h, hv.mpr h, select_one]
    exact congrArg (fun t : Fin 5 => (m ((c : Thread nD τ).loc main_arg1)) (ix4 co (0 : Fin 1) i t)) (Fin.ext (hi h))
  · rw [dif_neg h, eq_zero_of_ne_one (fun e => h (hv.mp e)), select_zero]

end Cert.KernelIdeal.Net
-- ==== Proof.ReferenceOperandsBandFirst.lean ====
/-
  The first launch's two banded factors (5 x 28 x 120) as functions of conv1_w. For parity p (0: even output columns,
  1: odd), entry (i, w, 10 oxh + co) is conv1_w at (co, 0, i, w - (2 oxh + p)) when 2 oxh + p ≤ w < 2 oxh + p + 5 and
  zero otherwise: row i of the 5 x 5 kernel laid along the 28 input columns at the offset of output column 2 oxh + p.
-/
import proofs.«138577_g2000503492652488_pallasbulk_942_42_alg».proof.Proof.Gen.ReferenceIdeal.Frame
import proofs.«138577_g2000503492652488_pallasbulk_942_42_alg».proof.Proof.ReferenceOperandsTap
import Idealize.ShloMosaic.Lib.Pipeline.Value
import Idealize.ShloMosaic.Lib.ValueIdx
import Idealize.ShloMosaic.Lib.ValueLayout

set_option maxRecDepth 16384

noncomputable section

namespace Cert.ReferenceIdeal.Net

open Cert.ReferenceIdeal Cert.ReferenceIdeal.Gen
open Idealize.ShloMosaic Idealize.ShloMosaic.TcCoe Idealize.ShloMosaic.ValueIdx

variable (m : (ℓ : Loc nD τ sig) → Buf (Elt Ideal) ℓ) (ρ : Dev nD → PrngReg)

/-- The difference words: input column minus (twice the pooled output column plus the parity). -/
def firstDiff (p : BitVec 32) : IVec S28x12 32 :=
  subi
    (broadcastInDim S28x12 ![0, 1] bcast_S28x1_S28x12_0_1 (broadcastInDim S28x1 ![0] bcast_S28_S28x1_0 (iotaInDim S28 32 0)))
    (broadcastInDim S28x12 ![0, 1] bcast_S1x12_S28x12_0_1 (broadcastInDim S1x12 ![1] bcast_S12_S1x12_1
      (addi (muli (broadcastInDim S12 ![] bcast_S_S12 (constantI S_ 32 2#32)) (iotaInDim S12 32 0))
        (broadcastInDim S12 ![] bcast_S_S12 (constantI S_ 32 p)))))

/-- The test 0 ≤ d < 5. -/
def firstValid (p : BitVec 32) : IVec S28x12 1 :=
  andi (cmpi .sge (firstDiff p) (broadcastInDim S28x12 ![] bcast_S_S28x12 (constantI S_ 32 0#32)))
    (cmpi .slt (firstDiff p) (broadcastInDim S28x12 ![] bcast_S_S28x12 (constantI S_ 32 5#32)))

/-- The difference clamped into 0 … 4. -/
def firstClip (p : BitVec 32) : IVec S28x12 32 :=
  minsi (broadcastInDim S28x12 ![] bcast_S_S28x12 (constantI S_ 32 4#32))
    (maxsi (broadcastInDim S28x12 ![] bcast_S_S28x12 (constantI S_ 32 0#32)) (firstDiff p))

/-- The lookup positions. -/
def firstTap (p : BitVec 32) : IVec S28x12 32 :=
  select (cmpi .slt (firstClip p) (broadcastInDim S28x12 ![] bcast_S_S28x12 (constantI S_ 32 0#32)))
    (addi (firstClip p) (broadcastInDim S28x12 ![] bcast_S_S28x12 (constantI S_ 32 5#32))) (firstClip p)

/-- The banded factor of parity p built from the weights: looked up at the positions, zeroed where the test fails, the
    pooled-column axis moved behind the channel axis, and flattened. -/
def firstBand (p : BitVec 32) (wt : S10x1x5x5.Idx → Ideal .f32) : S5x28x120.Idx → Ideal .f32 :=
  shapeCast S5x28x120 (transpose S5x28x1x12x10 [0, 1, 3, 2, 4]
    (select
      (broadcastInDim S5x28x12x1x10 ![0, 1, 2, 3, 4] bcast_S1x28x12x1x1_S5x28x12x1x10_0_1_2_3_4
        (broadcastInDim S1x28x12x1x1 ![1, 2] bcast_S28x12_S1x28x12x1x1_1_2 (firstValid p)))
      (Host.gather gather_S5x5x1x10_S28x12x1_S5x28x12x1x10_034_1_n_n_1_2_51110 (transpose S5x5x1x10 [2, 3, 1, 0] wt transposes_S10x1x5x5_S5x5x1x10_2_3_1_0)
        (broadcastInDim S28x12x1 ![0, 1] bcast_S28x12_S28x12x1_0_1 (firstTap p)))
      (broadcastInDim S5x28x12x1x10 ![] bcast_S_S5x28x12x1x10 (constant (F := Ideal) S_ .f32 0x00000000#32)))
    transposes_S5x28x12x1x10_S5x28x1x12x10_0_1_3_2_4) shapeCasts_S5x28x1x12x10_S5x28x120

theorem firstValid_apply (p : BitVec 32) (w : Fin 28) (oxh : Fin 12) :
    firstValid p (ix2 w oxh) = tapValid p w.val oxh.val := rfl

theorem firstTap_apply (p : BitVec 32) (w : Fin 28) (oxh : Fin 12) :
    firstTap p (ix2 w oxh) = tapIndex p w.val oxh.val := rfl

theorem first_gather_eq : gather_S5x5x1x10_S28x12x1_S5x28x12x1x10_034_1_n_n_1_2_51110 = tapDims 5 5 1 10 28 12 gather_S5x5x1x10_S28x12x1_S5x28x12x1x10_034_1_n_n_1_2_51110_wf := rfl

/-- THE FACTOR AT AN ENTRY: kernel row i, input column w, pooled output column oxh and output channel co hold
    the weight at kernel column w - (2 oxh + p) when that is one of 0 … 4, and zero otherwise. -/
theorem firstBand_apply (p : Fin 2) (wt : S10x1x5x5.Idx → Ideal .f32) (i : Fin 5) (w : Fin 28) (oxh : Fin 12) (co : Fin 10) :
    firstBand (BitVec.ofNat 32 p.val) wt (ix3 i w (⟨10 * oxh.val + co.val, by omega⟩ : Fin 120))
      = if h : 2 * oxh.val + p.val ≤ w.val ∧ w.val < 2 * oxh.val + p.val + 5 then
          wt (ix4 co (0 : Fin 1) i (⟨w.val - (2 * oxh.val + p.val), by omega⟩ : Fin 5))
        else Ideal.ofBits .f32 0x00000000#32 := by
  unfold firstBand
  refine (shapeCast_apply _ _ _ (ix5 i w (0 : Fin 1) oxh co) ?_).trans ?_
  · rw [Shape.rowMajor_val_five, Shape.rowMajor_val_three]
    show (((i.val * 28 + w.val) * 1 + 0) * 12 + oxh.val) * 10 + co.val = (i.val * 28 + w.val) * 120 + (10 * oxh.val + co.val)
    omega
  refine (transpose_apply _ _ _ (ix5 i w (0 : Fin 1) oxh co) (ix5 i w oxh (0 : Fin 1) co) ?_).trans ?_
  · intro b
    match b with
    | ⟨0, _⟩ => rfl
    | ⟨1, _⟩ => rfl
    | ⟨2, _⟩ => rfl
    | ⟨3, _⟩ => rfl
    | ⟨4, _⟩ => rfl
  rw [select_apply]
  have hc : broadcastInDim S5x28x12x1x10 ![0, 1, 2, 3, 4] bcast_S1x28x12x1x1_S5x28x12x1x10_0_1_2_3_4
        (broadcastInDim S1x28x12x1x1 ![1, 2] bcast_S28x12_S1x28x12x1x1_1_2 (firstValid (BitVec.ofNat 32 p.val))) (ix5 i w oxh (0 : Fin 1) co)
      = tapValid (BitVec.ofNat 32 p.val) w.val oxh.val := by
    refine (broadcastInDim_apply _ _ _ (ix5 i w oxh (0 : Fin 1) co) (ix5 (0 : Fin 1) w oxh (0 : Fin 1) (0 : Fin 1)) ?_).trans ?_
    · intro b
      match b with
      | ⟨0, _⟩ => rfl
      | ⟨1, _⟩ => rfl
      | ⟨2, _⟩ => rfl
      | ⟨3, _⟩ => rfl
      | ⟨4, _⟩ => rfl
    refine (broadcastInDim_apply _ _ _ (ix5 (0 : Fin 1) w oxh (0 : Fin 1) (0 : Fin 1)) (ix2 w oxh) ?_).trans ?_
    · intro b
      match b with
      | ⟨0, _⟩ => rfl
      | ⟨1, _⟩ => rfl
    exact firstValid_apply _ w oxh
  have hg : Host.gather gather_S5x5x1x10_S28x12x1_S5x28x12x1x10_034_1_n_n_1_2_51110 (transpose S5x5x1x10 [2, 3, 1, 0] wt transposes_S10x1x5x5_S5x5x1x10_2_3_1_0)
        (broadcastInDim S28x12x1 ![0, 1] bcast_S28x12_S28x12x1_0_1 (firstTap (BitVec.ofNat 32 p.val))) (ix5 i w oxh (0 : Fin 1) co)
      = wt (ix4 co (0 : Fin 1) i (⟨min (tapIndex (BitVec.ofNat 32 p.val) w.val oxh.val).toInt.toNat (5 - 1), by omega⟩ : Fin 5)) := by
    rw [first_gather_eq]
    refine (gather_tap_apply (by norm_num) _ _ _ i w oxh (0 : Fin 1) co).trans ?_
    have hp : broadcastInDim S28x12x1 ![0, 1] bcast_S28x12_S28x12x1_0_1 (firstTap (BitVec.ofNat 32 p.val)) (ix3 w oxh (0 : Fin 1))
        = tapIndex (BitVec.ofNat 32 p.val) w.val oxh.val := by
      refine (broadcastInDim_apply _ _ _ (ix3 w oxh (0 : Fin 1)) (ix2 w oxh) ?_).trans ?_
      · intro b
        match b with
        | ⟨0, _⟩ => rfl
        | ⟨1, _⟩ => rfl
      exact firstTap_apply _ w oxh
    refine (transpose_apply _ _ _ (ix4 i (⟨min (broadcastInDim S28x12x1 ![0, 1] bcast_S28x12_S28x12x1_0_1 (firstTap (BitVec.ofNat 32 p.val)) (ix3 w oxh (0 : Fin 1))).toInt.toNat (5 - 1), by omega⟩ : Fin 5) (0 : Fin 1) co)
      (ix4 co (0 : Fin 1) i (⟨min (broadcastInDim S28x12x1 ![0, 1] bcast_S28x12_S28x12x1_0_1 (firstTap (BitVec.ofNat 32 p.val)) (ix3 w oxh (0 : Fin 1))).toInt.toNat (5 - 1), by omega⟩ : Fin 5)) ?_).trans ?_
    · intro b
      match b with
      | ⟨0, _⟩ => rfl
      | ⟨1, _⟩ => rfl
      | ⟨2, _⟩ => rfl
      | ⟨3, _⟩ => rfl
    exact congrArg (fun t : Fin 5 => wt (ix4 co (0 : Fin 1) i t)) (Fin.ext (congrArg (fun v : BitVec 32 => min v.toInt.toNat (5 - 1)) hp))
  rw [hc, hg]
  obtain ⟨hv, hi⟩ := tap_facts p ⟨w.val, by omega⟩ ⟨oxh.val, by omega⟩
  by_cases h : 2 * oxh.val + p.val ≤ w.val ∧ w.val < 2 * oxh.val + p.val + 5
  · rw [dif_pos h, hv.mpr h, select_one]
    exact congrArg (fun t : Fin 5 => wt (ix4 co (0 : Fin 1) i t)) (Fin.ext (hi h))
  · rw [dif_neg h, eq_zero_of_ne_one (fun e => h (hv.mp e)), select_zero]
    rfl

set_option maxHeartbeats 4000000 in
/-- The first launch's even factor is the banded factor of parity 0 of conv1_w. -/
theorem first_even_eq (c : Dev nD) :
    (V9 (F := Ideal) m ρ c main_v30 : S5x28x120.Idx → Ideal .f32)
      = firstBand (BitVec.ofNat 32 (0 : Fin 2).val) (m ((c.tc : Thread nD τ).loc main_arg1) : S10x1x5x5.Idx → Ideal .f32) := by
  show (W9 m ρ c (Proc.devRef .tc main_v30) : S5x28x120.Idx → Ideal .f32) = _
  after_results_simp
  rfl

set_option maxHeartbeats 4000000 in
/-- The first launch's odd factor is the banded factor of parity 1 of conv1_w. -/
theorem first_odd_eq (c : Dev nD) :
    (V9 (F := Ideal) m ρ c main_v59 : S5x28x120.Idx → Ideal .f32)
      = firstBand (BitVec.ofNat 32 (1 : Fin 2).val) (m ((c.tc : Thread nD τ).loc main_arg1) : S10x1x5x5.Idx → Ideal .f32) := by
  show (W9 m ρ c (Proc.devRef .tc main_v59) : S5x28x120.Idx → Ideal .f32) = _
  after_results_simp
  rfl

/-- The first launch's even factor at an entry. -/
theorem first_even (c : Dev nD) (i : Fin 5) (w : Fin 28) (oxh : Fin 12) (co : Fin 10) :
    (V9 (F := Ideal) m ρ c main_v30 : S5x28x120.Idx → Ideal .f32) (ix3 i w (⟨10 * oxh.val + co.val, by omega⟩ : Fin 120))
      = if h : 2 * oxh.val ≤ w.val ∧ w.val < 2 * oxh.val + 5 then
          (m ((c.tc : Thread nD τ).loc main_arg1) : S10x1x5x5.Idx → Ideal .f32) (ix4 co (0 : Fin 1) i (⟨w.val - (2 * oxh.val), by omega⟩ : Fin 5))
        else Ideal.ofBits .f32 0x00000000#32 :=
  (congrFun (first_even_eq m ρ c) _).trans (firstBand_apply (0 : Fin 2) _ i w oxh co)

/-- The first launch's odd factor at an entry. -/
theorem first_odd (c : Dev nD) (i : Fin 5) (w : Fin 28) (oxh : Fin 12) (co : Fin 10) :
    (V9 (F := Ideal) m ρ c main_v59 : S5x28x120.Idx → Ideal .f32) (ix3 i w (⟨10 * oxh.val + co.val, by omega⟩ : Fin 120))
      = if h : 2 * oxh.val + 1 ≤ w.val ∧ w.val < 2 * oxh.val + 1 + 5 then
          (m ((c.tc : Thread nD τ).loc main_arg1) : S10x1x5x5.Idx → Ideal .f32) (ix4 co (0 : Fin 1) i (⟨w.val - (2 * oxh.val + 1), by omega⟩ : Fin 5))
        else Ideal.ofBits .f32 0x00000000#32 :=
  (congrFun (first_odd_eq m ρ c) _).trans (firstBand_apply (1 : Fin 2) _ i w oxh co)

end Cert.ReferenceIdeal.Net

end
-- ==== Proof.ScoresBand1.lean ====
/-
  The first banded matrix of the single-launch program against the two banded factors of the other program's first
  launch: both hold the first convolution's weight at (channel, row i, column w - (2 oxh + p)) when that column is in
  range and zero otherwise. Row 480 p + 120 jj + k' of the matrix carries, in its column block of 8 rows of 32, the
  factor's entries (i, w, k') at rows jj … jj + 4 and columns 0 … 27, and zero everywhere else.
-/
import proofs.«138577_g2000503492652488_pallasbulk_942_42_alg».proof.Proof.ScoresOperands
import proofs.«138577_g2000503492652488_pallasbulk_942_42_alg».proof.Proof.KernelBand1Top
import proofs.«138577_g2000503492652488_pallasbulk_942_42_alg».proof.Proof.KernelBand1TopTableEven
import proofs.«138577_g2000503492652488_pallasbulk_942_42_alg».proof.Proof.KernelBand1TopTableOdd
import proofs.«138577_g2000503492652488_pallasbulk_942_42_alg».proof.Proof.ReferenceOperandsBandFirst
import Idealize.ShloMosaic.PureOps.Ideal.Laws

noncomputable section

namespace Cert.Net

open Idealize.ShloMosaic Idealize.ShloMosaic.TcCoe Idealize.SL.Sem
open Idealize.ShloMosaic.ValueIdx

/-- Outside the band the matrix is zero. -/
theorem op_band1_zero [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (p : Fin 2) (oy : Fin 24) (k' : Fin 120) (r' : Fin 8) (w : Fin 32)
    (h : ¬(oy.val % 4 ≤ r'.val ∧ r'.val < oy.val % 4 + 5 ∧ w.val < 28)) :
    (Cert.KernelIdeal.Net.iblk m c 1 (kPt n)) (ix2 (⟨480 * p.val + 120 * (oy.val % 4) + k'.val, by have := p.isLt; have := k'.isLt; have := Nat.mod_lt oy.val (by norm_num : 0 < 4); omega⟩ : Fin 960)
        (⟨32 * r'.val + w.val, by have := r'.isLt; have := w.isLt; omega⟩ : Fin 256)) = (0 : Ideal .bf16) := by
  rw [Cert.KernelIdeal.Net.iblk_1]
  exact (Cert.KernelIdeal.Net.V_v73_out m c p (⟨oy.val % 4, Nat.mod_lt _ (by norm_num)⟩ : Fin 4) k' r' w _ _ h).trans Ideal.ofBits_zero_f32

/-- The matrix's rows of parity 0, inside the band, against the even banded factor. -/
theorem op_band1_even [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (oy : Fin 24) (k' : Fin 120) (i : Fin 5) (w : Fin 28) :
    (Cert.KernelIdeal.Net.iblk m c 1 (kPt n)) (ix2 (⟨480 * (0 : Fin 2).val + 120 * (oy.val % 4) + k'.val, by have := (0 : Fin 2).isLt; have := k'.isLt; have := Nat.mod_lt oy.val (by norm_num : 0 < 4); omega⟩ : Fin 960)
        (⟨32 * (oy.val % 4 + i.val) + w.val, by have := i.isLt; have := w.isLt; have := Nat.mod_lt oy.val (by norm_num : 0 < 4); omega⟩ : Fin 256)) = (Cert.ReferenceIdeal.Gen.iblk0 (Cert.ReferenceIdeal.Gen.V9 m' ρ') c 1 (fPt n)) (ix3 i w k') := by
  have hk := k'.isLt
  have hi := i.isLt
  have hw := w.isLt
  have hoy : oy.val % 4 < 4 := Nat.mod_lt _ (by norm_num)
  -- split the lane: k' = 10 oxh + co
  have ek : k' = (⟨10 * (⟨k'.val / 10, by omega⟩ : Fin 12).val + (⟨k'.val % 10, Nat.mod_lt _ (by norm_num)⟩ : Fin 10).val, by show 10 * (k'.val / 10) + k'.val % 10 < 120; omega⟩ : Fin 120) :=
    Fin.ext (by show k'.val = 10 * (k'.val / 10) + k'.val % 10; omega)
  have ei : (⟨oy.val % 4 + i.val - oy.val % 4, by omega⟩ : Fin 5) = i :=
    Fin.ext (by show oy.val % 4 + i.val - oy.val % 4 = i.val; omega)
  rw [Cert.KernelIdeal.Net.iblk_1, Cert.ReferenceIdeal.Net.iblk0_1]
  -- the matrix entry is the parity's table at (k', i, w)
  refine (Cert.KernelIdeal.Net.V_v73_even_in m c (⟨oy.val % 4, hoy⟩ : Fin 4) k' (⟨oy.val % 4 + i.val, by omega⟩ : Fin 8) (⟨w.val, by omega⟩ : Fin 32) _ _
    ⟨Nat.le_add_right _ _, (by show oy.val % 4 + i.val < oy.val % 4 + 5; omega), hw⟩).trans ?_
  refine (congrArg (fun t : Fin 5 => (Cert.KernelIdeal.Net.V m c Cert.KernelIdeal.main_v27 : FVec Ideal Cert.KernelIdeal.S120x5x28 .f32) (ix3 k' t w)) ei).trans ?_
  -- both sides at the split lane
  refine (congrArg (fun t : Fin 120 => (Cert.KernelIdeal.Net.V m c Cert.KernelIdeal.main_v27 : FVec Ideal Cert.KernelIdeal.S120x5x28 .f32) (ix3 t i w)) ek).trans ?_
  refine Eq.trans ?_ (congrArg (fun t : Fin 120 => (Cert.ReferenceIdeal.Gen.V9 m' ρ' c Cert.ReferenceIdeal.main_v30 : Cert.ReferenceIdeal.S5x28x120.Idx → Ideal .f32) (ix3 i w t)) ek).symm
  refine (Cert.KernelIdeal.Net.tab1Even_entry m c ⟨k'.val / 10, by omega⟩ ⟨k'.val % 10, Nat.mod_lt _ (by norm_num)⟩ i w _).trans ?_
  refine Eq.trans ?_ (Cert.ReferenceIdeal.Net.first_even m' ρ' c i w ⟨k'.val / 10, by omega⟩ ⟨k'.val % 10, Nat.mod_lt _ (by norm_num)⟩).symm
  by_cases hc : 2 * (k'.val / 10) ≤ w.val ∧ w.val < 2 * (k'.val / 10) + 5
  · refine (dif_pos hc).trans (Eq.trans ?_ (dif_pos hc).symm)
    exact (congrFun (hagree c).2.1 _).symm
  · refine (dif_neg hc).trans ?_
    first
      | (symm; exact dif_neg hc)
      | exact (dif_neg hc).symm

/-- The matrix's rows of parity 1, inside the band, against the odd banded factor. -/
theorem op_band1_odd [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (oy : Fin 24) (k' : Fin 120) (i : Fin 5) (w : Fin 28) :
    (Cert.KernelIdeal.Net.iblk m c 1 (kPt n)) (ix2 (⟨480 * (1 : Fin 2).val + 120 * (oy.val % 4) + k'.val, by have := (1 : Fin 2).isLt; have := k'.isLt; have := Nat.mod_lt oy.val (by norm_num : 0 < 4); omega⟩ : Fin 960)
        (⟨32 * (oy.val % 4 + i.val) + w.val, by have := i.isLt; have := w.isLt; have := Nat.mod_lt oy.val (by norm_num : 0 < 4); omega⟩ : Fin 256)) = (Cert.ReferenceIdeal.Gen.iblk0 (Cert.ReferenceIdeal.Gen.V9 m' ρ') c 2 (fPt n)) (ix3 i w k') := by
  have hk := k'.isLt
  have hi := i.isLt
  have hw := w.isLt
  have hoy : oy.val % 4 < 4 := Nat.mod_lt _ (by norm_num)
  -- split the lane: k' = 10 oxh + co
  have ek : k' = (⟨10 * (⟨k'.val / 10, by omega⟩ : Fin 12).val + (⟨k'.val % 10, Nat.mod_lt _ (by norm_num)⟩ : Fin 10).val, by show 10 * (k'.val / 10) + k'.val % 10 < 120; omega⟩ : Fin 120) :=
    Fin.ext (by show k'.val = 10 * (k'.val / 10) + k'.val % 10; omega)
  have ei : (⟨oy.val % 4 + i.val - oy.val % 4, by omega⟩ : Fin 5) = i :=
    Fin.ext (by show oy.val % 4 + i.val - oy.val % 4 = i.val; omega)
  rw [Cert.KernelIdeal.Net.iblk_1, Cert.ReferenceIdeal.Net.iblk0_2]
  -- the matrix entry is the parity's table at (k', i, w)
  refine (Cert.KernelIdeal.Net.V_v73_odd_in m c (⟨oy.val % 4, hoy⟩ : Fin 4) k' (⟨oy.val % 4 + i.val, by omega⟩ : Fin 8) (⟨w.val, by omega⟩ : Fin 32) _ _
    ⟨Nat.le_add_right _ _, (by show oy.val % 4 + i.val < oy.val % 4 + 5; omega), hw⟩).trans ?_
  refine (congrArg (fun t : Fin 5 => (Cert.KernelIdeal.Net.V m c Cert.KernelIdeal.main_v60 : FVec Ideal Cert.KernelIdeal.S120x5x28 .f32) (ix3 k' t w)) ei).trans ?_
  -- both sides at the split lane
  refine (congrArg (fun t : Fin 120 => (Cert.KernelIdeal.Net.V m c Cert.KernelIdeal.main_v60 : FVec Ideal Cert.KernelIdeal.S120x5x28 .f32) (ix3 t i w)) ek).trans ?_
  refine Eq.trans ?_ (congrArg (fun t : Fin 120 => (Cert.ReferenceIdeal.Gen.V9 m' ρ' c Cert.ReferenceIdeal.main_v59 : Cert.ReferenceIdeal.S5x28x120.Idx → Ideal .f32) (ix3 i w t)) ek).symm
  refine (Cert.KernelIdeal.Net.tab1Odd_entry m c ⟨k'.val / 10, by omega⟩ ⟨k'.val % 10, Nat.mod_lt _ (by norm_num)⟩ i w _).trans ?_
  refine Eq.trans ?_ (Cert.ReferenceIdeal.Net.first_odd m' ρ' c i w ⟨k'.val / 10, by omega⟩ ⟨k'.val % 10, Nat.mod_lt _ (by norm_num)⟩).symm
  by_cases hc : 2 * (k'.val / 10) + 1 ≤ w.val ∧ w.val < 2 * (k'.val / 10) + 1 + 5
  · refine (dif_pos hc).trans (Eq.trans ?_ (dif_pos hc).symm)
    exact (congrFun (hagree c).2.1 _).symm
  · refine (dif_neg hc).trans ?_
    first
      | (symm; exact dif_neg hc)
      | exact (dif_neg hc).symm

end Cert.Net

end
-- ==== Proof.ReferenceConv1.lean ====
/-
  The first launch of the two-launch program, read at an entry of the block it stores.

  The launch holds 28 image rows of 128 images (28 columns each), an even and an odd banded factor (5 slabs of 28 x 120) and
  a bias row. For each of the 24 output rows oy it accumulates, from zero and in the order i = 0, …, 4, the products of image
  rows oy + i with slab i of a factor: at image r and column k that is
      ((((0 + S 0) + S 1) + S 2) + S 3) + S 4,   S i = the sum over w of image (oy + i, r, w) times factor (i, w, k).
  It then takes the maximum of the even and the odd accumulations, the maximum over each pair of output rows (2 p, 2 p + 1),
  adds the bias entry k and clamps below at zero. The stored block at (p, r, k) is that value.
-/
import proofs.«138577_g2000503492652488_pallasbulk_942_42_alg».proof.Proof.Gen.ReferenceIdeal.Frame
import proofs.«138577_g2000503492652488_pallasbulk_942_42_alg».proof.Proof.ReferenceConvLib

set_option maxRecDepth 16384

noncomputable section

namespace Cert.ReferenceIdeal.Net

open Cert.ReferenceIdeal Cert.ReferenceIdeal.Gen
open Idealize.ShloMosaic Idealize.ShloMosaic.ValueIdx
open scoped BigOperators

theorem conv_hz3 : (![0, 0, 0] : Fin 3 → Nat) = fun _ => 0 := funext fun a => by fin_cases a <;> rfl
theorem conv_hz2 : (![0, 0] : Fin 2 → Nat) = fun _ => 0 := funext fun a => by fin_cases a <;> rfl

/-- Image rows `oy + i` of image `r` against column `k` of slab `i` of a factor. -/
def cS1 (x0 : Vec Ideal S28x128x28 .f32) (t : Vec Ideal S5x28x120 .f32) (r : Fin 128) (k : Fin 120)
    (i : ℕ) (hi : i < 5) (oy : Fin 24) : Ideal .f32 :=
  ∑ w : Fin 28, x0 (ix3 (⟨oy.val + i, by have := oy.isLt; omega⟩ : Fin 28) r w) * t (ix3 (⟨i, hi⟩ : Fin 5) w k)

/-- The five of them accumulated from zero, in the order `i = 0, …, 4`. -/
def cAcc1 (x0 : Vec Ideal S28x128x28 .f32) (t : Vec Ideal S5x28x120 .f32) (r : Fin 128) (k : Fin 120) (oy : Fin 24) :
    Ideal .f32 :=
  ((((Ideal.ofBits .f32 0x00000000#32 + cS1 x0 t r k 0 (by norm_num) oy) + cS1 x0 t r k 1 (by norm_num) oy)
      + cS1 x0 t r k 2 (by norm_num) oy) + cS1 x0 t r k 3 (by norm_num) oy) + cS1 x0 t r k 4 (by norm_num) oy

/-- One sum, through the loads of the 24 image rows from row `i` and of slab `i`. -/
theorem cS1_eq (x0 : Vec Ideal S28x128x28 .f32) (t : Vec Ideal S5x28x120 .f32) (r : Fin 128) (k : Fin 120)
    (i : ℕ) (hi : i < 5) (oy : Fin 24)
    (inbX : ∀ a, (![i, 0, 0] : Fin 3 → ℕ) a + S24x128x28.size a ≤ S28x128x28.size a)
    (inbT : ∀ a, (![i, 0, 0] : Fin 3 → ℕ) a + S1x28x120.size a ≤ S5x28x120.size a) :
    (∑ w : Fin 28, View.ld x0 (Rect.unit (s := S28x128x28) ![i, 0, 0] S24x128x28.size inbX) (ix3 oy r w)
        * View.ld t (Rect.unit (s := S5x28x120) ![i, 0, 0] S1x28x120.size inbT) (ix3 (0 : Fin 1) w k))
      = cS1 x0 t r k i hi oy := by
  unfold cS1
  refine Finset.sum_congr rfl fun w _ => ?_
  rw [ld_rows3_apply i x0 inbX oy r w ⟨oy.val + i, by have := oy.isLt; omega⟩ rfl,
    ld_rows3_apply i t inbT (0 : Fin 1) w k ⟨i, hi⟩ (Nat.zero_add i).symm]

/-- The accumulation of the 3072 merged rows (row `128 oy + r`) against one factor. -/
def cvE (x0 : Vec Ideal S28x128x28 .f32) (t : Vec Ideal S5x28x120 .f32) : FVec Ideal S3072x120 .f32 :=
  rowsAcc dot_S3072x28_S28x120_S3072x120_1_0_0_1_n_n_wf shapeCasts_S24x128x28_S24x128x28 shapeCasts_S24x128x28_S3072x28
    shapeCasts_S1x28x120_S28x120
    (View.ld x0 r0_0) (View.ld x0 r0_2) (View.ld x0 r0_4) (View.ld x0 r0_6) (View.ld x0 r0_8)
    (View.ld t r0_1) (View.ld t r0_3) (View.ld t r0_5) (View.ld t r0_7) (View.ld t r0_9)

/-- At row `128 oy + r` and column `k`. -/
theorem cvE_apply (x0 : Vec Ideal S28x128x28 .f32) (t : Vec Ideal S5x28x120 .f32) (oy : Fin 24) (r : Fin 128) (k : Fin 120)
    (row : Fin 3072) (hrow : row.val = oy.val * 128 + r.val) :
    cvE x0 t (ix2 row k) = cAcc1 x0 t r k oy := by
  unfold cvE cAcc1
  rw [rowsAcc_apply _ _ _ _ _ _ _ _ _ _ _ _ _ _ oy r k row hrow,
    cS1_eq x0 t r k 0 (by norm_num) oy, cS1_eq x0 t r k 1 (by norm_num) oy, cS1_eq x0 t r k 2 (by norm_num) oy,
    cS1_eq x0 t r k 3 (by norm_num) oy, cS1_eq x0 t r k 4 (by norm_num) oy]

/-- The maximum of the even and the odd accumulations, split into the 12 pairs of output rows. -/
def cvP (x0 : Vec Ideal S28x128x28 .f32) (x1 x2 : Vec Ideal S5x28x120 .f32) : FVec Ideal S12x2x128x120 .f32 :=
  shapeCast S12x2x128x120 (maximumf (cvE x0 x1) (cvE x0 x2) : FVec Ideal S3072x120 .f32) shapeCasts_S3072x120_S12x2x128x120

/-- The launch's pair array is that. -/
theorem conv1_pay8_eq (x0 : Vec Ideal S28x128x28 .f32) (x1 x2 : Vec Ideal S5x28x120 .f32) :
    k0_pay8 (k0_pay4 (View.ld x0 r0_0) (View.ld x1 r0_1) (View.ld x0 r0_2) (View.ld x1 r0_3))
        (k0_pay5 (View.ld x0 r0_0) (View.ld x2 r0_1) (View.ld x0 r0_2) (View.ld x2 r0_3)) (k0_pay6 (View.ld x0 r0_4))
        (k0_pay7 (View.ld x1 r0_5)) (View.ld x2 r0_5) (View.ld x0 r0_6) (View.ld x1 r0_7) (View.ld x2 r0_7) (View.ld x0 r0_8)
        (View.ld x1 r0_9) (View.ld x2 r0_9)
      = cvP x0 x1 x2 := rfl

/-- The pair array at `(p, 0, r, k)`: output row `2 p`. -/
theorem cvP_apply_zero (x0 : Vec Ideal S28x128x28 .f32) (x1 x2 : Vec Ideal S5x28x120 .f32) (p : Fin 12) (r : Fin 128)
    (k : Fin 120) :
    cvP x0 x1 x2 (ix4 p (0 : Fin 2) r k)
      = max (cAcc1 x0 x1 r k ⟨2 * p.val, by have := p.isLt; omega⟩) (cAcc1 x0 x2 r k ⟨2 * p.val, by have := p.isLt; omega⟩) := by
  have hp := p.isLt
  have hr := r.isLt
  unfold cvP
  rw [pairSplit_apply _ _ _ p (0 : Fin 2) r k ⟨2 * p.val * 128 + r.val, by omega⟩
      (by show 2 * p.val * 128 + r.val = (p.val * 2 + 0) * 128 + r.val; omega),
    cvE_apply x0 x1 ⟨2 * p.val, by omega⟩ r k _ rfl, cvE_apply x0 x2 ⟨2 * p.val, by omega⟩ r k _ rfl]

/-- The pair array at `(p, 1, r, k)`: output row `2 p + 1`. -/
theorem cvP_apply_one (x0 : Vec Ideal S28x128x28 .f32) (x1 x2 : Vec Ideal S5x28x120 .f32) (p : Fin 12) (r : Fin 128)
    (k : Fin 120) :
    cvP x0 x1 x2 (ix4 p (1 : Fin 2) r k)
      = max (cAcc1 x0 x1 r k ⟨2 * p.val + 1, by have := p.isLt; omega⟩)
          (cAcc1 x0 x2 r k ⟨2 * p.val + 1, by have := p.isLt; omega⟩) := by
  have hp := p.isLt
  have hr := r.isLt
  unfold cvP
  rw [pairSplit_apply _ _ _ p (1 : Fin 2) r k ⟨(2 * p.val + 1) * 128 + r.val, by omega⟩
      (by show (2 * p.val + 1) * 128 + r.val = (p.val * 2 + 1) * 128 + r.val; omega),
    cvE_apply x0 x1 ⟨2 * p.val + 1, by omega⟩ r k _ rfl, cvE_apply x0 x2 ⟨2 * p.val + 1, by omega⟩ r k _ rfl]

/-- The launch's stored array is the pooled, biased and clamped pair array. -/
theorem conv1_pay1_eq (v60 : FVec Ideal S12x128x120 .f32) (v61 : FVec Ideal S12x1x128x120 .f32) (v64 : Vec Ideal S1x120 .f32) :
    k0_pay1 v60 v61 v64
      = poolBias shapeCasts_S12x1x128x120_S12x128x120 shapeCasts_S1x120_S1x120 shapeCasts_S1x120_S1x1x120
          broadcasts_S1x1x120_S12x128x120 v60 v61 v64 := rfl

/-- The first launch's stored block at `(p, r, k)`. -/
theorem out0_4_apply (x0 : Vec Ideal S28x128x28 .f32) (x1 x2 : Vec Ideal S5x28x120 .f32) (x3 : Vec Ideal S1x120 .f32)
    (p : Fin 12) (r : Fin 128) (k : Fin 120) :
    out0_4 x0 x1 x2 x3 (ix3 p r k)
      = max (max (max (cAcc1 x0 x1 r k ⟨2 * p.val, by have := p.isLt; omega⟩)
                      (cAcc1 x0 x2 r k ⟨2 * p.val, by have := p.isLt; omega⟩))
                 (max (cAcc1 x0 x1 r k ⟨2 * p.val + 1, by have := p.isLt; omega⟩)
                      (cAcc1 x0 x2 r k ⟨2 * p.val + 1, by have := p.isLt; omega⟩))
              + x3 (ix2 (0 : Fin 1) k))
          (Ideal.ofBits .f32 0x00000000#32) := by
  unfold out0_4
  rw [View.canon_unit_zero conv_hz3, conv1_pay1_eq, poolBias_apply]
  unfold k0_pay9 k0_pay10
  rw [conv1_pay8_eq, pairFst_apply, pairSnd_apply, cvP_apply_zero, cvP_apply_one, View.ld_unit_zero conv_hz2]

end Cert.ReferenceIdeal.Net

end
-- ==== Proof.LibBand.lean ====
/-
  Sums with a band of support.

  A sum over `Fin n` whose terms vanish from `m` on is the sum of its first `m` terms; a sum over `Fin n` whose terms
  vanish outside the window `[j, j + len)` is the sum over the window; and the two combined for a row of a banded matrix
  against a column laid out as 8 rows of 32 (the last 4 of each row padding): the 256 products reduce to the 5 x 28
  products of the band. Only commutativity and associativity of addition and `0 * x = 0` are used, so everything holds
  on the extended reals with no finiteness hypothesis.
-/
import Mathlib.Algebra.BigOperators.Fin
import Mathlib.Algebra.BigOperators.Intervals
import Mathlib.Data.EReal.Basic
import proofs.«138577_g2000503492652488_pallasbulk_942_42_alg».proof.Proof.LibBlockSum

namespace Cert.Lib

open Finset
open scoped BigOperators

/-- Terms that vanish from `m` on: only the first `m` count. -/
theorem sum_truncate {E : Type*} [AddCommMonoid E] {n m : ℕ} (hmn : m ≤ n) (f : Fin n → E)
    (h : ∀ i : Fin n, m ≤ i.val → f i = 0) :
    ∑ i, f i = ∑ i : Fin m, f (Fin.castLE hmn i) := by
  rw [Finset.sum_fin_eq_sum_range, Finset.sum_fin_eq_sum_range]
  refine ((Finset.sum_subset (Finset.range_subset_range.2 hmn) ?_).symm).trans (Finset.sum_congr rfl ?_)
  · intro i hi hni
    have hin : i < n := Finset.mem_range.1 hi
    have hmi : m ≤ i := not_lt.1 fun h' => hni (Finset.mem_range.2 h')
    rw [dif_pos hin]
    exact h ⟨i, hin⟩ hmi
  · intro i hi
    have him : i < m := Finset.mem_range.1 hi
    rw [dif_pos him, dif_pos (lt_of_lt_of_le him hmn)]
    rfl

/-- Terms that vanish outside the window `[j, j + len)`: only the window counts. -/
theorem sum_window {E : Type*} [AddCommMonoid E] {n : ℕ} (j len : ℕ) (hj : j + len ≤ n) (g : Fin n → E)
    (h : ∀ r : Fin n, ¬(j ≤ r.val ∧ r.val < j + len) → g r = 0) :
    ∑ r, g r = ∑ i : Fin len, g ⟨j + i.val, by have := i.isLt; omega⟩ := by
  rw [Finset.sum_fin_eq_sum_range, Finset.sum_fin_eq_sum_range]
  have hsub : Finset.Ico j (j + len) ⊆ Finset.range n := fun x hx => by
    rw [Finset.mem_Ico] at hx; exact Finset.mem_range.2 (by omega)
  rw [← Finset.sum_subset hsub (fun x hx hnx => by
    have hxn : x < n := Finset.mem_range.1 hx
    rw [dif_pos hxn]
    exact h ⟨x, hxn⟩ (fun hc => hnx (Finset.mem_Ico.2 hc)))]
  rw [Finset.sum_Ico_eq_sum_range, Nat.add_sub_cancel_left]
  refine Finset.sum_congr rfl fun i hi => ?_
  have hil : i < len := Finset.mem_range.1 hi
  rw [dif_pos (show j + i < n by omega), dif_pos hil]

/-- A banded row against a padded column: `T` (256 entries, 8 rows of 32) is the band `t` on rows `jj … jj + 4`, columns
    `0 … 27`, and zero elsewhere; `X` reads `x r w` on columns `0 … 27` of row `r`. Then the 256 products sum to the
    band's 5 x 28 products. -/
theorem band_rows (T X : Fin 256 → EReal) (jj : ℕ) (hjj : jj + 5 ≤ 8) (t : Fin 5 → Fin 28 → EReal) (x : Fin 8 → Fin 28 → EReal)
    (hT1 : ∀ (i : Fin 5) (w : Fin 28), T ⟨32 * (jj + i.val) + w.val, by have := i.isLt; have := w.isLt; omega⟩ = t i w)
    (hT0 : ∀ (r : Fin 8) (w : Fin 32), ¬(jj ≤ r.val ∧ r.val < jj + 5 ∧ w.val < 28) →
      T ⟨32 * r.val + w.val, by have := r.isLt; have := w.isLt; omega⟩ = 0)
    (hX : ∀ (r : Fin 8) (w : Fin 28), X ⟨32 * r.val + w.val, by have := r.isLt; have := w.isLt; omega⟩ = x r w) :
    ∑ c, T c * X c = ∑ i : Fin 5, ∑ w : Fin 28, x ⟨jj + i.val, by have := i.isLt; omega⟩ w * t i w := by
  have hblocks := sum_blocks (M := EReal) 8 32 (fun c : Fin (8 * 32) => T c * X c)
  refine hblocks.trans ?_
  -- rows outside the window contribute nothing
  have hrow : ∀ r : Fin 8, ¬(jj ≤ r.val ∧ r.val < jj + 5) →
      (∑ w : Fin 32, T (finProdFinEquiv (r, w)) * X (finProdFinEquiv (r, w))) = 0 := by
    intro r hr
    refine Finset.sum_eq_zero fun w _ => ?_
    have e : (finProdFinEquiv (r, w) : Fin (8 * 32)) = ⟨32 * r.val + w.val, by have := r.isLt; have := w.isLt; omega⟩ :=
      Fin.ext (by rw [blockIdx_val]; show w.val + 32 * r.val = 32 * r.val + w.val; omega)
    rw [e, hT0 r w (fun hc => hr ⟨hc.1, hc.2.1⟩), zero_mul]
  rw [sum_window jj 5 hjj _ hrow]
  refine Finset.sum_congr rfl fun i _ => ?_
  -- inside the window, the padding columns contribute nothing
  have hi := i.isLt
  rw [sum_truncate (show 28 ≤ 32 by norm_num) _ (fun w hw => by
    have e : (finProdFinEquiv ((⟨jj + i.val, by omega⟩ : Fin 8), w) : Fin (8 * 32))
        = ⟨32 * (jj + i.val) + w.val, by have := w.isLt; omega⟩ :=
      Fin.ext (by rw [blockIdx_val]; show w.val + 32 * (jj + i.val) = 32 * (jj + i.val) + w.val; omega)
    rw [e, hT0 ⟨jj + i.val, by omega⟩ w (fun hc => absurd hc.2.2 (not_lt.2 hw)), zero_mul])]
  refine Finset.sum_congr rfl fun w _ => ?_
  have hw := w.isLt
  have e : (finProdFinEquiv ((⟨jj + i.val, by omega⟩ : Fin 8), Fin.castLE (show 28 ≤ 32 by norm_num) w) : Fin (8 * 32))
      = ⟨32 * (jj + i.val) + w.val, by omega⟩ := Fin.ext (by rw [blockIdx_val]; show w.val + 32 * (jj + i.val) = 32 * (jj + i.val) + w.val; omega)
  rw [e, hT1 i w, hX ⟨jj + i.val, by omega⟩ w]
  exact EReal.mul_comm (t i w) (x ⟨jj + i.val, by omega⟩ w)

end Cert.Lib
-- ==== Proof.GlueConv1.lean ====
/-
  The first convolution, the two programs' band sums. The single-launch program multiplies a 960 x 256 banded matrix with
  256 consecutive rows (8 image rows of 32, the last 4 of each padding) of its image block; the two-launch program adds,
  from zero, five products of 28 image columns with the band's rows. When the banded matrix's row is the band on image
  rows oy mod 4 … oy mod 4 + 4 of the group and zero elsewhere, and the image block's column is the image, the two sums
  agree.
-/
import proofs.«138577_g2000503492652488_pallasbulk_942_42_alg».proof.Proof.KernelStack
import proofs.«138577_g2000503492652488_pallasbulk_942_42_alg».proof.Proof.ReferenceConv1
import proofs.«138577_g2000503492652488_pallasbulk_942_42_alg».proof.Proof.LibBand
import proofs.«138577_g2000503492652488_pallasbulk_942_42_alg».proof.Proof.LibAcc

noncomputable section

namespace Cert.Net

open Idealize.ShloMosaic Idealize.ShloMosaic.ValueIdx
open scoped BigOperators

/-- The two-launch program's accumulated sum is the sum of its five products. -/
theorem cAcc1_sum (x0 : Vec Ideal Cert.ReferenceIdeal.S28x128x28 .f32) (t : Vec Ideal Cert.ReferenceIdeal.S5x28x120 .f32) (r : Fin 128) (k : Fin 120) (oy : Fin 24) :
    Cert.ReferenceIdeal.Net.cAcc1 x0 t r k oy = ∑ i : Fin 5, Cert.ReferenceIdeal.Net.cS1 x0 t r k i.val i.isLt oy := by
  unfold Cert.ReferenceIdeal.Net.cAcc1
  rw [Ideal.ofBits_zero_f32]
  exact Cert.Lib.acc5 (fun i : Fin 5 => Cert.ReferenceIdeal.Net.cS1 x0 t r k i.val i.isLt oy)

/-- The band sums agree. -/
theorem conv1_eq (T : FVec Ideal Cert.KernelIdeal.S960x256 .bf16) (X : FVec Ideal Cert.KernelIdeal.S896x2048 .bf16)
    (x0 : Vec Ideal Cert.ReferenceIdeal.S28x128x28 .f32) (t : Vec Ideal Cert.ReferenceIdeal.S5x28x120 .f32)
    (oy : Fin 24) (p : Fin 2) (k : Fin 120) (l : Fin 2048) (r : Fin 128)
    (hT1 : ∀ (i : Fin 5) (w : Fin 28),
      T (ix2 (⟨480 * p.val + 120 * (oy.val % 4) + k.val, by have := p.isLt; have := k.isLt; have := Nat.mod_lt oy.val (by norm_num : 0 < 4); omega⟩ : Fin 960)
          (⟨32 * (oy.val % 4 + i.val) + w.val, by have := i.isLt; have := w.isLt; have := Nat.mod_lt oy.val (by norm_num : 0 < 4); omega⟩ : Fin 256))
        = t (ix3 i w k))
    (hT0 : ∀ (r' : Fin 8) (w : Fin 32), ¬(oy.val % 4 ≤ r'.val ∧ r'.val < oy.val % 4 + 5 ∧ w.val < 28) →
      T (ix2 (⟨480 * p.val + 120 * (oy.val % 4) + k.val, by have := p.isLt; have := k.isLt; have := Nat.mod_lt oy.val (by norm_num : 0 < 4); omega⟩ : Fin 960)
          (⟨32 * r'.val + w.val, by have := r'.isLt; have := w.isLt; omega⟩ : Fin 256)) = 0)
    (hX : ∀ (r' : Fin 8) (w : Fin 28),
      X (ix2 (⟨128 * (oy.val / 4) + (32 * r'.val + w.val), by have := oy.isLt; have := r'.isLt; have := w.isLt; omega⟩ : Fin 896) l)
        = x0 (ix3 (⟨4 * (oy.val / 4) + r'.val, by have := oy.isLt; have := r'.isLt; omega⟩ : Fin 28) r w)) :
    Cert.KernelIdeal.Net.c1 T X oy p k l = Cert.ReferenceIdeal.Net.cAcc1 x0 t r k oy := by
  rw [cAcc1_sum]
  unfold Cert.KernelIdeal.Net.c1
  have hjj : oy.val % 4 + 5 ≤ 8 := by have := Nat.mod_lt oy.val (by norm_num : 0 < 4); omega
  refine (Cert.Lib.band_rows
    (fun c : Fin 256 => T (ix2 (⟨480 * p.val + 120 * (oy.val % 4) + k.val, by have := p.isLt; have := k.isLt; have := Nat.mod_lt oy.val (by norm_num : 0 < 4); omega⟩ : Fin 960) c))
    (fun c : Fin 256 => X (ix2 (⟨128 * (oy.val / 4) + c.val, by have := oy.isLt; have := c.isLt; omega⟩ : Fin 896) l))
    (oy.val % 4) hjj (fun i w => t (ix3 i w k))
    (fun r' w => x0 (ix3 (⟨4 * (oy.val / 4) + r'.val, by have := oy.isLt; have := r'.isLt; omega⟩ : Fin 28) r w))
    (fun i w => hT1 i w) (fun r' w h => hT0 r' w h) (fun r' w => hX r' w)).trans ?_
  refine Finset.sum_congr rfl fun i _ => ?_
  unfold Cert.ReferenceIdeal.Net.cS1
  refine Finset.sum_congr rfl fun w _ => ?_
  have e : (⟨4 * (oy.val / 4) + (oy.val % 4 + i.val), by have := oy.isLt; have := i.isLt; omega⟩ : Fin 28)
      = (⟨oy.val + i.val, by have := oy.isLt; have := i.isLt; omega⟩ : Fin 28) := Fin.ext (by show 4 * (oy.val / 4) + (oy.val % 4 + i.val) = oy.val + i.val; omega)
  show x0 (ix3 (⟨4 * (oy.val / 4) + (⟨oy.val % 4 + i.val, _⟩ : Fin 8).val, _⟩ : Fin 28) r w) * t (ix3 i w k) = _
  exact congrArg (fun hh => x0 (ix3 hh r w) * t (ix3 i w k)) e

end Cert.Net

end
-- ==== Proof.ReferenceValueFirst.lean ====
/-
  The first launch's output as the second launch finds it. The host operations between the two launches prepare the second
  launch's weight and bias operands and write none of the first launch's arrays, so the 12 x 16384 x 120 array the second
  launch reads as its first operand is the array the first launch's write-backs left: entry (ρ, n, k) is entry
  (ρ, n % 128, k) of the block stored at grid point n / 128.
-/
import proofs.«138577_g2000503492652488_pallasbulk_942_42_alg».proof.Proof.ReferenceArray

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-- The second launch's first operand array, at its entry, is the first launch's whole output. -/
theorem first_as_found (c : Dev nD) : V19 m ρ c main_v64 = firstArray (V9 m ρ) c :=
  calc V19 m ρ c main_v64
    _ = W19 m ρ c (Proc.devRef .tc main_v64) := rfl
    _ = W18 m ρ c (Proc.devRef .tc main_v64) := StableHlo.after_of_forall_not_mem (b := Proc.devRef .tc main_v64) _ _ (List.forall_iff_forall_mem.mp (by
          simp only [hostOps1_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v64) := StableHlo.after_of_forall_not_mem (b := Proc.devRef .tc main_v64) _ _ (List.forall_iff_forall_mem.mp (by
          simp only [hostOps1_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v64) := StableHlo.after_of_forall_not_mem (b := Proc.devRef .tc main_v64) _ _ (List.forall_iff_forall_mem.mp (by
          simp only [hostOps1_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v64) := StableHlo.after_of_forall_not_mem (b := Proc.devRef .tc main_v64) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_v64) := StableHlo.after_of_forall_not_mem (b := Proc.devRef .tc main_v64) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v64) := StableHlo.after_of_forall_not_mem (b := Proc.devRef .tc main_v64) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v64) := StableHlo.after_of_forall_not_mem (b := Proc.devRef .tc main_v64) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v64) := StableHlo.after_of_forall_not_mem (b := Proc.devRef .tc main_v64) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v64) := StableHlo.after_of_forall_not_mem (b := Proc.devRef .tc main_v64) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V9 m ρ) c).arrAt 4 cfg0.N := W10_arr m ρ c 4
    _ = firstArray (V9 m ρ) c := final_first (V9 m ρ) c

end Cert.ReferenceIdeal.Net

end
-- ==== Proof.ScoresStack.lean ====
/-
  The first layer of the two programs, entry against entry, for one image. The single-launch program's stack at row
  120 ρ + k and the image's column is the maximum over convolution rows 2 ρ and 2 ρ + 1 and the two column parities of a band
  sum, plus the bias entry k, clamped at zero; the two-launch program's first launch stores, at (ρ, image, k), the same
  expression over its accumulated sums, and the second launch finds that array as its first operand. When the banded
  matrix carries the even and the odd factors on its bands and zero elsewhere, the band sums are the accumulated sums, so
  the two entries agree.
-/
import proofs.«138577_g2000503492652488_pallasbulk_942_42_alg».proof.Proof.ScoresOperands
import proofs.«138577_g2000503492652488_pallasbulk_942_42_alg».proof.Proof.GlueConv1
import proofs.«138577_g2000503492652488_pallasbulk_942_42_alg».proof.Proof.ReferenceValueFirst

set_option maxRecDepth 16384

noncomputable section

namespace Cert.Net

open Idealize.ShloMosaic Idealize.ShloMosaic.TcCoe Idealize.SL.Sem
open Idealize.ShloMosaic.ValueIdx

/-- The first launch's whole output at (ρ, image n, k) is the block stored at the image's grid point, at the image's row. -/
theorem first_at {F : FTy → Type} [FloatOps F]
    (V : (c : Dev Cert.ReferenceIdeal.nD) → (b : Ref Cert.ReferenceIdeal.sig .tc) → Buf (Elt F) ((c : Thread Cert.ReferenceIdeal.nD Cert.ReferenceIdeal.τ).loc b))
    (c : Dev Cert.ReferenceIdeal.nD) (n : Fin 16384) (ρ : Fin 12) (k' : Fin 120)
    (h : 128 * (rPt n).val + (rRow n).val < 16384) :
    Cert.ReferenceIdeal.Net.firstArray V c (ix3 ρ (⟨128 * (rPt n).val + (rRow n).val, h⟩ : Fin 16384) k')
      = Cert.ReferenceIdeal.Gen.out0_4 (Cert.ReferenceIdeal.Gen.iblk0 V c 0 (fPt n)) (Cert.ReferenceIdeal.Gen.iblk0 V c 1 (fPt n))
          (Cert.ReferenceIdeal.Gen.iblk0 V c 2 (fPt n)) (Cert.ReferenceIdeal.Gen.iblk0 V c 3 (fPt n)) (ix3 ρ (rRow n) k') := by
  have hn := n.isLt
  have e : (⟨128 * (rPt n).val + (rRow n).val, h⟩ : Fin 16384) = n :=
    Fin.ext (by show 128 * (n.val / 128) + n.val % 128 = n.val; omega)
  rw [e]
  rfl

/-- The image's rows in the two programs' image blocks: 8 image rows of 32 from row 128 (oy / 4) of the one against image
    rows 4 (oy / 4) + r' of the other. -/
theorem image_rows [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (oy : Fin 24) (r' : Fin 8) (w : Fin 28) :
    (Cert.KernelIdeal.Net.iblk m c 0 (kPt n)) (ix2 (⟨128 * (oy.val / 4) + (32 * r'.val + w.val), by have := oy.isLt; have := r'.isLt; have := w.isLt; omega⟩ : Fin 896) (kCol n))
      = (Cert.ReferenceIdeal.Gen.iblk0 (Cert.ReferenceIdeal.Gen.V9 m' ρ') c 0 (fPt n)) (ix3 (⟨4 * (oy.val / 4) + r'.val, by have := oy.isLt; have := r'.isLt; omega⟩ : Fin 28) (rRow n) w) := by
  have hoy := oy.isLt
  have hr := r'.isLt
  have hw := w.isLt
  have e : (⟨128 * (oy.val / 4) + (32 * r'.val + w.val), by omega⟩ : Fin 896)
      = (⟨32 * (⟨4 * (oy.val / 4) + r'.val, by omega⟩ : Fin 28).val + w.val, by show 32 * (4 * (oy.val / 4) + r'.val) + w.val < 896; omega⟩ : Fin 896) :=
    Fin.ext (by show 128 * (oy.val / 4) + (32 * r'.val + w.val) = 32 * (4 * (oy.val / 4) + r'.val) + w.val; omega)
  rw [e]
  exact op_image m m' ρ' hagree c n ⟨4 * (oy.val / 4) + r'.val, by omega⟩ w

/-- The first layer's stack of the single-launch program is the second launch's first operand, entry against entry. -/
theorem stack_eq [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384)
    (H1e : ∀ (oy : Fin 24) (k' : Fin 120) (i : Fin 5) (w : Fin 28),
      (Cert.KernelIdeal.Net.iblk m c 1 (kPt n)) (ix2 (⟨480 * (0 : Fin 2).val + 120 * (oy.val % 4) + k'.val, by have := (0 : Fin 2).isLt; have := k'.isLt; have := Nat.mod_lt oy.val (by norm_num : 0 < 4); omega⟩ : Fin 960)
          (⟨32 * (oy.val % 4 + i.val) + w.val, by have := i.isLt; have := w.isLt; have := Nat.mod_lt oy.val (by norm_num : 0 < 4); omega⟩ : Fin 256))
        = (Cert.ReferenceIdeal.Gen.iblk0 (Cert.ReferenceIdeal.Gen.V9 m' ρ') c 1 (fPt n)) (ix3 i w k'))
    (H1o : ∀ (oy : Fin 24) (k' : Fin 120) (i : Fin 5) (w : Fin 28),
      (Cert.KernelIdeal.Net.iblk m c 1 (kPt n)) (ix2 (⟨480 * (1 : Fin 2).val + 120 * (oy.val % 4) + k'.val, by have := (1 : Fin 2).isLt; have := k'.isLt; have := Nat.mod_lt oy.val (by norm_num : 0 < 4); omega⟩ : Fin 960)
          (⟨32 * (oy.val % 4 + i.val) + w.val, by have := i.isLt; have := w.isLt; have := Nat.mod_lt oy.val (by norm_num : 0 < 4); omega⟩ : Fin 256))
        = (Cert.ReferenceIdeal.Gen.iblk0 (Cert.ReferenceIdeal.Gen.V9 m' ρ') c 2 (fPt n)) (ix3 i w k'))
    (H1z : ∀ (p : Fin 2) (oy : Fin 24) (k' : Fin 120) (r' : Fin 8) (w : Fin 32), ¬(oy.val % 4 ≤ r'.val ∧ r'.val < oy.val % 4 + 5 ∧ w.val < 28) →
      (Cert.KernelIdeal.Net.iblk m c 1 (kPt n)) (ix2 (⟨480 * p.val + 120 * (oy.val % 4) + k'.val, by have := p.isLt; have := k'.isLt; have := Nat.mod_lt oy.val (by norm_num : 0 < 4); omega⟩ : Fin 960)
          (⟨32 * r'.val + w.val, by have := r'.isLt; have := w.isLt; omega⟩ : Fin 256)) = (0 : Ideal .bf16))
    (ρ : Fin 12) (k' : Fin 120) :
    Cert.KernelIdeal.Net.kA2 (Cert.KernelIdeal.Net.iblk m c 1 (kPt n)) (Cert.KernelIdeal.Net.iblk m c 0 (kPt n)) (Cert.KernelIdeal.Net.iblk m c 5 (kPt n))
        (ix2 (⟨120 * ρ.val + k'.val, by have := ρ.isLt; have := k'.isLt; omega⟩ : Fin 1440) (kCol n))
      = (Cert.ReferenceIdeal.Gen.iblk1 (Cert.ReferenceIdeal.Gen.V19 m' ρ') c 0 (rPt n)) (ix3 ρ (rRow n) k') := by
  have hρ := ρ.isLt
  refine (Cert.KernelIdeal.Net.kA2_apply _ _ _ ρ k' (kCol n)).trans ?_
  rw [Cert.ReferenceIdeal.Net.iblk1_0, Cert.ReferenceIdeal.Net.first_as_found, first_at, Cert.ReferenceIdeal.Net.out0_4_apply]
  unfold Cert.KernelIdeal.Net.a2v
  refine congrArg₂ max (congrArg₂ (· + ·) (congrArg₂ max (congrArg₂ max ?_ ?_) (congrArg₂ max ?_ ?_))
    (op_conv1_b m m' ρ' hagree c n k')) rfl
  · exact conv1_eq _ _ _ _ ⟨2 * ρ.val, by omega⟩ 0 k' (kCol n) (rRow n) (H1e _ k') (H1z 0 _ k')
      (image_rows m m' ρ' hagree c n _)
  · exact conv1_eq _ _ _ _ ⟨2 * ρ.val, by omega⟩ 1 k' (kCol n) (rRow n) (H1o _ k') (H1z 1 _ k')
      (image_rows m m' ρ' hagree c n _)
  · exact conv1_eq _ _ _ _ ⟨2 * ρ.val + 1, by omega⟩ 0 k' (kCol n) (rRow n) (H1e _ k') (H1z 0 _ k')
      (image_rows m m' ρ' hagree c n _)
  · exact conv1_eq _ _ _ _ ⟨2 * ρ.val + 1, by omega⟩ 1 k' (kCol n) (rRow n) (H1o _ k') (H1z 1 _ k')
      (image_rows m m' ρ' hagree c n _)

end Cert.Net

end
-- ==== Proof.ScoresFinal.lean ====
/-
  The ten scores agree. The core statement over plain blocks, instantiated at the two programs' operand blocks for image
  `n`: the dense weights and biases by their entry lemmas, the second banded matrix by the second-band lemmas, the first
  layer's stack by the stack equality (which uses the first-band lemmas and the image).
-/
import proofs.«138577_g2000503492652488_pallasbulk_942_42_alg».proof.Proof.ScoresCore
import proofs.«138577_g2000503492652488_pallasbulk_942_42_alg».proof.Proof.ScoresOperands
import proofs.«138577_g2000503492652488_pallasbulk_942_42_alg».proof.Proof.ScoresBand2
import proofs.«138577_g2000503492652488_pallasbulk_942_42_alg».proof.Proof.ScoresBand1
import proofs.«138577_g2000503492652488_pallasbulk_942_42_alg».proof.Proof.ScoresStack

noncomputable section

namespace Cert.Net

open Idealize.ShloMosaic Idealize.ShloMosaic.TcCoe Idealize.SL.Sem
open Idealize.ShloMosaic.ValueIdx

set_option maxHeartbeats 1600000 in
/-- For image `n` and class `k`, the two-launch program's score is the single-launch program's. -/
theorem scores_eq [hKernelIdeal : Cert.KernelIdeal.Facts] [hReferenceIdeal : Cert.ReferenceIdeal.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) (n : Fin 16384) (k : Fin 10) :
    Cert.ReferenceIdeal.Net.refScores (Cert.ReferenceIdeal.Net.rHidden (Cert.ReferenceIdeal.Gen.iblk1 (Cert.ReferenceIdeal.Gen.V19 m' ρ') c 0 (rPt n)) (Cert.ReferenceIdeal.Gen.iblk1 (Cert.ReferenceIdeal.Gen.V19 m' ρ') c 1 (rPt n)) (Cert.ReferenceIdeal.Gen.iblk1 (Cert.ReferenceIdeal.Gen.V19 m' ρ') c 2 (rPt n)) (Cert.ReferenceIdeal.Gen.iblk1 (Cert.ReferenceIdeal.Gen.V19 m' ρ') c 3 (rPt n)) (Cert.ReferenceIdeal.Gen.iblk1 (Cert.ReferenceIdeal.Gen.V19 m' ρ') c 4 (rPt n)) (Cert.ReferenceIdeal.Gen.iblk1 (Cert.ReferenceIdeal.Gen.V19 m' ρ') c 5 (rPt n)))
        (View.ld (Cert.ReferenceIdeal.Gen.iblk1 (Cert.ReferenceIdeal.Gen.V19 m' ρ') c 6 (rPt n)) Cert.ReferenceIdeal.Gen.r1_16) (View.ld (Cert.ReferenceIdeal.Gen.iblk1 (Cert.ReferenceIdeal.Gen.V19 m' ρ') c 7 (rPt n)) Cert.ReferenceIdeal.Gen.r1_17) (ix2 (rRow n) k)
      = Cert.KernelIdeal.Net.kScores (Cert.KernelIdeal.Net.iblk m c 0 (kPt n)) (Cert.KernelIdeal.Net.iblk m c 1 (kPt n)) (Cert.KernelIdeal.Net.iblk m c 2 (kPt n)) (Cert.KernelIdeal.Net.iblk m c 3 (kPt n)) (Cert.KernelIdeal.Net.iblk m c 4 (kPt n)) (Cert.KernelIdeal.Net.iblk m c 5 (kPt n)) (Cert.KernelIdeal.Net.iblk m c 6 (kPt n)) (Cert.KernelIdeal.Net.iblk m c 7 (kPt n)) (Cert.KernelIdeal.Net.iblk m c 8 (kPt n)) (ix2 k (kCol n)) :=
  scores_core (Cert.KernelIdeal.Net.iblk m c 0 (kPt n)) (Cert.KernelIdeal.Net.iblk m c 1 (kPt n)) (Cert.KernelIdeal.Net.iblk m c 2 (kPt n)) (Cert.KernelIdeal.Net.iblk m c 3 (kPt n)) (Cert.KernelIdeal.Net.iblk m c 4 (kPt n)) (Cert.KernelIdeal.Net.iblk m c 5 (kPt n)) (Cert.KernelIdeal.Net.iblk m c 6 (kPt n)) (Cert.KernelIdeal.Net.iblk m c 7 (kPt n)) (Cert.KernelIdeal.Net.iblk m c 8 (kPt n))
    (Cert.ReferenceIdeal.Gen.iblk1 (Cert.ReferenceIdeal.Gen.V19 m' ρ') c 0 (rPt n)) (Cert.ReferenceIdeal.Gen.iblk1 (Cert.ReferenceIdeal.Gen.V19 m' ρ') c 1 (rPt n)) (Cert.ReferenceIdeal.Gen.iblk1 (Cert.ReferenceIdeal.Gen.V19 m' ρ') c 2 (rPt n)) (Cert.ReferenceIdeal.Gen.iblk1 (Cert.ReferenceIdeal.Gen.V19 m' ρ') c 3 (rPt n)) (Cert.ReferenceIdeal.Gen.iblk1 (Cert.ReferenceIdeal.Gen.V19 m' ρ') c 4 (rPt n)) (Cert.ReferenceIdeal.Gen.iblk1 (Cert.ReferenceIdeal.Gen.V19 m' ρ') c 5 (rPt n)) (Cert.ReferenceIdeal.Gen.iblk1 (Cert.ReferenceIdeal.Gen.V19 m' ρ') c 6 (rPt n)) (Cert.ReferenceIdeal.Gen.iblk1 (Cert.ReferenceIdeal.Gen.V19 m' ρ') c 7 (rPt n))
    (rRow n) (kCol n) k
    (op_fc2_b m m' ρ' hagree c n k)
    (fun a => op_fc2_w m m' ρ' hagree c n k a)
    (fun a => op_fc1_b m m' ρ' hagree c n a)
    (fun a s q => op_fc1_w m m' ρ' hagree c n a s q)
    (fun q => op_conv2_b m m' ρ' hagree c n q)
    (fun q i k' => op_band2_even m m' ρ' hagree c n q i k')
    (fun q i k' => op_band2_odd m m' ρ' hagree c n q i k')
    (fun ρ k' => stack_eq m m' ρ' hagree c n
      (fun oy k' i w => op_band1_even m m' ρ' hagree c n oy k' i w)
      (fun oy k' i w => op_band1_odd m m' ρ' hagree c n oy k' i w)
      (fun p oy k' r' w h => op_band1_zero m m' ρ' hagree c n p oy k' r' w h)
      ρ k')

end Cert.Net

end
-- ==== Proof.Algebraic.lean ====
/-
  The two programs compute the same network. Both runs are discharged here: the single-launch program ends with its
  result at the transpose of what its eight write-backs leave in the 10 x 16384 operand; the two-launch program ends
  with its result at what the second launch's 128 write-backs leave in the 16384 x 10 operand. What remains is the
  equation between those two arrays, from initial memories that agree on the nine arguments.
-/
import proofs.«138577_g2000503492652488_pallasbulk_942_42_alg».proof.Defs
import proofs.«138577_g2000503492652488_pallasbulk_942_42_alg».proof.Proof.KernelIdealBody
import proofs.«138577_g2000503492652488_pallasbulk_942_42_alg».proof.Proof.ReferenceRun
import proofs.«138577_g2000503492652488_pallasbulk_942_42_alg».proof.Proof.KernelArray
import proofs.«138577_g2000503492652488_pallasbulk_942_42_alg».proof.Proof.ReferenceArray
import proofs.«138577_g2000503492652488_pallasbulk_942_42_alg».proof.Proof.Entry
import proofs.«138577_g2000503492652488_pallasbulk_942_42_alg».proof.Proof.ScoresFinal
import proofs.«138577_g2000503492652488_pallasbulk_942_42_alg».proof.Proof.Gen.Pre_finite_inputs
import Idealize.ShloMosaic.Lib.ValueLayout

noncomputable section

namespace Cert.Net

open Idealize.ShloMosaic Idealize.ShloMosaic.TcCoe Idealize.SL.Sem

/-- The single-launch program's result array after its run, on core `c`. -/
abbrev kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v138) :=
  Pipeline.afterTail₀ Cert.KernelIdeal.cfgs (Cert.KernelIdeal.Net.dats m) 0 (Cert.KernelIdeal.Net.V0 m) [Cert.KernelIdeal.Gen.hostOps1] c Cert.KernelIdeal.main_v138

/-- The single-launch program runs, its result ends at `kernelResult` and its arguments as they started. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v138) = kernelResult m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run (Cert.KernelIdeal.defs (F := Ideal)) _ _).mono (fun _ h c => ⟨(h c).2 Cert.KernelIdeal.main_v138 (Pipeline.mem_restRefs_of Cert.KernelIdeal.main_v138 (by decide) (by decide)),
    ((h c).2 Cert.KernelIdeal.main_arg0 (Pipeline.mem_restRefs_of Cert.KernelIdeal.main_arg0 (by decide) (by decide))).trans (Cert.KernelIdeal.Net.W_main_arg0 m (Cert.KernelIdeal.Net.dats m) c),
    ((h c).2 Cert.KernelIdeal.main_arg1 (Pipeline.mem_restRefs_of Cert.KernelIdeal.main_arg1 (by decide) (by decide))).trans (Cert.KernelIdeal.Net.W_main_arg1 m (Cert.KernelIdeal.Net.dats m) c),
    ((h c).2 Cert.KernelIdeal.main_arg2 (Pipeline.mem_restRefs_of Cert.KernelIdeal.main_arg2 (by decide) (by decide))).trans (Cert.KernelIdeal.Net.W_main_arg2 m (Cert.KernelIdeal.Net.dats m) c),
    ((h c).2 Cert.KernelIdeal.main_arg3 (Pipeline.mem_restRefs_of Cert.KernelIdeal.main_arg3 (by decide) (by decide))).trans (Cert.KernelIdeal.Net.W_main_arg3 m (Cert.KernelIdeal.Net.dats m) c),
    ((h c).2 Cert.KernelIdeal.main_arg4 (Pipeline.mem_restRefs_of Cert.KernelIdeal.main_arg4 (by decide) (by decide))).trans (Cert.KernelIdeal.Net.W_main_arg4 m (Cert.KernelIdeal.Net.dats m) c),
    ((h c).2 Cert.KernelIdeal.main_arg5 (Pipeline.mem_restRefs_of Cert.KernelIdeal.main_arg5 (by decide) (by decide))).trans (Cert.KernelIdeal.Net.W_main_arg5 m (Cert.KernelIdeal.Net.dats m) c),
    ((h c).2 Cert.KernelIdeal.main_arg6 (Pipeline.mem_restRefs_of Cert.KernelIdeal.main_arg6 (by decide) (by decide))).trans (Cert.KernelIdeal.Net.W_main_arg6 m (Cert.KernelIdeal.Net.dats m) c),
    ((h c).2 Cert.KernelIdeal.main_arg7 (Pipeline.mem_restRefs_of Cert.KernelIdeal.main_arg7 (by decide) (by decide))).trans (Cert.KernelIdeal.Net.W_main_arg7 m (Cert.KernelIdeal.Net.dats m) c),
    ((h c).2 Cert.KernelIdeal.main_arg8 (Pipeline.mem_restRefs_of Cert.KernelIdeal.main_arg8 (by decide) (by decide))).trans (Cert.KernelIdeal.Net.W_main_arg8 m (Cert.KernelIdeal.Net.dats m) c)⟩)
    (Cert.KernelIdeal.Net.run_main (F := Ideal) m ρ)

open Idealize.ShloMosaic.ValueIdx

/-- The two final arrays are equal: the two-launch program's result is its second launch's output operand, the
    single-launch program's is the transpose of its launch's, and the entries agree. -/
theorem result_eq [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))) (c : Dev Cert.KernelIdeal.nD) :
    Cert.ReferenceIdeal.Gen.W20 m' ρ' c (Proc.devRef .tc Cert.ReferenceIdeal.main_v133) = kernelResult m c := by
  rw [Cert.ReferenceIdeal.Net.result_boundary, Cert.ReferenceIdeal.Net.final_second]
  show _ = Pipeline.afterTail₀ Cert.KernelIdeal.cfgs (Cert.KernelIdeal.Net.dats m) 0 (Cert.KernelIdeal.Net.V0 m) [Cert.KernelIdeal.Gen.hostOps1] c Cert.KernelIdeal.main_v138
  rw [Cert.KernelIdeal.Net.result_read]
  funext i
  obtain ⟨n, j, rfl⟩ : ∃ (n : Fin 16384) (j : Fin 10), i = ix2 n j := ⟨i 0, i 1, eq_ix2 i⟩
  rw [transpose_ix2_apply]
  exact entry_eq_of m m' ρ' hagree c n j (fun k => scores_eq m m' ρ' hagree c n k)

/-- Both programs run, from memories agreeing on the arguments, to the same result array and unchanged arguments. -/
theorem algebraic : Cert.algebraic_KernelIdeal_ReferenceIdeal := by
  intro m ρ m' ρ' hpre hagree
  refine ⟨kernelResult m, kernel_run m ρ, ?_⟩
  exact (θ_run (Cert.ReferenceIdeal.defs (F := Ideal)) _ _).mono
    (fun _ h c => ⟨(h c).1.trans (result_eq m m' ρ' hpre hagree c), (h c).2⟩)
    (Cert.ReferenceIdeal.Net.run_boundary (F := Ideal) m' ρ')

end Cert.Net

end
-- ==== Proof.lean ====
/-
  A small convolutional network (two 5x5 convolutions, each followed by a 2x2 maximum, a bias and a clamp at zero; two
  dense layers; the log of the normalised exponentials) computed for 16384 images in ONE launch over 8 blocks of 2048
  images laid along the columns, against the same network computed in TWO launches over 128 blocks of 128 images laid
  along the rows.
  The three runs: the single-launch program's frame is proved by hand in Proof/KernelHost.lean and Proof/KernelBody.lean
  (word level) and Proof/KernelIdealHost.lean and Proof/KernelIdealBody.lean (extended reals) — the host lines before
  and after the launch write no argument, and the launched function's one store is named as a term of its nine operand
  blocks —; the two-launch program's frame is the generated one. The idealization rewrote nothing, so that conjunct is
  trivial. The equality of the two results is the last conjunct.
-/
import proofs.«138577_g2000503492652488_pallasbulk_942_42_alg».proof.Defs
import proofs.«138577_g2000503492652488_pallasbulk_942_42_alg».proof.Proof.Gen.Kernel
import proofs.«138577_g2000503492652488_pallasbulk_942_42_alg».proof.Proof.Gen.Kernel.Skeleton
import proofs.«138577_g2000503492652488_pallasbulk_942_42_alg».proof.Proof.Gen.Kernel.Launch
import proofs.«138577_g2000503492652488_pallasbulk_942_42_alg».proof.Proof.Gen.Kernel.Points
import proofs.«138577_g2000503492652488_pallasbulk_942_42_alg».proof.Proof.Gen.KernelIdeal
import proofs.«138577_g2000503492652488_pallasbulk_942_42_alg».proof.Proof.Gen.KernelIdeal.Skeleton
import proofs.«138577_g2000503492652488_pallasbulk_942_42_alg».proof.Proof.Gen.KernelIdeal.Launch
import proofs.«138577_g2000503492652488_pallasbulk_942_42_alg».proof.Proof.Gen.KernelIdeal.Points
import proofs.«138577_g2000503492652488_pallasbulk_942_42_alg».proof.Proof.Gen.ReferenceIdeal
import proofs.«138577_g2000503492652488_pallasbulk_942_42_alg».proof.Proof.Gen.ReferenceIdeal.Skeleton
import proofs.«138577_g2000503492652488_pallasbulk_942_42_alg».proof.Proof.Gen.ReferenceIdeal.Launch
import proofs.«138577_g2000503492652488_pallasbulk_942_42_alg».proof.Proof.Gen.ReferenceIdeal.Points
import proofs.«138577_g2000503492652488_pallasbulk_942_42_alg».proof.Proof.Gen.ReferenceIdeal.Frame
import proofs.«138577_g2000503492652488_pallasbulk_942_42_alg».proof.Proof.Gen.Pre_finite_inputs
import proofs.«138577_g2000503492652488_pallasbulk_942_42_alg».proof.Proof.KernelBody
import proofs.«138577_g2000503492652488_pallasbulk_942_42_alg».proof.Proof.KernelIdealBody
import proofs.«138577_g2000503492652488_pallasbulk_942_42_alg».proof.Proof.Algebraic
import Idealize.ShloMosaic.Adequacy
import Idealize.ShloMosaic.Init

noncomputable section

namespace Cert.Proof

open Idealize.ShloMosaic Idealize.SL.Sem

/-- The single-launch program, word level: it runs and leaves its arguments unchanged. -/
theorem frame_k : Cert.frame_Kernel := fun m ρ _ => Cert.Kernel.Net.frame m ρ
/-- The same program on the extended reals. -/
theorem frame_ki : Cert.frame_KernelIdeal := fun m ρ _ => Cert.KernelIdeal.Net.frame m ρ
/-- The two-launch program on the extended reals. -/
theorem frame_ri : Cert.frame_ReferenceIdeal := fun m ρ _ => Cert.ReferenceIdeal.Gen.frame m ρ
/-- Nothing was rewritten when the single-launch program was read on the extended reals. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Net.algebraic⟩

end Cert.Proof

end
